-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_10" .f32 0x3DCCCCCD#32 ((1 / 10 : ℝ) : EReal)
  ∧ IdealRules.named_const.Statement Cert.KernelIdeal.κ "neg_big" .f32 0xFF333332#32 ⊥
  ∧ IdealRules.named_const.Statement Cert.KernelIdeal.κ "inv_10" .f32 0x3DCCCCCD#32 ((1 / 10 : ℝ) : EReal)
  ∧ IdealRules.named_const.Statement Cert.KernelIdeal.κ "neg_big" .f32 0xFF333332#32 ⊥
  ∧ IdealRules.named_const.Statement Cert.KernelIdeal.κ "inv_10" .f32 0x3DCCCCCD#32 ((1 / 10 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x768 : Shape := ⟨2, ![6144, 768]⟩
abbrev S6144x6144 : Shape := ⟨2, ![6144, 6144]⟩
abbrev S768x768 : Shape := ⟨2, ![768, 768]⟩
abbrev S768 : Shape := ⟨1, ![768]⟩
abbrev S_ : Shape := ⟨0, ![]⟩
abbrev S6144 : Shape := ⟨1, ![6144]⟩

class Facts : Prop where
  bcast_S_S6144x768 : S_.BroadcastsInDim S6144x768 (![] : Fin 0 → Fin S6144x768.rank)
  reducesTo_S6144x768_S_d0_1 : S6144x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S6144x6144 : S_.BroadcastsInDim S6144x6144 (![] : Fin 0 → Fin S6144x6144.rank)
  reducesTo_S6144x6144_S6144_d1 : S6144x6144.ReducesTo [1] S6144
  reducesTo_S6144_S_d0 : S6144.ReducesTo [0] S_

variable [Facts]

def fn_part2 {F : FTy → Type} [FloatOps F] (main_arg1 : IVec S6144x6144 32) (main_v33 : IVec S_ 1) : IVec S_ 1 :=
  let main_c_12 : IVec S_ 32 := constantI S_ 32 0#32
  let main_v34 : IVec S6144x6144 32 := broadcastInDim S6144x6144 ![] bcast_S_S6144x6144 main_c_12
  let main_v35 : IVec S6144x6144 1 := cmpi .ne main_arg1 main_v34
  let main_c_13 : IVec S_ 1 := constantI S_ 1 0#1
  let main_v36 : IVec S6144 1 := (fun x v => Host.reduce IntOp.ori x v reducesTo_S6144x6144_S6144_d1 h_S_) main_v35 main_c_13
  let main_c_14 : IVec S_ 1 := constantI S_ 1 1#1
  let main_v37 : IVec S_ 1 := (fun x v => Host.reduce IntOp.andi x v reducesTo_S6144_S_d0 h_S_) main_v36 main_c_14
  let main_v38 : IVec S_ 1 := andi main_v33 main_v37
  main_v38

def fn_part1 {F : FTy → Type} [FloatOps F] (main_arg1 : IVec S6144x6144 32) (main_arg5 : FVec F S768 .f32) (main_arg6 : FVec F S768x768 .f32) (main_arg7 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg6
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg1 main_v33

def fn {F : FTy → Type} [FloatOps F] (main_arg0 : FVec F S6144x768 .f32) (main_arg1 : IVec S6144x6144 32) (main_arg2 : FVec F S768x768 .f32) (main_arg3 : FVec F S768 .f32) (main_arg4 : FVec F S768x768 .f32) (main_arg5 : FVec F S768 .f32) (main_arg6 : FVec F S768x768 .f32) (main_arg7 : FVec F S768 .f32) : IVec S_ 1 :=
  let main_v0 : FVec F S6144x768 .f32 := Host.absf main_arg0
  let main_cst : FVec F S_ .f32 := constant S_ .f32 0x7F800000#32
  let main_v1 : FVec F S6144x768 .f32 := broadcastInDim S6144x768 ![] bcast_S_S6144x768 main_cst
  let main_v2 : IVec S6144x768 1 := cmpf .olt main_v0 main_v1
  let main_c : IVec S_ 1 := constantI S_ 1 1#1
  let main_v3 : IVec S_ 1 := (fun x v => Host.reduce IntOp.andi x v reducesTo_S6144x768_S_d0_1 h_S_) main_v2 main_c
  let main_v4 : FVec F S768x768 .f32 := Host.absf main_arg2
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg1 main_arg5 main_arg6 main_arg7 main_v13 main_v16
-- ==== Kernel.lean ====
abbrev S6144x768 : Shape := ⟨2, ![6144, 768]⟩
abbrev S6144x6144 : Shape := ⟨2, ![6144, 6144]⟩
abbrev S768x768 : Shape := ⟨2, ![768, 768]⟩
abbrev S768 : Shape := ⟨1, ![768]⟩
abbrev S1x768 : Shape := ⟨2, ![1, 768]⟩
abbrev S512x768 : Shape := ⟨2, ![512, 768]⟩
abbrev S512x1024 : Shape := ⟨2, ![512, 1024]⟩
abbrev S512x3 : Shape := ⟨2, ![512, 3]⟩
abbrev S1024x768 : Shape := ⟨2, ![1024, 768]⟩
abbrev S512x256 : Shape := ⟨2, ![512, 256]⟩
abbrev S1024x256 : Shape := ⟨2, ![1024, 256]⟩
abbrev S256x1024 : Shape := ⟨2, ![256, 1024]⟩
abbrev S512x1 : Shape := ⟨2, ![512, 1]⟩
abbrev S512 : Shape := ⟨1, ![512]⟩

abbrev nBuf : Space → Nat
  | .hbm => 20
  | .vmem => 25
  | .smem => 0
  | _ => 0

abbrev bufTy : (tb : Table) → Fin (tcTables nBuf tb) → BufTy
  | .hbm, ⟨0, _⟩ => ⟨S6144x768, .f32⟩
  | .hbm, ⟨1, _⟩ => ⟨S6144x6144, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768x768, .bf16⟩
  | .hbm, ⟨10, _⟩ => ⟨S768x768, .f32⟩
  | .hbm, ⟨11, _⟩ => ⟨S768x768, .bf16⟩
  | .hbm, ⟨12, _⟩ => ⟨S768x768, .f32⟩
  | .hbm, ⟨13, _⟩ => ⟨S768x768, .bf16⟩
  | .hbm, ⟨14, _⟩ => ⟨S1x768, .f32⟩
  | .hbm, ⟨15, _⟩ => ⟨S1x768, .f32⟩
  | .hbm, ⟨16, _⟩ => ⟨S1x768, .f32⟩
  | .hbm, ⟨17, _⟩ => ⟨S6144x768, .bf16⟩
  | .hbm, ⟨18, _⟩ => ⟨S6144x768, .bf16⟩
  | .hbm, ⟨19, _⟩ => ⟨S6144x768, .f32⟩
  | .local _ .vmem, ⟨0, _⟩ => ⟨S512x768, .f32⟩
  | .local _ .vmem, ⟨1, _⟩ => ⟨S512x768, .f32⟩
  | .local _ .vmem, ⟨2, _⟩ => ⟨S768x768, .bf16⟩
  | .local _ .vmem, ⟨3, _⟩ => ⟨S1x768, .f32⟩
  | .local _ .vmem, ⟨4, _⟩ => ⟨S768x768, .bf16⟩
  | .local _ .vmem, ⟨5, _⟩ => ⟨S1x768, .f32⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S6144x768, .bf16⟩
  | .local _ .vmem, ⟨13, _⟩ => ⟨S512x768, .f32⟩
  | .local _ .vmem, ⟨14, _⟩ => ⟨S512x768, .f32⟩
  | .local _ .vmem, ⟨15, _⟩ => ⟨S512x1024, .i32⟩
  | .local _ .vmem, ⟨16, _⟩ => ⟨S512x1024, .i32⟩
  | .local _ .vmem, ⟨17, _⟩ => ⟨S768x768, .bf16⟩
  | .local _ .vmem, ⟨18, _⟩ => ⟨S1x768, .f32⟩
  | .local _ .vmem, ⟨19, _⟩ => ⟨S512x768, .f32⟩
  | .local _ .vmem, ⟨20, _⟩ => ⟨S512x768, .f32⟩
  | .local _ .vmem, ⟨21, _⟩ => ⟨S512x3, .f32⟩
  | .local _ .vmem, ⟨22, _⟩ => ⟨S512x3, .f32⟩
  | .local _ .vmem, ⟨23, _⟩ => ⟨S512x768, .f32⟩
  | .local _ .vmem, ⟨24, _⟩ => ⟨S512x768, .f32⟩
  | _, _ => ⟨S6144x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![12, 6], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c5_i32 : BitVec 32 := 5#32
  let v127 : BitVec 1 := Scalar.cmpi .eq arg1 c5_i32
  let v128 : BitVec 32 := Scalar.extui v127
  let c0_i32_43 : BitVec 32 := 0#32
  let v129 : BitVec 1 := Scalar.cmpi .ne v128 c0_i32_43
  v129

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S6144x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S768x768 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  transposes_S768x768_S768x768_1_0 : S768x768.Transposes [1, 0] S768x768
  bitsLt_bf16_f32 : FTy.bits .bf16 < FTy.bits .f32
  shapeCasts_S768_S1x768 : S768.ShapeCasts S1x768
  inb_S512x768_S512x768_0_0 : ∀ a, (![0, 0] : Fin 2 → Nat) a + S512x768.size a ≤ S512x768.size a
  h_S512x768 : 0 < S512x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  packedbf16_S512x768_S512x768_0_0 : (Rect.unit (s := S512x768) ![0, 0] S512x768.size inb_S512x768_S512x768_0_0).PackedRows (EltTy.packing .bf16)
  inb_S512x3_S512x3_0_0 : ∀ a, (![0, 0] : Fin 2 → Nat) a + S512x3.size a ≤ S512x3.size a
  h_S512x3 : 0 < S512x3.numel
  shapeCasts_S512x3_S512x3 : S512x3.ShapeCasts S512x3
  shapeCasts_S512x768_S512x768 : S512x768.ShapeCasts S512x768
  h_S1024x768 : 0 < S1024x768.numel
  shapeCasts_S1024x768_S1024x768 : S1024x768.ShapeCasts S1024x768
  inb_S512x1024_S512x1024_0_0 : ∀ a, (![0, 0] : Fin 2 → Nat) a + S512x1024.size a ≤ S512x1024.size a
  h_S512x1024 : 0 < S512x1024.numel
  slices_S512x768_o0_0_S512x256 : S512x768.Slices ![0, 0] S512x256
  slices_S1024x768_o0_0_S1024x256 : S1024x768.Slices ![0, 0] S1024x256
  transposes_S1024x256_p1_0_S256x1024 : S1024x256.Transposes [1, 0] S256x1024
  slices_S512x3_o0_0_S512x1 : S512x3.Slices ![0, 0] S512x1
  reduces_S512x1024_S512 : S512x1024.Reduces [1] S512
  shapeCasts_S512_S512x1 : S512.ShapeCasts S512x1
  broadcasts_S512x1_S512x1024 : S512x1.Broadcasts S512x1024
  broadcasts_S512x1_S512x256 : S512x1.Broadcasts S512x256
  inb_S512x3_S512x1_0_0 : ∀ a, (![0, 0] : Fin 2 → Nat) a + S512x1.size a ≤ S512x3.size a
  h_S512x1 : 0 < S512x1.numel
  shapeCasts_S512x1_S512x1 : S512x1.ShapeCasts S512x1
  inb_S512x768_S512x256_0_0 : ∀ a, (![0, 0] : Fin 2 → Nat) a + S512x256.size a ≤ S512x768.size a
  h_S512x256 : 0 < S512x256.numel
  shapeCasts_S512x256_S512x256 : S512x256.ShapeCasts S512x256
  slices_S512x768_o0_256_S512x256 : S512x768.Slices ![0, 256] S512x256
  slices_S1024x768_o0_256_S1024x256 : S1024x768.Slices ![0, 256] S1024x256
  slices_S512x3_o0_1_S512x1 : S512x3.Slices ![0, 1] S512x1
  inb_S512x3_S512x1_0_1 : ∀ a, (![0, 1] : Fin 2 → Nat) a + S512x1.size a ≤ S512x3.size a
  inb_S512x768_S512x256_0_256 : ∀ a, (![0, 256] : Fin 2 → Nat) a + S512x256.size a ≤ S512x768.size a
  slices_S512x768_o0_512_S512x256 : S512x768.Slices ![0, 512] S512x256
  slices_S1024x768_o0_512_S1024x256 : S1024x768.Slices ![0, 512] S1024x256
  slices_S512x3_o0_2_S512x1 : S512x3.Slices ![0, 2] S512x1
  inb_S512x3_S512x1_0_2 : ∀ a, (![0, 2] : Fin 2 → Nat) a + S512x1.size a ≤ S512x3.size a
  inb_S512x768_S512x256_0_512 : ∀ a, (![0, 512] : Fin 2 → Nat) a + S512x256.size a ≤ S512x768.size a
  dot_S512x768_S768x768_S512x768_1_0_0_1_n_n_wf : DotDims.WF S512x768 S768x768 S512x768 [1] [0] [0] [1] [] []
  dot_S512x256_S256x1024_S512x1024_1_0_0_1_n_n_wf : DotDims.WF S512x256 S256x1024 S512x1024 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S6144x768.size a
  hwx0_0 : ∀ i : grid0.Coords, EltTy.bits .f32 = 32 ∨ (Rect.block (s := S6144x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x768.size a ≤ S6144x768.size a
  hwx0_5 : ∀ i : grid0.Coords, EltTy.bits .bf16 = 32 ∨ (Rect.block (s := S6144x768) S512x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S6144x768.size a
  hwx0_6 : ∀ i : grid0.Coords, EltTy.bits .bf16 = 32 ∨ (Rect.block (s := S6144x768) S512x768.size (cc0_transform_6 i) (hinb0_6 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x768.size a ≤ S6144x768.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S6144x768.size a
  hwx1_0 : ∀ i : grid1.Coords, EltTy.bits .bf16 = 32 ∨ (Rect.block (s := S6144x768) S512x768.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6144x768.size a ≤ S6144x768.size a
  hwx1_1 : ∀ i : grid1.Coords, EltTy.bits .bf16 = 32 ∨ (Rect.block (s := S6144x768) S6144x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x768.size a ≤ S6144x768.size a
  hwx1_2 : ∀ i : grid1.Coords, EltTy.bits .f32 = 32 ∨ (Rect.block (s := S6144x768) S512x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S6144x6144.size a
  hwx1_3 : ∀ i : grid1.Coords, EltTy.bits .i32 = 32 ∨ (Rect.block (s := S6144x6144) S512x1024.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768x768.size a ≤ S768x768.size a
  hwx1_4 : ∀ i : grid1.Coords, EltTy.bits .bf16 = 32 ∨ (Rect.block (s := S768x768) S768x768.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x768.size a ≤ S6144x768.size a
  hwx1_6 : ∀ i : grid1.Coords, EltTy.bits .f32 = 32 ∨ (Rect.block (s := S6144x768) S512x768.size (cc1_transform_6 i) (hinb1_6 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S512x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9_1) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_0) S6144x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S768x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S512x768.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S6144x768 : Shape := ⟨2, ![6144, 768]⟩
abbrev S6144x6144 : Shape := ⟨2, ![6144, 6144]⟩
abbrev S768x768 : Shape := ⟨2, ![768, 768]⟩
abbrev S768 : Shape := ⟨1, ![768]⟩
abbrev S1x768 : Shape := ⟨2, ![1, 768]⟩
abbrev S_ : Shape := ⟨0, ![]⟩
abbrev S6144x3x256 : Shape := ⟨3, ![6144, 3, 256]⟩
abbrev S3x6144x256 : Shape := ⟨3, ![3, 6144, 256]⟩
abbrev S3x6144x6144 : Shape := ⟨3, ![3, 6144, 6144]⟩
abbrev S1x6144x6144 : Shape := ⟨3, ![1, 6144, 6144]⟩
abbrev S3x6144 : Shape := ⟨2, ![3, 6144]⟩
abbrev S3x6144x1 : Shape := ⟨3, ![3, 6144, 1]⟩

abbrev nBuf : Space → Nat
  | .hbm => 80
  | .vmem => 0
  | .smem => 0
  | _ => 0

abbrev bufTy : (tb : Table) → Fin (tcTables nBuf tb) → BufTy
  | .hbm, ⟨0, _⟩ => ⟨S6144x768, .f32⟩
  | .hbm, ⟨1, _⟩ => ⟨S6144x6144, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S6144x768, .f32⟩
  | .hbm, ⟨10, _⟩ => ⟨S1x768, .f32⟩
  | .hbm, ⟨11, _⟩ => ⟨S6144x768, .f32⟩
  | .hbm, ⟨12, _⟩ => ⟨S6144x768, .f32⟩
  | .hbm, ⟨13, _⟩ => ⟨S_, .f32⟩
  | .hbm, ⟨14, _⟩ => ⟨S6144x768, .f32⟩
  | .hbm, ⟨15, _⟩ => ⟨S6144x768, .i1⟩
  | .hbm, ⟨16, _⟩ => ⟨S_, .f32⟩
  | .hbm, ⟨17, _⟩ => ⟨S6144x768, .f32⟩
  | .hbm, ⟨18, _⟩ => ⟨S6144x768, .f32⟩
  | .hbm, ⟨19, _⟩ => ⟨S6144x768, .f32⟩
  | .hbm, ⟨20, _⟩ => ⟨S768x768, .f32⟩
  | .hbm, ⟨21, _⟩ => ⟨S6144x768, .f32⟩
  | .hbm, ⟨22, _⟩ => ⟨S1x768, .f32⟩
  | .hbm, ⟨23, _⟩ => ⟨S6144x768, .f32⟩
  | .hbm, ⟨24, _⟩ => ⟨S6144x768, .f32⟩
  | .hbm, ⟨25, _⟩ => ⟨S_, .f32⟩
  | .hbm, ⟨26, _⟩ => ⟨S6144x768, .f32⟩
  | .hbm, ⟨27, _⟩ => ⟨S6144x768, .i1⟩
  | .hbm, ⟨28, _⟩ => ⟨S_, .f32⟩
  | .hbm, ⟨29, _⟩ => ⟨S6144x768, .f32⟩
  | .hbm, ⟨30, _⟩ => ⟨S6144x768, .f32⟩
  | .hbm, ⟨31, _⟩ => ⟨S6144x768, .f32⟩
  | .hbm, ⟨32, _⟩ => ⟨S6144x3x256, .f32⟩
  | .hbm, ⟨33, _⟩ => ⟨S3x6144x256, .f32⟩
  | .hbm, ⟨34, _⟩ => ⟨S6144x3x256, .f32⟩
  | .hbm, ⟨35, _⟩ => ⟨S3x6144x256, .f32⟩
  | .hbm, ⟨36, _⟩ => ⟨S3x6144x6144, .f32⟩
  | .hbm, ⟨37, _⟩ => ⟨S_, .f32⟩
  | .hbm, ⟨38, _⟩ => ⟨S3x6144x6144, .f32⟩
  | .hbm, ⟨39, _⟩ => ⟨S3x6144x6144, .f32⟩
  | .hbm, ⟨40, _⟩ => ⟨S_, .i32⟩
  | .hbm, ⟨41, _⟩ => ⟨S6144x6144, .i32⟩
  | .hbm, ⟨42, _⟩ => ⟨S6144x6144, .i1⟩
  | .hbm, ⟨43, _⟩ => ⟨S1x6144x6144, .i1⟩
  | .hbm, ⟨44, _⟩ => ⟨S_, .f32⟩
  | .hbm, ⟨45, _⟩ => ⟨S_, .f32⟩
  | .hbm, ⟨46, _⟩ => ⟨S3x6144x6144, .i1⟩
  | .hbm, ⟨47, _⟩ => ⟨S3x6144x6144, .f32⟩
  | .hbm, ⟨48, _⟩ => ⟨S3x6144x6144, .f32⟩
  | .hbm, ⟨49, _⟩ => ⟨S_, .f32⟩
  | .hbm, ⟨50, _⟩ => ⟨S3x6144, .f32⟩
  | .hbm, ⟨51, _⟩ => ⟨S_, .f32⟩
  | .hbm, ⟨52, _⟩ => ⟨S3x6144, .f32⟩
  | .hbm, ⟨53, _⟩ => ⟨S3x6144, .f32⟩
  | .hbm, ⟨54, _⟩ => ⟨S3x6144x1, .f32⟩
  | .hbm, ⟨55, _⟩ => ⟨S3x6144x6144, .f32⟩
  | .hbm, ⟨56, _⟩ => ⟨S3x6144x6144, .f32⟩
  | .hbm, ⟨57, _⟩ => ⟨S3x6144x6144, .f32⟩
  | .hbm, ⟨58, _⟩ => ⟨S_, .f32⟩
  | .hbm, ⟨59, _⟩ => ⟨S3x6144, .f32⟩
  | .hbm, ⟨60, _⟩ => ⟨S3x6144x1, .f32⟩
  | .hbm, ⟨61, _⟩ => ⟨S3x6144x6144, .f32⟩
  | .hbm, ⟨62, _⟩ => ⟨S3x6144x6144, .f32⟩
  | .hbm, ⟨63, _⟩ => ⟨S3x6144x256, .f32⟩
  | .hbm, ⟨64, _⟩ => ⟨S6144x3x256, .f32⟩
  | .hbm, ⟨65, _⟩ => ⟨S6144x768, .f32⟩
  | .hbm, ⟨66, _⟩ => ⟨S6144x768, .f32⟩
  | .hbm, ⟨67, _⟩ => ⟨S768x768, .f32⟩
  | .hbm, ⟨68, _⟩ => ⟨S6144x768, .f32⟩
  | .hbm, ⟨69, _⟩ => ⟨S1x768, .f32⟩
  | .hbm, ⟨70, _⟩ => ⟨S6144x768, .f32⟩
  | .hbm, ⟨71, _⟩ => ⟨S6144x768, .f32⟩
  | .hbm, ⟨72, _⟩ => ⟨S_, .f32⟩
  | .hbm, ⟨73, _⟩ => ⟨S6144x768, .f32⟩
  | .hbm, ⟨74, _⟩ => ⟨S6144x768, .i1⟩
  | .hbm, ⟨75, _⟩ => ⟨S_, .f32⟩
  | .hbm, ⟨76, _⟩ => ⟨S6144x768, .f32⟩
  | .hbm, ⟨77, _⟩ => ⟨S6144x768, .f32⟩
  | .hbm, ⟨78, _⟩ => ⟨S6144x768, .f32⟩
  | .hbm, ⟨79, _⟩ => ⟨S6144x768, .f32⟩
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  transposes_S768x768_S768x768_1_0 : S768x768.Transposes [1, 0] S768x768
  bcast_S768_S1x768_1 : S768.BroadcastsInDim S1x768 (![1] : Fin 1 → Fin S1x768.rank)
  bcast_S1x768_S6144x768_0_1 : S1x768.BroadcastsInDim S6144x768 (![0, 1] : Fin 2 → Fin S6144x768.rank)
  bcast_S_S6144x768 : S_.BroadcastsInDim S6144x768 (![] : Fin 0 → Fin S6144x768.rank)
  shapeCasts_S6144x768_S6144x3x256 : S6144x768.ShapeCasts S6144x3x256
  transposes_S6144x3x256_S3x6144x256_1_0_2 : S6144x3x256.Transposes [1, 0, 2] S3x6144x256
  bcast_S_S3x6144x6144 : S_.BroadcastsInDim S3x6144x6144 (![] : Fin 0 → Fin S3x6144x6144.rank)
  bcast_S_S6144x6144 : S_.BroadcastsInDim S6144x6144 (![] : Fin 0 → Fin S6144x6144.rank)
  bcast_S6144x6144_S1x6144x6144_1_2 : S6144x6144.BroadcastsInDim S1x6144x6144 (![1, 2] : Fin 2 → Fin S1x6144x6144.rank)
  bcast_S1x6144x6144_S3x6144x6144_0_1_2 : S1x6144x6144.BroadcastsInDim S3x6144x6144 (![0, 1, 2] : Fin 3 → Fin S3x6144x6144.rank)
  reducesTo_S3x6144x6144_S3x6144_d2 : S3x6144x6144.ReducesTo [2] S3x6144
  h_S_ : 0 < S_.numel
  bcast_S_S3x6144 : S_.BroadcastsInDim S3x6144 (![] : Fin 0 → Fin S3x6144.rank)
  bcast_S3x6144_S3x6144x1_0_1 : S3x6144.BroadcastsInDim S3x6144x1 (![0, 1] : Fin 2 → Fin S3x6144x1.rank)
  bcast_S3x6144x1_S3x6144x6144_0_1_2 : S3x6144x1.BroadcastsInDim S3x6144x6144 (![0, 1, 2] : Fin 3 → Fin S3x6144x6144.rank)
  transposes_S3x6144x256_S6144x3x256_1_0_2 : S3x6144x256.Transposes [1, 0, 2] S6144x3x256
  shapeCasts_S6144x3x256_S6144x768 : S6144x3x256.ShapeCasts S6144x768
  dot_S6144x768_S768x768_S6144x768_1_0_0_1_n_n_wf : DotDims.WF S6144x768 S768x768 S6144x768 [1] [0] [0] [1] [] []
  dot_S3x6144x256_S3x6144x256_S3x6144x6144_2_2_1_1_0_0_wf : DotDims.WF S3x6144x256 S3x6144x256 S3x6144x6144 [2] [2] [1] [1] [0] [0]
  dot_S3x6144x6144_S3x6144x256_S3x6144x256_2_1_1_2_0_0_wf : DotDims.WF S3x6144x6144 S3x6144x256 S3x6144x256 [2] [1] [1] [2] [0] [0]

variable [Facts₀]

def dot_S6144x768_S768x768_S6144x768_1_0_0_1_n_n : DotDims S6144x768 S768x768 S6144x768 where
  lhsContracting := [1]
  rhsContracting := [0]
  lhsNonContracting := [0]
  rhsNonContracting := [1]
  lhsBatch := []
  rhsBatch := []
  wf := dot_S6144x768_S768x768_S6144x768_1_0_0_1_n_n_wf
def dot_S3x6144x256_S3x6144x256_S3x6144x6144_2_2_1_1_0_0 : DotDims S3x6144x256 S3x6144x256 S3x6144x6144 where
  lhsContracting := [2]
  rhsContracting := [2]
  lhsNonContracting := [1]
  rhsNonContracting := [1]
  lhsBatch := [0]
  rhsBatch := [0]
  wf := dot_S3x6144x256_S3x6144x256_S3x6144x6144_2_2_1_1_0_0_wf
def dot_S3x6144x6144_S3x6144x256_S3x6144x256_2_1_1_2_0_0 : DotDims S3x6144x6144 S3x6144x256 S3x6144x256 where
  lhsContracting := [2]
  rhsContracting := [1]
  lhsNonContracting := [1]
  rhsNonContracting := [2]
  lhsBatch := [0]
  rhsBatch := [0]
  wf := dot_S3x6144x6144_S3x6144x256_S3x6144x256_2_1_1_2_0_0_wf

class Facts : Prop extends Facts₀ where

variable [Facts]
-- ==== Proof.Ledger.lean ====
/-
  Two of the five conjuncts that need no mathematics of the attention itself.

  * The six ledger entries. The kernel's body spells, once per head, the score scale `0.1` and the mask fill
    `-0.7 · (largest finite f32)`. The table `κ` reads the first as the rational `1/10` — the reference divides the
    scores by the exact `10` — and the second as `-∞` — the reference fills masked scores with `-∞` itself. Each
    entry says that the named constant denotes, on the extended reals, the value the table gives it.
  * The reference terminates, faults nowhere and leaves its arguments as it found them: its run read back as one
    composed term has that as the second half of its postcondition.
-/
import proofs.«181948_j79242146611549_2_alg».proof.Defs
import proofs.«181948_j79242146611549_2_alg».proof.Proof.Gen.ReferenceIdeal.Run

noncomputable section

open Idealize.ShloMosaic Idealize.SL.Sem

namespace Cert.Proof.Ledger

/-- The score scale `f32(0.1)` is read as the rational `1/10`. -/
theorem inv_10 : IdealRules.named_const.Statement Cert.KernelIdeal.κ "inv_10" .f32 0x3DCCCCCD#32 ((1 / 10 : ℝ) : EReal) :=
  IdealRules.named_const.statement Cert.KernelIdeal.κ "inv_10" .f32 0x3DCCCCCD#32 ((1 / 10 : ℝ) : EReal) rfl

/-- The finite mask fill is read as `-∞`, the bottom of the extended reals. -/
theorem neg_big : IdealRules.named_const.Statement Cert.KernelIdeal.κ "neg_big" .f32 0xFF333332#32 ⊥ :=
  IdealRules.named_const.statement Cert.KernelIdeal.κ "neg_big" .f32 0xFF333332#32 ⊥ rfl

/-- One pair of entries per head, three heads. -/
theorem preserves : Cert.preserves_Kernel_KernelIdeal :=
  ⟨inv_10, neg_big, inv_10, neg_big, inv_10, neg_big⟩

/-- The reference's frame: its run with the result dropped. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.Ledger

end
-- ==== Proof.BitsRegion0.lean ====
/-
  The projection region: 12 grid points, one per tile of 512 query rows. Its body loads the tile of x, the two weight
  matrices and the two biases whole, and stores two blocks whole: x_new = lrelu(x · W_fcᵀ + b_fc) and
  q = lrelu(x_new · W_qfcᵀ + b_qfc) for the tile's rows. Nothing is kept between points, so what each output block
  holds after the body is one store's value, a pure function of the five input blocks; stated at a parameter V, the
  buffers' contents when the region is entered.
-/
import proofs.«181948_j79242146611549_2_alg».proof.Proof.Gen.Kernel.Launch
import proofs.«181948_j79242146611549_2_alg».proof.Proof.Gen.Kernel.Skeleton
import proofs.«181948_j79242146611549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one a whole buffer -/

abbrev rA : Rect S512x768 := Rect.unit (s := S512x768) ![0, 0] S512x768.size inb_S512x768_S512x768_0_0
abbrev rW : Rect S768x768 := Rect.unit (s := S768x768) ![0, 0] S768x768.size inb_S768x768_S768x768_0_0
abbrev rB : Rect S1x768 := Rect.unit (s := S1x768) ![0, 0] S1x768.size inb_S1x768_S1x768_0_0

/-- The x_new block after the body: its one store's value over the loads. -/
def out0_5 (x0 : Vec F S512x768 .f32) (x1 : Vec F S768x768 .bf16) (x2 : Vec F S1x768 .f32) : Vec F S512x768 .bf16 :=
  View.canon [⟨rA, k0_pay1 (View.ld x0 rA) (View.ld x1 rW) (View.ld x2 rB)⟩]
/-- The q block after the body. -/
def out0_6 (x0 : Vec F S512x768 .f32) (x1 : Vec F S768x768 .bf16) (x2 : Vec F S1x768 .f32) (x3 : Vec F S768x768 .bf16) (x4 : Vec F S1x768 .f32) : Vec F S512x768 .bf16 :=
  View.canon [⟨rA, k0_pay2 (View.ld x0 rA) (View.ld x1 rW) (View.ld x2 rB) (View.ld x3 rW) (View.ld x4 rB)⟩]

theorem cover0_O (p0 : Vec F S512x768 .bf16) (y : S512x768.Idx) :
    ∃ pc ∈ ([⟨rA, p0⟩] : List (View.Piece (Elt F) S512x768 .bf16)), y ∈ pc.1.set :=
  View.cover_of_tiled [⟨rA, p0⟩] S512x768.size (by rfl) y

set_option maxHeartbeats 4000000 in
/-- The body on whole staging memrefs, the inputs' at their contents and the outputs' at anything, runs to a
    continuation holding the inputs' as they were and each output's at its block's value. -/
theorem sound_kernel0 (c : Dev nD) (E : Set ℕ) (i : grid0.Coords) (arg1 : Memref sig .tc .vmem S512x768 .f32) (harg1 : arg1.IsWhole) (arg2 : Memref sig .tc .vmem S768x768 .bf16) (harg2 : arg2.IsWhole) (arg3 : Memref sig .tc .vmem S1x768 .f32) (harg3 : arg3.IsWhole) (arg4 : Memref sig .tc .vmem S768x768 .bf16) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .bf16) (harg7 : arg7.IsWhole)
    (x0 : Vec F S512x768 .f32) (x1 : Vec F S768x768 .bf16) (x2 : Vec F S1x768 .f32) (x3 : Vec F S768x768 .bf16) (x4 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__kernelA_body i arg1 harg1 arg2 harg2 arg3 harg3 arg4 harg4 arg5 harg5 arg6 harg6 arg7 harg7) K := by
  simp only [cc0__kernelA_body_eq_skeleton]; unfold cc0__kernelA_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_O _)
  iexists _; isplitr
  swap; · iexact H6
  ipureintro
  exact View.read_writes_eq_canon _ _ _ (cover0_O _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.BitsConds.lean ====
/-
  The attention region's grid is 12 query tiles by 6 key tiles, the key tile the fast coordinate: point t is query tile
  t / 6 and key tile t % 6. The body branches twice on the key-tile coordinate: at key tile 0 it resets the running
  maximum, denominator and weighted sum; at key tile 5 it normalises, adds the residual, applies the last layer and
  stores the output block. Both conditions are decided here over the 72 points, in closed form; with them, where the
  output window is idle (key tiles 0 to 4: nothing stored, nothing written back) and where it is live (key tile 5).
  Then the memrefs the body is called on, and the region's resting invariant opened: the ten staging buffers of the
  projection region, the four scratch buffers each whole at some contents, the generator register.
-/
import proofs.«181948_j79242146611549_2_alg».proof.Proof.Gen.Kernel.Launch
import proofs.«181948_j79242146611549_2_alg».proof.Proof.Gen.Kernel.Skeleton
import proofs.«181948_j79242146611549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the key-tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 6 = 0 :=
  (by decide +kernel : ∀ t : Fin grid1.N, cond1_0 (grid1.coords t) ↔ t.val % 6 = 0)

/-- The body's second branch: the key-tile coordinate is 5, the last. -/
abbrev cond1_1 (i : grid1.Coords) : Prop := k1_cond2 i = 1#1
theorem hcond1_1 : ∀ t : Fin cfg1.N, cond1_1 (grid1.coords t) ↔ t.val % 6 = 5 :=
  (by decide +kernel : ∀ t : Fin grid1.N, cond1_1 (grid1.coords t) ↔ t.val % 6 = 5)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At key tile 0 the output window is idle and not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- At key tiles 1 to 4 likewise. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At key tile 5 the output window is live: the body stores its block. -/
theorem liveAt1_6_C : ∀ t : Fin cfg1.N, ¬cond1_0 (grid1.coords t) → cond1_1 (grid1.coords t) → cfg1.idle 6 (grid1.coords t) = false := by decide +kernel

/-! ## The memrefs the body is called on -/

/-- One staging buffer of the output window, through which its contents are stated. -/
abbrev VO1_6 : View sig .tc .vmem S512x768 .f32 := (Memref.whole cc1_stg6_0 : Memref sig .tc .vmem S512x768 .f32).view
abbrev ms1_0 (t : Fin cfg1.N) : Memref sig .tc .vmem S512x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6144x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S768x768 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x768 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x768 .f32 := win1_6.stage (cfg1.slots t 6)
abbrev hs1_6 (t : Fin cfg1.N) : (ms1_6 t).IsWhole := hstage1_6 ((cfg1.slots t 6).cast nbuf1_6)
/-- The scratch operands: the running maximum, the running denominator, the running weighted sum, and the buffer the
    last step assembles its matrix operand in. -/
abbrev scM1_0 : Memref sig .tc .vmem S512x3 .f32 := Memref.whole cc1_scratch0
abbrev scM1_1 : Memref sig .tc .vmem S512x3 .f32 := Memref.whole cc1_scratch1
abbrev scM1_2 : Memref sig .tc .vmem S512x768 .f32 := Memref.whole cc1_scratch2
abbrev scM1_3 : Memref sig .tc .vmem S512x768 .f32 := Memref.whole cc1_scratch3
abbrev VS1_0 : View sig .tc .vmem S512x3 .f32 := scM1_0.view
abbrev VS1_1 : View sig .tc .vmem S512x3 .f32 := scM1_1.view
abbrev VS1_2 : View sig .tc .vmem S512x768 .f32 := scM1_2.view

/-- The projection region's staging buffers, which this region never touches: each whole at some contents. -/
def stgRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region's resting invariant, opened. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ (∃ d, owns (c : Thread nD τ) scM1_0 fullShare d) ∗ (∃ d, owns (c : Thread nD τ) scM1_1 fullShare d)
        ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Frame

end
-- ==== Proof.BitsRunA.lean ====
/-
  The attention body at key tile 0. It first resets the three running quantities (maximum to -∞, denominator and
  weighted sum to 0), storing each buffer whole, then takes this tile's step of the online softmax for the three heads,
  storing the new maximum, denominator and weighted sum head by head. The output block is not touched. What the three
  buffers end with is recorded as the list of pieces written, found when the run hands the buffers back.
-/
import proofs.«181948_j79242146611549_2_alg».proof.Proof.BitsConds

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body leaves in the output block and in the three running buffers in this case, with the proof
    that on whole memrefs at the stated contents the body runs to a continuation holding every input as it was and
    those pieces written. -/
noncomputable def kernelRun1_A (c : Dev nD) (i : grid1.Coords) (arg2 : Memref sig .tc .vmem S512x768 .bf16) (harg2 : arg2.IsWhole) (arg3 : Memref sig .tc .vmem S6144x768 .bf16) (harg3 : arg3.IsWhole) (arg4 : Memref sig .tc .vmem S512x768 .f32) (harg4 : arg4.IsWhole) (arg5 : Memref sig .tc .vmem S512x1024 .i32) (harg5 : arg5.IsWhole) (arg6 : Memref sig .tc .vmem S768x768 .bf16) (harg6 : arg6.IsWhole) (arg7 : Memref sig .tc .vmem S1x768 .f32) (harg7 : arg7.IsWhole) (arg8 : Memref sig .tc .vmem S512x768 .f32) (harg8 : arg8.IsWhole) (arg9 : Memref sig .tc .vmem S512x3 .f32) (harg9 : arg9.IsWhole) (arg10 : Memref sig .tc .vmem S512x3 .f32) (harg10 : arg10.IsWhole) (arg11 : Memref sig .tc .vmem S512x768 .f32) (harg11 : arg11.IsWhole) (arg12 : Memref sig .tc .vmem S512x768 .f32) (harg12 : arg12.IsWhole) (hc0 : cond1_0 i) (hc1 : ¬cond1_1 i)
    (x0 : Vec F S512x768 .bf16) (x1 : Vec F S6144x768 .bf16) (x2 : Vec F S512x768 .f32) (x3 : Vec F S512x1024 .i32) (x4 : Vec F S768x768 .bf16) (x5 : Vec F S1x768 .f32) :
    Σ' (L6 : List (View.Piece (Elt F) S512x768 .f32)) (LS0 : List (View.Piece (Elt F) S512x3 .f32)) (LS1 : List (View.Piece (Elt F) S512x3 .f32)), { LS2 : List (View.Piece (Elt F) S512x768 .f32) //
      ∀ (xi6 : Vec F S512x768 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ d, owns (c : Thread nD τ) arg12 fullShare d)) -∗ K ⟨⟩))
          ⊢ wp frame (wpE (defs₀ (F := F)) Variants.none c none) E (cc1_body i arg2 harg2 arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1_body_eq_skeleton]; unfold cc1_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexists _; isplitr
    swap; · iexact HS3
    ipureintro; rfl

end Cert.Kernel.Frame

end
-- ==== Proof.BitsRunB.lean ====
/-
  The attention body at key tiles 1 to 4: one step of the online softmax for the three heads from the running
  quantities the tile before left, storing the new maximum, denominator and weighted sum head by head. The output block
  is not touched. What the three buffers end with is recorded as the list of pieces written.
-/
import proofs.«181948_j79242146611549_2_alg».proof.Proof.BitsConds

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body leaves in the output block and in the three running buffers in this case, with the proof
    that on whole memrefs at the stated contents the body runs to a continuation holding every input as it was and
    those pieces written. -/
noncomputable def kernelRun1_B (c : Dev nD) (i : grid1.Coords) (arg2 : Memref sig .tc .vmem S512x768 .bf16) (harg2 : arg2.IsWhole) (arg3 : Memref sig .tc .vmem S6144x768 .bf16) (harg3 : arg3.IsWhole) (arg4 : Memref sig .tc .vmem S512x768 .f32) (harg4 : arg4.IsWhole) (arg5 : Memref sig .tc .vmem S512x1024 .i32) (harg5 : arg5.IsWhole) (arg6 : Memref sig .tc .vmem S768x768 .bf16) (harg6 : arg6.IsWhole) (arg7 : Memref sig .tc .vmem S1x768 .f32) (harg7 : arg7.IsWhole) (arg8 : Memref sig .tc .vmem S512x768 .f32) (harg8 : arg8.IsWhole) (arg9 : Memref sig .tc .vmem S512x3 .f32) (harg9 : arg9.IsWhole) (arg10 : Memref sig .tc .vmem S512x3 .f32) (harg10 : arg10.IsWhole) (arg11 : Memref sig .tc .vmem S512x768 .f32) (harg11 : arg11.IsWhole) (arg12 : Memref sig .tc .vmem S512x768 .f32) (harg12 : arg12.IsWhole) (hc0 : ¬cond1_0 i) (hc1 : ¬cond1_1 i)
    (x0 : Vec F S512x768 .bf16) (x1 : Vec F S6144x768 .bf16) (x2 : Vec F S512x768 .f32) (x3 : Vec F S512x1024 .i32) (x4 : Vec F S768x768 .bf16) (x5 : Vec F S1x768 .f32) (xs0 xs1 : Vec F S512x3 .f32) (xs2 : Vec F S512x768 .f32) :
    Σ' (L6 : List (View.Piece (Elt F) S512x768 .f32)) (LS0 : List (View.Piece (Elt F) S512x3 .f32)) (LS1 : List (View.Piece (Elt F) S512x3 .f32)), { LS2 : List (View.Piece (Elt F) S512x768 .f32) //
      ∀ (xi6 : Vec F S512x768 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xs0
            ∗ owns (c : Thread nD τ) arg10 fullShare xs1
            ∗ owns (c : Thread nD τ) arg11 fullShare xs2
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ d, owns (c : Thread nD τ) arg12 fullShare d)) -∗ K ⟨⟩))
          ⊢ wp frame (wpE (defs₀ (F := F)) Variants.none c none) E (cc1_body i arg2 harg2 arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1_body_eq_skeleton]; unfold cc1_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexists _; isplitr
    swap; · iexact HS3
    ipureintro; rfl

end Cert.Kernel.Frame

end
-- ==== Proof.BitsRunC.lean ====
/-
  The attention body at key tile 5, the last: the online-softmax step as at the other tiles, then the finish - the
  weighted sum divided by the denominator head by head and added to the query rows of x, assembled in the fourth scratch
  buffer; that matrix times the last layer's weights, plus its bias, through the leaky rectifier, plus x again; stored as
  the output block whole. The pieces written to the output block and to the three running buffers are recorded.
-/
import proofs.«181948_j79242146611549_2_alg».proof.Proof.BitsConds

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body leaves in the output block and in the three running buffers in this case, with the proof
    that on whole memrefs at the stated contents the body runs to a continuation holding every input as it was and
    those pieces written. -/
noncomputable def kernelRun1_C (c : Dev nD) (i : grid1.Coords) (arg2 : Memref sig .tc .vmem S512x768 .bf16) (harg2 : arg2.IsWhole) (arg3 : Memref sig .tc .vmem S6144x768 .bf16) (harg3 : arg3.IsWhole) (arg4 : Memref sig .tc .vmem S512x768 .f32) (harg4 : arg4.IsWhole) (arg5 : Memref sig .tc .vmem S512x1024 .i32) (harg5 : arg5.IsWhole) (arg6 : Memref sig .tc .vmem S768x768 .bf16) (harg6 : arg6.IsWhole) (arg7 : Memref sig .tc .vmem S1x768 .f32) (harg7 : arg7.IsWhole) (arg8 : Memref sig .tc .vmem S512x768 .f32) (harg8 : arg8.IsWhole) (arg9 : Memref sig .tc .vmem S512x3 .f32) (harg9 : arg9.IsWhole) (arg10 : Memref sig .tc .vmem S512x3 .f32) (harg10 : arg10.IsWhole) (arg11 : Memref sig .tc .vmem S512x768 .f32) (harg11 : arg11.IsWhole) (arg12 : Memref sig .tc .vmem S512x768 .f32) (harg12 : arg12.IsWhole) (hc0 : ¬cond1_0 i) (hc1 : cond1_1 i)
    (x0 : Vec F S512x768 .bf16) (x1 : Vec F S6144x768 .bf16) (x2 : Vec F S512x768 .f32) (x3 : Vec F S512x1024 .i32) (x4 : Vec F S768x768 .bf16) (x5 : Vec F S1x768 .f32) (xs0 xs1 : Vec F S512x3 .f32) (xs2 : Vec F S512x768 .f32) :
    Σ' (L6 : List (View.Piece (Elt F) S512x768 .f32)) (LS0 : List (View.Piece (Elt F) S512x3 .f32)) (LS1 : List (View.Piece (Elt F) S512x3 .f32)), { LS2 : List (View.Piece (Elt F) S512x768 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ owns (c : Thread nD τ) arg9 fullShare xs0
            ∗ owns (c : Thread nD τ) arg10 fullShare xs1
            ∗ owns (c : Thread nD τ) arg11 fullShare xs2
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ d, owns (c : Thread nD τ) arg12 fullShare d)) -∗ K ⟨⟩))
          ⊢ wp frame (wpE (defs₀ (F := F)) Variants.none c none) E (cc1_body i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1_body_eq_skeleton]; unfold cc1_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    iexists _; iexists _; isplitr
    swap; · iexact HS3
    ipureintro; rfl

end Cert.Kernel.Frame

end
-- ==== Proof.BitsRegion1.lean ====
/-
  The attention region over its 72 points. For each of the three cases of the key-tile coordinate, what the body leaves
  in the output block and in the three running buffers (maximum, denominator, weighted sum) is its recorded pieces read
  back; the pieces tile each buffer. By recursion on the point, the four buffers after every point: key tile 0 starts
  afresh, key tiles 1 to 5 continue from what the point before left. The region's invariant carries the three running
  buffers at exactly those contents from one point to the next; the proof data describe every window's block after the
  body; and the body meets its obligation at every point, by the case the coordinate selects.
-/
import proofs.«181948_j79242146611549_2_alg».proof.Proof.BitsRunA
import proofs.«181948_j79242146611549_2_alg».proof.Proof.BitsRunB
import proofs.«181948_j79242146611549_2_alg».proof.Proof.BitsRunC

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The body's run at point t in case A: the pieces it writes, and the triple. -/
def runA (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) (iblk1 V c 5 t)

/-- Case A's pieces for running buffer 0 tile it, so they cover it. -/
theorem scoverA_0 (c : Dev nD) (t : Fin cfg1.N) (hc0 : cond1_0 (grid1.coords t)) (hc1 : ¬cond1_1 (grid1.coords t)) (y : S512x3.Idx) :
    ∃ pc ∈ (runA V c t hc0 hc1).2.1, y ∈ pc.1.set :=
  View.cover_of_tiledL (runA V c t hc0 hc1).2.1 S512x3.size (by sl_kernel_rfl) y
/-- What case A leaves in running buffer 0: its pieces read back. -/
def soutA_0 (c : Dev nD) (t : Fin cfg1.N) (hc0 : cond1_0 (grid1.coords t)) (hc1 : ¬cond1_1 (grid1.coords t)) : Vec F S512x3 .f32 :=
  VS1_0.read (Elt F) (VS1_0.writes (Elt F) VS1_0.junk (runA V c t hc0 hc1).2.1)
/-- Case A's pieces for running buffer 1 tile it, so they cover it. -/
theorem scoverA_1 (c : Dev nD) (t : Fin cfg1.N) (hc0 : cond1_0 (grid1.coords t)) (hc1 : ¬cond1_1 (grid1.coords t)) (y : S512x3.Idx) :
    ∃ pc ∈ (runA V c t hc0 hc1).2.2.1, y ∈ pc.1.set :=
  View.cover_of_tiledL (runA V c t hc0 hc1).2.2.1 S512x3.size (by sl_kernel_rfl) y
/-- What case A leaves in running buffer 1: its pieces read back. -/
def soutA_1 (c : Dev nD) (t : Fin cfg1.N) (hc0 : cond1_0 (grid1.coords t)) (hc1 : ¬cond1_1 (grid1.coords t)) : Vec F S512x3 .f32 :=
  VS1_1.read (Elt F) (VS1_1.writes (Elt F) VS1_1.junk (runA V c t hc0 hc1).2.2.1)
/-- Case A's pieces for running buffer 2 tile it, so they cover it. -/
theorem scoverA_2 (c : Dev nD) (t : Fin cfg1.N) (hc0 : cond1_0 (grid1.coords t)) (hc1 : ¬cond1_1 (grid1.coords t)) (y : S512x768.Idx) :
    ∃ pc ∈ (runA V c t hc0 hc1).2.2.2.1, y ∈ pc.1.set :=
  View.cover_of_tiledL (runA V c t hc0 hc1).2.2.2.1 S512x768.size (by sl_kernel_rfl) y
/-- What case A leaves in running buffer 2: its pieces read back. -/
def soutA_2 (c : Dev nD) (t : Fin cfg1.N) (hc0 : cond1_0 (grid1.coords t)) (hc1 : ¬cond1_1 (grid1.coords t)) : Vec F S512x768 .f32 :=
  VS1_2.read (Elt F) (VS1_2.writes (Elt F) VS1_2.junk (runA V c t hc0 hc1).2.2.2.1)

/-- What case A leaves in the output block (nothing is stored: a placeholder no one consults, the window being idle there). -/
def outA_6 (c : Dev nD) (t : Fin cfg1.N) (hc0 : cond1_0 (grid1.coords t)) (hc1 : ¬cond1_1 (grid1.coords t)) : Vec F S512x768 .f32 :=
  VO1_6.read (Elt F) (VO1_6.writes (Elt F) VO1_6.junk (runA V c t hc0 hc1).1)
/-- The four buffers after case A. -/
def outsA (c : Dev nD) (t : Fin cfg1.N) (hc0 : cond1_0 (grid1.coords t)) (hc1 : ¬cond1_1 (grid1.coords t)) : Vec F S512x768 .f32 × Vec F S512x3 .f32 × Vec F S512x3 .f32 × Vec F S512x768 .f32 :=
  (outA_6 V c t hc0 hc1, soutA_0 V c t hc0 hc1, soutA_1 V c t hc0 hc1, soutA_2 V c t hc0 hc1)

/-- The body's run at point t in case B: the pieces it writes, and the triple. -/
def runB (c : Dev nD) (t : Fin cfg1.N) (hc0 : ¬cond1_0 (grid1.coords t)) (hc1 : ¬cond1_1 (grid1.coords t)) (xs0 xs1 : Vec F S512x3 .f32) (xs2 : Vec F S512x768 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) (iblk1 V c 5 t) xs0 xs1 xs2

/-- Case B's pieces for running buffer 0 tile it, so they cover it. -/
theorem scoverB_0 (c : Dev nD) (t : Fin cfg1.N) (hc0 : ¬cond1_0 (grid1.coords t)) (hc1 : ¬cond1_1 (grid1.coords t)) (xs0 xs1 : Vec F S512x3 .f32) (xs2 : Vec F S512x768 .f32) (y : S512x3.Idx) :
    ∃ pc ∈ (runB V c t hc0 hc1 xs0 xs1 xs2).2.1, y ∈ pc.1.set :=
  View.cover_of_tiledL (runB V c t hc0 hc1 xs0 xs1 xs2).2.1 S512x1.size (by sl_kernel_rfl) y
/-- What case B leaves in running buffer 0: its pieces read back. -/
def soutB_0 (c : Dev nD) (t : Fin cfg1.N) (hc0 : ¬cond1_0 (grid1.coords t)) (hc1 : ¬cond1_1 (grid1.coords t)) (xs0 xs1 : Vec F S512x3 .f32) (xs2 : Vec F S512x768 .f32) : Vec F S512x3 .f32 :=
  VS1_0.read (Elt F) (VS1_0.writes (Elt F) VS1_0.junk (runB V c t hc0 hc1 xs0 xs1 xs2).2.1)
/-- Case B's pieces for running buffer 1 tile it, so they cover it. -/
theorem scoverB_1 (c : Dev nD) (t : Fin cfg1.N) (hc0 : ¬cond1_0 (grid1.coords t)) (hc1 : ¬cond1_1 (grid1.coords t)) (xs0 xs1 : Vec F S512x3 .f32) (xs2 : Vec F S512x768 .f32) (y : S512x3.Idx) :
    ∃ pc ∈ (runB V c t hc0 hc1 xs0 xs1 xs2).2.2.1, y ∈ pc.1.set :=
  View.cover_of_tiledL (runB V c t hc0 hc1 xs0 xs1 xs2).2.2.1 S512x1.size (by sl_kernel_rfl) y
/-- What case B leaves in running buffer 1: its pieces read back. -/
def soutB_1 (c : Dev nD) (t : Fin cfg1.N) (hc0 : ¬cond1_0 (grid1.coords t)) (hc1 : ¬cond1_1 (grid1.coords t)) (xs0 xs1 : Vec F S512x3 .f32) (xs2 : Vec F S512x768 .f32) : Vec F S512x3 .f32 :=
  VS1_1.read (Elt F) (VS1_1.writes (Elt F) VS1_1.junk (runB V c t hc0 hc1 xs0 xs1 xs2).2.2.1)
/-- Case B's pieces for running buffer 2 tile it, so they cover it. -/
theorem scoverB_2 (c : Dev nD) (t : Fin cfg1.N) (hc0 : ¬cond1_0 (grid1.coords t)) (hc1 : ¬cond1_1 (grid1.coords t)) (xs0 xs1 : Vec F S512x3 .f32) (xs2 : Vec F S512x768 .f32) (y : S512x768.Idx) :
    ∃ pc ∈ (runB V c t hc0 hc1 xs0 xs1 xs2).2.2.2.1, y ∈ pc.1.set :=
  View.cover_of_tiledL (runB V c t hc0 hc1 xs0 xs1 xs2).2.2.2.1 S512x256.size (by sl_kernel_rfl) y
/-- What case B leaves in running buffer 2: its pieces read back. -/
def soutB_2 (c : Dev nD) (t : Fin cfg1.N) (hc0 : ¬cond1_0 (grid1.coords t)) (hc1 : ¬cond1_1 (grid1.coords t)) (xs0 xs1 : Vec F S512x3 .f32) (xs2 : Vec F S512x768 .f32) : Vec F S512x768 .f32 :=
  VS1_2.read (Elt F) (VS1_2.writes (Elt F) VS1_2.junk (runB V c t hc0 hc1 xs0 xs1 xs2).2.2.2.1)

/-- What case B leaves in the output block (nothing is stored: a placeholder no one consults, the window being idle there). -/
def outB_6 (c : Dev nD) (t : Fin cfg1.N) (hc0 : ¬cond1_0 (grid1.coords t)) (hc1 : ¬cond1_1 (grid1.coords t)) (xs0 xs1 : Vec F S512x3 .f32) (xs2 : Vec F S512x768 .f32) : Vec F S512x768 .f32 :=
  VO1_6.read (Elt F) (VO1_6.writes (Elt F) VO1_6.junk (runB V c t hc0 hc1 xs0 xs1 xs2).1)
/-- The four buffers after case B. -/
def outsB (c : Dev nD) (t : Fin cfg1.N) (hc0 : ¬cond1_0 (grid1.coords t)) (hc1 : ¬cond1_1 (grid1.coords t)) (xs0 xs1 : Vec F S512x3 .f32) (xs2 : Vec F S512x768 .f32) : Vec F S512x768 .f32 × Vec F S512x3 .f32 × Vec F S512x3 .f32 × Vec F S512x768 .f32 :=
  (outB_6 V c t hc0 hc1 xs0 xs1 xs2, soutB_0 V c t hc0 hc1 xs0 xs1 xs2, soutB_1 V c t hc0 hc1 xs0 xs1 xs2, soutB_2 V c t hc0 hc1 xs0 xs1 xs2)

/-- The body's run at point t in case C: the pieces it writes, and the triple. -/
def runC (c : Dev nD) (t : Fin cfg1.N) (hc0 : ¬cond1_0 (grid1.coords t)) (hc1 : cond1_1 (grid1.coords t)) (xs0 xs1 : Vec F S512x3 .f32) (xs2 : Vec F S512x768 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) (iblk1 V c 5 t) xs0 xs1 xs2

/-- Case C's pieces for running buffer 0 tile it, so they cover it. -/
theorem scoverC_0 (c : Dev nD) (t : Fin cfg1.N) (hc0 : ¬cond1_0 (grid1.coords t)) (hc1 : cond1_1 (grid1.coords t)) (xs0 xs1 : Vec F S512x3 .f32) (xs2 : Vec F S512x768 .f32) (y : S512x3.Idx) :
    ∃ pc ∈ (runC V c t hc0 hc1 xs0 xs1 xs2).2.1, y ∈ pc.1.set :=
  View.cover_of_tiledL (runC V c t hc0 hc1 xs0 xs1 xs2).2.1 S512x1.size (by sl_kernel_rfl) y
/-- What case C leaves in running buffer 0: its pieces read back. -/
def soutC_0 (c : Dev nD) (t : Fin cfg1.N) (hc0 : ¬cond1_0 (grid1.coords t)) (hc1 : cond1_1 (grid1.coords t)) (xs0 xs1 : Vec F S512x3 .f32) (xs2 : Vec F S512x768 .f32) : Vec F S512x3 .f32 :=
  VS1_0.read (Elt F) (VS1_0.writes (Elt F) VS1_0.junk (runC V c t hc0 hc1 xs0 xs1 xs2).2.1)
/-- Case C's pieces for running buffer 1 tile it, so they cover it. -/
theorem scoverC_1 (c : Dev nD) (t : Fin cfg1.N) (hc0 : ¬cond1_0 (grid1.coords t)) (hc1 : cond1_1 (grid1.coords t)) (xs0 xs1 : Vec F S512x3 .f32) (xs2 : Vec F S512x768 .f32) (y : S512x3.Idx) :
    ∃ pc ∈ (runC V c t hc0 hc1 xs0 xs1 xs2).2.2.1, y ∈ pc.1.set :=
  View.cover_of_tiledL (runC V c t hc0 hc1 xs0 xs1 xs2).2.2.1 S512x1.size (by sl_kernel_rfl) y
/-- What case C leaves in running buffer 1: its pieces read back. -/
def soutC_1 (c : Dev nD) (t : Fin cfg1.N) (hc0 : ¬cond1_0 (grid1.coords t)) (hc1 : cond1_1 (grid1.coords t)) (xs0 xs1 : Vec F S512x3 .f32) (xs2 : Vec F S512x768 .f32) : Vec F S512x3 .f32 :=
  VS1_1.read (Elt F) (VS1_1.writes (Elt F) VS1_1.junk (runC V c t hc0 hc1 xs0 xs1 xs2).2.2.1)
/-- Case C's pieces for running buffer 2 tile it, so they cover it. -/
theorem scoverC_2 (c : Dev nD) (t : Fin cfg1.N) (hc0 : ¬cond1_0 (grid1.coords t)) (hc1 : cond1_1 (grid1.coords t)) (xs0 xs1 : Vec F S512x3 .f32) (xs2 : Vec F S512x768 .f32) (y : S512x768.Idx) :
    ∃ pc ∈ (runC V c t hc0 hc1 xs0 xs1 xs2).2.2.2.1, y ∈ pc.1.set :=
  View.cover_of_tiledL (runC V c t hc0 hc1 xs0 xs1 xs2).2.2.2.1 S512x256.size (by sl_kernel_rfl) y
/-- What case C leaves in running buffer 2: its pieces read back. -/
def soutC_2 (c : Dev nD) (t : Fin cfg1.N) (hc0 : ¬cond1_0 (grid1.coords t)) (hc1 : cond1_1 (grid1.coords t)) (xs0 xs1 : Vec F S512x3 .f32) (xs2 : Vec F S512x768 .f32) : Vec F S512x768 .f32 :=
  VS1_2.read (Elt F) (VS1_2.writes (Elt F) VS1_2.junk (runC V c t hc0 hc1 xs0 xs1 xs2).2.2.2.1)

/-- Case C's one store of the output block covers it. -/
theorem coverC_6 (c : Dev nD) (t : Fin cfg1.N) (hc0 : ¬cond1_0 (grid1.coords t)) (hc1 : cond1_1 (grid1.coords t)) (xs0 xs1 : Vec F S512x3 .f32) (xs2 : Vec F S512x768 .f32) (y : S512x768.Idx) :
    ∃ pc ∈ (runC V c t hc0 hc1 xs0 xs1 xs2).1, y ∈ pc.1.set :=
  View.cover_of_tiledL (runC V c t hc0 hc1 xs0 xs1 xs2).1 S512x768.size (by sl_kernel_rfl) y
/-- What case C leaves in the output block. -/
def outC_6 (c : Dev nD) (t : Fin cfg1.N) (hc0 : ¬cond1_0 (grid1.coords t)) (hc1 : cond1_1 (grid1.coords t)) (xs0 xs1 : Vec F S512x3 .f32) (xs2 : Vec F S512x768 .f32) : Vec F S512x768 .f32 :=
  VO1_6.read (Elt F) (VO1_6.writes (Elt F) VO1_6.junk (runC V c t hc0 hc1 xs0 xs1 xs2).1)
/-- The four buffers after case C. -/
def outsC (c : Dev nD) (t : Fin cfg1.N) (hc0 : ¬cond1_0 (grid1.coords t)) (hc1 : cond1_1 (grid1.coords t)) (xs0 xs1 : Vec F S512x3 .f32) (xs2 : Vec F S512x768 .f32) : Vec F S512x768 .f32 × Vec F S512x3 .f32 × Vec F S512x3 .f32 × Vec F S512x768 .f32 :=
  (outC_6 V c t hc0 hc1 xs0 xs1 xs2, soutC_0 V c t hc0 hc1 xs0 xs1 xs2, soutC_1 V c t hc0 hc1 xs0 xs1 xs2, soutC_2 V c t hc0 hc1 xs0 xs1 xs2)

/-! ## What the buffers hold after each point -/

/-- The output block and the three running buffers after the body at position n: the case the key-tile coordinate
    selects there, at key tiles 1 to 5 from what the point before left in the running buffers. -/
def outsAt1 (c : Dev nD) : (n : ℕ) → n < cfg1.N → Vec F S512x768 .f32 × Vec F S512x3 .f32 × Vec F S512x3 .f32 × Vec F S512x768 .f32
  | 0, hn => outsA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 6 = 0 then
      if h1 : (n + 1) % 6 = 5 then False.elim (by omega)
      else outsA V c ⟨n + 1, hn⟩ ((hcond1_0 ⟨n + 1, hn⟩).mpr h0) (fun h => h1 ((hcond1_1 ⟨n + 1, hn⟩).mp h))
    else
      if h1 : (n + 1) % 6 = 5 then
        outsC V c ⟨n + 1, hn⟩ (fun h => h0 ((hcond1_0 ⟨n + 1, hn⟩).mp h)) ((hcond1_1 ⟨n + 1, hn⟩).mpr h1)
          (outsAt1 c n (Nat.lt_of_succ_lt hn)).2.1 (outsAt1 c n (Nat.lt_of_succ_lt hn)).2.2.1 (outsAt1 c n (Nat.lt_of_succ_lt hn)).2.2.2
      else
        outsB V c ⟨n + 1, hn⟩ (fun h => h0 ((hcond1_0 ⟨n + 1, hn⟩).mp h)) (fun h => h1 ((hcond1_1 ⟨n + 1, hn⟩).mp h))
          (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 6 = 0) (h1 : ¬t.val % 6 = 5) :
    outsAt1 V c t.val t.isLt = outsA V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 6 = 0) (h1 : ¬t.val % 6 = 5) :
    outsAt1 V c t.val t.isLt = outsB V c t (fun h => h0 ((hcond1_0 t).mp h)) (fun h => h1 ((hcond1_1 t).mp h))
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 6 = 0) (h1 : t.val % 6 = 5) :
    outsAt1 V c t.val t.isLt = outsC V c t (fun h => h0 ((hcond1_0 t).mp h)) ((hcond1_1 t).mpr h1)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the resting one; afterwards the projection
    region's staging buffers at anything, the three running buffers at what the point before left, the fourth
    scratch at anything, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (outsAt1 V c n hn).2.1
      ∗ owns (c : Thread nD τ) scM1_1 fullShare (outsAt1 V c n hn).2.2.1
      ∗ owns (c : Thread nD τ) scM1_2 fullShare (outsAt1 V c n hn).2.2.2
      ∗ (∃ d, owns (c : Thread nD τ) scM1_3 fullShare d)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (outsAt1 V c n hn).2.1
      ∗ owns (c : Thread nD τ) scM1_1 fullShare (outsAt1 V c n hn).2.2.1
      ∗ owns (c : Thread nD τ) scM1_2 fullShare (outsAt1 V c n hn).2.2.2
      ∗ (∃ d, owns (c : Thread nD τ) scM1_3 fullShare d)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (outsAt1 V c (n - 1) (by omega)).2.1
      ∗ owns (c : Thread nD τ) scM1_1 fullShare (outsAt1 V c (n - 1) (by omega)).2.2.1
      ∗ owns (c : Thread nD τ) scM1_2 fullShare (outsAt1 V c (n - 1) (by omega)).2.2.2
      ∗ (∃ d, owns (c : Thread nD τ) scM1_3 fullShare d)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 16000000 in
/-- The body at any point: the key-tile coordinate says which case the point is in; the invariant hands the body the
    running buffers at what the point before left (at anything at the very first point) and takes them back at this
    point's contents; the output block is handed back untouched where it is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 72 := lt_of_lt_of_eq t.isLt (show cfg1.N = 72 from N_1)
  by_cases h0 : t.val % 6 = 0
  · by_cases h1 : t.val % 6 = 5
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold outsA soutA_0 soutA_1 soutA_2; (try dsimp only)
      by_cases hz : t.val = 0
      ·
        rw [PhiS_castSucc V c t, PhiS_zero V c _ _ hz, PhiA1_eq]
        iintro ⟨⟨⟨Hg0, Hg1, Hg2, Hg3, Hg4, Hg5, Hg6, Hg7, Hg8, Hg9, ⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runA V c t ((hcond1_0 t).mpr h0) (fun h => h1 ((hcond1_1 t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, ⟨%es0, HS0⟩, ⟨%es1, HS1⟩, ⟨%es2, HS2⟩, ⟨%es3, HS3⟩⟩
        isplitl [Hg0 Hg1 Hg2 Hg3 Hg4 Hg5 Hg6 Hg7 Hg8 Hg9 HS0 HS1 HS2 HS3 Hg]
        · isplitl [Hg0 Hg1 Hg2 Hg3 Hg4 Hg5 Hg6 Hg7 Hg8 Hg9 HS0 HS1 HS2 HS3]
          ·
            isplitl [Hg0]; · iexact Hg0
            isplitl [Hg1]; · iexact Hg1
            isplitl [Hg2]; · iexact Hg2
            isplitl [Hg3]; · iexact Hg3
            isplitl [Hg4]; · iexact Hg4
            isplitl [Hg5]; · iexact Hg5
            isplitl [Hg6]; · iexact Hg6
            isplitl [Hg7]; · iexact Hg7
            isplitl [Hg8]; · iexact Hg8
            isplitl [Hg9]; · iexact Hg9
            isplitl [HS0]
            · unfold owns; iexists _; isplitr
              swap; · iexact HS0
              ipureintro; exact View.read_writes_of_cover _ _ _ _ _ (scoverA_0 V c t ((hcond1_0 t).mpr h0) (fun h => h1 ((hcond1_1 t).mp h)))
            isplitl [HS1]
            · unfold owns; iexists _; isplitr
              swap; · iexact HS1
              ipureintro; exact View.read_writes_of_cover _ _ _ _ _ (scoverA_1 V c t ((hcond1_0 t).mpr h0) (fun h => h1 ((hcond1_1 t).mp h)))
            isplitl [HS2]
            · unfold owns; iexists _; isplitr
              swap; · iexact HS2
              ipureintro; exact View.read_writes_of_cover _ _ _ _ _ (scoverA_2 V c t ((hcond1_0 t).mpr h0) (fun h => h1 ((hcond1_1 t).mp h)))
            iexists _; iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS_castSucc V c t, PhiS_pos V c _ _ hz]
        iintro ⟨⟨⟨Hg0, Hg1, Hg2, Hg3, Hg4, Hg5, Hg6, Hg7, Hg8, Hg9, HS0, HS1, HS2, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runA V c t ((hcond1_0 t).mpr h0) (fun h => h1 ((hcond1_1 t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, ⟨%es0, HS0⟩, ⟨%es1, HS1⟩, ⟨%es2, HS2⟩, ⟨%es3, HS3⟩⟩
        isplitl [Hg0 Hg1 Hg2 Hg3 Hg4 Hg5 Hg6 Hg7 Hg8 Hg9 HS0 HS1 HS2 HS3 Hg]
        · isplitl [Hg0 Hg1 Hg2 Hg3 Hg4 Hg5 Hg6 Hg7 Hg8 Hg9 HS0 HS1 HS2 HS3]
          ·
            isplitl [Hg0]; · iexact Hg0
            isplitl [Hg1]; · iexact Hg1
            isplitl [Hg2]; · iexact Hg2
            isplitl [Hg3]; · iexact Hg3
            isplitl [Hg4]; · iexact Hg4
            isplitl [Hg5]; · iexact Hg5
            isplitl [Hg6]; · iexact Hg6
            isplitl [Hg7]; · iexact Hg7
            isplitl [Hg8]; · iexact Hg8
            isplitl [Hg9]; · iexact Hg9
            isplitl [HS0]
            · unfold owns; iexists _; isplitr
              swap; · iexact HS0
              ipureintro; exact View.read_writes_of_cover _ _ _ _ _ (scoverA_0 V c t ((hcond1_0 t).mpr h0) (fun h => h1 ((hcond1_1 t).mp h)))
            isplitl [HS1]
            · unfold owns; iexists _; isplitr
              swap; · iexact HS1
              ipureintro; exact View.read_writes_of_cover _ _ _ _ _ (scoverA_1 V c t ((hcond1_0 t).mpr h0) (fun h => h1 ((hcond1_1 t).mp h)))
            isplitl [HS2]
            · unfold owns; iexists _; isplitr
              swap; · iexact HS2
              ipureintro; exact View.read_writes_of_cover _ _ _ _ _ (scoverA_2 V c t ((hcond1_0 t).mpr h0) (fun h => h1 ((hcond1_1 t).mp h)))
            iexists _; iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 6 = 5
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold outsC outC_6 soutC_0 soutC_1 soutC_2; (try dsimp only)
      by_cases hz : t.val = 0
      · exfalso; omega
      ·
        rw [PhiS_castSucc V c t, PhiS_pos V c _ _ hz]
        iintro ⟨⟨⟨Hg0, Hg1, Hg2, Hg3, Hg4, Hg5, Hg6, Hg7, Hg8, Hg9, HS0, HS1, HS2, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runC V c t (fun h => h0 ((hcond1_0 t).mp h)) ((hcond1_1 t).mpr h1) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexists _; iexact HS3
        iintro ⟨H0, H1, H2, H3, H4, H5, ⟨%e6, H6⟩, ⟨%es0, HS0⟩, ⟨%es1, HS1⟩, ⟨%es2, HS2⟩, ⟨%es3, HS3⟩⟩
        isplitl [Hg0 Hg1 Hg2 Hg3 Hg4 Hg5 Hg6 Hg7 Hg8 Hg9 HS0 HS1 HS2 HS3 Hg]
        · isplitl [Hg0 Hg1 Hg2 Hg3 Hg4 Hg5 Hg6 Hg7 Hg8 Hg9 HS0 HS1 HS2 HS3]
          ·
            isplitl [Hg0]; · iexact Hg0
            isplitl [Hg1]; · iexact Hg1
            isplitl [Hg2]; · iexact Hg2
            isplitl [Hg3]; · iexact Hg3
            isplitl [Hg4]; · iexact Hg4
            isplitl [Hg5]; · iexact Hg5
            isplitl [Hg6]; · iexact Hg6
            isplitl [Hg7]; · iexact Hg7
            isplitl [Hg8]; · iexact Hg8
            isplitl [Hg9]; · iexact Hg9
            isplitl [HS0]
            · unfold owns; iexists _; isplitr
              swap; · iexact HS0
              ipureintro; exact View.read_writes_of_cover _ _ _ _ _ (scoverC_0 V c t (fun h => h0 ((hcond1_0 t).mp h)) ((hcond1_1 t).mpr h1) _ _ _)
            isplitl [HS1]
            · unfold owns; iexists _; isplitr
              swap; · iexact HS1
              ipureintro; exact View.read_writes_of_cover _ _ _ _ _ (scoverC_1 V c t (fun h => h0 ((hcond1_0 t).mp h)) ((hcond1_1 t).mpr h1) _ _ _)
            isplitl [HS2]
            · unfold owns; iexists _; isplitr
              swap; · iexact HS2
              ipureintro; exact View.read_writes_of_cover _ _ _ _ _ (scoverC_2 V c t (fun h => h0 ((hcond1_0 t).mp h)) ((hcond1_1 t).mpr h1) _ _ _)
            iexists _; iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverC_6 V c t (fun h => h0 ((hcond1_0 t).mp h)) ((hcond1_1 t).mpr h1) _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold outsB soutB_0 soutB_1 soutB_2; (try dsimp only)
      by_cases hz : t.val = 0
      · exfalso; omega
      ·
        rw [PhiS_castSucc V c t, PhiS_pos V c _ _ hz]
        iintro ⟨⟨⟨Hg0, Hg1, Hg2, Hg3, Hg4, Hg5, Hg6, Hg7, Hg8, Hg9, HS0, HS1, HS2, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runB V c t (fun h => h0 ((hcond1_0 t).mp h)) (fun h => h1 ((hcond1_1 t).mp h)) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexists _; iexact HS3
        iintro ⟨H0, H1, H2, H3, H4, H5, H6, ⟨%es0, HS0⟩, ⟨%es1, HS1⟩, ⟨%es2, HS2⟩, ⟨%es3, HS3⟩⟩
        isplitl [Hg0 Hg1 Hg2 Hg3 Hg4 Hg5 Hg6 Hg7 Hg8 Hg9 HS0 HS1 HS2 HS3 Hg]
        · isplitl [Hg0 Hg1 Hg2 Hg3 Hg4 Hg5 Hg6 Hg7 Hg8 Hg9 HS0 HS1 HS2 HS3]
          ·
            isplitl [Hg0]; · iexact Hg0
            isplitl [Hg1]; · iexact Hg1
            isplitl [Hg2]; · iexact Hg2
            isplitl [Hg3]; · iexact Hg3
            isplitl [Hg4]; · iexact Hg4
            isplitl [Hg5]; · iexact Hg5
            isplitl [Hg6]; · iexact Hg6
            isplitl [Hg7]; · iexact Hg7
            isplitl [Hg8]; · iexact Hg8
            isplitl [Hg9]; · iexact Hg9
            isplitl [HS0]
            · unfold owns; iexists _; isplitr
              swap; · iexact HS0
              ipureintro; exact View.read_writes_of_cover _ _ _ _ _ (scoverB_0 V c t (fun h => h0 ((hcond1_0 t).mp h)) (fun h => h1 ((hcond1_1 t).mp h)) _ _ _)
            isplitl [HS1]
            · unfold owns; iexists _; isplitr
              swap; · iexact HS1
              ipureintro; exact View.read_writes_of_cover _ _ _ _ _ (scoverB_1 V c t (fun h => h0 ((hcond1_0 t).mp h)) (fun h => h1 ((hcond1_1 t).mp h)) _ _ _)
            isplitl [HS2]
            · unfold owns; iexists _; isplitr
              swap; · iexact HS2
              ipureintro; exact View.read_writes_of_cover _ _ _ _ _ (scoverB_2 V c t (fun h => h0 ((hcond1_0 t).mp h)) (fun h => h1 ((hcond1_1 t).mp h)) _ _ _)
            iexists _; iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the resting one back: the running buffers' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 72 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Hg0, Hg1, Hg2, Hg3, Hg4, Hg5, Hg6, Hg7, Hg8, Hg9, HS0, HS1, HS2, HS3⟩, Hg⟩
  isplitl [Hg0 Hg1 Hg2 Hg3 Hg4 Hg5 Hg6 Hg7 Hg8 Hg9 HS0 HS1 HS2 HS3]
  ·
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [HS0]; · iexists _; iexact HS0
    isplitl [HS1]; · iexists _; iexact HS1
    isplitl [HS2]; · iexists _; iexact HS2
    iexact HS3
  iexact Hg

end Region1

end Cert.Kernel.Frame

end
-- ==== Proof.BitsMain.lean ====
/-
  The whole run. The program is nine host operations (three weight matrices transposed and narrowed, three biases
  reshaped to rows), the projection region, the attention region. The buffers' contents at each boundary are a fold from
  the launch memory: after the host operations; after the projection region, its two output arrays at what its
  write-backs leave and every other buffer as before; after the attention region likewise. Each region is a segment over
  the thread state "every unscoped buffer at the boundary's contents, the generator register at some state, nothing owed".
  The launch over the three segments gives: every weakly fair execution terminates, nothing faults, the result array
  ends at what the attention region's write-backs leave, and every argument array ends as launched - no host operation
  and no region writes one.
-/
import proofs.«181948_j79242146611549_2_alg».proof.Proof.BitsRegion0
import proofs.«181948_j79242146611549_2_alg».proof.Proof.BitsRegion1
import proofs.«181948_j79242146611549_2_alg».proof.Proof.Gen.Kernel.Regions

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((dat1 (V2 m ρ) c).arrAt_in 2 rfl _).trans (A_eq1 (V2 m ρ) c 2))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The attention region's invariant before its first point is the resting one, -/
theorem hin1u (c : Dev nD) : iprop(Pipeline.scopedRest spec1 c ∗ ∃ r, prngReg c r) ⊢ (dat1 (V2 m ρ) c).Φ 0 := by
  have h := hin1 (V2 m ρ) c
  unfold Pipeline.ΦA at h
  exact h
/-- and after its last point it gives the resting one back. -/
theorem hout1u (c : Dev nD) : (dat1 (V2 m ρ) c).Φ (Fin.last cfg1.N) ⊢ iprop(Pipeline.scopedRest spec1 c ∗ ∃ r, prngReg c r) := by
  have h := hout1 (V2 m ρ) c
  unfold Pipeline.ΦA at h
  exact h

/-! ## The regions as segments -/

set_option backward.isDefEq.respectTransparency.types false in
/-- Region 0 as a segment: entered from every unscoped buffer at the contents before it, left at the contents
    after it; its arrays split out of the unscoped buffers and put back; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents
    after it; its arrays split out of the unscoped buffers and put back; the generator register into the invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1u m ρ c)
    isplitl [Hr]; · iexact Hr
    iexact Hp
  hout c := by
    rw [Pipeline.ownSems0_none, show (pdats m ρ 1 c).Φ (Fin.last _) = (dat1 (V2 m ρ) c).Φ (Fin.last cfg1.N) from rfl]
    have hh := hout1u m ρ c
    iintro H
    ihave H' := hh $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution terminates, nothing faulting; every final
    state has the result array at what the attention region's write-backs leave and every argument array as launched. -/
theorem run_full : θ_run defs (onTc (τ := τ) (main (F := F))) ⟨m, fun _ => 0, ρ⟩ (fun r => ∀ c : Dev nD,
      r.2.mem ((c.tc : Thread nD τ).loc main_v10) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v10 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_full m ρ)

end Cert.Kernel.Frame

end
-- ==== Proof.IdealRegion0.lean ====
/-
  The projection region: 12 grid points, one per tile of 512 query rows. Its body loads the tile of x, the two weight
  matrices and the two biases whole, and stores two blocks whole: x_new = lrelu(x · W_fcᵀ + b_fc) and
  q = lrelu(x_new · W_qfcᵀ + b_qfc) for the tile's rows. Nothing is kept between points, so what each output block
  holds after the body is one store's value, a pure function of the five input blocks; stated at a parameter V, the
  buffers' contents when the region is entered.
-/
import proofs.«181948_j79242146611549_2_alg».proof.Proof.Gen.KernelIdeal.Launch
import proofs.«181948_j79242146611549_2_alg».proof.Proof.Gen.KernelIdeal.Skeleton
import proofs.«181948_j79242146611549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one a whole buffer -/

abbrev rA : Rect S512x768 := Rect.unit (s := S512x768) ![0, 0] S512x768.size inb_S512x768_S512x768_0_0
abbrev rW : Rect S768x768 := Rect.unit (s := S768x768) ![0, 0] S768x768.size inb_S768x768_S768x768_0_0
abbrev rB : Rect S1x768 := Rect.unit (s := S1x768) ![0, 0] S1x768.size inb_S1x768_S1x768_0_0

/-- The x_new block after the body: its one store's value over the loads. -/
def out0_5 (x0 : Vec F S512x768 .f32) (x1 : Vec F S768x768 .bf16) (x2 : Vec F S1x768 .f32) : Vec F S512x768 .bf16 :=
  View.canon [⟨rA, k0_pay1 (View.ld x0 rA) (View.ld x1 rW) (View.ld x2 rB)⟩]
/-- The q block after the body. -/
def out0_6 (x0 : Vec F S512x768 .f32) (x1 : Vec F S768x768 .bf16) (x2 : Vec F S1x768 .f32) (x3 : Vec F S768x768 .bf16) (x4 : Vec F S1x768 .f32) : Vec F S512x768 .bf16 :=
  View.canon [⟨rA, k0_pay2 (View.ld x0 rA) (View.ld x1 rW) (View.ld x2 rB) (View.ld x3 rW) (View.ld x4 rB)⟩]

theorem cover0_O (p0 : Vec F S512x768 .bf16) (y : S512x768.Idx) :
    ∃ pc ∈ ([⟨rA, p0⟩] : List (View.Piece (Elt F) S512x768 .bf16)), y ∈ pc.1.set :=
  View.cover_of_tiled [⟨rA, p0⟩] S512x768.size (by rfl) y

set_option maxHeartbeats 4000000 in
/-- The body on whole staging memrefs, the inputs' at their contents and the outputs' at anything, runs to a
    continuation holding the inputs' as they were and each output's at its block's value. -/
theorem sound_kernel0 (c : Dev nD) (E : Set ℕ) (i : grid0.Coords) (arg1 : Memref sig .tc .vmem S512x768 .f32) (harg1 : arg1.IsWhole) (arg2 : Memref sig .tc .vmem S768x768 .bf16) (harg2 : arg2.IsWhole) (arg3 : Memref sig .tc .vmem S1x768 .f32) (harg3 : arg3.IsWhole) (arg4 : Memref sig .tc .vmem S768x768 .bf16) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .bf16) (harg7 : arg7.IsWhole)
    (x0 : Vec F S512x768 .f32) (x1 : Vec F S768x768 .bf16) (x2 : Vec F S1x768 .f32) (x3 : Vec F S768x768 .bf16) (x4 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__kernelA_body i arg1 harg1 arg2 harg2 arg3 harg3 arg4 harg4 arg5 harg5 arg6 harg6 arg7 harg7) K := by
  simp only [cc0__kernelA_body_eq_skeleton]; unfold cc0__kernelA_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_O _)
  iexists _; isplitr
  swap; · iexact H6
  ipureintro
  exact View.read_writes_eq_canon _ _ _ (cover0_O _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.IdealConds.lean ====
/-
  The attention region's grid is 12 query tiles by 6 key tiles, the key tile the fast coordinate: point t is query tile
  t / 6 and key tile t % 6. The body branches twice on the key-tile coordinate: at key tile 0 it resets the running
  maximum, denominator and weighted sum; at key tile 5 it normalises, adds the residual, applies the last layer and
  stores the output block. Both conditions are decided here over the 72 points, in closed form; with them, where the
  output window is idle (key tiles 0 to 4: nothing stored, nothing written back) and where it is live (key tile 5).
  Then the memrefs the body is called on, and the region's resting invariant opened: the ten staging buffers of the
  projection region, the four scratch buffers each whole at some contents, the generator register.
-/
import proofs.«181948_j79242146611549_2_alg».proof.Proof.Gen.KernelIdeal.Launch
import proofs.«181948_j79242146611549_2_alg».proof.Proof.Gen.KernelIdeal.Skeleton
import proofs.«181948_j79242146611549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first branch: the key-tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 6 = 0 :=
  (by decide +kernel : ∀ t : Fin grid1.N, cond1_0 (grid1.coords t) ↔ t.val % 6 = 0)

/-- The body's second branch: the key-tile coordinate is 5, the last. -/
abbrev cond1_1 (i : grid1.Coords) : Prop := k1_cond2 i = 1#1
theorem hcond1_1 : ∀ t : Fin cfg1.N, cond1_1 (grid1.coords t) ↔ t.val % 6 = 5 :=
  (by decide +kernel : ∀ t : Fin grid1.N, cond1_1 (grid1.coords t) ↔ t.val % 6 = 5)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At key tile 0 the output window is idle and not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- At key tiles 1 to 4 likewise. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At key tile 5 the output window is live: the body stores its block. -/
theorem liveAt1_6_C : ∀ t : Fin cfg1.N, ¬cond1_0 (grid1.coords t) → cond1_1 (grid1.coords t) → cfg1.idle 6 (grid1.coords t) = false := by decide +kernel

/-! ## The memrefs the body is called on -/

/-- One staging buffer of the output window, through which its contents are stated. -/
abbrev VO1_6 : View sig .tc .vmem S512x768 .f32 := (Memref.whole cc1_stg6_0 : Memref sig .tc .vmem S512x768 .f32).view
abbrev ms1_0 (t : Fin cfg1.N) : Memref sig .tc .vmem S512x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6144x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S768x768 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x768 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x768 .f32 := win1_6.stage (cfg1.slots t 6)
abbrev hs1_6 (t : Fin cfg1.N) : (ms1_6 t).IsWhole := hstage1_6 ((cfg1.slots t 6).cast nbuf1_6)
/-- The scratch operands: the running maximum, the running denominator, the running weighted sum, and the buffer the
    last step assembles its matrix operand in. -/
abbrev scM1_0 : Memref sig .tc .vmem S512x3 .f32 := Memref.whole cc1_scratch0
abbrev scM1_1 : Memref sig .tc .vmem S512x3 .f32 := Memref.whole cc1_scratch1
abbrev scM1_2 : Memref sig .tc .vmem S512x768 .f32 := Memref.whole cc1_scratch2
abbrev scM1_3 : Memref sig .tc .vmem S512x768 .f32 := Memref.whole cc1_scratch3
abbrev VS1_0 : View sig .tc .vmem S512x3 .f32 := scM1_0.view
abbrev VS1_1 : View sig .tc .vmem S512x3 .f32 := scM1_1.view
abbrev VS1_2 : View sig .tc .vmem S512x768 .f32 := scM1_2.view

/-- The projection region's staging buffers, which this region never touches: each whole at some contents. -/
def stgRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region's resting invariant, opened. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ (∃ d, owns (c : Thread nD τ) scM1_0 fullShare d) ∗ (∃ d, owns (c : Thread nD τ) scM1_1 fullShare d)
        ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Frame

end
-- ==== Proof.IdealRunA.lean ====
/-
  The attention body at key tile 0. It first resets the three running quantities (maximum to -∞, denominator and
  weighted sum to 0), storing each buffer whole, then takes this tile's step of the online softmax for the three heads,
  storing the new maximum, denominator and weighted sum head by head. The output block is not touched. What the three
  buffers end with is recorded as the list of pieces written, found when the run hands the buffers back.
-/
import proofs.«181948_j79242146611549_2_alg».proof.Proof.IdealConds

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The pieces the body leaves in the output block and in the three running buffers in this case, with the proof
    that on whole memrefs at the stated contents the body runs to a continuation holding every input as it was and
    those pieces written. -/
noncomputable def kernelRun1_A (c : Dev nD) (i : grid1.Coords) (arg2 : Memref sig .tc .vmem S512x768 .bf16) (harg2 : arg2.IsWhole) (arg3 : Memref sig .tc .vmem S6144x768 .bf16) (harg3 : arg3.IsWhole) (arg4 : Memref sig .tc .vmem S512x768 .f32) (harg4 : arg4.IsWhole) (arg5 : Memref sig .tc .vmem S512x1024 .i32) (harg5 : arg5.IsWhole) (arg6 : Memref sig .tc .vmem S768x768 .bf16) (harg6 : arg6.IsWhole) (arg7 : Memref sig .tc .vmem S1x768 .f32) (harg7 : arg7.IsWhole) (arg8 : Memref sig .tc .vmem S512x768 .f32) (harg8 : arg8.IsWhole) (arg9 : Memref sig .tc .vmem S512x3 .f32) (harg9 : arg9.IsWhole) (arg10 : Memref sig .tc .vmem S512x3 .f32) (harg10 : arg10.IsWhole) (arg11 : Memref sig .tc .vmem S512x768 .f32) (harg11 : arg11.IsWhole) (arg12 : Memref sig .tc .vmem S512x768 .f32) (harg12 : arg12.IsWhole) (hc0 : cond1_0 i) (hc1 : ¬cond1_1 i)
    (x0 : Vec F S512x768 .bf16) (x1 : Vec F S6144x768 .bf16) (x2 : Vec F S512x768 .f32) (x3 : Vec F S512x1024 .i32) (x4 : Vec F S768x768 .bf16) (x5 : Vec F S1x768 .f32) :
    Σ' (L6 : List (View.Piece (Elt F) S512x768 .f32)) (LS0 : List (View.Piece (Elt F) S512x3 .f32)) (LS1 : List (View.Piece (Elt F) S512x3 .f32)), { LS2 : List (View.Piece (Elt F) S512x768 .f32) //
      ∀ (xi6 : Vec F S512x768 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ d, owns (c : Thread nD τ) arg12 fullShare d)) -∗ K ⟨⟩))
          ⊢ wp frame (wpE (defs₀ (F := F)) Variants.none c none) E (cc1_body i arg2 harg2 arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1_body_eq_skeleton]; unfold cc1_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexists _; isplitr
    swap; · iexact HS3
    ipureintro; rfl

end Cert.KernelIdeal.Frame

end
-- ==== Proof.IdealRunB.lean ====
/-
  The attention body at key tiles 1 to 4: one step of the online softmax for the three heads from the running
  quantities the tile before left, storing the new maximum, denominator and weighted sum head by head. The output block
  is not touched. What the three buffers end with is recorded as the list of pieces written.
-/
import proofs.«181948_j79242146611549_2_alg».proof.Proof.IdealConds

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The pieces the body leaves in the output block and in the three running buffers in this case, with the proof
    that on whole memrefs at the stated contents the body runs to a continuation holding every input as it was and
    those pieces written. -/
noncomputable def kernelRun1_B (c : Dev nD) (i : grid1.Coords) (arg2 : Memref sig .tc .vmem S512x768 .bf16) (harg2 : arg2.IsWhole) (arg3 : Memref sig .tc .vmem S6144x768 .bf16) (harg3 : arg3.IsWhole) (arg4 : Memref sig .tc .vmem S512x768 .f32) (harg4 : arg4.IsWhole) (arg5 : Memref sig .tc .vmem S512x1024 .i32) (harg5 : arg5.IsWhole) (arg6 : Memref sig .tc .vmem S768x768 .bf16) (harg6 : arg6.IsWhole) (arg7 : Memref sig .tc .vmem S1x768 .f32) (harg7 : arg7.IsWhole) (arg8 : Memref sig .tc .vmem S512x768 .f32) (harg8 : arg8.IsWhole) (arg9 : Memref sig .tc .vmem S512x3 .f32) (harg9 : arg9.IsWhole) (arg10 : Memref sig .tc .vmem S512x3 .f32) (harg10 : arg10.IsWhole) (arg11 : Memref sig .tc .vmem S512x768 .f32) (harg11 : arg11.IsWhole) (arg12 : Memref sig .tc .vmem S512x768 .f32) (harg12 : arg12.IsWhole) (hc0 : ¬cond1_0 i) (hc1 : ¬cond1_1 i)
    (x0 : Vec F S512x768 .bf16) (x1 : Vec F S6144x768 .bf16) (x2 : Vec F S512x768 .f32) (x3 : Vec F S512x1024 .i32) (x4 : Vec F S768x768 .bf16) (x5 : Vec F S1x768 .f32) (xs0 xs1 : Vec F S512x3 .f32) (xs2 : Vec F S512x768 .f32) :
    Σ' (L6 : List (View.Piece (Elt F) S512x768 .f32)) (LS0 : List (View.Piece (Elt F) S512x3 .f32)) (LS1 : List (View.Piece (Elt F) S512x3 .f32)), { LS2 : List (View.Piece (Elt F) S512x768 .f32) //
      ∀ (xi6 : Vec F S512x768 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xs0
            ∗ owns (c : Thread nD τ) arg10 fullShare xs1
            ∗ owns (c : Thread nD τ) arg11 fullShare xs2
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ d, owns (c : Thread nD τ) arg12 fullShare d)) -∗ K ⟨⟩))
          ⊢ wp frame (wpE (defs₀ (F := F)) Variants.none c none) E (cc1_body i arg2 harg2 arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1_body_eq_skeleton]; unfold cc1_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexists _; isplitr
    swap; · iexact HS3
    ipureintro; rfl

end Cert.KernelIdeal.Frame

end
-- ==== Proof.IdealRunC.lean ====
/-
  The attention body at key tile 5, the last: the online-softmax step as at the other tiles, then the finish - the
  weighted sum divided by the denominator head by head and added to the query rows of x, assembled in the fourth scratch
  buffer; that matrix times the last layer's weights, plus its bias, through the leaky rectifier, plus x again; stored as
  the output block whole. The pieces written to the output block and to the three running buffers are recorded.
-/
import proofs.«181948_j79242146611549_2_alg».proof.Proof.IdealConds

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The pieces the body leaves in the output block and in the three running buffers in this case, with the proof
    that on whole memrefs at the stated contents the body runs to a continuation holding every input as it was and
    those pieces written. -/
noncomputable def kernelRun1_C (c : Dev nD) (i : grid1.Coords) (arg2 : Memref sig .tc .vmem S512x768 .bf16) (harg2 : arg2.IsWhole) (arg3 : Memref sig .tc .vmem S6144x768 .bf16) (harg3 : arg3.IsWhole) (arg4 : Memref sig .tc .vmem S512x768 .f32) (harg4 : arg4.IsWhole) (arg5 : Memref sig .tc .vmem S512x1024 .i32) (harg5 : arg5.IsWhole) (arg6 : Memref sig .tc .vmem S768x768 .bf16) (harg6 : arg6.IsWhole) (arg7 : Memref sig .tc .vmem S1x768 .f32) (harg7 : arg7.IsWhole) (arg8 : Memref sig .tc .vmem S512x768 .f32) (harg8 : arg8.IsWhole) (arg9 : Memref sig .tc .vmem S512x3 .f32) (harg9 : arg9.IsWhole) (arg10 : Memref sig .tc .vmem S512x3 .f32) (harg10 : arg10.IsWhole) (arg11 : Memref sig .tc .vmem S512x768 .f32) (harg11 : arg11.IsWhole) (arg12 : Memref sig .tc .vmem S512x768 .f32) (harg12 : arg12.IsWhole) (hc0 : ¬cond1_0 i) (hc1 : cond1_1 i)
    (x0 : Vec F S512x768 .bf16) (x1 : Vec F S6144x768 .bf16) (x2 : Vec F S512x768 .f32) (x3 : Vec F S512x1024 .i32) (x4 : Vec F S768x768 .bf16) (x5 : Vec F S1x768 .f32) (xs0 xs1 : Vec F S512x3 .f32) (xs2 : Vec F S512x768 .f32) :
    Σ' (L6 : List (View.Piece (Elt F) S512x768 .f32)) (LS0 : List (View.Piece (Elt F) S512x3 .f32)) (LS1 : List (View.Piece (Elt F) S512x3 .f32)), { LS2 : List (View.Piece (Elt F) S512x768 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ owns (c : Thread nD τ) arg9 fullShare xs0
            ∗ owns (c : Thread nD τ) arg10 fullShare xs1
            ∗ owns (c : Thread nD τ) arg11 fullShare xs2
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ d, owns (c : Thread nD τ) arg12 fullShare d)) -∗ K ⟨⟩))
          ⊢ wp frame (wpE (defs₀ (F := F)) Variants.none c none) E (cc1_body i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1_body_eq_skeleton]; unfold cc1_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    iexists _; iexists _; isplitr
    swap; · iexact HS3
    ipureintro; rfl

end Cert.KernelIdeal.Frame

end
-- ==== Proof.IdealRegion1.lean ====
/-
  The attention region over its 72 points. For each of the three cases of the key-tile coordinate, what the body leaves
  in the output block and in the three running buffers (maximum, denominator, weighted sum) is its recorded pieces read
  back; the pieces tile each buffer. By recursion on the point, the four buffers after every point: key tile 0 starts
  afresh, key tiles 1 to 5 continue from what the point before left. The region's invariant carries the three running
  buffers at exactly those contents from one point to the next; the proof data describe every window's block after the
  body; and the body meets its obligation at every point, by the case the coordinate selects.
-/
import proofs.«181948_j79242146611549_2_alg».proof.Proof.IdealRunA
import proofs.«181948_j79242146611549_2_alg».proof.Proof.IdealRunB
import proofs.«181948_j79242146611549_2_alg».proof.Proof.IdealRunC

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The body's run at point t in case A: the pieces it writes, and the triple. -/
def runA (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) (iblk1 V c 5 t)

/-- Case A's pieces for running buffer 0 tile it, so they cover it. -/
theorem scoverA_0 (c : Dev nD) (t : Fin cfg1.N) (hc0 : cond1_0 (grid1.coords t)) (hc1 : ¬cond1_1 (grid1.coords t)) (y : S512x3.Idx) :
    ∃ pc ∈ (runA V c t hc0 hc1).2.1, y ∈ pc.1.set :=
  View.cover_of_tiledL (runA V c t hc0 hc1).2.1 S512x3.size (by sl_kernel_rfl) y
/-- What case A leaves in running buffer 0: its pieces read back. -/
def soutA_0 (c : Dev nD) (t : Fin cfg1.N) (hc0 : cond1_0 (grid1.coords t)) (hc1 : ¬cond1_1 (grid1.coords t)) : Vec F S512x3 .f32 :=
  VS1_0.read (Elt F) (VS1_0.writes (Elt F) VS1_0.junk (runA V c t hc0 hc1).2.1)
/-- Case A's pieces for running buffer 1 tile it, so they cover it. -/
theorem scoverA_1 (c : Dev nD) (t : Fin cfg1.N) (hc0 : cond1_0 (grid1.coords t)) (hc1 : ¬cond1_1 (grid1.coords t)) (y : S512x3.Idx) :
    ∃ pc ∈ (runA V c t hc0 hc1).2.2.1, y ∈ pc.1.set :=
  View.cover_of_tiledL (runA V c t hc0 hc1).2.2.1 S512x3.size (by sl_kernel_rfl) y
/-- What case A leaves in running buffer 1: its pieces read back. -/
def soutA_1 (c : Dev nD) (t : Fin cfg1.N) (hc0 : cond1_0 (grid1.coords t)) (hc1 : ¬cond1_1 (grid1.coords t)) : Vec F S512x3 .f32 :=
  VS1_1.read (Elt F) (VS1_1.writes (Elt F) VS1_1.junk (runA V c t hc0 hc1).2.2.1)
/-- Case A's pieces for running buffer 2 tile it, so they cover it. -/
theorem scoverA_2 (c : Dev nD) (t : Fin cfg1.N) (hc0 : cond1_0 (grid1.coords t)) (hc1 : ¬cond1_1 (grid1.coords t)) (y : S512x768.Idx) :
    ∃ pc ∈ (runA V c t hc0 hc1).2.2.2.1, y ∈ pc.1.set :=
  View.cover_of_tiledL (runA V c t hc0 hc1).2.2.2.1 S512x768.size (by sl_kernel_rfl) y
/-- What case A leaves in running buffer 2: its pieces read back. -/
def soutA_2 (c : Dev nD) (t : Fin cfg1.N) (hc0 : cond1_0 (grid1.coords t)) (hc1 : ¬cond1_1 (grid1.coords t)) : Vec F S512x768 .f32 :=
  VS1_2.read (Elt F) (VS1_2.writes (Elt F) VS1_2.junk (runA V c t hc0 hc1).2.2.2.1)

/-- What case A leaves in the output block (nothing is stored: a placeholder no one consults, the window being idle there). -/
def outA_6 (c : Dev nD) (t : Fin cfg1.N) (hc0 : cond1_0 (grid1.coords t)) (hc1 : ¬cond1_1 (grid1.coords t)) : Vec F S512x768 .f32 :=
  VO1_6.read (Elt F) (VO1_6.writes (Elt F) VO1_6.junk (runA V c t hc0 hc1).1)
/-- The four buffers after case A. -/
def outsA (c : Dev nD) (t : Fin cfg1.N) (hc0 : cond1_0 (grid1.coords t)) (hc1 : ¬cond1_1 (grid1.coords t)) : Vec F S512x768 .f32 × Vec F S512x3 .f32 × Vec F S512x3 .f32 × Vec F S512x768 .f32 :=
  (outA_6 V c t hc0 hc1, soutA_0 V c t hc0 hc1, soutA_1 V c t hc0 hc1, soutA_2 V c t hc0 hc1)

/-- The body's run at point t in case B: the pieces it writes, and the triple. -/
def runB (c : Dev nD) (t : Fin cfg1.N) (hc0 : ¬cond1_0 (grid1.coords t)) (hc1 : ¬cond1_1 (grid1.coords t)) (xs0 xs1 : Vec F S512x3 .f32) (xs2 : Vec F S512x768 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) (iblk1 V c 5 t) xs0 xs1 xs2

/-- Case B's pieces for running buffer 0 tile it, so they cover it. -/
theorem scoverB_0 (c : Dev nD) (t : Fin cfg1.N) (hc0 : ¬cond1_0 (grid1.coords t)) (hc1 : ¬cond1_1 (grid1.coords t)) (xs0 xs1 : Vec F S512x3 .f32) (xs2 : Vec F S512x768 .f32) (y : S512x3.Idx) :
    ∃ pc ∈ (runB V c t hc0 hc1 xs0 xs1 xs2).2.1, y ∈ pc.1.set :=
  View.cover_of_tiledL (runB V c t hc0 hc1 xs0 xs1 xs2).2.1 S512x1.size (by sl_kernel_rfl) y
/-- What case B leaves in running buffer 0: its pieces read back. -/
def soutB_0 (c : Dev nD) (t : Fin cfg1.N) (hc0 : ¬cond1_0 (grid1.coords t)) (hc1 : ¬cond1_1 (grid1.coords t)) (xs0 xs1 : Vec F S512x3 .f32) (xs2 : Vec F S512x768 .f32) : Vec F S512x3 .f32 :=
  VS1_0.read (Elt F) (VS1_0.writes (Elt F) VS1_0.junk (runB V c t hc0 hc1 xs0 xs1 xs2).2.1)
/-- Case B's pieces for running buffer 1 tile it, so they cover it. -/
theorem scoverB_1 (c : Dev nD) (t : Fin cfg1.N) (hc0 : ¬cond1_0 (grid1.coords t)) (hc1 : ¬cond1_1 (grid1.coords t)) (xs0 xs1 : Vec F S512x3 .f32) (xs2 : Vec F S512x768 .f32) (y : S512x3.Idx) :
    ∃ pc ∈ (runB V c t hc0 hc1 xs0 xs1 xs2).2.2.1, y ∈ pc.1.set :=
  View.cover_of_tiledL (runB V c t hc0 hc1 xs0 xs1 xs2).2.2.1 S512x1.size (by sl_kernel_rfl) y
/-- What case B leaves in running buffer 1: its pieces read back. -/
def soutB_1 (c : Dev nD) (t : Fin cfg1.N) (hc0 : ¬cond1_0 (grid1.coords t)) (hc1 : ¬cond1_1 (grid1.coords t)) (xs0 xs1 : Vec F S512x3 .f32) (xs2 : Vec F S512x768 .f32) : Vec F S512x3 .f32 :=
  VS1_1.read (Elt F) (VS1_1.writes (Elt F) VS1_1.junk (runB V c t hc0 hc1 xs0 xs1 xs2).2.2.1)
/-- Case B's pieces for running buffer 2 tile it, so they cover it. -/
theorem scoverB_2 (c : Dev nD) (t : Fin cfg1.N) (hc0 : ¬cond1_0 (grid1.coords t)) (hc1 : ¬cond1_1 (grid1.coords t)) (xs0 xs1 : Vec F S512x3 .f32) (xs2 : Vec F S512x768 .f32) (y : S512x768.Idx) :
    ∃ pc ∈ (runB V c t hc0 hc1 xs0 xs1 xs2).2.2.2.1, y ∈ pc.1.set :=
  View.cover_of_tiledL (runB V c t hc0 hc1 xs0 xs1 xs2).2.2.2.1 S512x256.size (by sl_kernel_rfl) y
/-- What case B leaves in running buffer 2: its pieces read back. -/
def soutB_2 (c : Dev nD) (t : Fin cfg1.N) (hc0 : ¬cond1_0 (grid1.coords t)) (hc1 : ¬cond1_1 (grid1.coords t)) (xs0 xs1 : Vec F S512x3 .f32) (xs2 : Vec F S512x768 .f32) : Vec F S512x768 .f32 :=
  VS1_2.read (Elt F) (VS1_2.writes (Elt F) VS1_2.junk (runB V c t hc0 hc1 xs0 xs1 xs2).2.2.2.1)

/-- What case B leaves in the output block (nothing is stored: a placeholder no one consults, the window being idle there). -/
def outB_6 (c : Dev nD) (t : Fin cfg1.N) (hc0 : ¬cond1_0 (grid1.coords t)) (hc1 : ¬cond1_1 (grid1.coords t)) (xs0 xs1 : Vec F S512x3 .f32) (xs2 : Vec F S512x768 .f32) : Vec F S512x768 .f32 :=
  VO1_6.read (Elt F) (VO1_6.writes (Elt F) VO1_6.junk (runB V c t hc0 hc1 xs0 xs1 xs2).1)
/-- The four buffers after case B. -/
def outsB (c : Dev nD) (t : Fin cfg1.N) (hc0 : ¬cond1_0 (grid1.coords t)) (hc1 : ¬cond1_1 (grid1.coords t)) (xs0 xs1 : Vec F S512x3 .f32) (xs2 : Vec F S512x768 .f32) : Vec F S512x768 .f32 × Vec F S512x3 .f32 × Vec F S512x3 .f32 × Vec F S512x768 .f32 :=
  (outB_6 V c t hc0 hc1 xs0 xs1 xs2, soutB_0 V c t hc0 hc1 xs0 xs1 xs2, soutB_1 V c t hc0 hc1 xs0 xs1 xs2, soutB_2 V c t hc0 hc1 xs0 xs1 xs2)

/-- The body's run at point t in case C: the pieces it writes, and the triple. -/
def runC (c : Dev nD) (t : Fin cfg1.N) (hc0 : ¬cond1_0 (grid1.coords t)) (hc1 : cond1_1 (grid1.coords t)) (xs0 xs1 : Vec F S512x3 .f32) (xs2 : Vec F S512x768 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) (iblk1 V c 5 t) xs0 xs1 xs2

/-- Case C's pieces for running buffer 0 tile it, so they cover it. -/
theorem scoverC_0 (c : Dev nD) (t : Fin cfg1.N) (hc0 : ¬cond1_0 (grid1.coords t)) (hc1 : cond1_1 (grid1.coords t)) (xs0 xs1 : Vec F S512x3 .f32) (xs2 : Vec F S512x768 .f32) (y : S512x3.Idx) :
    ∃ pc ∈ (runC V c t hc0 hc1 xs0 xs1 xs2).2.1, y ∈ pc.1.set :=
  View.cover_of_tiledL (runC V c t hc0 hc1 xs0 xs1 xs2).2.1 S512x1.size (by sl_kernel_rfl) y
/-- What case C leaves in running buffer 0: its pieces read back. -/
def soutC_0 (c : Dev nD) (t : Fin cfg1.N) (hc0 : ¬cond1_0 (grid1.coords t)) (hc1 : cond1_1 (grid1.coords t)) (xs0 xs1 : Vec F S512x3 .f32) (xs2 : Vec F S512x768 .f32) : Vec F S512x3 .f32 :=
  VS1_0.read (Elt F) (VS1_0.writes (Elt F) VS1_0.junk (runC V c t hc0 hc1 xs0 xs1 xs2).2.1)
/-- Case C's pieces for running buffer 1 tile it, so they cover it. -/
theorem scoverC_1 (c : Dev nD) (t : Fin cfg1.N) (hc0 : ¬cond1_0 (grid1.coords t)) (hc1 : cond1_1 (grid1.coords t)) (xs0 xs1 : Vec F S512x3 .f32) (xs2 : Vec F S512x768 .f32) (y : S512x3.Idx) :
    ∃ pc ∈ (runC V c t hc0 hc1 xs0 xs1 xs2).2.2.1, y ∈ pc.1.set :=
  View.cover_of_tiledL (runC V c t hc0 hc1 xs0 xs1 xs2).2.2.1 S512x1.size (by sl_kernel_rfl) y
/-- What case C leaves in running buffer 1: its pieces read back. -/
def soutC_1 (c : Dev nD) (t : Fin cfg1.N) (hc0 : ¬cond1_0 (grid1.coords t)) (hc1 : cond1_1 (grid1.coords t)) (xs0 xs1 : Vec F S512x3 .f32) (xs2 : Vec F S512x768 .f32) : Vec F S512x3 .f32 :=
  VS1_1.read (Elt F) (VS1_1.writes (Elt F) VS1_1.junk (runC V c t hc0 hc1 xs0 xs1 xs2).2.2.1)
/-- Case C's pieces for running buffer 2 tile it, so they cover it. -/
theorem scoverC_2 (c : Dev nD) (t : Fin cfg1.N) (hc0 : ¬cond1_0 (grid1.coords t)) (hc1 : cond1_1 (grid1.coords t)) (xs0 xs1 : Vec F S512x3 .f32) (xs2 : Vec F S512x768 .f32) (y : S512x768.Idx) :
    ∃ pc ∈ (runC V c t hc0 hc1 xs0 xs1 xs2).2.2.2.1, y ∈ pc.1.set :=
  View.cover_of_tiledL (runC V c t hc0 hc1 xs0 xs1 xs2).2.2.2.1 S512x256.size (by sl_kernel_rfl) y
/-- What case C leaves in running buffer 2: its pieces read back. -/
def soutC_2 (c : Dev nD) (t : Fin cfg1.N) (hc0 : ¬cond1_0 (grid1.coords t)) (hc1 : cond1_1 (grid1.coords t)) (xs0 xs1 : Vec F S512x3 .f32) (xs2 : Vec F S512x768 .f32) : Vec F S512x768 .f32 :=
  VS1_2.read (Elt F) (VS1_2.writes (Elt F) VS1_2.junk (runC V c t hc0 hc1 xs0 xs1 xs2).2.2.2.1)

/-- Case C's one store of the output block covers it. -/
theorem coverC_6 (c : Dev nD) (t : Fin cfg1.N) (hc0 : ¬cond1_0 (grid1.coords t)) (hc1 : cond1_1 (grid1.coords t)) (xs0 xs1 : Vec F S512x3 .f32) (xs2 : Vec F S512x768 .f32) (y : S512x768.Idx) :
    ∃ pc ∈ (runC V c t hc0 hc1 xs0 xs1 xs2).1, y ∈ pc.1.set :=
  View.cover_of_tiledL (runC V c t hc0 hc1 xs0 xs1 xs2).1 S512x768.size (by sl_kernel_rfl) y
/-- What case C leaves in the output block. -/
def outC_6 (c : Dev nD) (t : Fin cfg1.N) (hc0 : ¬cond1_0 (grid1.coords t)) (hc1 : cond1_1 (grid1.coords t)) (xs0 xs1 : Vec F S512x3 .f32) (xs2 : Vec F S512x768 .f32) : Vec F S512x768 .f32 :=
  VO1_6.read (Elt F) (VO1_6.writes (Elt F) VO1_6.junk (runC V c t hc0 hc1 xs0 xs1 xs2).1)
/-- The four buffers after case C. -/
def outsC (c : Dev nD) (t : Fin cfg1.N) (hc0 : ¬cond1_0 (grid1.coords t)) (hc1 : cond1_1 (grid1.coords t)) (xs0 xs1 : Vec F S512x3 .f32) (xs2 : Vec F S512x768 .f32) : Vec F S512x768 .f32 × Vec F S512x3 .f32 × Vec F S512x3 .f32 × Vec F S512x768 .f32 :=
  (outC_6 V c t hc0 hc1 xs0 xs1 xs2, soutC_0 V c t hc0 hc1 xs0 xs1 xs2, soutC_1 V c t hc0 hc1 xs0 xs1 xs2, soutC_2 V c t hc0 hc1 xs0 xs1 xs2)

/-! ## What the buffers hold after each point -/

/-- The output block and the three running buffers after the body at position n: the case the key-tile coordinate
    selects there, at key tiles 1 to 5 from what the point before left in the running buffers. -/
def outsAt1 (c : Dev nD) : (n : ℕ) → n < cfg1.N → Vec F S512x768 .f32 × Vec F S512x3 .f32 × Vec F S512x3 .f32 × Vec F S512x768 .f32
  | 0, hn => outsA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 6 = 0 then
      if h1 : (n + 1) % 6 = 5 then False.elim (by omega)
      else outsA V c ⟨n + 1, hn⟩ ((hcond1_0 ⟨n + 1, hn⟩).mpr h0) (fun h => h1 ((hcond1_1 ⟨n + 1, hn⟩).mp h))
    else
      if h1 : (n + 1) % 6 = 5 then
        outsC V c ⟨n + 1, hn⟩ (fun h => h0 ((hcond1_0 ⟨n + 1, hn⟩).mp h)) ((hcond1_1 ⟨n + 1, hn⟩).mpr h1)
          (outsAt1 c n (Nat.lt_of_succ_lt hn)).2.1 (outsAt1 c n (Nat.lt_of_succ_lt hn)).2.2.1 (outsAt1 c n (Nat.lt_of_succ_lt hn)).2.2.2
      else
        outsB V c ⟨n + 1, hn⟩ (fun h => h0 ((hcond1_0 ⟨n + 1, hn⟩).mp h)) (fun h => h1 ((hcond1_1 ⟨n + 1, hn⟩).mp h))
          (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 6 = 0) (h1 : ¬t.val % 6 = 5) :
    outsAt1 V c t.val t.isLt = outsA V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 6 = 0) (h1 : ¬t.val % 6 = 5) :
    outsAt1 V c t.val t.isLt = outsB V c t (fun h => h0 ((hcond1_0 t).mp h)) (fun h => h1 ((hcond1_1 t).mp h))
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 6 = 0) (h1 : t.val % 6 = 5) :
    outsAt1 V c t.val t.isLt = outsC V c t (fun h => h0 ((hcond1_0 t).mp h)) ((hcond1_1 t).mpr h1)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the resting one; afterwards the projection
    region's staging buffers at anything, the three running buffers at what the point before left, the fourth
    scratch at anything, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (outsAt1 V c n hn).2.1
      ∗ owns (c : Thread nD τ) scM1_1 fullShare (outsAt1 V c n hn).2.2.1
      ∗ owns (c : Thread nD τ) scM1_2 fullShare (outsAt1 V c n hn).2.2.2
      ∗ (∃ d, owns (c : Thread nD τ) scM1_3 fullShare d)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (outsAt1 V c n hn).2.1
      ∗ owns (c : Thread nD τ) scM1_1 fullShare (outsAt1 V c n hn).2.2.1
      ∗ owns (c : Thread nD τ) scM1_2 fullShare (outsAt1 V c n hn).2.2.2
      ∗ (∃ d, owns (c : Thread nD τ) scM1_3 fullShare d)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare (outsAt1 V c (n - 1) (by omega)).2.1
      ∗ owns (c : Thread nD τ) scM1_1 fullShare (outsAt1 V c (n - 1) (by omega)).2.2.1
      ∗ owns (c : Thread nD τ) scM1_2 fullShare (outsAt1 V c (n - 1) (by omega)).2.2.2
      ∗ (∃ d, owns (c : Thread nD τ) scM1_3 fullShare d)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 16000000 in
/-- The body at any point: the key-tile coordinate says which case the point is in; the invariant hands the body the
    running buffers at what the point before left (at anything at the very first point) and takes them back at this
    point's contents; the output block is handed back untouched where it is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 72 := lt_of_lt_of_eq t.isLt (show cfg1.N = 72 from N_1)
  by_cases h0 : t.val % 6 = 0
  · by_cases h1 : t.val % 6 = 5
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold outsA soutA_0 soutA_1 soutA_2; (try dsimp only)
      by_cases hz : t.val = 0
      ·
        rw [PhiS_castSucc V c t, PhiS_zero V c _ _ hz, PhiA1_eq]
        iintro ⟨⟨⟨Hg0, Hg1, Hg2, Hg3, Hg4, Hg5, Hg6, Hg7, Hg8, Hg9, ⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runA V c t ((hcond1_0 t).mpr h0) (fun h => h1 ((hcond1_1 t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, ⟨%es0, HS0⟩, ⟨%es1, HS1⟩, ⟨%es2, HS2⟩, ⟨%es3, HS3⟩⟩
        isplitl [Hg0 Hg1 Hg2 Hg3 Hg4 Hg5 Hg6 Hg7 Hg8 Hg9 HS0 HS1 HS2 HS3 Hg]
        · isplitl [Hg0 Hg1 Hg2 Hg3 Hg4 Hg5 Hg6 Hg7 Hg8 Hg9 HS0 HS1 HS2 HS3]
          ·
            isplitl [Hg0]; · iexact Hg0
            isplitl [Hg1]; · iexact Hg1
            isplitl [Hg2]; · iexact Hg2
            isplitl [Hg3]; · iexact Hg3
            isplitl [Hg4]; · iexact Hg4
            isplitl [Hg5]; · iexact Hg5
            isplitl [Hg6]; · iexact Hg6
            isplitl [Hg7]; · iexact Hg7
            isplitl [Hg8]; · iexact Hg8
            isplitl [Hg9]; · iexact Hg9
            isplitl [HS0]
            · unfold owns; iexists _; isplitr
              swap; · iexact HS0
              ipureintro; exact View.read_writes_of_cover _ _ _ _ _ (scoverA_0 V c t ((hcond1_0 t).mpr h0) (fun h => h1 ((hcond1_1 t).mp h)))
            isplitl [HS1]
            · unfold owns; iexists _; isplitr
              swap; · iexact HS1
              ipureintro; exact View.read_writes_of_cover _ _ _ _ _ (scoverA_1 V c t ((hcond1_0 t).mpr h0) (fun h => h1 ((hcond1_1 t).mp h)))
            isplitl [HS2]
            · unfold owns; iexists _; isplitr
              swap; · iexact HS2
              ipureintro; exact View.read_writes_of_cover _ _ _ _ _ (scoverA_2 V c t ((hcond1_0 t).mpr h0) (fun h => h1 ((hcond1_1 t).mp h)))
            iexists _; iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS_castSucc V c t, PhiS_pos V c _ _ hz]
        iintro ⟨⟨⟨Hg0, Hg1, Hg2, Hg3, Hg4, Hg5, Hg6, Hg7, Hg8, Hg9, HS0, HS1, HS2, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runA V c t ((hcond1_0 t).mpr h0) (fun h => h1 ((hcond1_1 t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, ⟨%es0, HS0⟩, ⟨%es1, HS1⟩, ⟨%es2, HS2⟩, ⟨%es3, HS3⟩⟩
        isplitl [Hg0 Hg1 Hg2 Hg3 Hg4 Hg5 Hg6 Hg7 Hg8 Hg9 HS0 HS1 HS2 HS3 Hg]
        · isplitl [Hg0 Hg1 Hg2 Hg3 Hg4 Hg5 Hg6 Hg7 Hg8 Hg9 HS0 HS1 HS2 HS3]
          ·
            isplitl [Hg0]; · iexact Hg0
            isplitl [Hg1]; · iexact Hg1
            isplitl [Hg2]; · iexact Hg2
            isplitl [Hg3]; · iexact Hg3
            isplitl [Hg4]; · iexact Hg4
            isplitl [Hg5]; · iexact Hg5
            isplitl [Hg6]; · iexact Hg6
            isplitl [Hg7]; · iexact Hg7
            isplitl [Hg8]; · iexact Hg8
            isplitl [Hg9]; · iexact Hg9
            isplitl [HS0]
            · unfold owns; iexists _; isplitr
              swap; · iexact HS0
              ipureintro; exact View.read_writes_of_cover _ _ _ _ _ (scoverA_0 V c t ((hcond1_0 t).mpr h0) (fun h => h1 ((hcond1_1 t).mp h)))
            isplitl [HS1]
            · unfold owns; iexists _; isplitr
              swap; · iexact HS1
              ipureintro; exact View.read_writes_of_cover _ _ _ _ _ (scoverA_1 V c t ((hcond1_0 t).mpr h0) (fun h => h1 ((hcond1_1 t).mp h)))
            isplitl [HS2]
            · unfold owns; iexists _; isplitr
              swap; · iexact HS2
              ipureintro; exact View.read_writes_of_cover _ _ _ _ _ (scoverA_2 V c t ((hcond1_0 t).mpr h0) (fun h => h1 ((hcond1_1 t).mp h)))
            iexists _; iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 6 = 5
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold outsC outC_6 soutC_0 soutC_1 soutC_2; (try dsimp only)
      by_cases hz : t.val = 0
      · exfalso; omega
      ·
        rw [PhiS_castSucc V c t, PhiS_pos V c _ _ hz]
        iintro ⟨⟨⟨Hg0, Hg1, Hg2, Hg3, Hg4, Hg5, Hg6, Hg7, Hg8, Hg9, HS0, HS1, HS2, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runC V c t (fun h => h0 ((hcond1_0 t).mp h)) ((hcond1_1 t).mpr h1) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexists _; iexact HS3
        iintro ⟨H0, H1, H2, H3, H4, H5, ⟨%e6, H6⟩, ⟨%es0, HS0⟩, ⟨%es1, HS1⟩, ⟨%es2, HS2⟩, ⟨%es3, HS3⟩⟩
        isplitl [Hg0 Hg1 Hg2 Hg3 Hg4 Hg5 Hg6 Hg7 Hg8 Hg9 HS0 HS1 HS2 HS3 Hg]
        · isplitl [Hg0 Hg1 Hg2 Hg3 Hg4 Hg5 Hg6 Hg7 Hg8 Hg9 HS0 HS1 HS2 HS3]
          ·
            isplitl [Hg0]; · iexact Hg0
            isplitl [Hg1]; · iexact Hg1
            isplitl [Hg2]; · iexact Hg2
            isplitl [Hg3]; · iexact Hg3
            isplitl [Hg4]; · iexact Hg4
            isplitl [Hg5]; · iexact Hg5
            isplitl [Hg6]; · iexact Hg6
            isplitl [Hg7]; · iexact Hg7
            isplitl [Hg8]; · iexact Hg8
            isplitl [Hg9]; · iexact Hg9
            isplitl [HS0]
            · unfold owns; iexists _; isplitr
              swap; · iexact HS0
              ipureintro; exact View.read_writes_of_cover _ _ _ _ _ (scoverC_0 V c t (fun h => h0 ((hcond1_0 t).mp h)) ((hcond1_1 t).mpr h1) _ _ _)
            isplitl [HS1]
            · unfold owns; iexists _; isplitr
              swap; · iexact HS1
              ipureintro; exact View.read_writes_of_cover _ _ _ _ _ (scoverC_1 V c t (fun h => h0 ((hcond1_0 t).mp h)) ((hcond1_1 t).mpr h1) _ _ _)
            isplitl [HS2]
            · unfold owns; iexists _; isplitr
              swap; · iexact HS2
              ipureintro; exact View.read_writes_of_cover _ _ _ _ _ (scoverC_2 V c t (fun h => h0 ((hcond1_0 t).mp h)) ((hcond1_1 t).mpr h1) _ _ _)
            iexists _; iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverC_6 V c t (fun h => h0 ((hcond1_0 t).mp h)) ((hcond1_1 t).mpr h1) _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold outsB soutB_0 soutB_1 soutB_2; (try dsimp only)
      by_cases hz : t.val = 0
      · exfalso; omega
      ·
        rw [PhiS_castSucc V c t, PhiS_pos V c _ _ hz]
        iintro ⟨⟨⟨Hg0, Hg1, Hg2, Hg3, Hg4, Hg5, Hg6, Hg7, Hg8, Hg9, HS0, HS1, HS2, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩⟩
        iapply ((runB V c t (fun h => h0 ((hcond1_0 t).mp h)) (fun h => h1 ((hcond1_1 t).mp h)) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexists _; iexact HS3
        iintro ⟨H0, H1, H2, H3, H4, H5, H6, ⟨%es0, HS0⟩, ⟨%es1, HS1⟩, ⟨%es2, HS2⟩, ⟨%es3, HS3⟩⟩
        isplitl [Hg0 Hg1 Hg2 Hg3 Hg4 Hg5 Hg6 Hg7 Hg8 Hg9 HS0 HS1 HS2 HS3 Hg]
        · isplitl [Hg0 Hg1 Hg2 Hg3 Hg4 Hg5 Hg6 Hg7 Hg8 Hg9 HS0 HS1 HS2 HS3]
          ·
            isplitl [Hg0]; · iexact Hg0
            isplitl [Hg1]; · iexact Hg1
            isplitl [Hg2]; · iexact Hg2
            isplitl [Hg3]; · iexact Hg3
            isplitl [Hg4]; · iexact Hg4
            isplitl [Hg5]; · iexact Hg5
            isplitl [Hg6]; · iexact Hg6
            isplitl [Hg7]; · iexact Hg7
            isplitl [Hg8]; · iexact Hg8
            isplitl [Hg9]; · iexact Hg9
            isplitl [HS0]
            · unfold owns; iexists _; isplitr
              swap; · iexact HS0
              ipureintro; exact View.read_writes_of_cover _ _ _ _ _ (scoverB_0 V c t (fun h => h0 ((hcond1_0 t).mp h)) (fun h => h1 ((hcond1_1 t).mp h)) _ _ _)
            isplitl [HS1]
            · unfold owns; iexists _; isplitr
              swap; · iexact HS1
              ipureintro; exact View.read_writes_of_cover _ _ _ _ _ (scoverB_1 V c t (fun h => h0 ((hcond1_0 t).mp h)) (fun h => h1 ((hcond1_1 t).mp h)) _ _ _)
            isplitl [HS2]
            · unfold owns; iexists _; isplitr
              swap; · iexact HS2
              ipureintro; exact View.read_writes_of_cover _ _ _ _ _ (scoverB_2 V c t (fun h => h0 ((hcond1_0 t).mp h)) (fun h => h1 ((hcond1_1 t).mp h)) _ _ _)
            iexists _; iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the resting one back: the running buffers' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 72 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Hg0, Hg1, Hg2, Hg3, Hg4, Hg5, Hg6, Hg7, Hg8, Hg9, HS0, HS1, HS2, HS3⟩, Hg⟩
  isplitl [Hg0 Hg1 Hg2 Hg3 Hg4 Hg5 Hg6 Hg7 Hg8 Hg9 HS0 HS1 HS2 HS3]
  ·
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [HS0]; · iexists _; iexact HS0
    isplitl [HS1]; · iexists _; iexact HS1
    isplitl [HS2]; · iexists _; iexact HS2
    iexact HS3
  iexact Hg

end Region1

end Cert.KernelIdeal.Frame

end
-- ==== Proof.IdealMain.lean ====
/-
  The whole run. The program is nine host operations (three weight matrices transposed and narrowed, three biases
  reshaped to rows), the projection region, the attention region. The buffers' contents at each boundary are a fold from
  the launch memory: after the host operations; after the projection region, its two output arrays at what its
  write-backs leave and every other buffer as before; after the attention region likewise. Each region is a segment over
  the thread state "every unscoped buffer at the boundary's contents, the generator register at some state, nothing owed".
  The launch over the three segments gives: every weakly fair execution terminates, nothing faults, the result array
  ends at what the attention region's write-backs leave, and every argument array ends as launched - no host operation
  and no region writes one.
-/
import proofs.«181948_j79242146611549_2_alg».proof.Proof.IdealRegion0
import proofs.«181948_j79242146611549_2_alg».proof.Proof.IdealRegion1
import proofs.«181948_j79242146611549_2_alg».proof.Proof.Gen.KernelIdeal.Regions

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((dat1 (V2 m ρ) c).arrAt_in 2 rfl _).trans (A_eq1 (V2 m ρ) c 2))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The attention region's invariant before its first point is the resting one, -/
theorem hin1u (c : Dev nD) : iprop(Pipeline.scopedRest spec1 c ∗ ∃ r, prngReg c r) ⊢ (dat1 (V2 m ρ) c).Φ 0 := by
  have h := hin1 (V2 m ρ) c
  unfold Pipeline.ΦA at h
  exact h
/-- and after its last point it gives the resting one back. -/
theorem hout1u (c : Dev nD) : (dat1 (V2 m ρ) c).Φ (Fin.last cfg1.N) ⊢ iprop(Pipeline.scopedRest spec1 c ∗ ∃ r, prngReg c r) := by
  have h := hout1 (V2 m ρ) c
  unfold Pipeline.ΦA at h
  exact h

/-! ## The regions as segments -/

set_option backward.isDefEq.respectTransparency.types false in
/-- Region 0 as a segment: entered from every unscoped buffer at the contents before it, left at the contents
    after it; its arrays split out of the unscoped buffers and put back; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents
    after it; its arrays split out of the unscoped buffers and put back; the generator register into the invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1u m ρ c)
    isplitl [Hr]; · iexact Hr
    iexact Hp
  hout c := by
    rw [Pipeline.ownSems0_none, show (pdats m ρ 1 c).Φ (Fin.last _) = (dat1 (V2 m ρ) c).Φ (Fin.last cfg1.N) from rfl]
    have hh := hout1u m ρ c
    iintro H
    ihave H' := hh $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution terminates, nothing faulting; every final
    state has the result array at what the attention region's write-backs leave and every argument array as launched. -/
theorem run_full : θ_run defs (onTc (τ := τ) (main (F := F))) ⟨m, fun _ => 0, ρ⟩ (fun r => ∀ c : Dev nD,
      r.2.mem ((c.tc : Thread nD τ).loc main_v10) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v10 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_full m ρ)

end Cert.KernelIdeal.Frame

end
-- ==== Proof.RefSpec.lean ====
/-
  The reference's result, written as ONE function `G` of its eight argument arrays, index by index.

  The arrays: `x : [6144, 768]` (a row per node), the adjacency `adj : [6144, 6144]` of 32-bit integers, and three
  linear layers `W : [768, 768]`, `b : [768]`. A float is an extended real; a feature `j < 768` is lane `d = j % 256` of
  head `h = j / 256` (`j = 256 h + d`). With `lrelu v = v` for `0 ≤ v` and `slope · v` otherwise,

      linear a W b n j = Σ_{k < 768} a n k · W j k + b j                      (a row of `a` against row `j` of `W`)
      xnew n j         = lrelu (linear x W_fc b_fc n j)
      qry n j          = lrelu (linear xnew W_qfc b_qfc n j)
      score h n m      = (Σ_{d < 256} qry n (256 h + d) · xnew m (256 h + d)) / 10
      masked h n m     = -∞ if adj n m = 0, else score h n m
      rowMax h n       = max over the keys m of masked h n m                   (a `Finset.sup`; -∞ when every key is masked)
      weight h n m     = e^(masked h n m - rowMax h n) / Σ_{m'} e^(masked h n m' - rowMax h n)
      attn h n d       = Σ_{m < 6144} weight h n m · xnew m (256 h + d)
      res1 n j         = x n j + attn (j / 256) n (j % 256)
      G n j            = x n j + lrelu (linear res1 W_final b_final n j)

  The division by ten is the extended reals' division by the literal's value (`Ideal.div _ ten`), as the reference has it;
  `ten_eq` evaluates the literal and `score_eq_mul` restates the quotient as the product with the real `1/10`. The slope
  and the divisor stay the literals' words (`Ideal.ofBits`); only zero and -∞ are evaluated.
-/
import Idealize.ShloMosaic.PureOps.Ideal
import Idealize.ShloMosaic.PureOps.Ideal.Laws
import Idealize.ShloMosaic.Lib.ValueIdx

noncomputable section

namespace Cert.Proof.RefSpec

open Idealize.ShloMosaic Idealize.ShloMosaic.ValueIdx

/-! ## Shapes, features and heads -/

/-- Nodes by features. -/
abbrev SND : Shape := ⟨2, ![6144, 768]⟩
/-- Nodes by nodes. -/
abbrev SNN : Shape := ⟨2, ![6144, 6144]⟩
/-- A layer's weights. -/
abbrev SDD : Shape := ⟨2, ![768, 768]⟩
/-- A layer's bias. -/
abbrev SD : Shape := ⟨1, ![768]⟩

/-- Lane `d` of head `h` is feature `256 h + d`. -/
def feat (h : Fin 3) (d : Fin 256) : Fin 768 := ⟨h.val * 256 + d.val, by omega⟩
/-- The head a feature belongs to. -/
def headOf (j : Fin 768) : Fin 3 := ⟨j.val / 256, by omega⟩
/-- A feature's lane inside its head. -/
def laneOf (j : Fin 768) : Fin 256 := ⟨j.val % 256, by omega⟩

theorem feat_val (h : Fin 3) (d : Fin 256) : (feat h d).val = h.val * 256 + d.val := rfl
theorem headOf_val (j : Fin 768) : (headOf j).val = j.val / 256 := rfl
theorem laneOf_val (j : Fin 768) : (laneOf j).val = j.val % 256 := rfl
theorem feat_headOf_laneOf (j : Fin 768) : feat (headOf j) (laneOf j) = j :=
  Fin.ext (by rw [feat_val, headOf_val, laneOf_val]; omega)
theorem headOf_feat (h : Fin 3) (d : Fin 256) : headOf (feat h d) = h :=
  Fin.ext (by rw [headOf_val, feat_val]; omega)
theorem laneOf_feat (h : Fin 3) (d : Fin 256) : laneOf (feat h d) = d :=
  Fin.ext (by rw [laneOf_val, feat_val]; omega)

/-! ## The literals -/

/-- The leaky slope: the f32 word of `0.2`, never evaluated. -/
abbrev slope : EReal := Ideal.ofBits .f32 0x3E4CCCCD#32
/-- The scores' divisor: the f32 word of `10.0`. -/
abbrev ten : EReal := Ideal.ofBits .f32 0x41200000#32

/-- The word `0xFF800000` is -∞. -/
theorem ofBits_neg_inf : Ideal.ofBits .f32 0xFF800000#32 = ⊥ := by simp [Ideal.ofBits, Ideal.ieee]
/-- The divisor is the real number ten. -/
theorem ten_eq : ten = ((10 : ℝ) : EReal) := by
  simp [Ideal.ofBits, Ideal.ieee, -EReal.coe_mul]; norm_num

/-! ## The leaky rectifier -/

/-- `v` where `0 ≤ v`, `slope · v` elsewhere. -/
def lrelu (v : EReal) : EReal := if 0 ≤ v then v else slope * v

/-- As the programs spell it: a select on the comparison `v ≥ 0` against the zero word. -/
theorem select_cmp_eq_lrelu (v : EReal) :
    Scalar.select (Ideal.cmp .oge v (Ideal.ofBits .f32 0x00000000#32)) v (slope * v) = lrelu v := by
  unfold lrelu Scalar.select Ideal.cmp
  rw [Ideal.ofBits_zero_f32]
  by_cases h : (0 : EReal) ≤ v <;> simp [h]

/-! ## The mask's test -/

/-- As the programs spell the mask: a select on the integer comparison of the adjacency entry with the zero word. -/
theorem select_cmpi_zero (a : BitVec 32) (u v : EReal) :
    Scalar.select (IntOp.cmpi .eq a 0#32) u v = if a = 0#32 then u else v := by
  unfold Scalar.select IntOp.cmpi
  by_cases hz : a = 0#32
  · simp [hz]
  · have hb : (a == 0#32) = false := by simp [hz]
    simp [hz, hb]

/-! ## The function -/

/-- A linear layer at node `n` and output feature `j`: row `n` of `a` against row `j` of `W`, plus the bias. -/
def linear (a : Fin 6144 → Fin 768 → EReal) (W : FVec Ideal SDD .f32) (b : FVec Ideal SD .f32) (n : Fin 6144)
    (j : Fin 768) : EReal :=
  (∑ k : Fin 768, a n k * W (ix2 j k)) + b (ix1 j)

section
variable (x : FVec Ideal SND .f32) (adj : IVec SNN 32)
  (Wfc : FVec Ideal SDD .f32) (bfc : FVec Ideal SD .f32) (Wq : FVec Ideal SDD .f32) (bq : FVec Ideal SD .f32)
  (Wf : FVec Ideal SDD .f32) (bf : FVec Ideal SD .f32)

/-- The first layer: the values every head attends over. -/
def xnew (n : Fin 6144) (j : Fin 768) : EReal := lrelu (linear (fun n k => x (ix2 n k)) Wfc bfc n j)

/-- The second layer: the queries. -/
def qry (n : Fin 6144) (j : Fin 768) : EReal := lrelu (linear (xnew x Wfc bfc) Wq bq n j)

/-- Head `h`'s score of query node `n` against key node `m`: the inner product over the head's 256 lanes, over ten. -/
def score (h : Fin 3) (n m : Fin 6144) : EReal :=
  Ideal.div (∑ d : Fin 256, qry x Wfc bfc Wq bq n (feat h d) * xnew x Wfc bfc m (feat h d)) ten

/-- The score where `n` and `m` are adjacent, -∞ where `adj n m = 0`. -/
def masked (h : Fin 3) (n m : Fin 6144) : EReal :=
  if adj (ix2 n m) = 0#32 then ⊥ else score x Wfc bfc Wq bq h n m

/-- The largest masked score of query `n` in head `h`. -/
def rowMax (h : Fin 3) (n : Fin 6144) : EReal := Finset.univ.sup (masked x adj Wfc bfc Wq bq h n)

/-- Head `h`'s attention of query `n` at lane `d`: the values weighted by the softmax of the masked scores. -/
def attn (h : Fin 3) (n : Fin 6144) (d : Fin 256) : EReal :=
  ∑ m : Fin 6144,
    Ideal.div (Ideal.exp (masked x adj Wfc bfc Wq bq h n m - rowMax x adj Wfc bfc Wq bq h n))
        (∑ m' : Fin 6144, Ideal.exp (masked x adj Wfc bfc Wq bq h n m' - rowMax x adj Wfc bfc Wq bq h n))
      * xnew x Wfc bfc m (feat h d)

/-- The first residual: the heads' outputs side by side on the feature axis, added to `x`. -/
def res1 (n : Fin 6144) (j : Fin 768) : EReal := x (ix2 n j) + attn x adj Wfc bfc Wq bq (headOf j) n (laneOf j)

/-- THE RESULT: the second residual around the last layer. -/
def G : FVec Ideal SND .f32 :=
  fun i => x i + lrelu (linear (res1 x adj Wfc bfc Wq bq) Wf bf (i 0) (i 1))

/-- `G` at node `n`, feature `j`. -/
theorem G_apply (n : Fin 6144) (j : Fin 768) :
    G x adj Wfc bfc Wq bq Wf bf (ix2 n j) = x (ix2 n j) + lrelu (linear (res1 x adj Wfc bfc Wq bq) Wf bf n j) := rfl

/-- The attention in the softmax's own letters: with `s = masked h n` the score of each key and `M = Finset.univ.sup s`,
    `attn h n d = Σ_k (e^(s k - M) / Σ_k' e^(s k' - M)) · xnew k (256 h + d)`. -/
theorem attn_eq_softmax (h : Fin 3) (n : Fin 6144) (d : Fin 256) :
    attn x adj Wfc bfc Wq bq h n d
      = ∑ k, Ideal.div (Ideal.exp (masked x adj Wfc bfc Wq bq h n k - Finset.univ.sup (masked x adj Wfc bfc Wq bq h n)))
            (∑ k', Ideal.exp (masked x adj Wfc bfc Wq bq h n k' - Finset.univ.sup (masked x adj Wfc bfc Wq bq h n)))
          * xnew x Wfc bfc k (feat h d) := rfl

/-- The quotient by ten is the product with the real `1/10`, at the infinities too. -/
theorem score_eq_mul (h : Fin 3) (n m : Fin 6144) :
    score x Wfc bfc Wq bq h n m
      = (∑ d : Fin 256, qry x Wfc bfc Wq bq n (feat h d) * xnew x Wfc bfc m (feat h d)) * ((1 / 10 : ℝ) : EReal) := by
  unfold score
  rw [ten_eq, Ideal.div_coe (by norm_num : (10 : ℝ) ≠ 0)]

end

/-! ## The row maximum as the programs compute it -/

/-- A fold of `max` from -∞ over all the keys is the supremum of the scores. -/
theorem fold_max_bot_eq_sup {n : Nat} (s : Fin n → EReal) :
    (Finset.univ : Finset (Fin n)).fold max ⊥ s = Finset.univ.sup s := rfl

/-- -∞ is the maximum's identity. -/
theorem max_bot_left (v : EReal) : max ⊥ v = v := bot_sup_eq v

end Cert.Proof.RefSpec

end
-- ==== Proof.RefIsG.lean ====
/-
  The reference's run, read index by index, IS the specification's function `G` of the eight argument arrays.

  The run's result term is the last of the reference's stages (one stage per operation, each a function of the
  arguments). Read outermost first, at node `n` and feature `j`: the result is `x n j` plus the rectified last layer of
  the first residual; the first residual at (n, j) is `x n j` plus the attention of head `j / 256` at lane `j % 256` (the
  transposed heads laid side by side on the feature axis); the attention is the contraction over the keys of the
  softmax weights against the values; a weight is an exponential over its row's sum; the exponent is the masked score
  less the row's maximum; the row's maximum is a fold of `max` from -∞ over the key axis (each of its elements
  depends on a whole row of its operand), followed by a maximum with -∞ that changes nothing; the masked score
  is -∞ where the adjacency entry is zero and else the score; the score is the contraction over a head's 256 lanes of
  queries against values, over ten; queries and values are the second and first layers read through the reshape
  `[6144, 768] → [6144, 3, 256]` and the transpose to `[3, 6144, 256]`, which put feature `256 h + d` at (h, ·, d); each
  layer is a rectified `a @ Wᵀ + b`. Every step is an equation between index functions over literal shapes and the
  reading of one operation at an index; no arithmetic law is used beyond `0 + s = s` and `max -∞ v = v`.
-/
import proofs.«181948_j79242146611549_2_alg».proof.Proof.Gen.ReferenceIdeal.Read
import proofs.«181948_j79242146611549_2_alg».proof.Proof.RefSpec

noncomputable section

namespace Cert.Proof.RefIsG

open Cert.ReferenceIdeal Cert.ReferenceIdeal.Gen Cert.ReferenceIdeal.Read Cert.Proof.RefSpec
open Idealize.ShloMosaic Idealize.ShloMosaic.ValueIdx Idealize.ShloMosaic.TcCoe Idealize.SL.Sem

variable (x0 : FVec Ideal S6144x768 .f32) (x1 : IVec S6144x6144 32)
  (x2 : FVec Ideal S768x768 .f32) (x3 : FVec Ideal S768 .f32) (x4 : FVec Ideal S768x768 .f32) (x5 : FVec Ideal S768 .f32)
  (x6 : FVec Ideal S768x768 .f32) (x7 : FVec Ideal S768 .f32)

/-! ## The three linear layers

Each is `a @ Wᵀ + b`: the contraction's left index is (n, k), its right index (k, j) of the transposed weights, that is
(j, k) of the weights; the bias is broadcast along the rows. The three layers' index maps are the same functions. -/

/-- The contraction's left operand index: row `n`, column `k`. -/
theorem lidx_row (n : Fin 6144) (j k : Fin 768) : lidx_main_v1 (ix2 n j) k = ix2 n k :=
  funext fun a => by match a with | ⟨0, _⟩ => rfl | ⟨1, _⟩ => rfl
/-- The transposed weights at (k, j) are the weights at (j, k). -/
theorem ridx_row (n : Fin 6144) (j k : Fin 768) : idx_main_v0 (ridx_main_v1 (ix2 n j) k) = ix2 j k :=
  funext fun a => by match a with | ⟨0, _⟩ => rfl | ⟨1, _⟩ => rfl
/-- The bias broadcast to (n, j) is the bias at `j`. -/
theorem bidx_row (n : Fin 6144) (j : Fin 768) : idx_main_v2 (idx_main_v3 (ix2 n j)) = ix1 j :=
  funext fun a => by match a with | ⟨0, _⟩ => rfl

/-- The first layer before its rectifier. -/
theorem v4_eq (n : Fin 6144) (j : Fin 768) :
    val_main_v4 (F := Ideal) x0 x2 x3 (ix2 n j) = linear (fun n k => x0 (ix2 n k)) x2 x3 n j := by
  rw [val_main_v4_apply, val_main_v1_apply, val_main_v3_apply, val_main_v2_apply, bidx_row]
  unfold linear
  refine congrArg (· + x3 (ix1 j)) (Finset.sum_congr rfl fun k _ => ?_)
  rw [val_main_v0_apply, lidx_row, ridx_row]

/-- The first layer. -/
theorem v9_eq (n : Fin 6144) (j : Fin 768) :
    val_main_v9 (F := Ideal) x0 x2 x3 (ix2 n j) = xnew x0 x2 x3 n j := by
  rw [val_main_v9_apply, val_main_v6_apply, val_main_v8_apply, val_main_v5_apply, val_main_v7_apply,
    val_main_cst_apply, val_main_cst_0_apply, v4_eq]
  exact select_cmp_eq_lrelu _

/-- The second layer before its rectifier. -/
theorem v14_eq (n : Fin 6144) (j : Fin 768) :
    val_main_v14 (F := Ideal) x0 x2 x3 x4 x5 (ix2 n j) = linear (xnew x0 x2 x3) x4 x5 n j := by
  rw [val_main_v14_apply, val_main_v11_apply, val_main_v13_apply, val_main_v12_apply]
  unfold linear
  refine congrArg₂ (· + ·) (Finset.sum_congr rfl fun k _ => ?_) (congrArg x5 (bidx_row n j))
  rw [val_main_v10_apply]
  exact congrArg₂ (· * ·) ((congrArg _ (lidx_row n j k)).trans (v9_eq x0 x2 x3 n k)) (congrArg x4 (ridx_row n j k))

/-- The second layer: the queries. -/
theorem v19_eq (n : Fin 6144) (j : Fin 768) :
    val_main_v19 (F := Ideal) x0 x2 x3 x4 x5 (ix2 n j) = qry x0 x2 x3 x4 x5 n j := by
  rw [val_main_v19_apply, val_main_v16_apply, val_main_v18_apply, val_main_v15_apply, val_main_v17_apply,
    val_main_cst_1_apply, val_main_cst_2_apply, v14_eq]
  exact select_cmp_eq_lrelu _

/-! ## The heads

`[6144, 768] → [6144, 3, 256] → [3, 6144, 256]`: entry (h, n, d) of the result is entry (n, 256 h + d) of the operand. -/

/-- The reshape and transpose at (h, n, d) read the flat feature `256 h + d` of row `n`. -/
theorem head_idx (h : Fin 3) (n : Fin 6144) (d : Fin 256) : idx_main_v20 (idx_main_v21 (ix3 h n d)) = ix2 n (feat h d) :=
  funext fun a => Fin.ext (by
    have hh := h.isLt; have hn := n.isLt; have hd := d.isLt
    match a with
    | ⟨0, _⟩ => show ((n.val * 3 + h.val) * 256 + d.val) / 768 = n.val; omega
    | ⟨1, _⟩ => show ((n.val * 3 + h.val) * 256 + d.val) % 768 = h.val * 256 + d.val; omega)

/-- The values, head by head. -/
theorem v21_eq (h : Fin 3) (n : Fin 6144) (d : Fin 256) :
    val_main_v21 (F := Ideal) x0 x2 x3 (ix3 h n d) = xnew x0 x2 x3 n (feat h d) := by
  rw [val_main_v21_apply, val_main_v20_apply, head_idx, v9_eq]

/-- The queries, head by head. -/
theorem v23_eq (h : Fin 3) (n : Fin 6144) (d : Fin 256) :
    val_main_v23 (F := Ideal) x0 x2 x3 x4 x5 (ix3 h n d) = qry x0 x2 x3 x4 x5 n (feat h d) := by
  rw [val_main_v23_apply, val_main_v22_apply]
  exact (congrArg _ (head_idx h n d)).trans (v19_eq x0 x2 x3 x4 x5 n (feat h d))

/-! ## The scores and the mask -/

/-- The scores: per head, query row against key row over the head's lanes, over ten. -/
theorem v26_eq (h : Fin 3) (n m : Fin 6144) :
    val_main_v26 (F := Ideal) x0 x2 x3 x4 x5 (ix3 h n m) = score x0 x2 x3 x4 x5 h n m := by
  rw [val_main_v26_apply, val_main_v24_apply, val_main_v25_apply, val_main_cst_3_apply]
  unfold score
  refine congrArg (Ideal.div · ten) (Finset.sum_congr rfl fun k _ => ?_)
  have e1 : lidx_main_v24 (ix3 h n m) k = ix3 h n k :=
    funext fun a => by match a with | ⟨0, _⟩ => rfl | ⟨1, _⟩ => rfl | ⟨2, _⟩ => rfl
  have e2 : ridx_main_v24 (ix3 h n m) k = ix3 h m k :=
    funext fun a => by match a with | ⟨0, _⟩ => rfl | ⟨1, _⟩ => rfl | ⟨2, _⟩ => rfl
  rw [e1, e2, v23_eq, v21_eq]

/-- The mask is the adjacency's zero test at (n, m), whatever the head. -/
theorem mask_idx (h : Fin 3) (n m : Fin 6144) : idx_main_v29 (idx_main_call2_v1 (ix3 h n m)) = ix2 n m :=
  funext fun a => by match a with | ⟨0, _⟩ => rfl | ⟨1, _⟩ => rfl

/-- The masked scores. -/
theorem v30_eq (h : Fin 3) (n m : Fin 6144) :
    val_main_v30 (F := Ideal) x0 x1 x2 x3 x4 x5 (ix3 h n m) = masked x0 x1 x2 x3 x4 x5 h n m := by
  rw [val_main_v30_apply, val_main_call2_v1_apply, val_main_v29_apply, val_main_v28_apply, val_main_v27_apply,
    val_main_c_apply, val_main_call2_v2_apply, val_main_call2_v0_apply, val_main_cst_4_apply, v26_eq, mask_idx]
  rw [Ideal.ofBits_def, ofBits_neg_inf]
  exact select_cmpi_zero _ _ _

/-! ## The row maximum

The reduce folds `max` from the initial value -∞ over the key axis; the maximum with -∞ after it changes nothing. -/

/-- The key axis of `[3, 6144, 6144]` reduces to `[3, 6144]`. -/
theorem reduces_keys : S3x6144x6144.Reduces [2] S3x6144 := by decide

/-- The reduced index (h, n) with key `k` put back is (h, n, k). -/
theorem lift_keys (h : Fin 3) (n : Fin 6144) (k : Fin (S3x6144x6144.size 2)) :
    reduces_keys.lift (ix2 h n) k = ix3 h n (⟨k.val, k.isLt⟩ : Fin 6144) := by
  funext c; apply Fin.ext
  fin_cases c <;> rfl

/-- The row maximum. -/
theorem v33_eq (h : Fin 3) (n : Fin 6144) :
    val_main_v33 (F := Ideal) x0 x1 x2 x3 x4 x5 (ix2 h n) = rowMax x0 x1 x2 x3 x4 x5 h n := by
  rw [val_main_v33_apply, val_main_v32_apply, val_main_cst_6_apply]
  unfold val_main_v31
  rw [Host.reduce_eq_fold_single FloatOps.maximumf _ _ reducesTo_S3x6144x6144_S3x6144_d2 reduces_keys h_S_]
  have hf : (val_main_v30 (F := Ideal) x0 x1 x2 x3 x4 x5 ∘ reduces_keys.lift (ix2 h n))
      = fun k : Fin 6144 => masked x0 x1 x2 x3 x4 x5 h n k :=
    funext fun k => (congrArg _ (lift_keys h n k)).trans (v30_eq x0 x1 x2 x3 x4 x5 h n k)
  rw [hf, val_main_cst_5_apply]
  show max (Ideal.ofBits .f32 0xFF800000#32)
      ((Finset.univ : Finset (Fin 6144)).fold max (Ideal.ofBits .f32 0xFF800000#32) (masked x0 x1 x2 x3 x4 x5 h n)) = _
  rw [ofBits_neg_inf, fold_max_bot_eq_sup, max_bot_left]
  rfl

/-! ## The softmax and the weighted sum -/

/-- The row maximum broadcast back along the keys. -/
theorem bcast_keys (h : Fin 3) (n m : Fin 6144) : idx_main_v34 (idx_main_v35 (ix3 h n m)) = ix2 h n :=
  funext fun a => by match a with | ⟨0, _⟩ => rfl | ⟨1, _⟩ => rfl

/-- The exponentials. -/
theorem v37_eq (h : Fin 3) (n m : Fin 6144) :
    val_main_v37 (F := Ideal) x0 x1 x2 x3 x4 x5 (ix3 h n m)
      = Ideal.exp (masked x0 x1 x2 x3 x4 x5 h n m - rowMax x0 x1 x2 x3 x4 x5 h n) := by
  rw [val_main_v37_apply, val_main_v36_apply, val_main_v35_apply, val_main_v34_apply, v30_eq, bcast_keys, v33_eq]
  rfl

/-- The row sums: from zero, over the keys. -/
theorem v38_eq (h : Fin 3) (n : Fin 6144) :
    val_main_v38 (F := Ideal) x0 x1 x2 x3 x4 x5 (ix2 h n)
      = ∑ m : Fin 6144, Ideal.exp (masked x0 x1 x2 x3 x4 x5 h n m - rowMax x0 x1 x2 x3 x4 x5 h n) := by
  rw [val_main_v38_apply, val_main_cst_7_apply, Ideal.ofBits_def, Ideal.ofBits_zero_f32, zero_add]
  refine Finset.sum_congr rfl fun k _ => ?_
  have e : idx_main_v38 (ix2 h n) k = ix3 h n k :=
    funext fun a => by match a with | ⟨0, _⟩ => rfl | ⟨1, _⟩ => rfl | ⟨2, _⟩ => rfl
  rw [e, v37_eq]

/-- The attention: the softmax weights against the values, head by head. -/
theorem v42_eq (h : Fin 3) (n : Fin 6144) (d : Fin 256) :
    val_main_v42 (F := Ideal) x0 x1 x2 x3 x4 x5 (ix3 h n d) = attn x0 x1 x2 x3 x4 x5 h n d := by
  rw [val_main_v42_apply]
  unfold attn
  refine Finset.sum_congr rfl fun m _ => ?_
  have e1 : lidx_main_v42 (ix3 h n d) m = ix3 h n m :=
    funext fun a => by match a with | ⟨0, _⟩ => rfl | ⟨1, _⟩ => rfl | ⟨2, _⟩ => rfl
  have e2 : ridx_main_v42 (ix3 h n d) m = ix3 h m d :=
    funext fun a => by match a with | ⟨0, _⟩ => rfl | ⟨1, _⟩ => rfl | ⟨2, _⟩ => rfl
  have e3 : idx_main_v39 (idx_main_v40 (ix3 h n m)) = ix2 h n :=
    funext fun a => by match a with | ⟨0, _⟩ => rfl | ⟨1, _⟩ => rfl
  rw [e1, e2, v21_eq, val_main_v41_apply, val_main_v40_apply, val_main_v39_apply, v37_eq, e3, v38_eq]
  rfl

/-! ## The residuals and the last layer -/

/-- `[3, 6144, 256] → [6144, 3, 256] → [6144, 768]`: entry (n, j) reads head `j / 256`, lane `j % 256`. -/
theorem merge_idx (n : Fin 6144) (j : Fin 768) : idx_main_v43 (idx_main_v44 (ix2 n j)) = ix3 (headOf j) n (laneOf j) :=
  funext fun a => Fin.ext (by
    have hn := n.isLt; have hj := j.isLt
    match a with
    | ⟨0, _⟩ => show (n.val * 768 + j.val) / 256 % 3 = j.val / 256; omega
    | ⟨1, _⟩ => show (n.val * 768 + j.val) / 768 = n.val; omega
    | ⟨2, _⟩ => show (n.val * 768 + j.val) % 256 = j.val % 256; omega)

/-- The first residual. -/
theorem v45_eq (n : Fin 6144) (j : Fin 768) :
    val_main_v45 (F := Ideal) x0 x1 x2 x3 x4 x5 (ix2 n j) = res1 x0 x1 x2 x3 x4 x5 n j := by
  rw [val_main_v45_apply, val_main_v44_apply, val_main_v43_apply, merge_idx, v42_eq]
  rfl

/-- The last layer before its rectifier. -/
theorem v50_eq (n : Fin 6144) (j : Fin 768) :
    val_main_v50 (F := Ideal) x0 x1 x2 x3 x4 x5 x6 x7 (ix2 n j) = linear (res1 x0 x1 x2 x3 x4 x5) x6 x7 n j := by
  rw [val_main_v50_apply, val_main_v47_apply, val_main_v49_apply, val_main_v48_apply]
  unfold linear
  refine congrArg₂ (· + ·) (Finset.sum_congr rfl fun k _ => ?_) (congrArg x7 (bidx_row n j))
  rw [val_main_v46_apply]
  exact congrArg₂ (· * ·) ((congrArg _ (lidx_row n j k)).trans (v45_eq x0 x1 x2 x3 x4 x5 n k)) (congrArg x6 (ridx_row n j k))

/-- The last layer. -/
theorem v55_eq (n : Fin 6144) (j : Fin 768) :
    val_main_v55 (F := Ideal) x0 x1 x2 x3 x4 x5 x6 x7 (ix2 n j) = lrelu (linear (res1 x0 x1 x2 x3 x4 x5) x6 x7 n j) := by
  rw [val_main_v55_apply, val_main_v52_apply, val_main_v54_apply, val_main_v51_apply, val_main_v53_apply,
    val_main_cst_8_apply, val_main_cst_9_apply, v50_eq]
  exact select_cmp_eq_lrelu _

/-- THE REFERENCE IS `G`: its last stage, as a function of the eight arguments, is the specification's function. -/
theorem val_eq_G : val_main_v56 (F := Ideal) x0 x1 x2 x3 x4 x5 x6 x7 = G x0 x1 x2 x3 x4 x5 x6 x7 := by
  funext i
  obtain ⟨n, j, rfl⟩ : ∃ (n : Fin 6144) (j : Fin 768), i = ix2 n j := ⟨i 0, i 1, eq_ix2 i⟩
  rw [val_main_v56_apply, v55_eq, G_apply]
  rfl

/-- The run's result term is `G` of the arguments' launch contents. -/
theorem res_eq_G (m : (ℓ : Loc nD τ sig) → Buf (Elt Ideal) ℓ) (c : Dev nD) :
    Cert.ReferenceIdeal.Value.res_main_v56 (F := Ideal) m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v56_eq m c).trans (val_eq_G _ _ _ _ _ _ _ _)

end Cert.Proof.RefIsG

end
-- ==== Proof.LibReduceAny.lean ====
/-
  A printed predicate's `jnp.any`, read back: the twin for `or` of the library's read-back of `jnp.all`.

  `jnp.any(p, axis=…)` prints as a one-operand `stablehlo.reduce` of the `i1` array `p` by `or` from the constant 0.
  A left fold by `or` that comes out 1 either started at 1 or met a 1 on the way; so where such a reduce is 1 at a
  result index `j` and its initial value is 0, SOME operand index that reduces into `j` holds a 1. Together with the
  library's `Host.reduce_andi_all` this reads `jnp.all(jnp.any(p, axis=1))` as "every row of `p` has a 1".
  General in the shapes and the reduced axes.
-/
import Idealize.ShloMosaic.Lib.Affine
import Idealize.ShloMosaic.PureOps.Reduce

namespace LibReduceAny

open Idealize.ShloMosaic

/-- A left fold by `or` over `i1` words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

variable {s t u : Shape} {axes : List (Fin s.rank)}

/-- A `stablehlo.reduce` by `or` from an initial value 0 that is 1 at `j` had a 1 at some operand index that reduces
    into `j`. -/
theorem reduce_ori_eq_one (x : s.Idx → BitVec 1) (init : u.Idx → BitVec 1) (h : s.ReducesTo axes t) (hu : 0 < u.numel)
    (hinit : init (Shape.Idx.first hu) = 0#1)
    (j : t.Idx) (e : Host.reduce IntOp.ori x init h hu j = 1#1) : ∃ i : s.Idx, h.drop i = j ∧ x i = 1#1 := by
  rw [Host.reduce_eq_foldl] at e
  rcases foldl_ori_eq_one x _ _ e with h0 | ⟨i, hi, hx⟩
  · rw [hinit] at h0; exact absurd h0 (by decide)
  · rw [List.mem_filter] at hi
    exact ⟨i, by simpa using hi.2, hx⟩

end LibReduceAny
-- ==== Proof.PreFacts.lean ====
/-
  What the precondition says of the adjacency matrix: every query row has a neighbour.

  The precondition's last conjunct is `all(any(adj ≠ 0, axis = 1))`: the comparison `adj ≠ 0` entry by entry, reduced
  along each row by `or` from 0, then over the rows by `and` from 1. If the whole predicate is 1 then that last
  `and` is 1, so every row's `or` is 1, so some entry of the row compared unequal to 0. A row with such an entry has
  at least one unmasked score, which is what makes its softmax a quotient by a positive real.
-/
import proofs.«181948_j79242146611549_2_alg».proof.Pre_finite_inputs
import proofs.«181948_j79242146611549_2_alg».proof.Proof.LibReduceAny
import Idealize.ShloMosaic.Lib.ReduceAll
import Idealize.ShloMosaic.Lib.ValueIdx

noncomputable section

namespace Cert.Proof.PreFacts

open Idealize.ShloMosaic Cert.Pre_finite_inputs

variable [Cert.Pre_finite_inputs.Facts]

instance : Subsingleton S_.Idx := ⟨fun a b => funext fun d => d.elim0⟩

/-- If the precondition's last part is 1, every row `i` of the adjacency matrix has an entry that is not 0:
    an index `idx` of the matrix whose row coordinate is `i`'s. -/
theorem row_has_neighbour {F : FTy → Type} [FloatOps F] (adj : IVec S6144x6144 32) (v33 : IVec S_ 1)
    (h : fn_part2 (F := F) adj v33 = fun _ => 1#1) (i : S6144.Idx) :
    ∃ idx : S6144x6144.Idx, (idx 0 : ℕ) = i 0 ∧ adj idx ≠ 0#32 := by
  have h0 := congrFun h ValueIdx.ix0
  unfold fn_part2 at h0
  dsimp only at h0
  have h1 := (IntOp.andi_eq_one.1 h0).2
  have h2 := Host.reduce_andi_all _ _ _ _ _ h1 i
  obtain ⟨idx, hdrop, hx⟩ := LibReduceAny.reduce_ori_eq_one _ _ _ _ rfl i h2
  refine ⟨idx, ?_, ?_⟩
  · rw [← hdrop]
    exact (Shape.ReducesTo.drop_apply_val_of_eq _ idx 0 0).symm
  · exact IntOp.cmpi_ne.1 hx

end Cert.Proof.PreFacts

end
-- ==== Proof.PreAll.lean ====
/-
  The precondition, decoded: every entry of the seven float arrays is a real number, and every row of the adjacency
  matrix has a non-zero entry.

  The predicate is a conjunction of eight `all`s. Seven are `all(|a| < +∞)`, one per float array `a`: the comparison of
  each entry's absolute value against `+∞` (the word `0x7F800000`), reduced by `and` from 1 over every axis. On the
  extended reals `|v| = max v (-v)`, which is `+∞` at both infinities and a real at a real; so `|v| < +∞` holds exactly
  when `v` is a real number. The eighth is `all(any(adj ≠ 0, axis = 1))`: every row has a non-zero entry. If the whole
  predicate is 1, each of the eight is 1, and a reduce by `and` that is 1 had a 1 at every index.
-/
import proofs.«181948_j79242146611549_2_alg».proof.Pre_finite_inputs
import proofs.«181948_j79242146611549_2_alg».proof.Proof.PreFacts
import Idealize.ShloMosaic.PureOps.Ideal
import Idealize.ShloMosaic.Lib.ReduceAll
import Idealize.ShloMosaic.Lib.ValueIdx

noncomputable section

namespace Cert.Proof.PreAll

open Idealize.ShloMosaic Idealize.ShloMosaic.ValueIdx Cert.Pre_finite_inputs

variable [Cert.Pre_finite_inputs.Facts]

/-- The word `0x7F800000` is `+∞`. -/
theorem ofBits_pos_inf : Ideal.ofBits .f32 0x7F800000#32 = ⊤ := by simp [Ideal.ofBits, Ideal.ieee]

/-- `|v| < +∞` as the predicate computes it says `v` is a real number: neither infinity. -/
theorem real_of_abs_lt_inf (v : EReal)
    (h : FloatOps.cmpf (F := Ideal) (φ := .f32) .olt (FloatOps.hostAbsf v) (FloatOps.ofBits .f32 0x7F800000#32) = 1#1) :
    v ≠ ⊤ ∧ v ≠ ⊥ := by
  change Ideal.cmp .olt (max v (-v)) (Ideal.ofBits .f32 0x7F800000#32) = 1#1 at h
  rw [ofBits_pos_inf] at h
  unfold Ideal.cmp at h
  induction v using EReal.rec with
  | bot => simp at h
  | top => simp at h
  | coe r => exact ⟨EReal.coe_ne_top r, EReal.coe_ne_bot r⟩

/-- One `all(|a| < +∞)` that is 1: every entry of `a` is a real number. -/
theorem all_real {s : Shape} {axes : List (Fin s.rank)} (a : FVec Ideal s .f32)
    (bc : S_.BroadcastsInDim s (![] : Fin 0 → Fin s.rank)) (red : s.ReducesTo axes S_) (hu : 0 < S_.numel)
    (e : Host.reduce IntOp.andi
          (cmpf .olt (Host.absf a) (broadcastInDim s ![] bc (constant (F := Ideal) S_ .f32 0x7F800000#32)))
          (constantI S_ 1 1#1) red hu ValueIdx.ix0 = 1#1) (i : s.Idx) :
    a i ≠ ⊤ ∧ a i ≠ ⊥ :=
  real_of_abs_lt_inf (a i) (Host.reduce_andi_all _ _ _ _ _ e i)

/-- THE PRECONDITION DECODED: the seven float arrays hold real numbers, and every node has a neighbour. -/
theorem pre_all (x : FVec Ideal S6144x768 .f32) (adj : IVec S6144x6144 32)
    (Wfc : FVec Ideal S768x768 .f32) (bfc : FVec Ideal S768 .f32) (Wq : FVec Ideal S768x768 .f32) (bq : FVec Ideal S768 .f32)
    (Wf : FVec Ideal S768x768 .f32) (bf : FVec Ideal S768 .f32)
    (h : fn (F := Ideal) x adj Wfc bfc Wq bq Wf bf = fun _ => 1#1) :
    (∀ i, x i ≠ ⊤ ∧ x i ≠ ⊥) ∧ (∀ i, Wfc i ≠ ⊤ ∧ Wfc i ≠ ⊥) ∧ (∀ i, bfc i ≠ ⊤ ∧ bfc i ≠ ⊥)
      ∧ (∀ i, Wq i ≠ ⊤ ∧ Wq i ≠ ⊥) ∧ (∀ i, bq i ≠ ⊤ ∧ bq i ≠ ⊥) ∧ (∀ i, Wf i ≠ ⊤ ∧ Wf i ≠ ⊥) ∧ (∀ i, bf i ≠ ⊤ ∧ bf i ≠ ⊥)
      ∧ ∀ n : Fin 6144, ∃ k : Fin 6144, adj (ix2 n k) ≠ 0#32 := by
  unfold fn at h
  dsimp only at h
  unfold fn_part1 at h
  dsimp only at h
  -- the eighth conjunct, from the predicate's last part
  have hrow : ∀ n : Fin 6144, ∃ k : Fin 6144, adj (ix2 n k) ≠ 0#32 := fun n => by
    obtain ⟨idx, h0, hne⟩ := Cert.Proof.PreFacts.row_has_neighbour (F := Ideal) adj _ h (ix1 n)
    have e : ix2 n (⟨(idx 1).val, idx2_lt1 idx⟩ : Fin 6144) = idx :=
      funext fun a => by
        match a with
        | ⟨0, _⟩ => exact Fin.ext h0.symm
        | ⟨1, _⟩ => rfl
    exact ⟨⟨(idx 1).val, idx2_lt1 idx⟩, fun hc => hne ((congrArg adj e).symm.trans hc)⟩
  -- the seven `all`s, peeled off the conjunction from the outside in
  have h0 := congrFun h ValueIdx.ix0
  unfold fn_part2 at h0
  dsimp only at h0
  obtain ⟨h33, -⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨all_real x _ _ _ h3, all_real Wfc _ _ _ h7, all_real bfc _ _ _ h12, all_real Wq _ _ _ h17,
    all_real bq _ _ _ h22, all_real Wf _ _ _ h27, all_real bf _ _ _ h32, hrow⟩

end Cert.Proof.PreAll

end
-- ==== Proof.Algebraic.lean ====
/-
  The two idealized programs end with equal results, given the kernel's value.

  Suppose that, under the precondition, the kernel's result array after its run is the specification's function `G` of
  the launched arguments. The reference's result is the same `G` of its own arguments (its run read back, stage by
  stage), and the two memories agree on the arguments; so both programs run to the end, leave their arguments as
  launched, and end with the one array `G` of the arguments.
-/
import proofs.«181948_j79242146611549_2_alg».proof.Defs
import proofs.«181948_j79242146611549_2_alg».proof.Proof.Gen.KernelIdeal
import proofs.«181948_j79242146611549_2_alg».proof.Proof.Gen.ReferenceIdeal
import proofs.«181948_j79242146611549_2_alg».proof.Proof.Gen.Pre_finite_inputs
import proofs.«181948_j79242146611549_2_alg».proof.Proof.IdealMain
import proofs.«181948_j79242146611549_2_alg».proof.Proof.RefIsG
import proofs.«181948_j79242146611549_2_alg».proof.Proof.PreAll

noncomputable section

namespace Cert.Proof.Algebraic

open Idealize.ShloMosaic Idealize.ShloMosaic.TcCoe Idealize.SL.Sem

/-- From the kernel's value to the claim: if under the precondition the kernel's result array after the run is `G` of
    the launched arguments, the two idealized programs, from memories agreeing on the arguments, both run, leave their
    arguments unchanged and end with equal results. -/
theorem algebraic_of_value
    (hK : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD), Cert.Pre_KernelIdeal m →
        (Cert.KernelIdeal.Frame.dat1 (Cert.KernelIdeal.Frame.V2 m ρ) c).arrAt 6 Cert.KernelIdeal.cfg1.N
          = RefSpec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))) :
    Cert.algebraic_KernelIdeal_ReferenceIdeal := by
  intro m ρ m' ρ' hpre hagree
  refine ⟨fun c => RefSpec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)), ?_, ?_⟩
  · exact (θ_run Cert.KernelIdeal.defs _ _).mono (fun _ h c => ⟨(h c).1.trans (hK m ρ c hpre), (h c).2⟩)
      (Cert.KernelIdeal.Frame.run_full (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.Proof.RefIsG.res_eq_G, h0, h1, h2, h3, h4, h5, h6, h7]

end Cert.Proof.Algebraic

end
-- ==== Proof.IdealPieces.lean ====
/-
  What the attention body's stores leave in the three running buffers, as lists of column stores over named values.

  At every point the body stores, head by head, one column of the running maximum and of the running denominator
  (512 rows by 1 column) and one block of 256 columns of the running weighted sum. Each stored value is a named
  function of the query block, the key tile the body cut out of the resident values at row 1024 · (key-tile coordinate),
  the adjacency block, and the buffers' contents before the point. At key tile 0 those previous contents are the reset
  values the body has just stored (-∞, 0, 0), and that reset store sits under the column stores, which cover it.
-/
import proofs.«181948_j79242146611549_2_alg».proof.Proof.IdealRegion1
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

theorem hz2 : (![0, 0] : Fin 2 → Nat) = fun _ => 0 := funext fun a => by fin_cases a <;> rfl

/-- The key tile: the 1024 rows of the resident values the body loads at a point, from row 1024 · (key-tile coordinate). -/
def keyTile (t : Fin cfg1.N) (X : Vec F S6144x768 .bf16) : Vec F S1024x768 .bf16 :=
  View.ld X (Rect.unit (s := S6144x768) (k1_off1 (grid1.coords t)) S1024x768.size (k1_off1_inb (grid1.coords t)))

/-- The running maximum's three column stores (head 2, head 1, head 0: last first). -/
def stepM (q : Vec F S512x768 .bf16) (kv : Vec F S1024x768 .bf16) (ad : Vec F S512x1024 .i32) (m0 : Vec F S512x3 .f32) :
    List (View.Piece (Elt F) S512x3 .f32) :=
  [⟨Rect.unit (s := S512x3) ![0, 2] S512x1.size inb_S512x3_S512x1_0_2, k1_pay45 (k1_pay12 q) (k1_pay13 kv) (k1_pay14 ad) m0⟩,
   ⟨Rect.unit (s := S512x3) ![0, 1] S512x1.size inb_S512x3_S512x1_0_1, k1_pay34 (k1_pay29 (k1_pay12 q) (k1_pay13 kv) (k1_pay14 ad) m0)⟩,
   ⟨Rect.unit (s := S512x3) ![0, 0] S512x1.size inb_S512x3_S512x1_0_0, k1_pay23 (k1_pay18 q kv ad m0)⟩]

/-- The running denominator's three column stores. -/
def stepL (q : Vec F S512x768 .bf16) (kv : Vec F S1024x768 .bf16) (ad : Vec F S512x1024 .i32) (m0 l0 : Vec F S512x3 .f32) :
    List (View.Piece (Elt F) S512x3 .f32) :=
  [⟨Rect.unit (s := S512x3) ![0, 2] S512x1.size inb_S512x3_S512x1_0_2, k1_pay1 (k1_pay43 (k1_pay12 q) (k1_pay13 kv) (k1_pay14 ad) m0 l0)⟩,
   ⟨Rect.unit (s := S512x3) ![0, 1] S512x1.size inb_S512x3_S512x1_0_1, k1_pay35 (k1_pay32 (k1_pay12 q) (k1_pay13 kv) (k1_pay14 ad) m0 l0)⟩,
   ⟨Rect.unit (s := S512x3) ![0, 0] S512x1.size inb_S512x3_S512x1_0_0, k1_pay24 (k1_pay21 q kv ad m0 l0) (k1_pay22 q kv ad m0)⟩]

/-- The running weighted sum's three stores of 256 columns. -/
def stepA (q : Vec F S512x768 .bf16) (kv : Vec F S1024x768 .bf16) (ad : Vec F S512x1024 .i32) (m0 : Vec F S512x3 .f32)
    (a0 : Vec F S512x768 .f32) : List (View.Piece (Elt F) S512x768 .f32) :=
  [⟨Rect.unit (s := S512x768) ![0, 512] S512x256.size inb_S512x768_S512x256_0_512, k1_pay2 (k1_pay44 (k1_pay12 q) (k1_pay13 kv) (k1_pay14 ad) m0 a0)⟩,
   ⟨Rect.unit (s := S512x768) ![0, 256] S512x256.size inb_S512x768_S512x256_0_256, k1_pay36 (k1_pay33 (k1_pay12 q) (k1_pay13 kv) (k1_pay14 ad) m0 a0)⟩,
   ⟨Rect.unit (s := S512x768) ![0, 0] S512x256.size inb_S512x768_S512x256_0_0, k1_pay25 a0 (k1_pay15 kv) (k1_pay19 q kv ad m0) (k1_pay20 q kv ad m0)⟩]

section
variable (V : (c : Dev nD) → (b : Ref sig .tc) → Buf (Elt F) ((c : Thread nD τ).loc b))

set_option maxHeartbeats 4000000 in
theorem soutA_0_eq (c : Dev nD) (t : Fin cfg1.N) (hc0 : cond1_0 (grid1.coords t)) (hc1 : ¬cond1_1 (grid1.coords t)) :
    soutA_0 V c t hc0 hc1 = View.canon (stepM (iblk1 V c 0 t) (keyTile t (iblk1 V c 1 t)) (iblk1 V c 3 t) k1_pay9 ++ [⟨Rect.unit (s := S512x3) ![0, 0] S512x3.size inb_S512x3_S512x3_0_0, k1_pay9⟩]) := by
  unfold soutA_0
  rw [View.read_writes_junk_eq_canon]
  unfold runA kernelRun1_A
  dsimp only
  sl_unfold_words
  simp only [View.readAt_eq_ld, Memref.IsWhole.read_unread, View.ld_unit_zero (S := S512x768) hz2, View.ld_unit_zero (S := S512x3) hz2, View.ld_unit_zero (S := S512x1024) hz2, View.ld_unit_zero (S := S768x768) hz2, View.ld_unit_zero (S := S1x768) hz2, View.readCov_unit_zero (S := S512x3) _ hz2, View.readCov_unit_zero (S := S512x768) _ hz2]
  rfl

set_option maxHeartbeats 4000000 in
theorem soutA_1_eq (c : Dev nD) (t : Fin cfg1.N) (hc0 : cond1_0 (grid1.coords t)) (hc1 : ¬cond1_1 (grid1.coords t)) :
    soutA_1 V c t hc0 hc1 = View.canon (stepL (iblk1 V c 0 t) (keyTile t (iblk1 V c 1 t)) (iblk1 V c 3 t) k1_pay9 k1_pay10 ++ [⟨Rect.unit (s := S512x3) ![0, 0] S512x3.size inb_S512x3_S512x3_0_0, k1_pay10⟩]) := by
  unfold soutA_1
  rw [View.read_writes_junk_eq_canon]
  unfold runA kernelRun1_A
  dsimp only
  sl_unfold_words
  simp only [View.readAt_eq_ld, Memref.IsWhole.read_unread, View.ld_unit_zero (S := S512x768) hz2, View.ld_unit_zero (S := S512x3) hz2, View.ld_unit_zero (S := S512x1024) hz2, View.ld_unit_zero (S := S768x768) hz2, View.ld_unit_zero (S := S1x768) hz2, View.readCov_unit_zero (S := S512x3) _ hz2, View.readCov_unit_zero (S := S512x768) _ hz2]
  rfl

set_option maxHeartbeats 4000000 in
theorem soutA_2_eq (c : Dev nD) (t : Fin cfg1.N) (hc0 : cond1_0 (grid1.coords t)) (hc1 : ¬cond1_1 (grid1.coords t)) :
    soutA_2 V c t hc0 hc1 = View.canon (stepA (iblk1 V c 0 t) (keyTile t (iblk1 V c 1 t)) (iblk1 V c 3 t) k1_pay9 k1_pay11 ++ [⟨Rect.unit (s := S512x768) ![0, 0] S512x768.size inb_S512x768_S512x768_0_0, k1_pay11⟩]) := by
  unfold soutA_2
  rw [View.read_writes_junk_eq_canon]
  unfold runA kernelRun1_A
  dsimp only
  sl_unfold_words
  simp only [View.readAt_eq_ld, Memref.IsWhole.read_unread, View.ld_unit_zero (S := S512x768) hz2, View.ld_unit_zero (S := S512x3) hz2, View.ld_unit_zero (S := S512x1024) hz2, View.ld_unit_zero (S := S768x768) hz2, View.ld_unit_zero (S := S1x768) hz2, View.readCov_unit_zero (S := S512x3) _ hz2, View.readCov_unit_zero (S := S512x768) _ hz2]
  rfl

set_option maxHeartbeats 4000000 in
theorem soutB_0_eq (c : Dev nD) (t : Fin cfg1.N) (hc0 : ¬cond1_0 (grid1.coords t)) (hc1 : ¬cond1_1 (grid1.coords t)) (xs0 xs1 : Vec F S512x3 .f32) (xs2 : Vec F S512x768 .f32) :
    soutB_0 V c t hc0 hc1 xs0 xs1 xs2 = View.canon (stepM (iblk1 V c 0 t) (keyTile t (iblk1 V c 1 t)) (iblk1 V c 3 t) xs0) := by
  unfold soutB_0
  rw [View.read_writes_junk_eq_canon]
  unfold runB kernelRun1_B
  dsimp only
  sl_unfold_words
  simp only [View.readAt_eq_ld, Memref.IsWhole.read_unread, View.ld_unit_zero (S := S512x768) hz2, View.ld_unit_zero (S := S512x3) hz2, View.ld_unit_zero (S := S512x1024) hz2, View.ld_unit_zero (S := S768x768) hz2, View.ld_unit_zero (S := S1x768) hz2, View.readCov_unit_zero (S := S512x3) _ hz2, View.readCov_unit_zero (S := S512x768) _ hz2]
  have e0 : View.read (Elt F) (View.whole cc1_scratch0) ((Memref.isWhole_whole _ : (scM1_0 : Memref sig .tc .vmem S512x3 .f32).IsWhole).unread xs0) = xs0 := (Memref.isWhole_whole _ : (scM1_0 : Memref sig .tc .vmem S512x3 .f32).IsWhole).read_unread xs0
  have e1 : View.read (Elt F) (View.whole cc1_scratch1) ((Memref.isWhole_whole _ : (scM1_1 : Memref sig .tc .vmem S512x3 .f32).IsWhole).unread xs1) = xs1 := (Memref.isWhole_whole _ : (scM1_1 : Memref sig .tc .vmem S512x3 .f32).IsWhole).read_unread xs1
  have e2 : View.read (Elt F) (View.whole cc1_scratch2) ((Memref.isWhole_whole _ : (scM1_2 : Memref sig .tc .vmem S512x768 .f32).IsWhole).unread xs2) = xs2 := (Memref.isWhole_whole _ : (scM1_2 : Memref sig .tc .vmem S512x768 .f32).IsWhole).read_unread xs2
  simp only [e0, e1, e2]
  rfl

set_option maxHeartbeats 4000000 in
theorem soutB_1_eq (c : Dev nD) (t : Fin cfg1.N) (hc0 : ¬cond1_0 (grid1.coords t)) (hc1 : ¬cond1_1 (grid1.coords t)) (xs0 xs1 : Vec F S512x3 .f32) (xs2 : Vec F S512x768 .f32) :
    soutB_1 V c t hc0 hc1 xs0 xs1 xs2 = View.canon (stepL (iblk1 V c 0 t) (keyTile t (iblk1 V c 1 t)) (iblk1 V c 3 t) xs0 xs1) := by
  unfold soutB_1
  rw [View.read_writes_junk_eq_canon]
  unfold runB kernelRun1_B
  dsimp only
  sl_unfold_words
  simp only [View.readAt_eq_ld, Memref.IsWhole.read_unread, View.ld_unit_zero (S := S512x768) hz2, View.ld_unit_zero (S := S512x3) hz2, View.ld_unit_zero (S := S512x1024) hz2, View.ld_unit_zero (S := S768x768) hz2, View.ld_unit_zero (S := S1x768) hz2, View.readCov_unit_zero (S := S512x3) _ hz2, View.readCov_unit_zero (S := S512x768) _ hz2]
  have e0 : View.read (Elt F) (View.whole cc1_scratch0) ((Memref.isWhole_whole _ : (scM1_0 : Memref sig .tc .vmem S512x3 .f32).IsWhole).unread xs0) = xs0 := (Memref.isWhole_whole _ : (scM1_0 : Memref sig .tc .vmem S512x3 .f32).IsWhole).read_unread xs0
  have e1 : View.read (Elt F) (View.whole cc1_scratch1) ((Memref.isWhole_whole _ : (scM1_1 : Memref sig .tc .vmem S512x3 .f32).IsWhole).unread xs1) = xs1 := (Memref.isWhole_whole _ : (scM1_1 : Memref sig .tc .vmem S512x3 .f32).IsWhole).read_unread xs1
  have e2 : View.read (Elt F) (View.whole cc1_scratch2) ((Memref.isWhole_whole _ : (scM1_2 : Memref sig .tc .vmem S512x768 .f32).IsWhole).unread xs2) = xs2 := (Memref.isWhole_whole _ : (scM1_2 : Memref sig .tc .vmem S512x768 .f32).IsWhole).read_unread xs2
  simp only [e0, e1, e2]
  rfl

set_option maxHeartbeats 4000000 in
theorem soutB_2_eq (c : Dev nD) (t : Fin cfg1.N) (hc0 : ¬cond1_0 (grid1.coords t)) (hc1 : ¬cond1_1 (grid1.coords t)) (xs0 xs1 : Vec F S512x3 .f32) (xs2 : Vec F S512x768 .f32) :
    soutB_2 V c t hc0 hc1 xs0 xs1 xs2 = View.canon (stepA (iblk1 V c 0 t) (keyTile t (iblk1 V c 1 t)) (iblk1 V c 3 t) xs0 xs2) := by
  unfold soutB_2
  rw [View.read_writes_junk_eq_canon]
  unfold runB kernelRun1_B
  dsimp only
  sl_unfold_words
  simp only [View.readAt_eq_ld, Memref.IsWhole.read_unread, View.ld_unit_zero (S := S512x768) hz2, View.ld_unit_zero (S := S512x3) hz2, View.ld_unit_zero (S := S512x1024) hz2, View.ld_unit_zero (S := S768x768) hz2, View.ld_unit_zero (S := S1x768) hz2, View.readCov_unit_zero (S := S512x3) _ hz2, View.readCov_unit_zero (S := S512x768) _ hz2]
  have e0 : View.read (Elt F) (View.whole cc1_scratch0) ((Memref.isWhole_whole _ : (scM1_0 : Memref sig .tc .vmem S512x3 .f32).IsWhole).unread xs0) = xs0 := (Memref.isWhole_whole _ : (scM1_0 : Memref sig .tc .vmem S512x3 .f32).IsWhole).read_unread xs0
  have e1 : View.read (Elt F) (View.whole cc1_scratch1) ((Memref.isWhole_whole _ : (scM1_1 : Memref sig .tc .vmem S512x3 .f32).IsWhole).unread xs1) = xs1 := (Memref.isWhole_whole _ : (scM1_1 : Memref sig .tc .vmem S512x3 .f32).IsWhole).read_unread xs1
  have e2 : View.read (Elt F) (View.whole cc1_scratch2) ((Memref.isWhole_whole _ : (scM1_2 : Memref sig .tc .vmem S512x768 .f32).IsWhole).unread xs2) = xs2 := (Memref.isWhole_whole _ : (scM1_2 : Memref sig .tc .vmem S512x768 .f32).IsWhole).read_unread xs2
  simp only [e0, e1, e2]
  rfl

set_option maxHeartbeats 4000000 in
theorem soutC_0_eq (c : Dev nD) (t : Fin cfg1.N) (hc0 : ¬cond1_0 (grid1.coords t)) (hc1 : cond1_1 (grid1.coords t)) (xs0 xs1 : Vec F S512x3 .f32) (xs2 : Vec F S512x768 .f32) :
    soutC_0 V c t hc0 hc1 xs0 xs1 xs2 = View.canon (stepM (iblk1 V c 0 t) (keyTile t (iblk1 V c 1 t)) (iblk1 V c 3 t) xs0) := by
  unfold soutC_0
  rw [View.read_writes_junk_eq_canon]
  unfold runC kernelRun1_C
  dsimp only
  sl_unfold_words
  simp only [View.readAt_eq_ld, Memref.IsWhole.read_unread, View.ld_unit_zero (S := S512x768) hz2, View.ld_unit_zero (S := S512x3) hz2, View.ld_unit_zero (S := S512x1024) hz2, View.ld_unit_zero (S := S768x768) hz2, View.ld_unit_zero (S := S1x768) hz2, View.readCov_unit_zero (S := S512x3) _ hz2, View.readCov_unit_zero (S := S512x768) _ hz2]
  have e0 : View.read (Elt F) (View.whole cc1_scratch0) ((Memref.isWhole_whole _ : (scM1_0 : Memref sig .tc .vmem S512x3 .f32).IsWhole).unread xs0) = xs0 := (Memref.isWhole_whole _ : (scM1_0 : Memref sig .tc .vmem S512x3 .f32).IsWhole).read_unread xs0
  have e1 : View.read (Elt F) (View.whole cc1_scratch1) ((Memref.isWhole_whole _ : (scM1_1 : Memref sig .tc .vmem S512x3 .f32).IsWhole).unread xs1) = xs1 := (Memref.isWhole_whole _ : (scM1_1 : Memref sig .tc .vmem S512x3 .f32).IsWhole).read_unread xs1
  have e2 : View.read (Elt F) (View.whole cc1_scratch2) ((Memref.isWhole_whole _ : (scM1_2 : Memref sig .tc .vmem S512x768 .f32).IsWhole).unread xs2) = xs2 := (Memref.isWhole_whole _ : (scM1_2 : Memref sig .tc .vmem S512x768 .f32).IsWhole).read_unread xs2
  simp only [e0, e1, e2]
  rfl

set_option maxHeartbeats 4000000 in
theorem soutC_1_eq (c : Dev nD) (t : Fin cfg1.N) (hc0 : ¬cond1_0 (grid1.coords t)) (hc1 : cond1_1 (grid1.coords t)) (xs0 xs1 : Vec F S512x3 .f32) (xs2 : Vec F S512x768 .f32) :
    soutC_1 V c t hc0 hc1 xs0 xs1 xs2 = View.canon (stepL (iblk1 V c 0 t) (keyTile t (iblk1 V c 1 t)) (iblk1 V c 3 t) xs0 xs1) := by
  unfold soutC_1
  rw [View.read_writes_junk_eq_canon]
  unfold runC kernelRun1_C
  dsimp only
  sl_unfold_words
  simp only [View.readAt_eq_ld, Memref.IsWhole.read_unread, View.ld_unit_zero (S := S512x768) hz2, View.ld_unit_zero (S := S512x3) hz2, View.ld_unit_zero (S := S512x1024) hz2, View.ld_unit_zero (S := S768x768) hz2, View.ld_unit_zero (S := S1x768) hz2, View.readCov_unit_zero (S := S512x3) _ hz2, View.readCov_unit_zero (S := S512x768) _ hz2]
  have e0 : View.read (Elt F) (View.whole cc1_scratch0) ((Memref.isWhole_whole _ : (scM1_0 : Memref sig .tc .vmem S512x3 .f32).IsWhole).unread xs0) = xs0 := (Memref.isWhole_whole _ : (scM1_0 : Memref sig .tc .vmem S512x3 .f32).IsWhole).read_unread xs0
  have e1 : View.read (Elt F) (View.whole cc1_scratch1) ((Memref.isWhole_whole _ : (scM1_1 : Memref sig .tc .vmem S512x3 .f32).IsWhole).unread xs1) = xs1 := (Memref.isWhole_whole _ : (scM1_1 : Memref sig .tc .vmem S512x3 .f32).IsWhole).read_unread xs1
  have e2 : View.read (Elt F) (View.whole cc1_scratch2) ((Memref.isWhole_whole _ : (scM1_2 : Memref sig .tc .vmem S512x768 .f32).IsWhole).unread xs2) = xs2 := (Memref.isWhole_whole _ : (scM1_2 : Memref sig .tc .vmem S512x768 .f32).IsWhole).read_unread xs2
  simp only [e0, e1, e2]
  rfl

set_option maxHeartbeats 4000000 in
theorem soutC_2_eq (c : Dev nD) (t : Fin cfg1.N) (hc0 : ¬cond1_0 (grid1.coords t)) (hc1 : cond1_1 (grid1.coords t)) (xs0 xs1 : Vec F S512x3 .f32) (xs2 : Vec F S512x768 .f32) :
    soutC_2 V c t hc0 hc1 xs0 xs1 xs2 = View.canon (stepA (iblk1 V c 0 t) (keyTile t (iblk1 V c 1 t)) (iblk1 V c 3 t) xs0 xs2) := by
  unfold soutC_2
  rw [View.read_writes_junk_eq_canon]
  unfold runC kernelRun1_C
  dsimp only
  sl_unfold_words
  simp only [View.readAt_eq_ld, Memref.IsWhole.read_unread, View.ld_unit_zero (S := S512x768) hz2, View.ld_unit_zero (S := S512x3) hz2, View.ld_unit_zero (S := S512x1024) hz2, View.ld_unit_zero (S := S768x768) hz2, View.ld_unit_zero (S := S1x768) hz2, View.readCov_unit_zero (S := S512x3) _ hz2, View.readCov_unit_zero (S := S512x768) _ hz2]
  have e0 : View.read (Elt F) (View.whole cc1_scratch0) ((Memref.isWhole_whole _ : (scM1_0 : Memref sig .tc .vmem S512x3 .f32).IsWhole).unread xs0) = xs0 := (Memref.isWhole_whole _ : (scM1_0 : Memref sig .tc .vmem S512x3 .f32).IsWhole).read_unread xs0
  have e1 : View.read (Elt F) (View.whole cc1_scratch1) ((Memref.isWhole_whole _ : (scM1_1 : Memref sig .tc .vmem S512x3 .f32).IsWhole).unread xs1) = xs1 := (Memref.isWhole_whole _ : (scM1_1 : Memref sig .tc .vmem S512x3 .f32).IsWhole).read_unread xs1
  have e2 : View.read (Elt F) (View.whole cc1_scratch2) ((Memref.isWhole_whole _ : (scM1_2 : Memref sig .tc .vmem S512x768 .f32).IsWhole).unread xs2) = xs2 := (Memref.isWhole_whole _ : (scM1_2 : Memref sig .tc .vmem S512x768 .f32).IsWhole).read_unread xs2
  simp only [e0, e1, e2]
  rfl

end

end Cert.KernelIdeal.Frame

end
-- ==== Proof.IdealFinish.lean ====
/-
  The last key tile's finish, as named values.

  After the online-softmax step of key tile 5 the body reads back the new denominator and weighted sum, stores head by
  head (256 columns at a time) x + weighted sum / denominator into the fourth scratch buffer, reads that buffer back
  whole, multiplies it by the last layer's weights, adds the bias row, applies the leaky rectifier and adds x: one
  store of the whole output block.
-/
import proofs.«181948_j79242146611549_2_alg».proof.Proof.IdealPieces

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- A covered load of the whole buffer after the stores `L` reads what the stores left. -/
theorem readCov_whole3 {sig' : RefSig} {κ : Kind} {sp : Space} (v : View sig' κ sp S512x3 .f32)
    (L : List (View.Piece (Elt F) S512x3 .f32)) :
    v.readCov L (Rect.unit (s := S512x3) ![0, 0] S512x3.size inb_S512x3_S512x3_0_0).toLoadRect = View.canon L := by
  rw [View.readCov_eq_canon']
  exact View.ld_unit_zero (S := S512x3) hz2 inb_S512x3_S512x3_0_0 (View.canon L)
theorem readCov_whole768 {sig' : RefSig} {κ : Kind} {sp : Space} (v : View sig' κ sp S512x768 .f32)
    (L : List (View.Piece (Elt F) S512x768 .f32)) :
    v.readCov L (Rect.unit (s := S512x768) ![0, 0] S512x768.size inb_S512x768_S512x768_0_0).toLoadRect = View.canon L := by
  rw [View.readCov_eq_canon']
  exact View.ld_unit_zero (S := S512x768) hz2 inb_S512x768_S512x768_0_0 (View.canon L)

/-- The three stores of x + weighted sum / denominator, head 2, head 1, head 0 (last first). -/
def finPieces (l : Vec F S512x3 .f32) (a x : Vec F S512x768 .f32) : List (View.Piece (Elt F) S512x768 .f32) :=
  [⟨Rect.unit (s := S512x768) ![0, 512] S512x256.size inb_S512x768_S512x256_0_512, k1_pay6 l a x⟩,
   ⟨Rect.unit (s := S512x768) ![0, 256] S512x256.size inb_S512x768_S512x256_0_256, k1_pay5 l a x⟩,
   ⟨Rect.unit (s := S512x768) ![0, 0] S512x256.size inb_S512x768_S512x256_0_0, k1_pay4 l a x⟩]

section
variable (V : (c : Dev nD) → (b : Ref sig .tc) → Buf (Elt F) ((c : Thread nD τ).loc b))

set_option maxHeartbeats 8000000 in
/-- The output block at the last key tile, the three read-backs as the run leaves them. -/
theorem outC_6_raw (c : Dev nD) (t : Fin cfg1.N) (hc0 : ¬cond1_0 (grid1.coords t)) (hc1 : cond1_1 (grid1.coords t)) (xs0 xs1 : Vec F S512x3 .f32) (xs2 : Vec F S512x768 .f32) :
    outC_6 V c t hc0 hc1 xs0 xs1 xs2
      = k1_pay3 (iblk1 V c 2 t)
          (k1_pay7 (iblk1 V c 4 t) ((View.whole cc1_scratch3).readCov (finPieces
            ((View.whole cc1_scratch1).readCov (stepL (iblk1 V c 0 t) (keyTile t (iblk1 V c 1 t)) (iblk1 V c 3 t) xs0 xs1) (Rect.unit (s := S512x3) ![0, 0] S512x3.size inb_S512x3_S512x3_0_0).toLoadRect)
            ((View.whole cc1_scratch2).readCov (stepA (iblk1 V c 0 t) (keyTile t (iblk1 V c 1 t)) (iblk1 V c 3 t) xs0 xs2) (Rect.unit (s := S512x768) ![0, 0] S512x768.size inb_S512x768_S512x768_0_0).toLoadRect)
            (iblk1 V c 2 t)) (Rect.unit (s := S512x768) ![0, 0] S512x768.size inb_S512x768_S512x768_0_0).toLoadRect))
          (k1_pay8 (iblk1 V c 5 t)) := by
  generalize hR : k1_pay3 (F := F) _ _ _ = R
  unfold outC_6
  rw [View.read_writes_junk_eq_canon]
  unfold runC kernelRun1_C
  dsimp only
  sl_unfold_words
  simp only [View.readAt_eq_ld, Memref.IsWhole.read_unread, View.ld_unit_zero (S := S512x768) hz2, View.ld_unit_zero (S := S512x3) hz2, View.ld_unit_zero (S := S512x1024) hz2, View.ld_unit_zero (S := S768x768) hz2, View.ld_unit_zero (S := S1x768) hz2, View.readCov_unit_zero (S := S512x3) _ hz2, View.readCov_unit_zero (S := S512x768) _ hz2]
  have e0 : View.read (Elt F) (View.whole cc1_scratch0) ((Memref.isWhole_whole _ : (scM1_0 : Memref sig .tc .vmem S512x3 .f32).IsWhole).unread xs0) = xs0 := (Memref.isWhole_whole _ : (scM1_0 : Memref sig .tc .vmem S512x3 .f32).IsWhole).read_unread xs0
  have e1 : View.read (Elt F) (View.whole cc1_scratch1) ((Memref.isWhole_whole _ : (scM1_1 : Memref sig .tc .vmem S512x3 .f32).IsWhole).unread xs1) = xs1 := (Memref.isWhole_whole _ : (scM1_1 : Memref sig .tc .vmem S512x3 .f32).IsWhole).read_unread xs1
  have e2 : View.read (Elt F) (View.whole cc1_scratch2) ((Memref.isWhole_whole _ : (scM1_2 : Memref sig .tc .vmem S512x768 .f32).IsWhole).unread xs2) = xs2 := (Memref.isWhole_whole _ : (scM1_2 : Memref sig .tc .vmem S512x768 .f32).IsWhole).read_unread xs2
  simp only [e0, e1, e2]
  rw [View.canon_unit_zero hz2]
  subst hR
  rfl

/-- The output block at the last key tile: each read-back is what the stores before it left. -/
theorem outC_6_eq (c : Dev nD) (t : Fin cfg1.N) (hc0 : ¬cond1_0 (grid1.coords t)) (hc1 : cond1_1 (grid1.coords t)) (xs0 xs1 : Vec F S512x3 .f32) (xs2 : Vec F S512x768 .f32) :
    outC_6 V c t hc0 hc1 xs0 xs1 xs2
      = k1_pay3 (iblk1 V c 2 t)
          (k1_pay7 (iblk1 V c 4 t) (View.canon (finPieces
            (View.canon (stepL (iblk1 V c 0 t) (keyTile t (iblk1 V c 1 t)) (iblk1 V c 3 t) xs0 xs1))
            (View.canon (stepA (iblk1 V c 0 t) (keyTile t (iblk1 V c 1 t)) (iblk1 V c 3 t) xs0 xs2))
            (iblk1 V c 2 t))))
          (k1_pay8 (iblk1 V c 5 t)) := by
  rw [outC_6_raw, readCov_whole768, readCov_whole3, readCov_whole768]

end

end Cert.KernelIdeal.Frame

end
-- ==== Proof.ProjAttnBlocks.lean ====
/-
  The attention region's blocks, read where the arrays hold them.

  The region has 72 points; point t is query tile t / 6 and key tile t % 6. A query tile is 512 rows, a key tile 1024.
  The windows of q, of x and of the output sit at row block t / 6 (column block 0): row r of such a block is row
  512 (t / 6) + r of its array. The adjacency window is at block (t / 6, t % 6) of 512 by 1024 entries: its entry (r, k)
  is the adjacency of node 512 (t / 6) + r with node 1024 (t % 6) + k. The windows of x_new, of the last layer's
  weights and of its bias are whole at every point. The body takes the key tile out of the resident x_new itself, by a
  rectangle whose row offset it computes as (t % 6) · 1024 in 32-bit words: row k of what it loads is row
  1024 (t % 6) + k. The output's block is written back at the last key tile of each query tile only, t % 6 = 5; row n
  of the output lies in the block written back at point 6 (n / 512) + 5.
-/
import proofs.«181948_j79242146611549_2_alg».proof.Proof.IdealRegion1
import Idealize.ShloMosaic.Lib.Pipeline.Value
import Idealize.ShloMosaic.Lib.ValueIdx

noncomputable section

namespace Cert.KernelIdeal.AttnBlocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

variable {F : FTy → Type} [FloatOps F] [Named F]
variable (V : (c : Dev nD) → (b : Ref sig .tc) → Buf (Elt F) ((c : Thread nD τ).loc b))

/-! ## The grid and the index maps, decided over the 72 points -/

/-- Point `t` is query tile `t / 6`, key tile `t % 6`. -/
theorem coords1 : ∀ t : Fin cfg1.N, (grid1.coords t 0).val = t.val / 6 ∧ (grid1.coords t 1).val = t.val % 6 :=
  (by decide +kernel : ∀ t : Fin grid1.N, _)

/-- The windows of q, x and the output are at row block `t / 6`; the adjacency's at block `(t / 6, t % 6)`. -/
theorem idx_tiles : ∀ t : Fin cfg1.N,
    win1_0.index t (0 : Fin 2) = t.val / 6 ∧ win1_0.index t (1 : Fin 2) = 0
    ∧ win1_2.index t (0 : Fin 2) = t.val / 6 ∧ win1_2.index t (1 : Fin 2) = 0
    ∧ win1_3.index t (0 : Fin 2) = t.val / 6 ∧ win1_3.index t (1 : Fin 2) = t.val % 6
    ∧ win1_6.index t (0 : Fin 2) = t.val / 6 ∧ win1_6.index t (1 : Fin 2) = 0 :=
  (by decide +kernel : ∀ t : Fin grid1.N, _)

/-- The windows of x_new, of the last weights and of the last bias are at block (0, 0) at every point. -/
theorem idx_whole : ∀ t : Fin cfg1.N,
    win1_1.index t (0 : Fin 2) = 0 ∧ win1_1.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem point_lt (t : Fin cfg1.N) : t.val < 72 := t.isLt

/-- The node that row `r` of point `t`'s query tile is. -/
def rowOf (t : Fin cfg1.N) (r : Fin 512) : Fin 6144 :=
  ⟨512 * (t.val / 6) + r.val, by have := point_lt t; have := r.isLt; omega⟩
/-- The node that row `k` of point `t`'s key tile is. -/
def colOf (t : Fin cfg1.N) (k : Fin 1024) : Fin 6144 :=
  ⟨1024 * (t.val % 6) + k.val, by have := k.isLt; omega⟩

theorem rowOf_val (t : Fin cfg1.N) (r : Fin 512) : (rowOf t r).val = 512 * (t.val / 6) + r.val := rfl
theorem colOf_val (t : Fin cfg1.N) (k : Fin 1024) : (colOf t k).val = 1024 * (t.val % 6) + k.val := rfl

/-! ## The tiled windows -/

/-- Row `r` of the q block at point `t` is row `n = 512 (t / 6) + r` of the q array. -/
theorem q_apply (c : Dev nD) (t : Fin cfg1.N) (r : Fin 512) (e : Fin 768) (n : Fin 6144)
    (hn : n.val = 512 * (t.val / 6) + r.val) :
    (iblk1 V c 0 t : Vec F S512x768 .bf16) (ix2 r e)
      = (V c (Pipeline.arrRef spec1 0) : Vec F S6144x768 .bf16) (ix2 n e) := by
  obtain ⟨e0, e1, -⟩ := idx_tiles t
  unfold iblk1
  rw [View.read_apply]
  show V c (Pipeline.arrRef spec1 0) (((cfg1.win 0).blk t).view.emb (ix2 r e)) = _
  refine congrArg (V c (Pipeline.arrRef spec1 0)) (funext fun a => Fin.ext ?_)
  match a with
  | ⟨0, _⟩ => show win1_0.index t (0 : Fin 2) * 512 + 1 * r.val = n.val; rw [e0, hn]; omega
  | ⟨1, _⟩ => show win1_0.index t (1 : Fin 2) * 768 + 1 * e.val = e.val; rw [e1]; omega

/-- Row `r` of the x block at point `t` is row `n = 512 (t / 6) + r` of the x array. -/
theorem x_apply (c : Dev nD) (t : Fin cfg1.N) (r : Fin 512) (e : Fin 768) (n : Fin 6144)
    (hn : n.val = 512 * (t.val / 6) + r.val) :
    (iblk1 V c 2 t : Vec F S512x768 .f32) (ix2 r e)
      = (V c (Pipeline.arrRef spec1 2) : Vec F S6144x768 .f32) (ix2 n e) := by
  obtain ⟨-, -, e0, e1, -⟩ := idx_tiles t
  unfold iblk1
  rw [View.read_apply]
  show V c (Pipeline.arrRef spec1 2) (((cfg1.win 2).blk t).view.emb (ix2 r e)) = _
  refine congrArg (V c (Pipeline.arrRef spec1 2)) (funext fun a => Fin.ext ?_)
  match a with
  | ⟨0, _⟩ => show win1_2.index t (0 : Fin 2) * 512 + 1 * r.val = n.val; rw [e0, hn]; omega
  | ⟨1, _⟩ => show win1_2.index t (1 : Fin 2) * 768 + 1 * e.val = e.val; rw [e1]; omega

/-- Entry `(r, k)` of the adjacency block at point `t` is the adjacency of node `n = 512 (t / 6) + r` with node
    `m = 1024 (t % 6) + k`. -/
theorem adj_apply (c : Dev nD) (t : Fin cfg1.N) (r : Fin 512) (k : Fin 1024) (n m : Fin 6144)
    (hn : n.val = 512 * (t.val / 6) + r.val) (hm : m.val = 1024 * (t.val % 6) + k.val) :
    (iblk1 V c 3 t : Vec F S512x1024 .i32) (ix2 r k)
      = (V c (Pipeline.arrRef spec1 3) : Vec F S6144x6144 .i32) (ix2 n m) := by
  obtain ⟨-, -, -, -, e0, e1, -⟩ := idx_tiles t
  unfold iblk1
  rw [View.read_apply]
  show V c (Pipeline.arrRef spec1 3) (((cfg1.win 3).blk t).view.emb (ix2 r k)) = _
  refine congrArg (V c (Pipeline.arrRef spec1 3)) (funext fun a => Fin.ext ?_)
  match a with
  | ⟨0, _⟩ => show win1_3.index t (0 : Fin 2) * 512 + 1 * r.val = n.val; rw [e0, hn]; omega
  | ⟨1, _⟩ => show win1_3.index t (1 : Fin 2) * 1024 + 1 * k.val = m.val; rw [e1, hm]; omega

/-- The three, at the nodes `rowOf` and `colOf` name. -/
theorem q_apply_row (c : Dev nD) (t : Fin cfg1.N) (r : Fin 512) (e : Fin 768) :
    (iblk1 V c 0 t : Vec F S512x768 .bf16) (ix2 r e)
      = (V c (Pipeline.arrRef spec1 0) : Vec F S6144x768 .bf16) (ix2 (rowOf t r) e) :=
  q_apply V c t r e (rowOf t r) rfl
theorem x_apply_row (c : Dev nD) (t : Fin cfg1.N) (r : Fin 512) (e : Fin 768) :
    (iblk1 V c 2 t : Vec F S512x768 .f32) (ix2 r e)
      = (V c (Pipeline.arrRef spec1 2) : Vec F S6144x768 .f32) (ix2 (rowOf t r) e) :=
  x_apply V c t r e (rowOf t r) rfl
theorem adj_apply_row (c : Dev nD) (t : Fin cfg1.N) (r : Fin 512) (k : Fin 1024) :
    (iblk1 V c 3 t : Vec F S512x1024 .i32) (ix2 r k)
      = (V c (Pipeline.arrRef spec1 3) : Vec F S6144x6144 .i32) (ix2 (rowOf t r) (colOf t k)) :=
  adj_apply V c t r k (rowOf t r) (colOf t k) rfl rfl

/-! ## The whole windows -/

/-- The x_new block is the x_new array, at every point. -/
theorem xnew_whole (c : Dev nD) (t : Fin cfg1.N) :
    (iblk1 V c 1 t : Vec F S6144x768 .bf16) = V c (Pipeline.arrRef spec1 1) := by
  obtain ⟨e0, e1, -⟩ := idx_whole t
  funext i
  have hi0 : (i 0).val < 6144 := (i 0).isLt
  have hi1 : (i 1).val < 768 := (i 1).isLt
  unfold iblk1
  rw [View.read_apply]
  show V c (Pipeline.arrRef spec1 1) (((cfg1.win 1).blk t).view.emb i) = V c (Pipeline.arrRef spec1 1) i
  refine congrArg (V c (Pipeline.arrRef spec1 1)) (funext fun a => Fin.ext ?_)
  match a with
  | ⟨0, _⟩ => show win1_1.index t (0 : Fin 2) * 6144 + 1 * (i 0).val = (i 0).val; rw [e0]; omega
  | ⟨1, _⟩ => show win1_1.index t (1 : Fin 2) * 768 + 1 * (i 1).val = (i 1).val; rw [e1]; omega

/-- The last layer's weight block is its array. -/
theorem wfinal_whole (c : Dev nD) (t : Fin cfg1.N) :
    (iblk1 V c 4 t : Vec F S768x768 .bf16) = V c (Pipeline.arrRef spec1 4) := by
  obtain ⟨-, -, e0, e1, -⟩ := idx_whole t
  funext i
  have hi0 : (i 0).val < 768 := (i 0).isLt
  have hi1 : (i 1).val < 768 := (i 1).isLt
  unfold iblk1
  rw [View.read_apply]
  show V c (Pipeline.arrRef spec1 4) (((cfg1.win 4).blk t).view.emb i) = V c (Pipeline.arrRef spec1 4) i
  refine congrArg (V c (Pipeline.arrRef spec1 4)) (funext fun a => Fin.ext ?_)
  match a with
  | ⟨0, _⟩ => show win1_4.index t (0 : Fin 2) * 768 + 1 * (i 0).val = (i 0).val; rw [e0]; omega
  | ⟨1, _⟩ => show win1_4.index t (1 : Fin 2) * 768 + 1 * (i 1).val = (i 1).val; rw [e1]; omega

/-- The last layer's bias block is its row. -/
theorem bfinal_whole (c : Dev nD) (t : Fin cfg1.N) :
    (iblk1 V c 5 t : Vec F S1x768 .f32) = V c (Pipeline.arrRef spec1 5) := by
  obtain ⟨-, -, -, -, e0, e1⟩ := idx_whole t
  funext i
  have hi0 : (i 0).val < 1 := (i 0).isLt
  have hi1 : (i 1).val < 768 := (i 1).isLt
  unfold iblk1
  rw [View.read_apply]
  show V c (Pipeline.arrRef spec1 5) (((cfg1.win 5).blk t).view.emb i) = V c (Pipeline.arrRef spec1 5) i
  refine congrArg (V c (Pipeline.arrRef spec1 5)) (funext fun a => Fin.ext ?_)
  match a with
  | ⟨0, _⟩ => show win1_5.index t (0 : Fin 2) * 1 + 1 * (i 0).val = (i 0).val; rw [e0]; omega
  | ⟨1, _⟩ => show win1_5.index t (1 : Fin 2) * 768 + 1 * (i 1).val = (i 1).val; rw [e1]; omega

/-! ## The key tile, loaded out of the resident x_new -/

/-- A load of 1024 rows by 768 columns at row offset `1024 m`, column offset 0: its row `k` is row `1024 m + k`. -/
theorem keyTile_apply (X : Vec F S6144x768 .bf16) (off : Fin 2 → Nat)
    (inb : ∀ a, off a + S1024x768.size a ≤ S6144x768.size a) (m : Nat)
    (h0 : off 0 = 1024 * m) (h1 : off 1 = 0) (k : Fin 1024) (e : Fin 768) (n : Fin 6144)
    (hn : n.val = 1024 * m + k.val) :
    View.ld (Val := Elt F) X (Rect.unit (s := S6144x768) off S1024x768.size inb) (ix2 k e) = X (ix2 n e) := by
  show X ((Rect.unit (s := S6144x768) off S1024x768.size inb).emb (ix2 k e)) = X (ix2 n e)
  refine congrArg X (funext fun a => Fin.ext ?_)
  rw [Rect.emb_apply]
  match a with
  | ⟨0, _⟩ => show off 0 + 1 * k.val = n.val; rw [h0, hn]; omega
  | ⟨1, _⟩ => show off 1 + 1 * e.val = e.val; rw [h1]; omega

/-- At point `t` the body's computed offsets are `(1024 (t % 6), 0)`: row `k` of the loaded key tile is row
    `1024 (t % 6) + k` of x_new. -/
theorem keyTile_at (t : Fin cfg1.N) (X : Vec F S6144x768 .bf16)
    (inb : ∀ a, k1_off1 (grid1.coords t) a + S1024x768.size a ≤ S6144x768.size a)
    (k : Fin 1024) (e : Fin 768) (n : Fin 6144) (hn : n.val = 1024 * (t.val % 6) + k.val) :
    View.ld (Val := Elt F) X (Rect.unit (s := S6144x768) (k1_off1 (grid1.coords t)) S1024x768.size inb) (ix2 k e)
      = X (ix2 n e) :=
  keyTile_apply X (k1_off1 (grid1.coords t)) inb (t.val % 6)
    (by rw [k1_off1_eq]; show 1024 * (grid1.coords t 1).val = _; rw [(coords1 t).2])
    (by rw [k1_off1_eq]; rfl) k e n hn

/-- The same with the offsets spelt as the 32-bit word arithmetic that computes them. -/
theorem keyTile_at_words (t : Fin cfg1.N) (X : Vec F S6144x768 .bf16)
    (inb : ∀ a, (![BitVec.toNat (Scalar.indexCast (Scalar.muli (BitVec.ofNat 32 (grid1.coords t 1).val) 1024#32)), 0] : Fin 2 → Nat) a
      + S1024x768.size a ≤ S6144x768.size a)
    (k : Fin 1024) (e : Fin 768) (n : Fin 6144) (hn : n.val = 1024 * (t.val % 6) + k.val) :
    View.ld (Val := Elt F) X (Rect.unit (s := S6144x768)
        ![BitVec.toNat (Scalar.indexCast (Scalar.muli (BitVec.ofNat 32 (grid1.coords t 1).val) 1024#32)), 0]
        S1024x768.size inb) (ix2 k e)
      = X (ix2 n e) :=
  keyTile_at t X inb k e n hn

theorem keyTile_at_col (t : Fin cfg1.N) (X : Vec F S6144x768 .bf16)
    (inb : ∀ a, k1_off1 (grid1.coords t) a + S1024x768.size a ≤ S6144x768.size a) (k : Fin 1024) (e : Fin 768) :
    View.ld (Val := Elt F) X (Rect.unit (s := S6144x768) (k1_off1 (grid1.coords t)) S1024x768.size inb) (ix2 k e)
      = X (ix2 (colOf t k) e) :=
  keyTile_at t X inb k e (colOf t k) rfl

/-! ## The output's blocks -/

/-- Row `r` of block `t` of a whole-array function `G` of the output's shape is row `n = 512 (t / 6) + r` of `G`. -/
theorem out_read (t : Fin cfg1.N) (G : Vec F S6144x768 .f32) (r : Fin 512) (e : Fin 768) (n : Fin 6144)
    (hn : n.val = 512 * (t.val / 6) + r.val) :
    (((cfg1.win 6).blk t).view.read (Elt F) G : Vec F S512x768 .f32) (ix2 r e) = G (ix2 n e) := by
  obtain ⟨-, -, -, -, -, -, e0, e1⟩ := idx_tiles t
  rw [View.read_apply]
  show G (((cfg1.win 6).blk t).view.emb (ix2 r e)) = G (ix2 n e)
  refine congrArg G (funext fun a => Fin.ext ?_)
  match a with
  | ⟨0, _⟩ => show win1_6.index t (0 : Fin 2) * 512 + 1 * r.val = n.val; rw [e0, hn]; omega
  | ⟨1, _⟩ => show win1_6.index t (1 : Fin 2) * 768 + 1 * e.val = e.val; rw [e1]; omega

theorem out_read_row (t : Fin cfg1.N) (G : Vec F S6144x768 .f32) (r : Fin 512) (e : Fin 768) :
    (((cfg1.win 6).blk t).view.read (Elt F) G : Vec F S512x768 .f32) (ix2 r e) = G (ix2 (rowOf t r) e) :=
  out_read t G r e (rowOf t r) rfl

/-- An index of the output is in point `t`'s block iff each coordinate is in the block's range on its axis. -/
theorem mem_blk_out (t : Fin cfg1.N) (i : S6144x768.Idx) :
    i ∈ ((cfg1.win 6).blk t).view.set ↔ ∀ a : Fin 2, win1_6.index t a * S512x768.size a ≤ (i a).val
      ∧ (i a).val < win1_6.index t a * S512x768.size a + S512x768.size a := by
  show i ∈ ((View.whole main_v10).slice (win1_6.rect t)).set ↔ _
  rw [View.set_slice_whole, Rect.mem_set_unit]
  exact Iff.rfl

/-- The point that writes back the block holding row `n`: the last key tile of query tile `n / 512`. -/
def flushPoint (i : S6144x768.Idx) : Fin cfg1.N :=
  ⟨6 * ((i 0).val / 512) + 5, by have h : (i 0).val < 6144 := (i 0).isLt; show 6 * ((i 0).val / 512) + 5 < 72; omega⟩

theorem flushPoint_val (i : S6144x768.Idx) : (flushPoint i).val = 6 * ((i 0).val / 512) + 5 := rfl

/-- Every index of the output is in the block that point writes back. -/
theorem cover_out (i : S6144x768.Idx) :
    ∃ t : Fin cfg1.N, (cfg1.win 6).flush t = true ∧ i ∈ ((cfg1.win 6).blk t).view.set := by
  have hi0 : (i 0).val < 6144 := (i 0).isLt
  have hi1 : (i 1).val < 768 := (i 1).isLt
  obtain ⟨-, -, -, -, -, -, e0, e1⟩ := idx_tiles (flushPoint i)
  refine ⟨flushPoint i, (flush1_6 _).mpr (by rw [flushPoint_val]; omega), ?_⟩
  rw [mem_blk_out]
  intro a
  match a with
  | ⟨0, _⟩ =>
    show win1_6.index (flushPoint i) (0 : Fin 2) * 512 ≤ (i 0).val
      ∧ (i 0).val < win1_6.index (flushPoint i) (0 : Fin 2) * 512 + 512
    rw [e0, flushPoint_val]; omega
  | ⟨1, _⟩ =>
    show win1_6.index (flushPoint i) (1 : Fin 2) * 768 ≤ (i 1).val
      ∧ (i 1).val < win1_6.index (flushPoint i) (1 : Fin 2) * 768 + 768
    rw [e1]; omega

end Cert.KernelIdeal.AttnBlocks

end
-- ==== Proof.ProjAttnArray.lean ====
/-
  From the attention region's output blocks to its output array.

  The output's block is written back at the last key tile of each query tile, the points t with t % 6 = 5, and there
  the block written is what the body has left in the output's staging buffer. If at each such point that block, read
  at row r and feature e, is the entry of ONE whole-array function at node 512 (t / 6) + r and feature e, then what the
  point writes back is that function's block at row block t / 6; these twelve blocks cover the array, so the array ends
  holding the function.
-/
import proofs.«181948_j79242146611549_2_alg».proof.Proof.ProjAttnBlocks

noncomputable section

namespace Cert.KernelIdeal.AttnBlocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

variable {F : FTy → Type} [FloatOps F] [Named F]
variable (V : (c : Dev nD) → (b : Ref sig .tc) → Buf (Elt F) ((c : Thread nD τ).loc b))

/-- WHAT POINT `t` WRITES BACK of the output is block `t` of `Gf`, when the block the body left there is `Gf`'s rows
    `512 (t / 6) …`. -/
theorem flushed_out_eq (c : Dev nD) (t : Fin cfg1.N) (Gf : Vec F S6144x768 .f32)
    (ht : ∀ (r : Fin 512) (e : Fin 768),
      ((outsAt1 V c t.val t.isLt).1 : Vec F S512x768 .f32) (ix2 r e) = Gf (ix2 (rowOf t r) e)) :
    (dat1 V c).flushed 6 t = ((cfg1.win 6).blk t).view.read (Elt F) Gf := by
  show (cfg1.win 6).cut (grid1.coords t) ((dat1 V c).after 6 t) = _
  rw [after1_6]
  funext j
  have hj0 : (j 0).val < 512 := (j 0).isLt
  have hj1 : (j 1).val < 768 := (j 1).isLt
  have hinj : ((cfg1.win 6).xinj (grid1.coords t) j : S512x768.Idx)
      = ix2 (⟨(j 0).val, hj0⟩ : Fin 512) (⟨(j 1).val, hj1⟩ : Fin 768) :=
    funext fun a => by match a with | ⟨0, _⟩ => rfl | ⟨1, _⟩ => rfl
  have hj : (j : S512x768.Idx) = ix2 (⟨(j 0).val, hj0⟩ : Fin 512) (⟨(j 1).val, hj1⟩ : Fin 768) :=
    funext fun a => by match a with | ⟨0, _⟩ => rfl | ⟨1, _⟩ => rfl
  show ((outsAt1 V c t.val t.isLt).1 : Vec F S512x768 .f32) ((cfg1.win 6).xinj (grid1.coords t) j)
    = (((cfg1.win 6).blk t).view.read (Elt F) Gf : Vec F S512x768 .f32) j
  exact ((congrArg ((outsAt1 V c t.val t.isLt).1 : Vec F S512x768 .f32) hinj).trans (ht _ _)).trans
    ((out_read_row t Gf _ _).symm.trans
      (congrArg (((cfg1.win 6).blk t).view.read (Elt F) Gf : Vec F S512x768 .f32) hj.symm))

/-- THE OUTPUT ARRAY after the region is `Gf`, when every written-back block is `Gf`'s. -/
theorem out_array (c : Dev nD) (Gf : Vec F S6144x768 .f32)
    (h : ∀ t : Fin cfg1.N, t.val % 6 = 5 → ∀ (r : Fin 512) (e : Fin 768),
      ((outsAt1 V c t.val t.isLt).1 : Vec F S512x768 .f32) (ix2 r e) = Gf (ix2 (rowOf t r) e)) :
    (dat1 V c).arrAt 6 cfg1.N = Gf :=
  (dat1 V c).arrAt_eq_of_cover 6 Gf
    (fun t hf => flushed_out_eq V c t Gf (h t ((flush1_6 t).mp hf))) cover_out

end Cert.KernelIdeal.AttnBlocks

end
-- ==== Proof.PayBase.lean ====
/-
  The attention body's building blocks, read at an index.

  A float is an extended real, so a change of format is the identity. This module reads, at explicit coordinates:
  the two named constants (the scale 1/10 and the mask's -∞); a column vector [a] viewed [a, 1] and a column [a, 1]
  spread over the lanes [a, b]; the three matrix products of the body into the zero splat as plain sums over the shared
  axis; and the two lane reductions of a [512, 1024] block, the maximum from -∞ as a supremum and the sum from 0.
-/
import proofs.«181948_j79242146611549_2_alg».proof.Proof.Gen.KernelIdeal.Skeleton
import proofs.«181948_j79242146611549_2_alg».proof.Proof.RefSpec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.PayValue

open Idealize.ShloMosaic Idealize.ShloMosaic.ValueIdx
open Cert.KernelIdeal Cert.KernelIdeal.Gen
open Cert.Proof

/-! ## The named constants -/

/-- The scores' scale is the real number 1/10. -/
theorem inv_10 : Named.named (F := Ideal) κ "inv_10" (φ := .f32) 0x3DCCCCCD#32 = ((1 / 10 : ℝ) : EReal) :=
  IdealRules.named_const.ideal_named_scalar _ _ _ _ rfl

/-- The mask's value is -∞. -/
theorem neg_big : Named.named (F := Ideal) κ "neg_big" (φ := .f32) 0xFF333332#32 = (⊥ : EReal) :=
  IdealRules.named_const.ideal_named_scalar _ _ _ _ rfl

/-! ## Columns -/

section Columns
variable {α : Type}

/-- An [a] array viewed [a, 1] reads, at (i, u), the operand at i. -/
theorem colCast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread over b lanes reads, at (p, c), the column at p. -/
theorem colBcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The matrix products -/

/-! ### Queries against transposed keys: [512, 256] × [256, 1024] -/

theorem qk_lhs0 (j : S512x1024.Idx) (q : dot_S512x256_S256x1024_S512x1024_1_0_0_1_n_n.contr.Idx) :
    (dot_S512x256_S256x1024_S512x1024_1_0_0_1_n_n.lhsIdx j q 0).val = (j 0).val := by
  unfold DotDims.lhsIdx
  rw [dif_neg (show ¬(0 : Fin S512x256.rank) ∈ dot_S512x256_S256x1024_S512x1024_1_0_0_1_n_n.lhsBatch by decide),
    dif_pos (show (0 : Fin S512x256.rank) ∈ dot_S512x256_S256x1024_S512x1024_1_0_0_1_n_n.lhsNonContracting by decide)]
  rfl
theorem qk_lhs1 (j : S512x1024.Idx) (q : dot_S512x256_S256x1024_S512x1024_1_0_0_1_n_n.contr.Idx) :
    (dot_S512x256_S256x1024_S512x1024_1_0_0_1_n_n.lhsIdx j q 1).val = (q ⟨0, by decide⟩).val :=
  dot_S512x256_S256x1024_S512x1024_1_0_0_1_n_n.lhsIdx_val_of_single rfl j q
theorem qk_rhs0 (j : S512x1024.Idx) (q : dot_S512x256_S256x1024_S512x1024_1_0_0_1_n_n.contr.Idx) :
    (dot_S512x256_S256x1024_S512x1024_1_0_0_1_n_n.rhsIdx j q 0).val = (q ⟨0, by decide⟩).val :=
  dot_S512x256_S256x1024_S512x1024_1_0_0_1_n_n.rhsIdx_val_of_single rfl j q
theorem qk_rhs1 (j : S512x1024.Idx) (q : dot_S512x256_S256x1024_S512x1024_1_0_0_1_n_n.contr.Idx) :
    (dot_S512x256_S256x1024_S512x1024_1_0_0_1_n_n.rhsIdx j q 1).val = (j 1).val := by
  unfold DotDims.rhsIdx
  rw [dif_neg (show ¬(1 : Fin S256x1024.rank) ∈ dot_S512x256_S256x1024_S512x1024_1_0_0_1_n_n.rhsBatch by decide),
    dif_pos (show (1 : Fin S256x1024.rank) ∈ dot_S512x256_S256x1024_S512x1024_1_0_0_1_n_n.rhsNonContracting by decide)]
  rfl

/-- The product of a query block with a transposed key block, into the zero splat, at query row r and key k: the
    inner product of the two rows over the 256 lanes. -/
theorem qk_apply (a : FVec Ideal S512x256 .bf16) (w : FVec Ideal S256x1024 .bf16) (r : Fin 512) (k : Fin 1024) :
    matmul dot_S512x256_S256x1024_S512x1024_1_0_0_1_n_n none a w (constant (F := Ideal) S512x1024 .f32 0x00000000#32) (ix2 r k)
      = ∑ d : Fin 256, a (ix2 r d) * w (ix2 d k) := by
  simp only [matmul]
  rw [Ideal.matmul_constant_zero_apply,
    ← Equiv.sum_comp (contrEquiv1 dot_S512x256_S256x1024_S512x1024_1_0_0_1_n_n 256 rfl rfl).symm]
  refine Finset.sum_congr rfl fun d _ => ?_
  have hd := contrEquiv1_symm_val dot_S512x256_S256x1024_S512x1024_1_0_0_1_n_n 256 rfl rfl d
  have el : dot_S512x256_S256x1024_S512x1024_1_0_0_1_n_n.lhsIdx (ix2 r k) ((contrEquiv1 dot_S512x256_S256x1024_S512x1024_1_0_0_1_n_n 256 rfl rfl).symm d) = ix2 r d :=
    funext fun ax => Fin.ext (by
      match ax with
      | ⟨0, _⟩ => exact qk_lhs0 _ _
      | ⟨1, _⟩ => exact (qk_lhs1 _ _).trans hd)
  have er : dot_S512x256_S256x1024_S512x1024_1_0_0_1_n_n.rhsIdx (ix2 r k) ((contrEquiv1 dot_S512x256_S256x1024_S512x1024_1_0_0_1_n_n 256 rfl rfl).symm d) = ix2 d k :=
    funext fun ax => Fin.ext (by
      match ax with
      | ⟨0, _⟩ => exact (qk_rhs0 _ _).trans hd
      | ⟨1, _⟩ => exact qk_rhs1 _ _)
  rw [el, er]

/-! ### Weights against values: [512, 1024] × [1024, 256] -/

theorem pv_lhs0 (j : S512x256.Idx) (q : dot_S512x1024_S1024x256_S512x256_1_0_0_1_n_n.contr.Idx) :
    (dot_S512x1024_S1024x256_S512x256_1_0_0_1_n_n.lhsIdx j q 0).val = (j 0).val := by
  unfold DotDims.lhsIdx
  rw [dif_neg (show ¬(0 : Fin S512x1024.rank) ∈ dot_S512x1024_S1024x256_S512x256_1_0_0_1_n_n.lhsBatch by decide),
    dif_pos (show (0 : Fin S512x1024.rank) ∈ dot_S512x1024_S1024x256_S512x256_1_0_0_1_n_n.lhsNonContracting by decide)]
  rfl
theorem pv_lhs1 (j : S512x256.Idx) (q : dot_S512x1024_S1024x256_S512x256_1_0_0_1_n_n.contr.Idx) :
    (dot_S512x1024_S1024x256_S512x256_1_0_0_1_n_n.lhsIdx j q 1).val = (q ⟨0, by decide⟩).val :=
  dot_S512x1024_S1024x256_S512x256_1_0_0_1_n_n.lhsIdx_val_of_single rfl j q
theorem pv_rhs0 (j : S512x256.Idx) (q : dot_S512x1024_S1024x256_S512x256_1_0_0_1_n_n.contr.Idx) :
    (dot_S512x1024_S1024x256_S512x256_1_0_0_1_n_n.rhsIdx j q 0).val = (q ⟨0, by decide⟩).val :=
  dot_S512x1024_S1024x256_S512x256_1_0_0_1_n_n.rhsIdx_val_of_single rfl j q
theorem pv_rhs1 (j : S512x256.Idx) (q : dot_S512x1024_S1024x256_S512x256_1_0_0_1_n_n.contr.Idx) :
    (dot_S512x1024_S1024x256_S512x256_1_0_0_1_n_n.rhsIdx j q 1).val = (j 1).val := by
  unfold DotDims.rhsIdx
  rw [dif_neg (show ¬(1 : Fin S1024x256.rank) ∈ dot_S512x1024_S1024x256_S512x256_1_0_0_1_n_n.rhsBatch by decide),
    dif_pos (show (1 : Fin S1024x256.rank) ∈ dot_S512x1024_S1024x256_S512x256_1_0_0_1_n_n.rhsNonContracting by decide)]
  rfl

/-- The product of a weight block with a value block, into the zero splat, at query row r and lane d: the weights of
    row r against lane d of the 1024 keys. -/
theorem pv_apply (a : FVec Ideal S512x1024 .bf16) (w : FVec Ideal S1024x256 .bf16) (r : Fin 512) (d : Fin 256) :
    matmul dot_S512x1024_S1024x256_S512x256_1_0_0_1_n_n none a w (constant (F := Ideal) S512x256 .f32 0x00000000#32) (ix2 r d)
      = ∑ k : Fin 1024, a (ix2 r k) * w (ix2 k d) := by
  simp only [matmul]
  rw [Ideal.matmul_constant_zero_apply,
    ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r d) ((contrEquiv1 dot_S512x1024_S1024x256_S512x256_1_0_0_1_n_n 1024 rfl rfl).symm k) = ix2 r k :=
    funext fun ax => Fin.ext (by
      match ax with
      | ⟨0, _⟩ => exact pv_lhs0 _ _
      | ⟨1, _⟩ => exact (pv_lhs1 _ _).trans hk)
  have er : dot_S512x1024_S1024x256_S512x256_1_0_0_1_n_n.rhsIdx (ix2 r d) ((contrEquiv1 dot_S512x1024_S1024x256_S512x256_1_0_0_1_n_n 1024 rfl rfl).symm k) = ix2 k d :=
    funext fun ax => Fin.ext (by
      match ax with
      | ⟨0, _⟩ => exact (pv_rhs0 _ _).trans hk
      | ⟨1, _⟩ => exact pv_rhs1 _ _)
  rw [el, er]

/-! ### The last layer: [512, 768] × [768, 768] -/

theorem fin_lhs0 (j : S512x768.Idx) (q : dot_S512x768_S768x768_S512x768_1_0_0_1_n_n.contr.Idx) :
    (dot_S512x768_S768x768_S512x768_1_0_0_1_n_n.lhsIdx j q 0).val = (j 0).val := by
  unfold DotDims.lhsIdx
  rw [dif_neg (show ¬(0 : Fin S512x768.rank) ∈ dot_S512x768_S768x768_S512x768_1_0_0_1_n_n.lhsBatch by decide),
    dif_pos (show (0 : Fin S512x768.rank) ∈ dot_S512x768_S768x768_S512x768_1_0_0_1_n_n.lhsNonContracting by decide)]
  rfl
theorem fin_lhs1 (j : S512x768.Idx) (q : dot_S512x768_S768x768_S512x768_1_0_0_1_n_n.contr.Idx) :
    (dot_S512x768_S768x768_S512x768_1_0_0_1_n_n.lhsIdx j q 1).val = (q ⟨0, by decide⟩).val :=
  dot_S512x768_S768x768_S512x768_1_0_0_1_n_n.lhsIdx_val_of_single rfl j q
theorem fin_rhs0 (j : S512x768.Idx) (q : dot_S512x768_S768x768_S512x768_1_0_0_1_n_n.contr.Idx) :
    (dot_S512x768_S768x768_S512x768_1_0_0_1_n_n.rhsIdx j q 0).val = (q ⟨0, by decide⟩).val :=
  dot_S512x768_S768x768_S512x768_1_0_0_1_n_n.rhsIdx_val_of_single rfl j q
theorem fin_rhs1 (j : S512x768.Idx) (q : dot_S512x768_S768x768_S512x768_1_0_0_1_n_n.contr.Idx) :
    (dot_S512x768_S768x768_S512x768_1_0_0_1_n_n.rhsIdx j q 1).val = (j 1).val := by
  unfold DotDims.rhsIdx
  rw [dif_neg (show ¬(1 : Fin S768x768.rank) ∈ dot_S512x768_S768x768_S512x768_1_0_0_1_n_n.rhsBatch by decide),
    dif_pos (show (1 : Fin S768x768.rank) ∈ dot_S512x768_S768x768_S512x768_1_0_0_1_n_n.rhsNonContracting by decide)]
  rfl

/-- The last layer's product into the zero splat at row r and output feature e: row r of the left block against column
    e of the weight block. -/
theorem fin_apply (a : FVec Ideal S512x768 .bf16) (w : FVec Ideal S768x768 .bf16) (r : Fin 512) (e : Fin 768) :
    matmul dot_S512x768_S768x768_S512x768_1_0_0_1_n_n none a w (constant (F := Ideal) S512x768 .f32 0x00000000#32) (ix2 r e)
      = ∑ k : Fin 768, a (ix2 r k) * w (ix2 k e) := by
  simp only [matmul]
  rw [Ideal.matmul_constant_zero_apply,
    ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 r e) ((contrEquiv1 dot_S512x768_S768x768_S512x768_1_0_0_1_n_n 768 rfl rfl).symm k) = ix2 r k :=
    funext fun ax => Fin.ext (by
      match ax with
      | ⟨0, _⟩ => exact fin_lhs0 _ _
      | ⟨1, _⟩ => exact (fin_lhs1 _ _).trans hk)
  have er : dot_S512x768_S768x768_S512x768_1_0_0_1_n_n.rhsIdx (ix2 r e) ((contrEquiv1 dot_S512x768_S768x768_S512x768_1_0_0_1_n_n 768 rfl rfl).symm k) = ix2 k e :=
    funext fun ax => Fin.ext (by
      match ax with
      | ⟨0, _⟩ => exact (fin_rhs0 _ _).trans hk
      | ⟨1, _⟩ => exact fin_rhs1 _ _)
  rw [el, er]

/-! ## The lane reductions of a [512, 1024] block -/

/-- The index a lane reduction reads: row r, lane k. -/
theorem lift_eq (r : Fin 512) (k : Fin 1024) :
    reduces_S512x1024_S512.lift (ix1 r) k = ix2 r k :=
  funext fun ax => Fin.ext (by
    match ax with
    | ⟨0, _⟩ => rfl
    | ⟨1, _⟩ => rfl)

/-- The lane maximum from -∞ at row r is the supremum of the row. -/
theorem rowMax_apply (src : FVec Ideal S512x1024 .f32) (hφ : FKind.Formats .f32)
    (hacc : (0xFF800000#32 : BitVec 32) = FKind.maximumf.neutral .f32 hφ) (r : Fin 512) :
    multiReduction .maximumf [1] S512 src 0xFF800000#32 reduces_S512x1024_S512 hφ hacc (ix1 r)
      = Finset.univ.sup fun k : Fin 1024 => src (ix2 r k) := by
  refine (Ideal.multiReduction_maximumf_single src 0xFF800000#32 reduces_S512x1024_S512 hφ hacc (ix1 r)).trans ?_
  have hb : (FloatOps.ofBits (F := Ideal) .f32 0xFF800000#32 : EReal) = ⊥ := RefSpec.ofBits_neg_inf
  rw [hb]
  have hf : (src ∘ reduces_S512x1024_S512.lift (ix1 r)) = fun k : Fin 1024 => src (ix2 r k) :=
    funext fun k => congrArg src (lift_eq r k)
  rw [hf]
  exact RefSpec.fold_max_bot_eq_sup _

/-- The lane sum from 0 at row r is the sum of the row. -/
theorem rowSum_apply (src : FVec Ideal S512x1024 .f32) (hφ : FKind.Formats .f32)
    (hacc : (0x00000000#32 : BitVec 32) = FKind.add.neutral .f32 hφ) (r : Fin 512) :
    multiReduction .add [1] S512 src 0x00000000#32 reduces_S512x1024_S512 hφ hacc (ix1 r)
      = ∑ k : Fin 1024, src (ix2 r k) := by
  refine (Ideal.multiReduction_add_single src 0x00000000#32 reduces_S512x1024_S512 hφ hacc (ix1 r)).trans ?_
  exact Finset.sum_congr rfl fun k _ => congrArg src (lift_eq r k)

end Cert.KernelIdeal.PayValue

end
-- ==== Proof.PayHead.lean ====
/-
  One head's step of the attention body as functions of blocks, read at an index.

  With q a [512, 256] block of query lanes, kv a [1024, 256] block of key/value lanes, m the mask's test (1 where the
  adjacency entry is zero), and the running maximum, denominator and accumulator columns of the head:
      scores r k = -∞ where m r k = 1, else (Σ_d q r d · kv k d) · (1/10)
      newmax r   = max (oldmax r) (sup_k scores r k)
      a r        = e^(oldmax r - newmax r)
      p r k      = e^(scores r k - newmax r)
      newl r     = a r · oldl r + Σ_k p r k
      newacc r d = a r · oldacc r d + Σ_k p r k · kv k d
  Each is stated once for arbitrary blocks; the three heads are these functions of the heads' slices.
-/
import proofs.«181948_j79242146611549_2_alg».proof.Proof.PayBase

noncomputable section

namespace Cert.KernelIdeal.PayValue

open Idealize.ShloMosaic Idealize.ShloMosaic.ValueIdx
open Cert.KernelIdeal Cert.KernelIdeal.Gen
open Cert.Proof

/-! ## The scores -/

/-- The masked, scaled scores of a query block against a key block. -/
def scoreV (q : FVec Ideal S512x256 .bf16) (kv : FVec Ideal S1024x256 .bf16) (m : IVec S512x1024 1) :
    FVec Ideal S512x1024 .f32 :=
  select m (broadcast S512x1024 (Named.named (F := Ideal) κ "neg_big" (φ := .f32) 0xFF333332#32))
    (mulf
      (matmul dot_S512x256_S256x1024_S512x1024_1_0_0_1_n_n none q
        (transpose S256x1024 [1, 0] kv transposes_S1024x256_p1_0_S256x1024)
        (constant (F := Ideal) S512x1024 .f32 0x00000000#32))
      (broadcast S512x1024 (Named.named (F := Ideal) κ "inv_10" (φ := .f32) 0x3DCCCCCD#32)))

theorem scoreV_apply (q : FVec Ideal S512x256 .bf16) (kv : FVec Ideal S1024x256 .bf16) (m : IVec S512x1024 1)
    (r : Fin 512) (k : Fin 1024) :
    scoreV q kv m (ix2 r k)
      = Scalar.select (m (ix2 r k)) (⊥ : EReal) ((∑ d : Fin 256, q (ix2 r d) * kv (ix2 k d)) * ((1 / 10 : ℝ) : EReal)) := by
  unfold scoreV
  rw [select_apply, broadcast_apply, mulf_apply, broadcast_apply, qk_apply, neg_big, inv_10]
  have ht : ∀ d : Fin 256,
      transpose S256x1024 [1, 0] kv transposes_S1024x256_p1_0_S256x1024 (ix2 d k) = kv (ix2 k d) :=
    fun d => transpose_ix2_apply kv transposes_S1024x256_p1_0_S256x1024 d k
  simp only [ht]

/-! ## The running maximum -/

/-- The new running maximum: the old one against the block's lane maximum from -∞. -/
def newMaxV (mold : FVec Ideal S512x1 .f32) (s : FVec Ideal S512x1024 .f32) : FVec Ideal S512x1 .f32 :=
  maximumf mold
    (shapeCast S512x1 (multiReduction (F := Ideal) .maximumf [1] S512 s 0xFF800000#32 reduces_S512x1024_S512 (.inl rfl) rfl)
      shapeCasts_S512_S512x1)

theorem newMaxV_apply (mold : FVec Ideal S512x1 .f32) (s : FVec Ideal S512x1024 .f32) (r : Fin 512) :
    newMaxV mold s (ix2 r (0 : Fin 1)) = max (mold (ix2 r (0 : Fin 1))) (Finset.univ.sup fun k : Fin 1024 => s (ix2 r k)) := by
  unfold newMaxV
  rw [maximumf_apply, colCast_apply]
  exact congrArg (max (mold (ix2 r (0 : Fin 1)))) (rowMax_apply s _ _ r)

/-! ## The two exponentials -/

/-- The old terms' rescaling. -/
def aV (mold mnew : FVec Ideal S512x1 .f32) : FVec Ideal S512x1 .f32 := exp (subf mold mnew)

theorem aV_apply (mold mnew : FVec Ideal S512x1 .f32) (r : Fin 512) :
    aV mold mnew (ix2 r (0 : Fin 1)) = Ideal.exp (mold (ix2 r (0 : Fin 1)) - mnew (ix2 r (0 : Fin 1))) := rfl

/-- The block's weights. -/
def pV (s : FVec Ideal S512x1024 .f32) (mnew : FVec Ideal S512x1 .f32) : FVec Ideal S512x1024 .f32 :=
  exp (subf s (broadcastTo S512x1024 mnew broadcasts_S512x1_S512x1024))

theorem pV_apply (s : FVec Ideal S512x1024 .f32) (mnew : FVec Ideal S512x1 .f32) (r : Fin 512) (k : Fin 1024) :
    pV s mnew (ix2 r k) = Ideal.exp (s (ix2 r k) - mnew (ix2 r (0 : Fin 1))) := by
  unfold pV
  show Ideal.exp (subf s (broadcastTo S512x1024 mnew broadcasts_S512x1_S512x1024) (ix2 r k)) = _
  rw [subf_apply, colBcast_apply]

/-! ## The denominator and the accumulator -/

/-- The block's lane sum from 0, as a column. -/
def rowSumV (p : FVec Ideal S512x1024 .f32) : FVec Ideal S512x1 .f32 :=
  shapeCast S512x1 (multiReduction (F := Ideal) .add [1] S512 p 0x00000000#32 reduces_S512x1024_S512 (.inl rfl) rfl)
    shapeCasts_S512_S512x1

theorem rowSumV_apply (p : FVec Ideal S512x1024 .f32) (r : Fin 512) :
    rowSumV p (ix2 r (0 : Fin 1)) = ∑ k : Fin 1024, p (ix2 r k) := by
  unfold rowSumV
  rw [colCast_apply]
  exact rowSum_apply p _ _ r

/-- The new accumulator: the old one rescaled, plus the weights against the values. -/
def newAccV (a : FVec Ideal S512x1 .f32) (accold : FVec Ideal S512x256 .f32) (p : FVec Ideal S512x1024 .f32)
    (kv : FVec Ideal S1024x256 .bf16) : FVec Ideal S512x256 .f32 :=
  addf (mulf (broadcastTo S512x256 a broadcasts_S512x1_S512x256) accold)
    (matmul dot_S512x1024_S1024x256_S512x256_1_0_0_1_n_n none (truncf .bf16 p bitsLt_bf16_f32) kv
      (constant (F := Ideal) S512x256 .f32 0x00000000#32))

theorem newAccV_apply (a : FVec Ideal S512x1 .f32) (accold : FVec Ideal S512x256 .f32) (p : FVec Ideal S512x1024 .f32)
    (kv : FVec Ideal S1024x256 .bf16) (r : Fin 512) (d : Fin 256) :
    newAccV a accold p kv (ix2 r d)
      = a (ix2 r (0 : Fin 1)) * accold (ix2 r d) + ∑ k : Fin 1024, p (ix2 r k) * kv (ix2 k d) := by
  unfold newAccV
  rw [addf_apply, mulf_apply, colBcast_apply, pv_apply]
  rfl

end Cert.KernelIdeal.PayValue

end
-- ==== Proof.PayScore.lean ====
/-
  The attention body's payloads in the mathematics' letters.

  A tile of 512 query rows meets a block of 1024 keys. With q the query tile, kv the key/value block (both 768 features:
  lane d of head h is feature 256 h + d), adj the adjacency block, and m, l, acc the running maximum, denominator and
  accumulator scratch, head h's step is

      sc h r k     = -∞ if adj r k = 0, else (Σ_d q r (256 h + d) · kv k (256 h + d)) · (1/10)
      newmax h r   = max (m r h) (sup_k sc h r k)
      alpha h r    = e^(m r h - newmax h r)
      wgt h r k    = e^(sc h r k - newmax h r)
      new l        = alpha h r · l r h + Σ_k wgt h r k
      new acc      = alpha h r · acc r (256 h + d) + Σ_k wgt h r k · kv k (256 h + d).

  Every statement is over variables of the literal vector types, at explicit coordinates.
-/
import proofs.«181948_j79242146611549_2_alg».proof.Proof.PayHead

noncomputable section

namespace Cert.KernelIdeal.PayValue

open Idealize.ShloMosaic Idealize.ShloMosaic.ValueIdx
open Cert.KernelIdeal Cert.KernelIdeal.Gen
open Cert.Proof Cert.Proof.RefSpec

/-! ## The letters -/

/-- Head h's masked, scaled score of query row r against key k. -/
def sc (h : Fin 3) (v3 : Vec Ideal S512x768 .bf16) (v8 : Vec Ideal S1024x768 .bf16) (v10 : Vec Ideal S512x1024 .i32)
    (r : Fin 512) (k : Fin 1024) : EReal :=
  if v10 (ix2 r k) = 0#32 then ⊥
  else (∑ d : Fin 256, v3 (ix2 r (feat h d)) * v8 (ix2 k (feat h d))) * ((1 / 10 : ℝ) : EReal)

/-- Head h's new running maximum at row r. -/
def newmax (h : Fin 3) (v3 : Vec Ideal S512x768 .bf16) (v8 : Vec Ideal S1024x768 .bf16) (v10 : Vec Ideal S512x1024 .i32)
    (v13 : Vec Ideal S512x3 .f32) (r : Fin 512) : EReal :=
  max (v13 (ix2 r h)) (Finset.univ.sup fun k : Fin 1024 => sc h v3 v8 v10 r k)

/-- The old terms' rescaling. -/
def alpha (h : Fin 3) (v3 : Vec Ideal S512x768 .bf16) (v8 : Vec Ideal S1024x768 .bf16) (v10 : Vec Ideal S512x1024 .i32)
    (v13 : Vec Ideal S512x3 .f32) (r : Fin 512) : EReal :=
  Ideal.exp (v13 (ix2 r h) - newmax h v3 v8 v10 v13 r)

/-- The block's weights. -/
def wgt (h : Fin 3) (v3 : Vec Ideal S512x768 .bf16) (v8 : Vec Ideal S1024x768 .bf16) (v10 : Vec Ideal S512x1024 .i32)
    (v13 : Vec Ideal S512x3 .f32) (r : Fin 512) (k : Fin 1024) : EReal :=
  Ideal.exp (sc h v3 v8 v10 r k - newmax h v3 v8 v10 v13 r)

/-! ## The heads' slices -/

section Slices
variable {α : Type}

/-- The lanes of head h cut out of a 768-feature block: lane d is feature 256 h + d. -/
theorem headLanes_apply {n : ℕ} (o : ℕ) (h : Fin 3) (ho : o = h.val * 256) (X : (⟨2, ![n, 768]⟩ : Shape).Idx → α)
    (hs : (⟨2, ![n, 768]⟩ : Shape).Slices ![0, o] ⟨2, ![n, 256]⟩) (r : Fin n) (d : Fin 256) :
    extractStridedSlice ⟨2, ![n, 256]⟩ ![0, o] X hs (ix2 r d) = X (ix2 r (feat h d)) :=
  slice2_axis1_apply o X hs r d (feat h d) (by rw [feat_val, ho])

/-- Column h cut out of a three-column scratch. -/
theorem headCol_apply {n : ℕ} (o : ℕ) (h : Fin 3) (ho : o = h.val) (X : (⟨2, ![n, 3]⟩ : Shape).Idx → α)
    (hs : (⟨2, ![n, 3]⟩ : Shape).Slices ![0, o] ⟨2, ![n, 1]⟩) (r : Fin n) :
    extractStridedSlice ⟨2, ![n, 1]⟩ ![0, o] X hs (ix2 r (0 : Fin 1)) = X (ix2 r h) :=
  slice2_axis1_apply o X hs r (0 : Fin 1) h (by rw [ho]; rfl)

end Slices

/-- The query tile and the key block as the body rebinds them are the loads themselves. -/
theorem pay12_eq (v3 : Vec Ideal S512x768 .bf16) : k1_pay12 (F := Ideal) v3 = v3 := shapeCast_self _ _
theorem pay13_eq (v8 : Vec Ideal S1024x768 .bf16) : k1_pay13 (F := Ideal) v8 = v8 := shapeCast_self _ _

/-- The mask's test at (r, k). -/
theorem pay14_apply (v10 : Vec Ideal S512x1024 .i32) (r : Fin 512) (k : Fin 1024) :
    k1_pay14 (F := Ideal) v10 (ix2 r k) = IntOp.cmpi .eq (v10 (ix2 r k)) 0#32 := rfl

/-! ## One head, for arbitrary blocks that ARE the head's slices -/

section Head
variable (h : Fin 3) (q : FVec Ideal S512x256 .bf16) (kv : FVec Ideal S1024x256 .bf16)
  (mold lold : FVec Ideal S512x1 .f32) (accold : FVec Ideal S512x256 .f32)
  (v3 : Vec Ideal S512x768 .bf16) (v8 : Vec Ideal S1024x768 .bf16) (v10 : Vec Ideal S512x1024 .i32)
  (v13 v14 : Vec Ideal S512x3 .f32) (v15 : Vec Ideal S512x768 .f32)
  (hq : ∀ (r : Fin 512) (d : Fin 256), q (ix2 r d) = v3 (ix2 r (feat h d)))
  (hkv : ∀ (k : Fin 1024) (d : Fin 256), kv (ix2 k d) = v8 (ix2 k (feat h d)))
  (hm : ∀ r : Fin 512, mold (ix2 r (0 : Fin 1)) = v13 (ix2 r h))
  (hl : ∀ r : Fin 512, lold (ix2 r (0 : Fin 1)) = v14 (ix2 r h))
  (ha : ∀ (r : Fin 512) (d : Fin 256), accold (ix2 r d) = v15 (ix2 r (feat h d)))

include hq hkv in
theorem score_head (r : Fin 512) (k : Fin 1024) :
    scoreV q kv (k1_pay14 (F := Ideal) v10) (ix2 r k) = sc h v3 v8 v10 r k := by
  rw [scoreV_apply, pay14_apply, select_cmpi_zero]
  unfold sc
  simp only [hq, hkv]

include hq hkv hm in
theorem newmax_head (r : Fin 512) :
    newMaxV mold (scoreV q kv (k1_pay14 (F := Ideal) v10)) (ix2 r (0 : Fin 1)) = newmax h v3 v8 v10 v13 r := by
  rw [newMaxV_apply, hm]
  unfold newmax
  simp only [score_head h q kv v3 v8 v10 hq hkv]

include hq hkv hm in
theorem alpha_head (r : Fin 512) :
    aV mold (newMaxV mold (scoreV q kv (k1_pay14 (F := Ideal) v10))) (ix2 r (0 : Fin 1)) = alpha h v3 v8 v10 v13 r := by
  rw [aV_apply, newmax_head h q kv mold v3 v8 v10 v13 hq hkv hm, hm]
  rfl

include hq hkv hm in
theorem wgt_head (r : Fin 512) (k : Fin 1024) :
    pV (scoreV q kv (k1_pay14 (F := Ideal) v10)) (newMaxV mold (scoreV q kv (k1_pay14 (F := Ideal) v10))) (ix2 r k)
      = wgt h v3 v8 v10 v13 r k := by
  rw [pV_apply, newmax_head h q kv mold v3 v8 v10 v13 hq hkv hm, score_head h q kv v3 v8 v10 hq hkv]
  rfl

include hq hkv hm hl in
theorem newl_head (r : Fin 512) :
    addf (mulf (aV mold (newMaxV mold (scoreV q kv (k1_pay14 (F := Ideal) v10)))) lold)
        (rowSumV (pV (scoreV q kv (k1_pay14 (F := Ideal) v10)) (newMaxV mold (scoreV q kv (k1_pay14 (F := Ideal) v10)))))
        (ix2 r (0 : Fin 1))
      = alpha h v3 v8 v10 v13 r * v14 (ix2 r h) + ∑ k : Fin 1024, wgt h v3 v8 v10 v13 r k := by
  rw [addf_apply, mulf_apply, rowSumV_apply, alpha_head h q kv mold v3 v8 v10 v13 hq hkv hm, hl]
  simp only [wgt_head h q kv mold v3 v8 v10 v13 hq hkv hm]

include hq hkv hm ha in
theorem newacc_head (r : Fin 512) (d : Fin 256) :
    newAccV (aV mold (newMaxV mold (scoreV q kv (k1_pay14 (F := Ideal) v10)))) accold
        (pV (scoreV q kv (k1_pay14 (F := Ideal) v10)) (newMaxV mold (scoreV q kv (k1_pay14 (F := Ideal) v10)))) kv (ix2 r d)
      = alpha h v3 v8 v10 v13 r * v15 (ix2 r (feat h d))
        + ∑ k : Fin 1024, wgt h v3 v8 v10 v13 r k * v8 (ix2 k (feat h d)) := by
  rw [newAccV_apply, alpha_head h q kv mold v3 v8 v10 v13 hq hkv hm, ha]
  simp only [wgt_head h q kv mold v3 v8 v10 v13 hq hkv hm, hkv]

end Head

end Cert.KernelIdeal.PayValue

end
-- ==== Proof.PayAttn.lean ====
/-
  The three heads' payloads at an index, in the letters of the head's step (sc, newmax, alpha, wgt).

  Head 0 reads the raw loads; heads 1 and 2 read the rebound query tile, key block and mask test, which are the loads and
  the test of the adjacency block. Head h's lanes are features 256 h .. 256 h + 255 and its scratch column is column h.
-/
import proofs.«181948_j79242146611549_2_alg».proof.Proof.PayScore

noncomputable section

namespace Cert.KernelIdeal.PayValue

open Idealize.ShloMosaic Idealize.ShloMosaic.ValueIdx
open Cert.KernelIdeal Cert.KernelIdeal.Gen
open Cert.Proof Cert.Proof.RefSpec

variable (v3 : Vec Ideal S512x768 .bf16) (v8 : Vec Ideal S1024x768 .bf16) (v10 : Vec Ideal S512x1024 .i32)
  (v13 v14 : Vec Ideal S512x3 .f32) (v15 : Vec Ideal S512x768 .f32)

/-! ## The heads' slices at an index -/

theorem q0_apply (r : Fin 512) (d : Fin 256) :
    extractStridedSlice S512x256 ![0, 0] (k1_pay12 (F := Ideal) v3) slices_S512x768_o0_0_S512x256 (ix2 r d)
      = v3 (ix2 r (feat 0 d)) := by
  rw [pay12_eq]; exact headLanes_apply 0 0 rfl v3 _ r d
theorem q1_apply (r : Fin 512) (d : Fin 256) :
    extractStridedSlice S512x256 ![0, 256] (k1_pay12 (F := Ideal) v3) slices_S512x768_o0_256_S512x256 (ix2 r d)
      = v3 (ix2 r (feat 1 d)) := by
  rw [pay12_eq]; exact headLanes_apply 256 1 rfl v3 _ r d
theorem q2_apply (r : Fin 512) (d : Fin 256) :
    extractStridedSlice S512x256 ![0, 512] (k1_pay12 (F := Ideal) v3) slices_S512x768_o0_512_S512x256 (ix2 r d)
      = v3 (ix2 r (feat 2 d)) := by
  rw [pay12_eq]; exact headLanes_apply 512 2 rfl v3 _ r d

theorem kv0_apply (k : Fin 1024) (d : Fin 256) : k1_pay15 (F := Ideal) v8 (ix2 k d) = v8 (ix2 k (feat 0 d)) := by
  unfold k1_pay15; rw [pay13_eq]; exact headLanes_apply 0 0 rfl v8 _ k d
theorem kv1_apply (k : Fin 1024) (d : Fin 256) :
    k1_pay26 (F := Ideal) (k1_pay13 (F := Ideal) v8) (ix2 k d) = v8 (ix2 k (feat 1 d)) := by
  unfold k1_pay26; rw [pay13_eq]; exact headLanes_apply 256 1 rfl v8 _ k d
theorem kv2_apply (k : Fin 1024) (d : Fin 256) :
    k1_pay37 (F := Ideal) (k1_pay13 (F := Ideal) v8) (ix2 k d) = v8 (ix2 k (feat 2 d)) := by
  unfold k1_pay37; rw [pay13_eq]; exact headLanes_apply 512 2 rfl v8 _ k d

theorem m0_apply (r : Fin 512) : k1_pay17 (F := Ideal) v13 (ix2 r (0 : Fin 1)) = v13 (ix2 r (0 : Fin 3)) :=
  headCol_apply 0 0 rfl v13 slices_S512x3_o0_0_S512x1 r
theorem m1_apply (r : Fin 512) : k1_pay28 (F := Ideal) v13 (ix2 r (0 : Fin 1)) = v13 (ix2 r (1 : Fin 3)) :=
  headCol_apply 1 1 rfl v13 slices_S512x3_o0_1_S512x1 r
theorem m2_apply (r : Fin 512) : k1_pay39 (F := Ideal) v13 (ix2 r (0 : Fin 1)) = v13 (ix2 r (2 : Fin 3)) :=
  headCol_apply 2 2 rfl v13 slices_S512x3_o0_2_S512x1 r

theorem l0_apply (r : Fin 512) :
    extractStridedSlice S512x1 ![0, 0] v14 slices_S512x3_o0_0_S512x1 (ix2 r (0 : Fin 1)) = v14 (ix2 r (0 : Fin 3)) :=
  headCol_apply 0 0 rfl v14 _ r
theorem l1_apply (r : Fin 512) :
    extractStridedSlice S512x1 ![0, 1] v14 slices_S512x3_o0_1_S512x1 (ix2 r (0 : Fin 1)) = v14 (ix2 r (1 : Fin 3)) :=
  headCol_apply 1 1 rfl v14 _ r
theorem l2_apply (r : Fin 512) :
    extractStridedSlice S512x1 ![0, 2] v14 slices_S512x3_o0_2_S512x1 (ix2 r (0 : Fin 1)) = v14 (ix2 r (2 : Fin 3)) :=
  headCol_apply 2 2 rfl v14 _ r

theorem acc0_apply (r : Fin 512) (d : Fin 256) :
    extractStridedSlice S512x256 ![0, 0] v15 slices_S512x768_o0_0_S512x256 (ix2 r d) = v15 (ix2 r (feat 0 d)) :=
  headLanes_apply 0 0 rfl v15 _ r d
theorem acc1_apply (r : Fin 512) (d : Fin 256) :
    extractStridedSlice S512x256 ![0, 256] v15 slices_S512x768_o0_256_S512x256 (ix2 r d) = v15 (ix2 r (feat 1 d)) :=
  headLanes_apply 256 1 rfl v15 _ r d
theorem acc2_apply (r : Fin 512) (d : Fin 256) :
    extractStridedSlice S512x256 ![0, 512] v15 slices_S512x768_o0_512_S512x256 (ix2 r d) = v15 (ix2 r (feat 2 d)) :=
  headLanes_apply 512 2 rfl v15 _ r d

/-! ## The stored forms and the resets -/

theorem pay1_eq (v : FVec Ideal S512x1 .f32) : k1_pay1 (F := Ideal) v = v := shapeCast_self _ _
theorem pay2_eq (v : FVec Ideal S512x256 .f32) : k1_pay2 (F := Ideal) v = v := shapeCast_self _ _
theorem pay23_eq (v : FVec Ideal S512x1 .f32) : k1_pay23 (F := Ideal) v = v := shapeCast_self _ _
theorem pay34_eq (v : FVec Ideal S512x1 .f32) : k1_pay34 (F := Ideal) v = v := shapeCast_self _ _
theorem pay35_eq (v : FVec Ideal S512x1 .f32) : k1_pay35 (F := Ideal) v = v := shapeCast_self _ _
theorem pay36_eq (v : FVec Ideal S512x256 .f32) : k1_pay36 (F := Ideal) v = v := shapeCast_self _ _
/-- Head 0's stored denominator is the sum of its two parts. -/
theorem pay24_eq (a b : FVec Ideal S512x1 .f32) : k1_pay24 (F := Ideal) a b = addf a b := shapeCast_self _ _
/-- Head 2's stored maximum is its new maximum. -/
theorem pay45_eq (v4 : FVec Ideal S512x768 .bf16) (v9 : FVec Ideal S1024x768 .bf16) (v12 : IVec S512x1024 1) :
    k1_pay45 (F := Ideal) v4 v9 v12 v13 = k1_pay40 (F := Ideal) v4 v9 v12 v13 := shapeCast_self _ _

/-- The maximum scratch is reset to -∞. -/
theorem pay9_eq : k1_pay9 (F := Ideal) = fun _ => (⊥ : EReal) := by
  funext i
  show shapeCast S512x3 (broadcast S512x3 (Scalar.ofBits (F := Ideal) .f32 0xFF800000#32)) shapeCasts_S512x3_S512x3 i = ⊥
  rw [shapeCast_self]
  exact ofBits_neg_inf
/-- The denominator scratch is reset to 0. -/
theorem pay10_eq : k1_pay10 (F := Ideal) = fun _ => (0 : EReal) := by
  funext i
  show shapeCast S512x3 (broadcast S512x3 (Scalar.ofBits (F := Ideal) .f32 0x00000000#32)) shapeCasts_S512x3_S512x3 i = 0
  rw [shapeCast_self]
  exact Ideal.ofBits_zero_f32
/-- The accumulator scratch is reset to 0. -/
theorem pay11_eq : k1_pay11 (F := Ideal) = fun _ => (0 : EReal) := by
  funext i
  show shapeCast S512x768 (broadcast S512x768 (Scalar.ofBits (F := Ideal) .f32 0x00000000#32)) shapeCasts_S512x768_S512x768 i = 0
  rw [shapeCast_self]
  exact Ideal.ofBits_zero_f32

/-! ## Head 0 -/

theorem pay16_apply (r : Fin 512) (k : Fin 1024) : k1_pay16 (F := Ideal) v3 v8 v10 (ix2 r k) = sc 0 v3 v8 v10 r k :=
  score_head 0 _ _ v3 v8 v10 (q0_apply v3) (kv0_apply v8) r k

theorem pay18_apply (r : Fin 512) :
    k1_pay18 (F := Ideal) v3 v8 v10 v13 (ix2 r (0 : Fin 1)) = newmax 0 v3 v8 v10 v13 r :=
  newmax_head 0 _ _ _ v3 v8 v10 v13 (q0_apply v3) (kv0_apply v8) (m0_apply v13) r

theorem pay19_apply (r : Fin 512) :
    k1_pay19 (F := Ideal) v3 v8 v10 v13 (ix2 r (0 : Fin 1)) = alpha 0 v3 v8 v10 v13 r :=
  alpha_head 0 _ _ _ v3 v8 v10 v13 (q0_apply v3) (kv0_apply v8) (m0_apply v13) r

theorem pay20_apply (r : Fin 512) (k : Fin 1024) :
    k1_pay20 (F := Ideal) v3 v8 v10 v13 (ix2 r k) = wgt 0 v3 v8 v10 v13 r k :=
  wgt_head 0 _ _ _ v3 v8 v10 v13 (q0_apply v3) (kv0_apply v8) (m0_apply v13) r k

/-- Head 0's new denominator, as stored. -/
theorem pay24_apply (r : Fin 512) :
    k1_pay24 (F := Ideal) (k1_pay21 (F := Ideal) v3 v8 v10 v13 v14) (k1_pay22 (F := Ideal) v3 v8 v10 v13) (ix2 r (0 : Fin 1))
      = alpha 0 v3 v8 v10 v13 r * v14 (ix2 r (0 : Fin 3)) + ∑ k : Fin 1024, wgt 0 v3 v8 v10 v13 r k := by
  rw [pay24_eq]
  exact newl_head 0 _ _ _ _ v3 v8 v10 v13 v14 (q0_apply v3) (kv0_apply v8) (m0_apply v13) (l0_apply v14) r

/-- Head 0's new accumulator, as stored. -/
theorem pay25_apply (r : Fin 512) (d : Fin 256) :
    k1_pay25 (F := Ideal) v15 (k1_pay15 (F := Ideal) v8) (k1_pay19 (F := Ideal) v3 v8 v10 v13)
        (k1_pay20 (F := Ideal) v3 v8 v10 v13) (ix2 r d)
      = alpha 0 v3 v8 v10 v13 r * v15 (ix2 r (feat 0 d))
        + ∑ k : Fin 1024, wgt 0 v3 v8 v10 v13 r k * v8 (ix2 k (feat 0 d)) := by
  unfold k1_pay25
  rw [shapeCast_self]
  exact newacc_head 0 _ _ _ _ v3 v8 v10 v13 v15 (q0_apply v3) (kv0_apply v8) (m0_apply v13) (acc0_apply v15) r d

/-! ## Head 1 -/

theorem pay27_apply (r : Fin 512) (k : Fin 1024) :
    k1_pay27 (F := Ideal) (k1_pay12 (F := Ideal) v3) (k1_pay13 (F := Ideal) v8) (k1_pay14 (F := Ideal) v10) (ix2 r k)
      = sc 1 v3 v8 v10 r k :=
  score_head 1 _ _ v3 v8 v10 (q1_apply v3) (kv1_apply v8) r k

theorem pay29_apply (r : Fin 512) :
    k1_pay29 (F := Ideal) (k1_pay12 (F := Ideal) v3) (k1_pay13 (F := Ideal) v8) (k1_pay14 (F := Ideal) v10) v13
        (ix2 r (0 : Fin 1))
      = newmax 1 v3 v8 v10 v13 r :=
  newmax_head 1 _ _ _ v3 v8 v10 v13 (q1_apply v3) (kv1_apply v8) (m1_apply v13) r

theorem pay30_apply (r : Fin 512) :
    k1_pay30 (F := Ideal) (k1_pay12 (F := Ideal) v3) (k1_pay13 (F := Ideal) v8) (k1_pay14 (F := Ideal) v10) v13
        (ix2 r (0 : Fin 1))
      = alpha 1 v3 v8 v10 v13 r :=
  alpha_head 1 _ _ _ v3 v8 v10 v13 (q1_apply v3) (kv1_apply v8) (m1_apply v13) r

theorem pay31_apply (r : Fin 512) (k : Fin 1024) :
    k1_pay31 (F := Ideal) (k1_pay12 (F := Ideal) v3) (k1_pay13 (F := Ideal) v8) (k1_pay14 (F := Ideal) v10) v13 (ix2 r k)
      = wgt 1 v3 v8 v10 v13 r k :=
  wgt_head 1 _ _ _ v3 v8 v10 v13 (q1_apply v3) (kv1_apply v8) (m1_apply v13) r k

theorem pay32_apply (r : Fin 512) :
    k1_pay32 (F := Ideal) (k1_pay12 (F := Ideal) v3) (k1_pay13 (F := Ideal) v8) (k1_pay14 (F := Ideal) v10) v13 v14
        (ix2 r (0 : Fin 1))
      = alpha 1 v3 v8 v10 v13 r * v14 (ix2 r (1 : Fin 3)) + ∑ k : Fin 1024, wgt 1 v3 v8 v10 v13 r k :=
  newl_head 1 _ _ _ _ v3 v8 v10 v13 v14 (q1_apply v3) (kv1_apply v8) (m1_apply v13) (l1_apply v14) r

theorem pay33_apply (r : Fin 512) (d : Fin 256) :
    k1_pay33 (F := Ideal) (k1_pay12 (F := Ideal) v3) (k1_pay13 (F := Ideal) v8) (k1_pay14 (F := Ideal) v10) v13 v15
        (ix2 r d)
      = alpha 1 v3 v8 v10 v13 r * v15 (ix2 r (feat 1 d))
        + ∑ k : Fin 1024, wgt 1 v3 v8 v10 v13 r k * v8 (ix2 k (feat 1 d)) :=
  newacc_head 1 _ _ _ _ v3 v8 v10 v13 v15 (q1_apply v3) (kv1_apply v8) (m1_apply v13) (acc1_apply v15) r d

/-! ## Head 2 -/

theorem pay38_apply (r : Fin 512) (k : Fin 1024) :
    k1_pay38 (F := Ideal) (k1_pay12 (F := Ideal) v3) (k1_pay13 (F := Ideal) v8) (k1_pay14 (F := Ideal) v10) (ix2 r k)
      = sc 2 v3 v8 v10 r k :=
  score_head 2 _ _ v3 v8 v10 (q2_apply v3) (kv2_apply v8) r k

theorem pay40_apply (r : Fin 512) :
    k1_pay40 (F := Ideal) (k1_pay12 (F := Ideal) v3) (k1_pay13 (F := Ideal) v8) (k1_pay14 (F := Ideal) v10) v13
        (ix2 r (0 : Fin 1))
      = newmax 2 v3 v8 v10 v13 r :=
  newmax_head 2 _ _ _ v3 v8 v10 v13 (q2_apply v3) (kv2_apply v8) (m2_apply v13) r

theorem pay41_apply (r : Fin 512) :
    k1_pay41 (F := Ideal) (k1_pay12 (F := Ideal) v3) (k1_pay13 (F := Ideal) v8) (k1_pay14 (F := Ideal) v10) v13
        (ix2 r (0 : Fin 1))
      = alpha 2 v3 v8 v10 v13 r :=
  alpha_head 2 _ _ _ v3 v8 v10 v13 (q2_apply v3) (kv2_apply v8) (m2_apply v13) r

theorem pay42_apply (r : Fin 512) (k : Fin 1024) :
    k1_pay42 (F := Ideal) (k1_pay12 (F := Ideal) v3) (k1_pay13 (F := Ideal) v8) (k1_pay14 (F := Ideal) v10) v13 (ix2 r k)
      = wgt 2 v3 v8 v10 v13 r k :=
  wgt_head 2 _ _ _ v3 v8 v10 v13 (q2_apply v3) (kv2_apply v8) (m2_apply v13) r k

theorem pay43_apply (r : Fin 512) :
    k1_pay43 (F := Ideal) (k1_pay12 (F := Ideal) v3) (k1_pay13 (F := Ideal) v8) (k1_pay14 (F := Ideal) v10) v13 v14
        (ix2 r (0 : Fin 1))
      = alpha 2 v3 v8 v10 v13 r * v14 (ix2 r (2 : Fin 3)) + ∑ k : Fin 1024, wgt 2 v3 v8 v10 v13 r k :=
  newl_head 2 _ _ _ _ v3 v8 v10 v13 v14 (q2_apply v3) (kv2_apply v8) (m2_apply v13) (l2_apply v14) r

theorem pay44_apply (r : Fin 512) (d : Fin 256) :
    k1_pay44 (F := Ideal) (k1_pay12 (F := Ideal) v3) (k1_pay13 (F := Ideal) v8) (k1_pay14 (F := Ideal) v10) v13 v15
        (ix2 r d)
      = alpha 2 v3 v8 v10 v13 r * v15 (ix2 r (feat 2 d))
        + ∑ k : Fin 1024, wgt 2 v3 v8 v10 v13 r k * v8 (ix2 k (feat 2 d)) :=
  newacc_head 2 _ _ _ _ v3 v8 v10 v13 v15 (q2_apply v3) (kv2_apply v8) (m2_apply v13) (acc2_apply v15) r d

/-- Head 2's stored maximum. -/
theorem pay45_apply (r : Fin 512) :
    k1_pay45 (F := Ideal) (k1_pay12 (F := Ideal) v3) (k1_pay13 (F := Ideal) v8) (k1_pay14 (F := Ideal) v10) v13
        (ix2 r (0 : Fin 1))
      = newmax 2 v3 v8 v10 v13 r := by
  rw [pay45_eq]; exact pay40_apply v3 v8 v10 v13 r

end Cert.KernelIdeal.PayValue

end
-- ==== Proof.LibOnlineSoftmax.lean ====
/-
  The online softmax: a running maximum, a running denominator and a running weighted sum, rescaled tile by tile,
  end at the softmax-weighted average — on the extended reals, masked scores included.

  One query row. Its scores `s k` over the keys `k` are extended reals that are never `+∞`: a real number, or `-∞`
  for a masked key. The values `vr k d` are real. After the keys of a finite set `S` have been seen the state is

      m = max over S of s            (-∞ while every key seen was masked)
      l = Σ_{k ∈ S} e^(s k - m)
      acc d = Σ_{k ∈ S} e^(s k - m) · vr k d

  with the extended reals' conventions `-∞ - x = -∞` (also for `x = -∞`) and `e^(-∞) = 0`: a masked key weighs 0,
  and while `m = -∞` both sums are 0. A new tile `T` of keys, disjoint from `S`, updates the state by

      m' = max m (max over T of s),   a = e^(m - m'),
      l' = a · l + Σ_{k ∈ T} e^(s k - m'),   acc' d = a · acc d + Σ_{k ∈ T} e^(s k - m') · vr k d

  and the state stays of that form for `S ∪ T`: the one law used is `e^(m - m') · e^(x - m) = e^(x - m')` for
  `x ≤ m ≤ m'`, which holds for `x = -∞` because both sides are 0 and otherwise is the exponential's addition law
  on the reals. When every key has been seen and some key is unmasked, `m` is a real number, `l > 0`, and
  `acc d / l = Σ_k (e^(s k - m) / Σ_k' e^(s k' - m)) · vr k d`: the quotient moved inside a finite sum of reals.
  Every weight is a nonnegative real, so all sums and products here are the reals' (the extended reals'
  multiplication does not distribute in general; it is never asked to).
-/
import Idealize.ShloMosaic.PureOps.Ideal

noncomputable section

namespace LibOnlineSoftmax

open Idealize.ShloMosaic

/-- The weight `e^(x - M)` as a real number: 0 for a masked score. -/
def wt (x M : EReal) : ℝ := if x = ⊥ then 0 else Real.exp (x.toReal - M.toReal)

theorem wt_nonneg (x M : EReal) : 0 ≤ wt x M := by
  unfold wt; split
  · exact le_refl _
  · exact (Real.exp_pos _).le

theorem wt_pos {x : EReal} (M : EReal) (hx : x ≠ ⊥) : 0 < wt x M := by
  unfold wt; rw [if_neg hx]; exact Real.exp_pos _

/-- On the extended reals `e^(x - M)` is that weight, for `x ≤ M` and neither `+∞`. -/
theorem exp_sub_eq {x M : EReal} (hx : x ≠ ⊤) (hM : M ≠ ⊤) (hxM : x ≤ M) :
    Ideal.exp (x - M) = ((wt x M : ℝ) : EReal) := by
  by_cases hb : x = ⊥
  · subst hb
    rw [sub_eq_add_neg, EReal.bot_add]
    simp [wt]
  · have hMb : M ≠ ⊥ := fun h => hb (le_bot_iff.1 (h ▸ hxM))
    lift x to ℝ using ⟨hx, hb⟩
    lift M to ℝ using ⟨hM, hMb⟩
    have hsub : ((x : EReal) - (M : EReal)) = ((x - M : ℝ) : EReal) := (EReal.coe_sub x M).symm
    rw [hsub]
    show ((Real.exp (x - M) : ℝ) : EReal) = _
    simp [wt]

/-- The rescaling law: `e^(m - m') · e^(x - m) = e^(x - m')` for `x ≤ m`. -/
theorem wt_mul_wt {x m : EReal} (m' : EReal) (hxm : x ≤ m) : wt m m' * wt x m = wt x m' := by
  by_cases hb : x = ⊥
  · simp [wt, hb]
  · have hmb : m ≠ ⊥ := fun h => hb (le_bot_iff.1 (h ▸ hxm))
    simp only [wt, if_neg hb, if_neg hmb]
    rw [← Real.exp_add]
    congr 1
    ring

/-- A finite sum of reals, read on the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

variable {κ δ : Type*} [DecidableEq κ]

/-- The state after the keys of `S`. -/
structure Inv (s : κ → EReal) (vr : κ → δ → ℝ) (S : Finset κ) (m l : EReal) (acc : δ → EReal) : Prop where
  max_eq : m = S.sup s
  sum_eq : l = ((∑ k ∈ S, wt (s k) m : ℝ) : EReal)
  acc_eq : ∀ d, acc d = ((∑ k ∈ S, wt (s k) m * vr k d : ℝ) : EReal)

/-- Before any key: maximum `-∞`, both sums 0. -/
theorem inv_empty (s : κ → EReal) (vr : κ → δ → ℝ) : Inv s vr ∅ ⊥ 0 (fun _ => 0) :=
  ⟨by simp, by simp, fun _ => by simp⟩

theorem sup_ne_top {s : κ → EReal} (hs : ∀ k, s k ≠ ⊤) (S : Finset κ) : S.sup s ≠ ⊤ :=
  ((Finset.sup_lt_iff (bot_lt_top (α := EReal))).2 fun k _ => lt_top_iff_ne_top.2 (hs k)).ne

/-- One tile: the state of `S` rescaled to the new maximum, plus the tile's own sums, is the state of `S ∪ T`. -/
theorem inv_step {s : κ → EReal} {vr : κ → δ → ℝ} (hs : ∀ k, s k ≠ ⊤) {S T : Finset κ} (hd : Disjoint S T)
    {m l : EReal} {acc : δ → EReal} (I : Inv s vr S m l acc) :
    Inv s vr (S ∪ T) (max m (T.sup s))
      (Ideal.exp (m - max m (T.sup s)) * l + ∑ k ∈ T, Ideal.exp (s k - max m (T.sup s)))
      (fun d => Ideal.exp (m - max m (T.sup s)) * acc d + ∑ k ∈ T, Ideal.exp (s k - max m (T.sup s)) * (vr k d : EReal)) := by
  have hm : m ≠ ⊤ := I.max_eq ▸ sup_ne_top hs S
  have hm'eq : max m (T.sup s) = (S ∪ T).sup s := by rw [Finset.sup_union, ← I.max_eq]
  have hm' : max m (T.sup s) ≠ ⊤ := hm'eq ▸ sup_ne_top hs _
  have ha : Ideal.exp (m - max m (T.sup s)) = ((wt m (max m (T.sup s)) : ℝ) : EReal) := exp_sub_eq hm hm' (le_max_left _ _)
  have hp : ∀ k ∈ T, Ideal.exp (s k - max m (T.sup s)) = ((wt (s k) (max m (T.sup s)) : ℝ) : EReal) := fun k hk =>
    exp_sub_eq (hs k) hm' ((Finset.le_sup hk).trans (le_max_right _ _))
  have hS : ∀ k ∈ S, s k ≤ m := fun k hk => I.max_eq ▸ Finset.le_sup hk
  refine ⟨hm'eq, ?_, fun d => ?_⟩
  · rw [ha, I.sum_eq, Finset.sum_congr rfl hp, ← coe_sum, ← EReal.coe_mul, ← EReal.coe_add, Finset.mul_sum,
      Finset.sum_congr rfl (fun k hk => wt_mul_wt _ (hS k hk)), ← Finset.sum_union hd]
  · have hT : ∑ k ∈ T, Ideal.exp (s k - max m (T.sup s)) * (vr k d : EReal)
        = ((∑ k ∈ T, wt (s k) (max m (T.sup s)) * vr k d : ℝ) : EReal) := by
      rw [coe_sum]
      exact Finset.sum_congr rfl fun k hk => by rw [hp k hk, EReal.coe_mul]
    have hSd : wt m (max m (T.sup s)) * ∑ k ∈ S, wt (s k) m * vr k d
        = ∑ k ∈ S, wt (s k) (max m (T.sup s)) * vr k d := by
      rw [Finset.mul_sum]
      exact Finset.sum_congr rfl fun k hk => by rw [← mul_assoc, wt_mul_wt _ (hS k hk)]
    show Ideal.exp (m - max m (T.sup s)) * acc d + ∑ k ∈ T, Ideal.exp (s k - max m (T.sup s)) * (vr k d : EReal) = _
    rw [ha, I.acc_eq d, hT, ← EReal.coe_mul, ← EReal.coe_add, hSd, ← Finset.sum_union hd]

/-- Every key seen and one of them unmasked: the running sum over the running denominator is the softmax-weighted
    sum of the values, the softmax as the reference spells it (each weight divided by the sum of all). -/
theorem inv_final [Fintype κ] {s : κ → EReal} {vr : κ → δ → ℝ} (hs : ∀ k, s k ≠ ⊤) (hex : ∃ k, s k ≠ ⊥)
    {m l : EReal} {acc : δ → EReal} (I : Inv s vr Finset.univ m l acc) (d : δ) :
    Ideal.div (acc d) l
      = ∑ k, Ideal.div (Ideal.exp (s k - m)) (∑ k', Ideal.exp (s k' - m)) * (vr k d : EReal) := by
  have hm : m ≠ ⊤ := I.max_eq ▸ sup_ne_top hs _
  have hw : ∀ k, Ideal.exp (s k - m) = ((wt (s k) m : ℝ) : EReal) := fun k =>
    exp_sub_eq (hs k) hm (I.max_eq ▸ Finset.le_sup (Finset.mem_univ k))
  obtain ⟨k0, hk0⟩ := hex
  have hL : 0 < ∑ k, wt (s k) m :=
    Finset.sum_pos' (fun k _ => wt_nonneg _ _) ⟨k0, Finset.mem_univ _, wt_pos _ hk0⟩
  have hden : (∑ k', Ideal.exp (s k' - m)) = ((∑ k, wt (s k) m : ℝ) : EReal) := by
    rw [coe_sum]; exact Finset.sum_congr rfl fun k _ => hw k
  have hterm : ∀ k, Ideal.div (Ideal.exp (s k - m)) ((∑ k, wt (s k) m : ℝ) : EReal) * (vr k d : EReal)
      = ((wt (s k) m * (1 / ∑ k, wt (s k) m) * vr k d : ℝ) : EReal) := fun k => by
    rw [hw k, Ideal.div_coe hL.ne', ← EReal.coe_mul, ← EReal.coe_mul]
  rw [hden, I.acc_eq d, I.sum_eq, Ideal.div_coe hL.ne', ← EReal.coe_mul, Finset.sum_congr rfl (fun k _ => hterm k), ← coe_sum]
  congr 1
  rw [Finset.sum_mul]
  exact Finset.sum_congr rfl fun k _ => by ring

/-! ## Any tiling of the keys -/

/-- One tile's update of the state `(m, l, acc)`. -/
def step (s : κ → EReal) (vr : κ → δ → ℝ) (st : EReal × EReal × (δ → EReal)) (T : Finset κ) :
    EReal × EReal × (δ → EReal) :=
  (max st.1 (T.sup s),
   Ideal.exp (st.1 - max st.1 (T.sup s)) * st.2.1 + ∑ k ∈ T, Ideal.exp (s k - max st.1 (T.sup s)),
   fun d => Ideal.exp (st.1 - max st.1 (T.sup s)) * st.2.2 d
      + ∑ k ∈ T, Ideal.exp (s k - max st.1 (T.sup s)) * (vr k d : EReal))

/-- The state before any tile. -/
def init : EReal × EReal × (δ → EReal) := (⊥, 0, fun _ => 0)

/-- The keys a list of tiles covers. -/
def cover : List (Finset κ) → Finset κ
  | [] => ∅
  | T :: rest => T ∪ cover rest

theorem disjoint_cover {S : Finset κ} : ∀ {tiles : List (Finset κ)}, (∀ T ∈ tiles, Disjoint S T) → Disjoint S (cover tiles)
  | [], _ => Finset.disjoint_empty_right _
  | T :: rest, h => Finset.disjoint_union_right.2
      ⟨h T List.mem_cons_self, disjoint_cover fun T' hT' => h T' (List.mem_cons_of_mem _ hT')⟩

/-- The update folded over pairwise disjoint tiles, none meeting what was already seen, is the state of everything
    seen. -/
theorem inv_foldl {s : κ → EReal} {vr : κ → δ → ℝ} (hs : ∀ k, s k ≠ ⊤) :
    ∀ (tiles : List (Finset κ)) (S : Finset κ) (st : EReal × EReal × (δ → EReal)),
      Inv s vr S st.1 st.2.1 st.2.2 → tiles.Pairwise Disjoint → (∀ T ∈ tiles, Disjoint S T) →
      Inv s vr (S ∪ cover tiles) (tiles.foldl (step s vr) st).1 (tiles.foldl (step s vr) st).2.1
        (tiles.foldl (step s vr) st).2.2
  | [], S, st, I, _, _ => by simpa [cover] using I
  | T :: rest, S, st, I, hp, hS => by
    have hT : Disjoint S T := hS T List.mem_cons_self
    have hp' := List.pairwise_cons.1 hp
    have I' : Inv s vr (S ∪ T) (step s vr st T).1 (step s vr st T).2.1 (step s vr st T).2.2 := inv_step hs hT I
    have hrest : ∀ T' ∈ rest, Disjoint (S ∪ T) T' := fun T' hT' =>
      Finset.disjoint_union_left.2 ⟨hS T' (List.mem_cons_of_mem _ hT'), hp'.1 T' hT'⟩
    have := inv_foldl hs rest (S ∪ T) (step s vr st T) I' hp'.2 hrest
    rw [List.foldl_cons]
    rw [show S ∪ cover (T :: rest) = S ∪ T ∪ cover rest by simp [cover, Finset.union_assoc]]
    exact this

/-- THE ONLINE SOFTMAX IS THE SOFTMAX. Scores never `+∞`, one key unmasked, values real; the keys cut into pairwise
    disjoint tiles that cover them, taken in any order. The running sum over the running denominator, after the last
    tile, is the sum over all keys of the values weighted by `e^(s k - M) / Σ_k' e^(s k' - M)`, `M` the largest score. -/
theorem online_eq_softmax [Fintype κ] {s : κ → EReal} {vr : κ → δ → ℝ} (hs : ∀ k, s k ≠ ⊤) (hex : ∃ k, s k ≠ ⊥)
    (tiles : List (Finset κ)) (hp : tiles.Pairwise Disjoint) (hc : cover tiles = Finset.univ) (d : δ) :
    Ideal.div ((tiles.foldl (step s vr) init).2.2 d) (tiles.foldl (step s vr) init).2.1
      = ∑ k, Ideal.div (Ideal.exp (s k - Finset.univ.sup s)) (∑ k', Ideal.exp (s k' - Finset.univ.sup s)) * (vr k d : EReal) := by
  have I := inv_foldl hs tiles ∅ init (inv_empty s vr) hp (fun T _ => Finset.disjoint_empty_left T)
  rw [Finset.empty_union, hc] at I
  rw [← I.max_eq]
  exact inv_final hs hex I d

end LibOnlineSoftmax

end
-- ==== Proof.SpecTiles.lean ====
/-
  The online softmax over the six key tiles is the specification's attention.

  The 6144 keys are cut into six tiles of 1024 consecutive keys: tile `j` holds the keys `1024 j, …, 1024 j + 1023`. The
  tiles are pairwise disjoint and cover every key. For one head `h` and one query row `n` write `s k = masked h n k` for
  the masked score of key `k` and `v k d = xnew k (256 h + d)` for its value at lane `d`. Starting from the state
  `(m, l, acc) = (-∞, 0, 0)`, one tile `T` updates the state to

      m'     = max m (max over T of s),         a = e^(m - m'),
      l'     = a · l + Σ_{k ∈ T} e^(s k - m'),
      acc' d = a · acc d + Σ_{k ∈ T} e^(s k - m') · v k d

  and after the six tiles `acc d / l` is `attn h n d`: the softmax-weighted sum of the values, each weight the exponential of
  the score less the row's maximum over the sum of all of them. This needs the scores never `+∞`, one key of the row
  unmasked, and the values real numbers. A sum or maximum over tile `j` is the sum or maximum over `t < 1024` at the key
  `1024 j + t`.
-/
import proofs.«181948_j79242146611549_2_alg».proof.Proof.RefSpec
import proofs.«181948_j79242146611549_2_alg».proof.Proof.LibOnlineSoftmax

noncomputable section

namespace Cert.Proof.SpecTiles

open Idealize.ShloMosaic Idealize.ShloMosaic.ValueIdx Cert.Proof.RefSpec

/-! ## The six key tiles -/

/-- Key tile `j`: the keys `k` with `k / 1024 = j`. -/
def tile (j : Nat) : Finset (Fin 6144) := Finset.univ.filter (fun k => k.val / 1024 = j)

/-- The six tiles, in order. -/
def tiles : List (Finset (Fin 6144)) := [tile 0, tile 1, tile 2, tile 3, tile 4, tile 5]

theorem mem_tile (j : Nat) (k : Fin 6144) : k ∈ tile j ↔ k.val / 1024 = j := by
  simp [tile]

/-- Different tiles share no key. -/
theorem tile_disjoint {i j : Nat} (hij : i ≠ j) : Disjoint (tile i) (tile j) :=
  Finset.disjoint_left.2 fun k hi hj => hij (((mem_tile i k).1 hi).symm.trans ((mem_tile j k).1 hj))

/-- The six tiles are pairwise disjoint. -/
theorem tiles_pairwise : tiles.Pairwise Disjoint := by
  unfold tiles
  simp only [List.pairwise_cons, List.mem_cons, List.not_mem_nil, or_false, forall_eq_or_imp, forall_eq,
    IsEmpty.forall_iff, implies_true, List.Pairwise.nil, and_true]
  refine ⟨⟨?_, ?_, ?_, ?_, ?_⟩, ⟨?_, ?_, ?_, ?_⟩, ⟨?_, ?_, ?_⟩, ⟨?_, ?_⟩, ?_⟩ <;> exact tile_disjoint (by decide)

/-- The six tiles cover every key. -/
theorem tiles_cover : LibOnlineSoftmax.cover tiles = Finset.univ := by
  ext k
  simp only [tiles, LibOnlineSoftmax.cover, Finset.mem_union, mem_tile, Finset.notMem_empty, or_false, Finset.mem_univ,
    iff_true]
  have := k.isLt
  omega

/-! ## A tile's keys, counted from the tile's first -/

/-- Key `t` of tile `j`: the key `1024 j + t`. -/
def tileKey (j : Fin 6) (t : Fin 1024) : Fin 6144 := ⟨1024 * j.val + t.val, by omega⟩

theorem tileKey_val (j : Fin 6) (t : Fin 1024) : (tileKey j t).val = 1024 * j.val + t.val := rfl

/-- Counting from the tile's first key is one-to-one. -/
def tileEmb (j : Fin 6) : Fin 1024 ↪ Fin 6144 :=
  ⟨tileKey j, fun a b e => Fin.ext (by have := congrArg Fin.val e; simp only [tileKey_val] at this; omega)⟩

/-- Tile `j` is exactly the keys `1024 j + t`, `t < 1024`. -/
theorem tile_eq_map (j : Fin 6) : tile j.val = Finset.univ.map (tileEmb j) := by
  ext k
  rw [mem_tile, Finset.mem_map]
  constructor
  · intro hk
    refine ⟨⟨k.val % 1024, Nat.mod_lt _ (by norm_num)⟩, Finset.mem_univ _, Fin.ext ?_⟩
    show 1024 * j.val + k.val % 1024 = k.val
    omega
  · rintro ⟨t, _, rfl⟩
    show (1024 * j.val + t.val) / 1024 = j.val
    have := t.isLt
    omega

/-- A sum over tile `j` is the sum over `t < 1024` at the key `1024 j + t`. -/
theorem sum_tile {M : Type*} [AddCommMonoid M] (j : Fin 6) (f : Fin 6144 → M) :
    ∑ k ∈ tile j.val, f k = ∑ t : Fin 1024, f (tileKey j t) := by
  rw [tile_eq_map, Finset.sum_map]; rfl

/-- A maximum over tile `j` is the maximum over `t < 1024` at the key `1024 j + t`. -/
theorem sup_tile (j : Fin 6) (s : Fin 6144 → EReal) :
    (tile j.val).sup s = Finset.univ.sup fun t : Fin 1024 => s (tileKey j t) := by
  rw [tile_eq_map, Finset.sup_map]; rfl

/-! ## One head, one query row -/

section
variable (x : FVec Ideal SND .f32) (adj : IVec SNN 32)
  (Wfc : FVec Ideal SDD .f32) (bfc : FVec Ideal SD .f32) (Wq : FVec Ideal SDD .f32) (bq : FVec Ideal SD .f32)
  (h : Fin 3) (n : Fin 6144)

/-- Head `h`'s values as real numbers: key `k`, lane `d`. -/
def vr (k : Fin 6144) (d : Fin 256) : ℝ := (xnew x Wfc bfc k (feat h d)).toReal

/-- Where the values are real numbers, reading them back on the extended reals gives the values. -/
theorem coe_vr (hv : ∀ k j, xnew x Wfc bfc k j ≠ ⊤ ∧ xnew x Wfc bfc k j ≠ ⊥) (k : Fin 6144) (d : Fin 256) :
    ((vr x Wfc bfc h k d : ℝ) : EReal) = xnew x Wfc bfc k (feat h d) :=
  EReal.coe_toReal (hv k (feat h d)).1 (hv k (feat h d)).2

/-- One tile's update, component by component, in the specification's letters: the new maximum … -/
theorem step_max (st : EReal × EReal × (Fin 256 → EReal)) (T : Finset (Fin 6144)) :
    (LibOnlineSoftmax.step (masked x adj Wfc bfc Wq bq h n) (vr x Wfc bfc h) st T).1
      = max st.1 (T.sup (masked x adj Wfc bfc Wq bq h n)) := rfl

/-- … the new denominator: the old one rescaled, plus the tile's exponentials … -/
theorem step_sum (st : EReal × EReal × (Fin 256 → EReal)) (T : Finset (Fin 6144)) :
    (LibOnlineSoftmax.step (masked x adj Wfc bfc Wq bq h n) (vr x Wfc bfc h) st T).2.1
      = Ideal.exp (st.1 - max st.1 (T.sup (masked x adj Wfc bfc Wq bq h n))) * st.2.1
        + ∑ k ∈ T, Ideal.exp (masked x adj Wfc bfc Wq bq h n k - max st.1 (T.sup (masked x adj Wfc bfc Wq bq h n))) := rfl

/-- … and the new weighted sum at lane `d`: the old one rescaled, plus the tile's exponentials against the values. -/
theorem step_acc (hv : ∀ k j, xnew x Wfc bfc k j ≠ ⊤ ∧ xnew x Wfc bfc k j ≠ ⊥)
    (st : EReal × EReal × (Fin 256 → EReal)) (T : Finset (Fin 6144)) (d : Fin 256) :
    (LibOnlineSoftmax.step (masked x adj Wfc bfc Wq bq h n) (vr x Wfc bfc h) st T).2.2 d
      = Ideal.exp (st.1 - max st.1 (T.sup (masked x adj Wfc bfc Wq bq h n))) * st.2.2 d
        + ∑ k ∈ T, Ideal.exp (masked x adj Wfc bfc Wq bq h n k - max st.1 (T.sup (masked x adj Wfc bfc Wq bq h n)))
            * xnew x Wfc bfc k (feat h d) := by
  show _ + ∑ k ∈ T, _ * ((vr x Wfc bfc h k d : ℝ) : EReal) = _
  refine congrArg (_ + ·) (Finset.sum_congr rfl fun k _ => ?_)
  rw [coe_vr x Wfc bfc h hv]

/-- The state before any tile: maximum -∞, denominator 0, weighted sums 0. -/
theorem init_eq : (LibOnlineSoftmax.init : EReal × EReal × (Fin 256 → EReal)) = (⊥, 0, fun _ => 0) := rfl

/-- THE JOIN. Scores never `+∞`, one key of the row unmasked, values real: after the six tiles the running weighted sum
    over the running denominator is the specification's attention. -/
theorem online_eq_attn (hs : ∀ k, masked x adj Wfc bfc Wq bq h n k ≠ ⊤) (hex : ∃ k, masked x adj Wfc bfc Wq bq h n k ≠ ⊥)
    (hv : ∀ k j, xnew x Wfc bfc k j ≠ ⊤ ∧ xnew x Wfc bfc k j ≠ ⊥) (d : Fin 256) :
    Ideal.div
        ((tiles.foldl (LibOnlineSoftmax.step (masked x adj Wfc bfc Wq bq h n) (vr x Wfc bfc h)) LibOnlineSoftmax.init).2.2 d)
        (tiles.foldl (LibOnlineSoftmax.step (masked x adj Wfc bfc Wq bq h n) (vr x Wfc bfc h)) LibOnlineSoftmax.init).2.1
      = attn x adj Wfc bfc Wq bq h n d := by
  rw [LibOnlineSoftmax.online_eq_softmax hs hex tiles tiles_pairwise tiles_cover d, attn_eq_softmax]
  exact Finset.sum_congr rfl fun k _ => by rw [coe_vr x Wfc bfc h hv]

end

end Cert.Proof.SpecTiles

end
-- ==== Proof.SpecFinite.lean ====
/-
  Where the inputs are real numbers, so is everything up to the scores; and the online softmax over the six key tiles is
  then the specification's attention on every row that has a neighbour.

  A real number among the extended reals is one that is neither infinity. Sums and products of reals are reals, a
  finite sum of reals is a real, the leaky rectifier of a real is a real (the slope's word denotes a real number), and
  the quotient by ten is the product with the real `1/10`. So with real entries in `x` and in the first two layers'
  weights and biases, the values `xnew`, the queries `qry` and the scores are reals; a masked score is then a real or
  `-∞`, never `+∞`, and it is a real wherever the adjacency entry is not zero.
-/
import proofs.«181948_j79242146611549_2_alg».proof.Proof.RefSpec
import proofs.«181948_j79242146611549_2_alg».proof.Proof.SpecTiles

noncomputable section

namespace Cert.Proof.SpecFinite

open Idealize.ShloMosaic Idealize.ShloMosaic.ValueIdx Cert.Proof.RefSpec

/-! ## Real numbers among the extended reals -/

/-- An extended real that is a real number: neither infinity. -/
abbrev IsReal (v : EReal) : Prop := v ≠ ⊤ ∧ v ≠ ⊥

theorem isReal_coe (r : ℝ) : IsReal (r : EReal) := ⟨EReal.coe_ne_top r, EReal.coe_ne_bot r⟩

/-- The same thing said with a witness. -/
theorem isReal_iff_exists (v : EReal) : IsReal v ↔ ∃ r : ℝ, v = (r : EReal) :=
  ⟨fun hv => ⟨v.toReal, (EReal.coe_toReal hv.1 hv.2).symm⟩, fun ⟨r, hr⟩ => hr ▸ isReal_coe r⟩

/-- A sum of two reals is a real. -/
theorem IsReal.add {a b : EReal} (ha : IsReal a) (hb : IsReal b) : IsReal (a + b) := by
  lift a to ℝ using ha
  lift b to ℝ using hb
  rw [← EReal.coe_add]; exact isReal_coe _

/-- A product of two reals is a real. -/
theorem IsReal.mul {a b : EReal} (ha : IsReal a) (hb : IsReal b) : IsReal (a * b) := by
  lift a to ℝ using ha
  lift b to ℝ using hb
  rw [← EReal.coe_mul]; exact isReal_coe _

/-- A finite sum of reals is a real. -/
theorem isReal_sum {ι : Type*} (S : Finset ι) (f : ι → EReal) (hf : ∀ i ∈ S, IsReal (f i)) : IsReal (∑ i ∈ S, f i) := by
  classical
  induction S using Finset.induction_on with
  | empty => rw [Finset.sum_empty]; exact isReal_coe 0
  | insert a S ha ih =>
    rw [Finset.sum_insert ha]
    exact (hf a (Finset.mem_insert_self a S)).add (ih fun i hi => hf i (Finset.mem_insert_of_mem hi))

/-! ## The literals -/

/-- The slope's word denotes the real number `13421773 / 2^26` (the f32 nearest to `0.2`). -/
theorem slope_eq : slope = ((13421773 / 67108864 : ℝ) : EReal) := by
  simp [Ideal.ofBits, Ideal.ieee, -EReal.coe_mul]; norm_num

theorem isReal_slope : IsReal slope := slope_eq ▸ isReal_coe _

/-! ## The layers -/

/-- The rectifier of a real is a real. -/
theorem isReal_lrelu {v : EReal} (hv : IsReal v) : IsReal (lrelu v) := by
  unfold lrelu
  split
  · exact hv
  · exact isReal_slope.mul hv

/-- A linear layer of reals is a real. -/
theorem isReal_linear {a : Fin 6144 → Fin 768 → EReal} {W : FVec Ideal SDD .f32} {b : FVec Ideal SD .f32}
    (ha : ∀ n k, IsReal (a n k)) (hW : ∀ i, IsReal (W i)) (hb : ∀ i, IsReal (b i)) (n : Fin 6144) (j : Fin 768) :
    IsReal (linear a W b n j) :=
  (isReal_sum _ _ fun k _ => (ha n k).mul (hW _)).add (hb _)

section
variable {x : FVec Ideal SND .f32} (adj : IVec SNN 32)
  {Wfc : FVec Ideal SDD .f32} {bfc : FVec Ideal SD .f32} {Wq : FVec Ideal SDD .f32} {bq : FVec Ideal SD .f32}
  (hx : ∀ i, IsReal (x i)) (hWfc : ∀ i, IsReal (Wfc i)) (hbfc : ∀ i, IsReal (bfc i))
  (hWq : ∀ i, IsReal (Wq i)) (hbq : ∀ i, IsReal (bq i))
include hx hWfc hbfc

/-- The values are reals. -/
theorem isReal_xnew (n : Fin 6144) (j : Fin 768) : IsReal (xnew x Wfc bfc n j) :=
  isReal_lrelu (isReal_linear (fun n k => hx (ix2 n k)) hWfc hbfc n j)

include hWq hbq

/-- The queries are reals. -/
theorem isReal_qry (n : Fin 6144) (j : Fin 768) : IsReal (qry x Wfc bfc Wq bq n j) :=
  isReal_lrelu (isReal_linear (isReal_xnew hx hWfc hbfc) hWq hbq n j)

/-- The scores are reals. -/
theorem isReal_score (h : Fin 3) (n m : Fin 6144) : IsReal (score x Wfc bfc Wq bq h n m) := by
  rw [score_eq_mul]
  exact (isReal_sum _ _ fun d _ =>
    (isReal_qry hx hWfc hbfc hWq hbq n (feat h d)).mul (isReal_xnew hx hWfc hbfc m (feat h d))).mul (isReal_coe _)

/-- A masked score is never `+∞`. -/
theorem masked_ne_top (h : Fin 3) (n m : Fin 6144) : masked x adj Wfc bfc Wq bq h n m ≠ ⊤ := by
  unfold masked
  split
  · exact bot_ne_top
  · exact (isReal_score hx hWfc hbfc hWq hbq h n m).1

/-- Where `n` and `m` are adjacent the masked score is the score, a real: not `-∞`. -/
theorem masked_ne_bot (h : Fin 3) (n m : Fin 6144) (hnm : adj (ix2 n m) ≠ 0#32) :
    masked x adj Wfc bfc Wq bq h n m ≠ ⊥ := by
  unfold masked
  rw [if_neg hnm]
  exact (isReal_score hx hWfc hbfc hWq hbq h n m).2

/-- Where `n` and `m` are adjacent the masked score is the score. -/
theorem masked_of_adj (h : Fin 3) (n m : Fin 6144) (hnm : adj (ix2 n m) ≠ 0#32) :
    masked x adj Wfc bfc Wq bq h n m = score x Wfc bfc Wq bq h n m := by
  unfold masked
  rw [if_neg hnm]

end

/-! ## The join, from the inputs -/

/-- Real inputs and a neighbour of row `n`: after the six key tiles the online softmax's running weighted sum over its
    running denominator is the specification's attention, for every head and lane. -/
theorem online_eq_attn_of_real {x : FVec Ideal SND .f32} (adj : IVec SNN 32)
    {Wfc : FVec Ideal SDD .f32} {bfc : FVec Ideal SD .f32} {Wq : FVec Ideal SDD .f32} {bq : FVec Ideal SD .f32}
    (hx : ∀ i, IsReal (x i)) (hWfc : ∀ i, IsReal (Wfc i)) (hbfc : ∀ i, IsReal (bfc i))
    (hWq : ∀ i, IsReal (Wq i)) (hbq : ∀ i, IsReal (bq i))
    (h : Fin 3) (n : Fin 6144) (hn : ∃ m : Fin 6144, adj (ix2 n m) ≠ 0#32) (d : Fin 256) :
    Ideal.div
        ((SpecTiles.tiles.foldl (LibOnlineSoftmax.step (masked x adj Wfc bfc Wq bq h n) (SpecTiles.vr x Wfc bfc h))
          LibOnlineSoftmax.init).2.2 d)
        (SpecTiles.tiles.foldl (LibOnlineSoftmax.step (masked x adj Wfc bfc Wq bq h n) (SpecTiles.vr x Wfc bfc h))
          LibOnlineSoftmax.init).2.1
      = attn x adj Wfc bfc Wq bq h n d :=
  SpecTiles.online_eq_attn x adj Wfc bfc Wq bq h n
    (fun k => masked_ne_top adj hx hWfc hbfc hWq hbq h n k)
    (hn.elim fun m hm => ⟨m, masked_ne_bot adj hx hWfc hbfc hWq hbq h n m hm⟩)
    (fun k j => isReal_xnew hx hWfc hbfc k j) d

end Cert.Proof.SpecFinite

end
-- ==== Proof.SpecStep.lean ====
/-
  One key tile's step of the online softmax, with the tile's keys counted from its first, and the masked score from a
  query row and a key row.

  Tile `j` holds the keys `1024 j + k`, `k < 1024`. For one head `h` and one query row `n` write `s k` for the masked score
  of key `1024 j + k`. From a state `(m0, l0, acc0)` the tile's step is

      m1     = max m0 (max over k < 1024 of s k),
      l1     = e^(m0 - m1) · l0 + Σ_{k < 1024} e^(s k - m1),
      acc1 d = e^(m0 - m1) · acc0 d + Σ_{k < 1024} e^(s k - m1) · xnew (1024 j + k) (256 h + d)

  (the values read as real numbers, which they are where the inputs are). The six tiles' fold is six such steps in
  order, and its first `j + 1` steps are its first `j` steps followed by tile `j`'s. A masked score is `-∞` where the
  adjacency entry is zero and otherwise the inner product, over the head's 256 lanes, of the query row with the key's
  value row, times `1/10`.
-/
import proofs.«181948_j79242146611549_2_alg».proof.Proof.RefSpec
import proofs.«181948_j79242146611549_2_alg».proof.Proof.SpecTiles
import proofs.«181948_j79242146611549_2_alg».proof.Proof.SpecFinite

noncomputable section

namespace Cert.Proof.SpecStep

open Idealize.ShloMosaic Idealize.ShloMosaic.ValueIdx Cert.Proof.RefSpec Cert.Proof.SpecTiles Cert.Proof.SpecFinite

/-! ## The six tiles' fold, step by step -/

/-- The fold over the six tiles is six steps in order. -/
theorem foldl_tiles {β : Type*} (f : β → Finset (Fin 6144) → β) (init : β) :
    tiles.foldl f init = f (f (f (f (f (f init (tile 0)) (tile 1)) (tile 2)) (tile 3)) (tile 4)) (tile 5) := rfl

/-- No tile taken: the initial state. -/
theorem foldl_take_zero {β : Type*} (f : β → Finset (Fin 6144) → β) (init : β) :
    (tiles.take 0).foldl f init = init := rfl

/-- The first `j + 1` tiles: the first `j`, then tile `j`. -/
theorem foldl_take_succ {β : Type*} (f : β → Finset (Fin 6144) → β) (init : β) (j : Fin 6) :
    (tiles.take (j.val + 1)).foldl f init = f ((tiles.take j.val).foldl f init) (tile j.val) := by
  fin_cases j <;> rfl

/-- All six taken: the whole fold. -/
theorem foldl_take_six {β : Type*} (f : β → Finset (Fin 6144) → β) (init : β) :
    (tiles.take 6).foldl f init = tiles.foldl f init := rfl

section
variable (x : FVec Ideal SND .f32) (adj : IVec SNN 32)
  (Wfc : FVec Ideal SDD .f32) (bfc : FVec Ideal SD .f32) (Wq : FVec Ideal SDD .f32) (bq : FVec Ideal SD .f32)
  (h : Fin 3) (n : Fin 6144)

/-! ## One tile's step -/

/-- The new maximum: the old one against the largest masked score of the tile's 1024 keys. -/
theorem step_tile_max (m0 l0 : EReal) (acc0 : Fin 256 → EReal) (j : Fin 6) :
    (LibOnlineSoftmax.step (masked x adj Wfc bfc Wq bq h n) (vr x Wfc bfc h) (m0, l0, acc0) (tile j.val)).1
      = max m0 (Finset.univ.sup fun k : Fin 1024 => masked x adj Wfc bfc Wq bq h n (tileKey j k)) := by
  show max m0 ((tile j.val).sup (masked x adj Wfc bfc Wq bq h n)) = _
  rw [sup_tile]

/-- The new denominator: the old one rescaled, plus the tile's 1024 exponentials. -/
theorem step_tile_sum (m0 l0 : EReal) (acc0 : Fin 256 → EReal) (j : Fin 6) :
    (LibOnlineSoftmax.step (masked x adj Wfc bfc Wq bq h n) (vr x Wfc bfc h) (m0, l0, acc0) (tile j.val)).2.1
      = Ideal.exp (m0 - max m0 (Finset.univ.sup fun k : Fin 1024 => masked x adj Wfc bfc Wq bq h n (tileKey j k))) * l0
        + ∑ k : Fin 1024, Ideal.exp (masked x adj Wfc bfc Wq bq h n (tileKey j k)
            - max m0 (Finset.univ.sup fun k : Fin 1024 => masked x adj Wfc bfc Wq bq h n (tileKey j k))) := by
  show Ideal.exp (m0 - max m0 ((tile j.val).sup (masked x adj Wfc bfc Wq bq h n))) * l0
      + ∑ k ∈ tile j.val, Ideal.exp (masked x adj Wfc bfc Wq bq h n k
          - max m0 ((tile j.val).sup (masked x adj Wfc bfc Wq bq h n))) = _
  rw [sup_tile, sum_tile]

/-- The new weighted sum at lane `d`: the old one rescaled, plus the tile's exponentials against the keys' values. -/
theorem step_tile_acc (hv : ∀ k e, IsReal (xnew x Wfc bfc k e)) (m0 l0 : EReal) (acc0 : Fin 256 → EReal) (j : Fin 6)
    (d : Fin 256) :
    (LibOnlineSoftmax.step (masked x adj Wfc bfc Wq bq h n) (vr x Wfc bfc h) (m0, l0, acc0) (tile j.val)).2.2 d
      = Ideal.exp (m0 - max m0 (Finset.univ.sup fun k : Fin 1024 => masked x adj Wfc bfc Wq bq h n (tileKey j k))) * acc0 d
        + ∑ k : Fin 1024, Ideal.exp (masked x adj Wfc bfc Wq bq h n (tileKey j k)
              - max m0 (Finset.univ.sup fun k : Fin 1024 => masked x adj Wfc bfc Wq bq h n (tileKey j k)))
            * xnew x Wfc bfc (tileKey j k) (feat h d) := by
  rw [step_acc x adj Wfc bfc Wq bq h n hv]
  show Ideal.exp (m0 - max m0 ((tile j.val).sup (masked x adj Wfc bfc Wq bq h n))) * acc0 d
      + ∑ k ∈ tile j.val, Ideal.exp (masked x adj Wfc bfc Wq bq h n k
            - max m0 ((tile j.val).sup (masked x adj Wfc bfc Wq bq h n))) * xnew x Wfc bfc k (feat h d) = _
  rw [sup_tile, sum_tile]

/-- ONE TILE'S STEP, as one equation of states. -/
theorem step_tile (hv : ∀ k e, IsReal (xnew x Wfc bfc k e)) (m0 l0 : EReal) (acc0 : Fin 256 → EReal) (j : Fin 6) :
    LibOnlineSoftmax.step (masked x adj Wfc bfc Wq bq h n) (vr x Wfc bfc h) (m0, l0, acc0) (tile j.val)
      = (max m0 (Finset.univ.sup fun k : Fin 1024 => masked x adj Wfc bfc Wq bq h n (tileKey j k)),
         Ideal.exp (m0 - max m0 (Finset.univ.sup fun k : Fin 1024 => masked x adj Wfc bfc Wq bq h n (tileKey j k))) * l0
           + ∑ k : Fin 1024, Ideal.exp (masked x adj Wfc bfc Wq bq h n (tileKey j k)
               - max m0 (Finset.univ.sup fun k : Fin 1024 => masked x adj Wfc bfc Wq bq h n (tileKey j k))),
         fun d =>
           Ideal.exp (m0 - max m0 (Finset.univ.sup fun k : Fin 1024 => masked x adj Wfc bfc Wq bq h n (tileKey j k))) * acc0 d
             + ∑ k : Fin 1024, Ideal.exp (masked x adj Wfc bfc Wq bq h n (tileKey j k)
                   - max m0 (Finset.univ.sup fun k : Fin 1024 => masked x adj Wfc bfc Wq bq h n (tileKey j k)))
                 * xnew x Wfc bfc (tileKey j k) (feat h d)) :=
  Prod.ext (step_tile_max x adj Wfc bfc Wq bq h n m0 l0 acc0 j)
    (Prod.ext (step_tile_sum x adj Wfc bfc Wq bq h n m0 l0 acc0 j)
      (funext fun d => step_tile_acc x adj Wfc bfc Wq bq h n hv m0 l0 acc0 j d))

/-! ## The masked score from a query row and a key row -/

/-- A query row `q` of `n`, a value row `kx` of the key `mkey` and the adjacency entry `a` at (n, mkey): `-∞` where `a` is
    zero, else the inner product over head `h`'s lanes times `1/10`, is the masked score. -/
theorem sc_eq_masked (mkey : Fin 6144) (q kx : Fin 768 → EReal) (a : BitVec 32)
    (hq : ∀ e, q e = qry x Wfc bfc Wq bq n e) (hk : ∀ e, kx e = xnew x Wfc bfc mkey e) (ha : a = adj (ix2 n mkey)) :
    (if a = 0#32 then ⊥ else (∑ d : Fin 256, q (feat h d) * kx (feat h d)) * ((1 / 10 : ℝ) : EReal))
      = masked x adj Wfc bfc Wq bq h n mkey := by
  subst ha
  unfold masked
  rw [score_eq_mul]
  simp only [hq, hk]

end

end Cert.Proof.SpecStep

end
-- ==== Proof.PayStep.lean ====
/-
  One key tile's step of the body is the online softmax's step.

  Row r of the query tile is node n's query, the key block's rows are the values of the 1024 nodes of key tile j, and row r
  of the adjacency block is node n's adjacency against those nodes. Then head h's score letters are the specification's
  masked scores of n against the tile's keys, and the triple (new maximum, new denominator, new accumulator lanes) the
  body computes from the scratch row (m, l, acc) is the online softmax's step of that state over tile j. The reset
  values are the online softmax's initial state.
-/
import proofs.«181948_j79242146611549_2_alg».proof.Proof.PayAttn
import proofs.«181948_j79242146611549_2_alg».proof.Proof.SpecStep

noncomputable section

namespace Cert.KernelIdeal.PayValue

open Idealize.ShloMosaic Idealize.ShloMosaic.ValueIdx
open Cert.KernelIdeal Cert.KernelIdeal.Gen
open Cert.Proof Cert.Proof.RefSpec Cert.Proof.SpecTiles Cert.Proof.SpecFinite Cert.Proof.SpecStep

section Step
variable (x : FVec Ideal SND .f32) (adj : IVec SNN 32)
  (Wfc : FVec Ideal SDD .f32) (bfc : FVec Ideal SD .f32) (Wq : FVec Ideal SDD .f32) (bq : FVec Ideal SD .f32)
  (h : Fin 3) (n : Fin 6144) (j : Fin 6)
  (v3 : Vec Ideal S512x768 .bf16) (v8 : Vec Ideal S1024x768 .bf16) (v10 : Vec Ideal S512x1024 .i32)
  (v13 v14 : Vec Ideal S512x3 .f32) (v15 : Vec Ideal S512x768 .f32) (r : Fin 512)
  (hq : ∀ e : Fin 768, v3 (ix2 r e) = qry x Wfc bfc Wq bq n e)
  (hk : ∀ (k : Fin 1024) (e : Fin 768), v8 (ix2 k e) = xnew x Wfc bfc (tileKey j k) e)
  (ha : ∀ k : Fin 1024, v10 (ix2 r k) = adj (ix2 n (tileKey j k)))
  (hv : ∀ k e, IsReal (xnew x Wfc bfc k e))

include hq hk ha in
/-- The score letter of row r against key k of the block is the masked score of node n against key 1024 j + k. -/
theorem sc_eq (k : Fin 1024) : sc h v3 v8 v10 r k = masked x adj Wfc bfc Wq bq h n (tileKey j k) := by
  unfold sc
  exact sc_eq_masked x adj Wfc bfc Wq bq h n (tileKey j k) (fun e => v3 (ix2 r e)) (fun e => v8 (ix2 k e))
    (v10 (ix2 r k)) hq (hk k) (ha k)

include hq hk ha hv in
/-- THE STEP OF ONE ROW: the body's new maximum, denominator and accumulator lanes are the online softmax's step, over
    key tile j, of the scratch row's state. -/
theorem step_row :
    (newmax h v3 v8 v10 v13 r,
     alpha h v3 v8 v10 v13 r * v14 (ix2 r h) + ∑ k : Fin 1024, wgt h v3 v8 v10 v13 r k,
     fun d : Fin 256 =>
       alpha h v3 v8 v10 v13 r * v15 (ix2 r (feat h d))
         + ∑ k : Fin 1024, wgt h v3 v8 v10 v13 r k * v8 (ix2 k (feat h d)))
      = LibOnlineSoftmax.step (masked x adj Wfc bfc Wq bq h n) (vr x Wfc bfc h)
          (v13 (ix2 r h), v14 (ix2 r h), fun d => v15 (ix2 r (feat h d))) (tile j.val) := by
  rw [step_tile x adj Wfc bfc Wq bq h n hv]
  unfold alpha wgt newmax
  simp only [sc_eq x adj Wfc bfc Wq bq h n j v3 v8 v10 r hq hk ha, hk]

end Step

/-- THE RESET ROW: the scratch's reset values are the online softmax's initial state. -/
theorem reset_row (h : Fin 3) (r : Fin 512) :
    (k1_pay9 (F := Ideal) (ix2 r h), k1_pay10 (F := Ideal) (ix2 r h),
      fun d : Fin 256 => k1_pay11 (F := Ideal) (ix2 r (feat h d)))
      = (LibOnlineSoftmax.init : EReal × EReal × (Fin 256 → EReal)) := by
  rw [pay9_eq, pay10_eq, pay11_eq]
  rfl

end Cert.KernelIdeal.PayValue

end
-- ==== Proof.LibColumnPieces.lean ====
/-
  Reading what a list of stores left, when the stores are blocks of whole columns.

  A buffer of `a` rows by `b` columns is written by stores each covering ALL the rows of a run of `w` consecutive
  columns starting at column `o` (unit strides). What the stores leave at an element is the payload of the LAST store
  covering it (the list is last first). Two readings follow: at an element inside the head store's columns, that store's
  payload at the element's row and its column counted from `o`; at an element whose column the head store does not
  touch, whatever the earlier stores left. General in the extents, the column run and the element type.
-/
import Idealize.ShloMosaic.Lib.Pipeline.FrameBody
import Idealize.ShloMosaic.Lib.ValueIdx

namespace LibColumnPieces

open Idealize.ShloMosaic Idealize.ShloMosaic.ValueIdx

variable {Val : EltTy → Type} [∀ e, Nonempty (Val e)] {e : EltTy} {a b : Nat}

/-- Inside the head store's columns `o … o + w - 1`: its payload at row `r`, column `d` of the run. -/
theorem canon_col (o w : Nat)
    (inb : ∀ x, (![0, o] : Fin 2 → Nat) x + (![a, w] : Fin 2 → Nat) x ≤ (⟨2, ![a, b]⟩ : Shape).size x)
    (p : (Rect.unit (s := (⟨2, ![a, b]⟩ : Shape)) ![0, o] ![a, w] inb).shape.Idx → Val e)
    (L : List (View.Piece Val (⟨2, ![a, b]⟩ : Shape) e)) (r : Fin a) (d : Fin w) (hd : o + d.val < b) :
    View.canon (⟨Rect.unit (s := (⟨2, ![a, b]⟩ : Shape)) ![0, o] ![a, w] inb, p⟩ :: L) (ix2 r ⟨o + d.val, hd⟩)
      = p (ix2 r d) := by
  have h : (ix2 r ⟨o + d.val, hd⟩ : (⟨2, ![a, b]⟩ : Shape).Idx)
      = (Rect.unit (s := (⟨2, ![a, b]⟩ : Shape)) ![0, o] ![a, w] inb).emb (ix2 r d) := by
    funext x
    refine Fin.ext ?_
    rw [Rect.emb_apply]
    match x with
    | ⟨0, _⟩ => simp [ix2]
    | ⟨1, _⟩ => simp [ix2]
  rw [h]
  exact View.canon_cons_emb _ p L _

/-- At a column the head store does not touch: what the earlier stores left. -/
theorem canon_skip_col (o w : Nat)
    (inb : ∀ x, (![0, o] : Fin 2 → Nat) x + (![a, w] : Fin 2 → Nat) x ≤ (⟨2, ![a, b]⟩ : Shape).size x)
    (p : (Rect.unit (s := (⟨2, ![a, b]⟩ : Shape)) ![0, o] ![a, w] inb).shape.Idx → Val e)
    (L : List (View.Piece Val (⟨2, ![a, b]⟩ : Shape) e)) (y : (⟨2, ![a, b]⟩ : Shape).Idx)
    (hy : (y 1).val < o ∨ o + w ≤ (y 1).val) :
    View.canon (⟨Rect.unit (s := (⟨2, ![a, b]⟩ : Shape)) ![0, o] ![a, w] inb, p⟩ :: L) y = View.canon L y := by
  refine View.canon_cons_of_not_mem _ L ?_
  rw [Rect.mem_set_unit]
  intro h
  have h1 := h 1
  simp at h1
  omega

end LibColumnPieces
-- ==== Proof.ProjAttnColumns.lean ====
/-
  The attention body's column stores, read at an index.

  The running maximum and the running denominator (512 rows by 3 columns, a column per head) are each written by
  three stores of one whole column, head 2 last; the running weighted sum and the finished first residual (512 rows by
  768 columns) by three stores of 256 whole columns, head 2's last. What such a list leaves at row r of head h's
  columns is head h's store's value at row r and the column counted inside the head: the later stores, of other
  heads, do not touch that column, and whatever lies under the three stores is covered by them.
-/
import proofs.«181948_j79242146611549_2_alg».proof.Proof.IdealPieces
import proofs.«181948_j79242146611549_2_alg».proof.Proof.LibColumnPieces
import proofs.«181948_j79242146611549_2_alg».proof.Proof.RefSpec
import Idealize.ShloMosaic.Lib.ValueIdx

noncomputable section

namespace Cert.KernelIdeal.AttnBlocks

open Idealize.ShloMosaic Idealize.ShloMosaic.TcCoe Idealize.ShloMosaic.ValueIdx Idealize.SL.Sem
open Cert.KernelIdeal Cert.KernelIdeal.Gen Cert.KernelIdeal.Frame
open Cert.Proof

variable {F : FTy → Type} [FloatOps F] [Named F]

/-! ## Three one-column stores over 512 by 3 -/

section Cols3
variable (i2 : ∀ x, (![0, 2] : Fin 2 → Nat) x + S512x1.size x ≤ S512x3.size x)
  (i1 : ∀ x, (![0, 1] : Fin 2 → Nat) x + S512x1.size x ≤ S512x3.size x)
  (i0 : ∀ x, (![0, 0] : Fin 2 → Nat) x + S512x1.size x ≤ S512x3.size x)
  (p2 p1 p0 : FVec F S512x1 .f32) (T : List (View.Piece (Elt F) S512x3 .f32)) (r : Fin 512)

/-- Column 0 holds the third store's value: the two later stores are of columns 2 and 1. -/
theorem cols3_at0 :
    View.canon ((⟨Rect.unit (s := S512x3) ![0, 2] S512x1.size i2, p2⟩ : View.Piece (Elt F) S512x3 .f32) :: ⟨Rect.unit (s := S512x3) ![0, 1] S512x1.size i1, p1⟩ :: ⟨Rect.unit (s := S512x3) ![0, 0] S512x1.size i0, p0⟩ :: T)
      (ix2 r (0 : Fin 3)) = p0 (ix2 r (0 : Fin 1)) :=
  (LibColumnPieces.canon_skip_col (Val := Elt F) (e := .f32) (a := 512) (b := 3) 2 1 i2 p2 _ (ix2 r (0 : Fin 3))
      (Or.inl (by show (0 : Fin 3).val < 2; decide))).trans
    ((LibColumnPieces.canon_skip_col (Val := Elt F) (e := .f32) (a := 512) (b := 3) 1 1 i1 p1 _ (ix2 r (0 : Fin 3))
        (Or.inl (by show (0 : Fin 3).val < 1; decide))).trans
      (LibColumnPieces.canon_col (Val := Elt F) (e := .f32) (a := 512) (b := 3) 0 1 i0 p0 T r (0 : Fin 1) (by decide)))

/-- Column 1 holds the second store's value. -/
theorem cols3_at1 :
    View.canon ((⟨Rect.unit (s := S512x3) ![0, 2] S512x1.size i2, p2⟩ : View.Piece (Elt F) S512x3 .f32) :: ⟨Rect.unit (s := S512x3) ![0, 1] S512x1.size i1, p1⟩ :: ⟨Rect.unit (s := S512x3) ![0, 0] S512x1.size i0, p0⟩ :: T)
      (ix2 r (1 : Fin 3)) = p1 (ix2 r (0 : Fin 1)) :=
  (LibColumnPieces.canon_skip_col (Val := Elt F) (e := .f32) (a := 512) (b := 3) 2 1 i2 p2 _ (ix2 r (1 : Fin 3))
      (Or.inl (by show (1 : Fin 3).val < 2; decide))).trans
    (LibColumnPieces.canon_col (Val := Elt F) (e := .f32) (a := 512) (b := 3) 1 1 i1 p1 _ r (0 : Fin 1) (by decide))

/-- Column 2 holds the last store's value. -/
theorem cols3_at2 :
    View.canon ((⟨Rect.unit (s := S512x3) ![0, 2] S512x1.size i2, p2⟩ : View.Piece (Elt F) S512x3 .f32) :: ⟨Rect.unit (s := S512x3) ![0, 1] S512x1.size i1, p1⟩ :: ⟨Rect.unit (s := S512x3) ![0, 0] S512x1.size i0, p0⟩ :: T)
      (ix2 r (2 : Fin 3)) = p2 (ix2 r (0 : Fin 1)) :=
  LibColumnPieces.canon_col (Val := Elt F) (e := .f32) (a := 512) (b := 3) 2 1 i2 p2 _ r (0 : Fin 1) (by decide)

end Cols3

/-! ## Three 256-column stores over 512 by 768 -/

section Cols768
variable (i2 : ∀ x, (![0, 512] : Fin 2 → Nat) x + S512x256.size x ≤ S512x768.size x)
  (i1 : ∀ x, (![0, 256] : Fin 2 → Nat) x + S512x256.size x ≤ S512x768.size x)
  (i0 : ∀ x, (![0, 0] : Fin 2 → Nat) x + S512x256.size x ≤ S512x768.size x)
  (p2 p1 p0 : FVec F S512x256 .f32) (T : List (View.Piece (Elt F) S512x768 .f32)) (r : Fin 512) (d : Fin 256)

/-- Head 0's columns `0 … 255` hold the third store's value. -/
theorem cols768_head0 (j : Fin 768) (hj : j.val = d.val) :
    View.canon ((⟨Rect.unit (s := S512x768) ![0, 512] S512x256.size i2, p2⟩ : View.Piece (Elt F) S512x768 .f32) :: ⟨Rect.unit (s := S512x768) ![0, 256] S512x256.size i1, p1⟩ :: ⟨Rect.unit (s := S512x768) ![0, 0] S512x256.size i0, p0⟩ :: T)
      (ix2 r j) = p0 (ix2 r d) := by
  have hd : d.val < 256 := d.isLt
  have hb : 0 + d.val < 768 := Nat.lt_of_lt_of_le (Nat.add_lt_add_left d.isLt 0) (by decide)
  obtain rfl : j = ⟨0 + d.val, hb⟩ := Fin.ext (by show j.val = 0 + d.val; omega)
  exact (LibColumnPieces.canon_skip_col (Val := Elt F) (e := .f32) (a := 512) (b := 768) 512 256 i2 p2 _ _
      (Or.inl (by show 0 + d.val < 512; omega))).trans
    ((LibColumnPieces.canon_skip_col (Val := Elt F) (e := .f32) (a := 512) (b := 768) 256 256 i1 p1 _ _
        (Or.inl (by show 0 + d.val < 256; omega))).trans
      (LibColumnPieces.canon_col (Val := Elt F) (e := .f32) (a := 512) (b := 768) 0 256 i0 p0 T r d (by omega)))

/-- Head 1's columns `256 … 511` hold the second store's value. -/
theorem cols768_head1 (j : Fin 768) (hj : j.val = 256 + d.val) :
    View.canon ((⟨Rect.unit (s := S512x768) ![0, 512] S512x256.size i2, p2⟩ : View.Piece (Elt F) S512x768 .f32) :: ⟨Rect.unit (s := S512x768) ![0, 256] S512x256.size i1, p1⟩ :: ⟨Rect.unit (s := S512x768) ![0, 0] S512x256.size i0, p0⟩ :: T)
      (ix2 r j) = p1 (ix2 r d) := by
  have hd : d.val < 256 := d.isLt
  have hb : 256 + d.val < 768 := Nat.lt_of_lt_of_le (Nat.add_lt_add_left d.isLt 256) (by decide)
  obtain rfl : j = ⟨256 + d.val, hb⟩ := Fin.ext (by show j.val = 256 + d.val; omega)
  exact (LibColumnPieces.canon_skip_col (Val := Elt F) (e := .f32) (a := 512) (b := 768) 512 256 i2 p2 _ _
      (Or.inl (by show 256 + d.val < 512; omega))).trans
    (LibColumnPieces.canon_col (Val := Elt F) (e := .f32) (a := 512) (b := 768) 256 256 i1 p1 _ r d (by omega))

/-- Head 2's columns `512 … 767` hold the last store's value. -/
theorem cols768_head2 (j : Fin 768) (hj : j.val = 512 + d.val) :
    View.canon ((⟨Rect.unit (s := S512x768) ![0, 512] S512x256.size i2, p2⟩ : View.Piece (Elt F) S512x768 .f32) :: ⟨Rect.unit (s := S512x768) ![0, 256] S512x256.size i1, p1⟩ :: ⟨Rect.unit (s := S512x768) ![0, 0] S512x256.size i0, p0⟩ :: T)
      (ix2 r j) = p2 (ix2 r d) := by
  have hd : d.val < 256 := d.isLt
  have hb : 512 + d.val < 768 := Nat.lt_of_lt_of_le (Nat.add_lt_add_left d.isLt 512) (by decide)
  obtain rfl : j = ⟨512 + d.val, hb⟩ := Fin.ext (by show j.val = 512 + d.val; omega)
  exact LibColumnPieces.canon_col (Val := Elt F) (e := .f32) (a := 512) (b := 768) 512 256 i2 p2 _ r d (by omega)

end Cols768

/-- Feature `256 h + d` at the three heads. -/
theorem feat0_val (d : Fin 256) : (RefSpec.feat 0 d).val = d.val := by
  show (0 : Fin 3).val * 256 + d.val = d.val; show 0 * 256 + d.val = d.val; omega
theorem feat1_val (d : Fin 256) : (RefSpec.feat 1 d).val = 256 + d.val := by
  show (1 : Fin 3).val * 256 + d.val = 256 + d.val; show 1 * 256 + d.val = 256 + d.val; omega
theorem feat2_val (d : Fin 256) : (RefSpec.feat 2 d).val = 512 + d.val := by
  show (2 : Fin 3).val * 256 + d.val = 512 + d.val; show 2 * 256 + d.val = 512 + d.val; omega

/-! ## The running maximum's stores -/

section Steps
variable (q : Vec F S512x768 .bf16) (kv : Vec F S1024x768 .bf16) (ad : Vec F S512x1024 .i32)
  (m0 l0 : Vec F S512x3 .f32) (a0 : Vec F S512x768 .f32) (r : Fin 512)

theorem stepM_at0 (T : List (View.Piece (Elt F) S512x3 .f32)) :
    View.canon (stepM q kv ad m0 ++ T) (ix2 r (0 : Fin 3)) = k1_pay23 (k1_pay18 q kv ad m0) (ix2 r (0 : Fin 1)) :=
  cols3_at0 inb_S512x3_S512x1_0_2 inb_S512x3_S512x1_0_1 inb_S512x3_S512x1_0_0 _ _ _ T r
theorem stepM_at1 (T : List (View.Piece (Elt F) S512x3 .f32)) :
    View.canon (stepM q kv ad m0 ++ T) (ix2 r (1 : Fin 3))
      = k1_pay34 (k1_pay29 (k1_pay12 q) (k1_pay13 kv) (k1_pay14 ad) m0) (ix2 r (0 : Fin 1)) :=
  cols3_at1 inb_S512x3_S512x1_0_2 inb_S512x3_S512x1_0_1 inb_S512x3_S512x1_0_0 _ _ _ T r
theorem stepM_at2 (T : List (View.Piece (Elt F) S512x3 .f32)) :
    View.canon (stepM q kv ad m0 ++ T) (ix2 r (2 : Fin 3))
      = k1_pay45 (k1_pay12 q) (k1_pay13 kv) (k1_pay14 ad) m0 (ix2 r (0 : Fin 1)) :=
  cols3_at2 inb_S512x3_S512x1_0_2 inb_S512x3_S512x1_0_1 inb_S512x3_S512x1_0_0 _ _ _ T r

/-! ## The running denominator's stores -/

theorem stepL_at0 (T : List (View.Piece (Elt F) S512x3 .f32)) :
    View.canon (stepL q kv ad m0 l0 ++ T) (ix2 r (0 : Fin 3))
      = k1_pay24 (k1_pay21 q kv ad m0 l0) (k1_pay22 q kv ad m0) (ix2 r (0 : Fin 1)) :=
  cols3_at0 inb_S512x3_S512x1_0_2 inb_S512x3_S512x1_0_1 inb_S512x3_S512x1_0_0 _ _ _ T r
theorem stepL_at1 (T : List (View.Piece (Elt F) S512x3 .f32)) :
    View.canon (stepL q kv ad m0 l0 ++ T) (ix2 r (1 : Fin 3))
      = k1_pay35 (k1_pay32 (k1_pay12 q) (k1_pay13 kv) (k1_pay14 ad) m0 l0) (ix2 r (0 : Fin 1)) :=
  cols3_at1 inb_S512x3_S512x1_0_2 inb_S512x3_S512x1_0_1 inb_S512x3_S512x1_0_0 _ _ _ T r
theorem stepL_at2 (T : List (View.Piece (Elt F) S512x3 .f32)) :
    View.canon (stepL q kv ad m0 l0 ++ T) (ix2 r (2 : Fin 3))
      = k1_pay1 (k1_pay43 (k1_pay12 q) (k1_pay13 kv) (k1_pay14 ad) m0 l0) (ix2 r (0 : Fin 1)) :=
  cols3_at2 inb_S512x3_S512x1_0_2 inb_S512x3_S512x1_0_1 inb_S512x3_S512x1_0_0 _ _ _ T r

/-! ## The running weighted sum's stores -/

theorem stepA_head0 (T : List (View.Piece (Elt F) S512x768 .f32)) (d : Fin 256) (j : Fin 768) (hj : j.val = d.val) :
    View.canon (stepA q kv ad m0 a0 ++ T) (ix2 r j)
      = k1_pay25 a0 (k1_pay15 kv) (k1_pay19 q kv ad m0) (k1_pay20 q kv ad m0) (ix2 r d) :=
  cols768_head0 inb_S512x768_S512x256_0_512 inb_S512x768_S512x256_0_256 inb_S512x768_S512x256_0_0 _ _ _ T r d j hj
theorem stepA_head1 (T : List (View.Piece (Elt F) S512x768 .f32)) (d : Fin 256) (j : Fin 768) (hj : j.val = 256 + d.val) :
    View.canon (stepA q kv ad m0 a0 ++ T) (ix2 r j)
      = k1_pay36 (k1_pay33 (k1_pay12 q) (k1_pay13 kv) (k1_pay14 ad) m0 a0) (ix2 r d) :=
  cols768_head1 inb_S512x768_S512x256_0_512 inb_S512x768_S512x256_0_256 inb_S512x768_S512x256_0_0 _ _ _ T r d j hj
theorem stepA_head2 (T : List (View.Piece (Elt F) S512x768 .f32)) (d : Fin 256) (j : Fin 768) (hj : j.val = 512 + d.val) :
    View.canon (stepA q kv ad m0 a0 ++ T) (ix2 r j)
      = k1_pay2 (k1_pay44 (k1_pay12 q) (k1_pay13 kv) (k1_pay14 ad) m0 a0) (ix2 r d) :=
  cols768_head2 inb_S512x768_S512x256_0_512 inb_S512x768_S512x256_0_256 inb_S512x768_S512x256_0_0 _ _ _ T r d j hj

/-- The same three at the specification's feature `256 h + d`. -/
theorem stepA_feat0 (T : List (View.Piece (Elt F) S512x768 .f32)) (d : Fin 256) :
    View.canon (stepA q kv ad m0 a0 ++ T) (ix2 r (RefSpec.feat 0 d))
      = k1_pay25 a0 (k1_pay15 kv) (k1_pay19 q kv ad m0) (k1_pay20 q kv ad m0) (ix2 r d) :=
  stepA_head0 q kv ad m0 a0 r T d _ (feat0_val d)
theorem stepA_feat1 (T : List (View.Piece (Elt F) S512x768 .f32)) (d : Fin 256) :
    View.canon (stepA q kv ad m0 a0 ++ T) (ix2 r (RefSpec.feat 1 d))
      = k1_pay36 (k1_pay33 (k1_pay12 q) (k1_pay13 kv) (k1_pay14 ad) m0 a0) (ix2 r d) :=
  stepA_head1 q kv ad m0 a0 r T d _ (feat1_val d)
theorem stepA_feat2 (T : List (View.Piece (Elt F) S512x768 .f32)) (d : Fin 256) :
    View.canon (stepA q kv ad m0 a0 ++ T) (ix2 r (RefSpec.feat 2 d))
      = k1_pay2 (k1_pay44 (k1_pay12 q) (k1_pay13 kv) (k1_pay14 ad) m0 a0) (ix2 r d) :=
  stepA_head2 q kv ad m0 a0 r T d _ (feat2_val d)

end Steps

end Cert.KernelIdeal.AttnBlocks

end
-- ==== Proof.PayPoint.lean ====
/-
  One point of the attention body, row by row.

  At a key tile the body's column stores leave, at row r of head h's columns of the three running buffers, the online
  softmax's step (over that key tile) of what the buffers held at that row before the point.
-/
import proofs.«181948_j79242146611549_2_alg».proof.Proof.PayStep
import proofs.«181948_j79242146611549_2_alg».proof.Proof.ProjAttnColumns

noncomputable section

namespace Cert.KernelIdeal.PayValue

open Idealize.ShloMosaic Idealize.ShloMosaic.ValueIdx Idealize.SL.Sem
open Cert.KernelIdeal Cert.KernelIdeal.Gen Cert.KernelIdeal.Frame Cert.KernelIdeal.AttnBlocks
open Cert.Proof Cert.Proof.RefSpec Cert.Proof.SpecTiles Cert.Proof.SpecFinite Cert.Proof.SpecStep

section Buffers
variable (x : FVec Ideal SND .f32) (adj : IVec SNN 32)
  (Wfc : FVec Ideal SDD .f32) (bfc : FVec Ideal SD .f32) (Wq : FVec Ideal SDD .f32) (bq : FVec Ideal SD .f32)
  (n : Fin 6144) (j : Fin 6)
  (q : Vec Ideal S512x768 .bf16) (kv : Vec Ideal S1024x768 .bf16) (ad : Vec Ideal S512x1024 .i32)
  (M0 L0 : Vec Ideal S512x3 .f32) (A0 : Vec Ideal S512x768 .f32)
  (T0 T1 : List (View.Piece (Elt Ideal) S512x3 .f32)) (T2 : List (View.Piece (Elt Ideal) S512x768 .f32))
  (r : Fin 512)
  (hq : ∀ e : Fin 768, q (ix2 r e) = qry x Wfc bfc Wq bq n e)
  (hk : ∀ (k : Fin 1024) (e : Fin 768), kv (ix2 k e) = xnew x Wfc bfc (tileKey j k) e)
  (ha : ∀ k : Fin 1024, ad (ix2 r k) = adj (ix2 n (tileKey j k)))
  (hv : ∀ k e, IsReal (xnew x Wfc bfc k e))

include hq hk ha hv

/-- Head 0's columns after the point. -/
theorem step_buffers0 :
    ((View.canon (stepM q kv ad M0 ++ T0) (ix2 r (0 : Fin 3)),
      View.canon (stepL q kv ad M0 L0 ++ T1) (ix2 r (0 : Fin 3)),
      fun d : Fin 256 => View.canon (stepA q kv ad M0 A0 ++ T2) (ix2 r (feat 0 d))) : EReal × EReal × (Fin 256 → EReal))
      = LibOnlineSoftmax.step (masked x adj Wfc bfc Wq bq 0 n) (vr x Wfc bfc 0)
          (M0 (ix2 r (0 : Fin 3)), L0 (ix2 r (0 : Fin 3)), fun d => A0 (ix2 r (feat 0 d))) (tile j.val) := by
  rw [stepM_at0, stepL_at0]
  simp only [stepA_feat0]
  rw [pay23_eq, pay18_apply, pay24_apply]
  simp only [pay25_apply]
  exact step_row x adj Wfc bfc Wq bq 0 n j q kv ad M0 L0 A0 r hq hk ha hv

/-- Head 1's columns after the point. -/
theorem step_buffers1 :
    ((View.canon (stepM q kv ad M0 ++ T0) (ix2 r (1 : Fin 3)),
      View.canon (stepL q kv ad M0 L0 ++ T1) (ix2 r (1 : Fin 3)),
      fun d : Fin 256 => View.canon (stepA q kv ad M0 A0 ++ T2) (ix2 r (feat 1 d))) : EReal × EReal × (Fin 256 → EReal))
      = LibOnlineSoftmax.step (masked x adj Wfc bfc Wq bq 1 n) (vr x Wfc bfc 1)
          (M0 (ix2 r (1 : Fin 3)), L0 (ix2 r (1 : Fin 3)), fun d => A0 (ix2 r (feat 1 d))) (tile j.val) := by
  rw [stepM_at1, stepL_at1]
  simp only [stepA_feat1]
  rw [pay34_eq, pay29_apply, pay35_eq, pay32_apply]
  simp only [pay36_eq, pay33_apply]
  exact step_row x adj Wfc bfc Wq bq 1 n j q kv ad M0 L0 A0 r hq hk ha hv

/-- Head 2's columns after the point. -/
theorem step_buffers2 :
    ((View.canon (stepM q kv ad M0 ++ T0) (ix2 r (2 : Fin 3)),
      View.canon (stepL q kv ad M0 L0 ++ T1) (ix2 r (2 : Fin 3)),
      fun d : Fin 256 => View.canon (stepA q kv ad M0 A0 ++ T2) (ix2 r (feat 2 d))) : EReal × EReal × (Fin 256 → EReal))
      = LibOnlineSoftmax.step (masked x adj Wfc bfc Wq bq 2 n) (vr x Wfc bfc 2)
          (M0 (ix2 r (2 : Fin 3)), L0 (ix2 r (2 : Fin 3)), fun d => A0 (ix2 r (feat 2 d))) (tile j.val) := by
  rw [stepM_at2, stepL_at2]
  simp only [stepA_feat2]
  rw [pay45_apply, pay1_eq, pay43_apply]
  simp only [pay2_eq, pay44_apply]
  exact step_row x adj Wfc bfc Wq bq 2 n j q kv ad M0 L0 A0 r hq hk ha hv

/-- THE POINT, ROW BY ROW: at row r of head h's columns the three buffers hold, after the point, the online softmax's
    step over key tile j of what they held before it. -/
theorem step_buffers (h : Fin 3) :
    ((View.canon (stepM q kv ad M0 ++ T0) (ix2 r h),
      View.canon (stepL q kv ad M0 L0 ++ T1) (ix2 r h),
      fun d : Fin 256 => View.canon (stepA q kv ad M0 A0 ++ T2) (ix2 r (feat h d))) : EReal × EReal × (Fin 256 → EReal))
      = LibOnlineSoftmax.step (masked x adj Wfc bfc Wq bq h n) (vr x Wfc bfc h)
          (M0 (ix2 r h), L0 (ix2 r h), fun d => A0 (ix2 r (feat h d))) (tile j.val) := by
  match h with
  | ⟨0, _⟩ => exact step_buffers0 x adj Wfc bfc Wq bq n j q kv ad M0 L0 A0 T0 T1 T2 r hq hk ha hv
  | ⟨1, _⟩ => exact step_buffers1 x adj Wfc bfc Wq bq n j q kv ad M0 L0 A0 T0 T1 T2 r hq hk ha hv
  | ⟨2, _⟩ => exact step_buffers2 x adj Wfc bfc Wq bq n j q kv ad M0 L0 A0 T0 T1 T2 r hq hk ha hv

/-- The same with nothing under the point's stores. -/
theorem step_buffers_nil (h : Fin 3) :
    ((View.canon (stepM q kv ad M0) (ix2 r h),
      View.canon (stepL q kv ad M0 L0) (ix2 r h),
      fun d : Fin 256 => View.canon (stepA q kv ad M0 A0) (ix2 r (feat h d))) : EReal × EReal × (Fin 256 → EReal))
      = LibOnlineSoftmax.step (masked x adj Wfc bfc Wq bq h n) (vr x Wfc bfc h)
          (M0 (ix2 r h), L0 (ix2 r h), fun d => A0 (ix2 r (feat h d))) (tile j.val) := by
  have hstep := step_buffers x adj Wfc bfc Wq bq n j q kv ad M0 L0 A0 [] [] [] r hq hk ha hv h
  simp only [List.append_nil] at hstep
  exact hstep

end Buffers

end Cert.KernelIdeal.PayValue

end
-- ==== Proof.SpecFinal.lean ====
/-
  The finish, in the specification's letters.

  Once each head's attention of query row `n` is known as a quotient `acc_h d / l_h` (the online softmax's running weighted
  sum over its running denominator), the first residual at feature `j` is `x n j` plus that quotient at head `j / 256` and
  lane `j % 256`, and the result at feature `e` is `x n e` plus the rectified last layer of the first residual's row:
  `Σ_{k < 768} res1 n k · W_final e k + b_final e`. A sum over the 768 features is the sum over the 3 heads of the sums
  over a head's 256 lanes, feature `256 h + d` being lane `d` of head `h`.
-/
import proofs.«181948_j79242146611549_2_alg».proof.Proof.RefSpec
import proofs.«181948_j79242146611549_2_alg».proof.Proof.SpecFinite

noncomputable section

namespace Cert.Proof.SpecFinal

open Idealize.ShloMosaic Idealize.ShloMosaic.ValueIdx Cert.Proof.RefSpec Cert.Proof.SpecFinite

/-! ## Features by heads and lanes -/

/-- A feature is a head and a lane: `(h, d) ↦ 256 h + d`, with inverse `j ↦ (j / 256, j % 256)`. -/
def featEquiv : Fin 3 × Fin 256 ≃ Fin 768 where
  toFun p := feat p.1 p.2
  invFun j := (headOf j, laneOf j)
  left_inv p := Prod.ext (headOf_feat p.1 p.2) (laneOf_feat p.1 p.2)
  right_inv j := feat_headOf_laneOf j

/-- A sum over the features is the sum over the heads of the sums over a head's lanes. -/
theorem sum_feat {M : Type*} [AddCommMonoid M] (f : Fin 768 → M) :
    ∑ k : Fin 768, f k = ∑ h : Fin 3, ∑ d : Fin 256, f (feat h d) := by
  rw [← Equiv.sum_comp featEquiv f, Fintype.sum_prod_type]
  rfl

/-- A linear layer's contraction, head by head. -/
theorem linear_by_heads (a : Fin 6144 → Fin 768 → EReal) (W : FVec Ideal SDD .f32) (b : FVec Ideal SD .f32)
    (n : Fin 6144) (j : Fin 768) :
    linear a W b n j = (∑ h : Fin 3, ∑ d : Fin 256, a n (feat h d) * W (ix2 j (feat h d))) + b (ix1 j) := by
  unfold linear
  rw [sum_feat]

section
variable (x : FVec Ideal SND .f32) (adj : IVec SNN 32)
  (Wfc : FVec Ideal SDD .f32) (bfc : FVec Ideal SD .f32) (Wq : FVec Ideal SDD .f32) (bq : FVec Ideal SD .f32)
  (Wf : FVec Ideal SDD .f32) (bf : FVec Ideal SD .f32)

/-! ## The first residual from the heads' quotients -/

/-- Where each head's quotient `acc h d / l h` is that head's attention of row `n`, the first residual at feature `j` is
    `x n j` plus the quotient at head `j / 256`, lane `j % 256`. -/
theorem res1_eq_of_quotient (n : Fin 6144) (acc : Fin 3 → Fin 256 → EReal) (l : Fin 3 → EReal)
    (hq : ∀ h d, Ideal.div (acc h d) (l h) = attn x adj Wfc bfc Wq bq h n d) (j : Fin 768) :
    res1 x adj Wfc bfc Wq bq n j = x (ix2 n j) + Ideal.div (acc (headOf j) (laneOf j)) (l (headOf j)) := by
  unfold res1
  rw [hq]

/-- The same at the feature `256 h + d`: the quotient of head `h` at lane `d`. -/
theorem res1_feat_eq_of_quotient (n : Fin 6144) (acc : Fin 3 → Fin 256 → EReal) (l : Fin 3 → EReal)
    (hq : ∀ h d, Ideal.div (acc h d) (l h) = attn x adj Wfc bfc Wq bq h n d) (h : Fin 3) (d : Fin 256) :
    res1 x adj Wfc bfc Wq bq n (feat h d) = x (ix2 n (feat h d)) + Ideal.div (acc h d) (l h) := by
  rw [res1_eq_of_quotient x adj Wfc bfc Wq bq n acc l hq, headOf_feat, laneOf_feat]

/-- With real inputs and a neighbour of row `n`, the quotients are the online softmax's over the six key tiles. -/
theorem res1_eq_online (hx : ∀ i, IsReal (x i)) (hWfc : ∀ i, IsReal (Wfc i)) (hbfc : ∀ i, IsReal (bfc i))
    (hWq : ∀ i, IsReal (Wq i)) (hbq : ∀ i, IsReal (bq i)) (n : Fin 6144) (hn : ∃ m : Fin 6144, adj (ix2 n m) ≠ 0#32)
    (j : Fin 768) :
    res1 x adj Wfc bfc Wq bq n j
      = x (ix2 n j) + Ideal.div
          ((SpecTiles.tiles.foldl
              (LibOnlineSoftmax.step (masked x adj Wfc bfc Wq bq (headOf j) n) (SpecTiles.vr x Wfc bfc (headOf j)))
              LibOnlineSoftmax.init).2.2 (laneOf j))
          (SpecTiles.tiles.foldl
              (LibOnlineSoftmax.step (masked x adj Wfc bfc Wq bq (headOf j) n) (SpecTiles.vr x Wfc bfc (headOf j)))
              LibOnlineSoftmax.init).2.1 := by
  unfold res1
  rw [online_eq_attn_of_real adj hx hWfc hbfc hWq hbq (headOf j) n hn (laneOf j)]

/-! ## The result -/

/-- The result at node `n`, feature `e`, with the last layer written out. -/
theorem G_apply_sum (n : Fin 6144) (e : Fin 768) :
    G x adj Wfc bfc Wq bq Wf bf (ix2 n e)
      = x (ix2 n e) + lrelu ((∑ k : Fin 768, res1 x adj Wfc bfc Wq bq n k * Wf (ix2 e k)) + bf (ix1 e)) := rfl

/-- The same with the last layer's contraction head by head. -/
theorem G_apply_by_heads (n : Fin 6144) (e : Fin 768) :
    G x adj Wfc bfc Wq bq Wf bf (ix2 n e)
      = x (ix2 n e)
        + lrelu ((∑ h : Fin 3, ∑ d : Fin 256, res1 x adj Wfc bfc Wq bq n (feat h d) * Wf (ix2 e (feat h d))) + bf (ix1 e)) := by
  rw [G_apply_sum, sum_feat]

/-- The result from the heads' quotients: each head's `acc h d / l h` the attention of row `n`. -/
theorem G_apply_of_quotient (n : Fin 6144) (acc : Fin 3 → Fin 256 → EReal) (l : Fin 3 → EReal)
    (hq : ∀ h d, Ideal.div (acc h d) (l h) = attn x adj Wfc bfc Wq bq h n d) (e : Fin 768) :
    G x adj Wfc bfc Wq bq Wf bf (ix2 n e)
      = x (ix2 n e)
        + lrelu ((∑ k : Fin 768, (x (ix2 n k) + Ideal.div (acc (headOf k) (laneOf k)) (l (headOf k))) * Wf (ix2 e k))
            + bf (ix1 e)) := by
  rw [G_apply_sum]
  refine congrArg (fun s => x (ix2 n e) + lrelu (s + bf (ix1 e))) (Finset.sum_congr rfl fun k _ => ?_)
  rw [res1_eq_of_quotient x adj Wfc bfc Wq bq n acc l hq]

end

end Cert.Proof.SpecFinal

end
-- ==== Proof.IdealChain.lean ====
/-
  The attention region, point by point, and the array it leaves.

  Fix a query row r of a query tile and a head h. After the body at the point of key tile j, the row's entries of the
  three running buffers - the maximum and denominator at column h, the weighted sum at the head's 256 columns - are
  the online softmax's state after key tiles 0 … j over the masked scores of the row's node against all keys: at key
  tile 0 the body resets the buffers and takes the first step; at every later tile it takes one step from what the
  point before left, and the point before belongs to the same query tile. After key tile 5 all 6144 keys have been
  seen; the finish turns the state into the reference's value at the row's node; and the output blocks, written back
  at the last key tile of each query tile, cover the result array.
-/
import proofs.«181948_j79242146611549_2_alg».proof.Proof.IdealFinish
import proofs.«181948_j79242146611549_2_alg».proof.Proof.ProjAttnArray
import proofs.«181948_j79242146611549_2_alg».proof.Proof.PayPoint
import proofs.«181948_j79242146611549_2_alg».proof.Proof.SpecStep
import proofs.«181948_j79242146611549_2_alg».proof.Proof.SpecFinal

set_option maxRecDepth 16384

noncomputable section

namespace Cert.KernelIdeal.AttnValue

open Cert.KernelIdeal Cert.KernelIdeal.Gen Cert.KernelIdeal.Frame Cert.KernelIdeal.AttnBlocks Cert.KernelIdeal.PayValue
open Cert.Proof Cert.Proof.RefSpec Cert.Proof.SpecTiles Cert.Proof.SpecFinite Cert.Proof.SpecStep
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)
variable (x : FVec Ideal SND .f32) (adj : IVec SNN 32) (Wfc : FVec Ideal SDD .f32) (bfc : FVec Ideal SD .f32)
  (Wq : FVec Ideal SDD .f32) (bq : FVec Ideal SD .f32) (Wf : FVec Ideal SDD .f32) (bf : FVec Ideal SD .f32)

/-- What the attention region finds in its six input arrays, and the domain facts. -/
structure Inputs : Prop where
  hQ : (V c (Pipeline.arrRef spec1 0) : Vec Ideal S6144x768 .bf16) = fun idx : S6144x768.Idx => qry x Wfc bfc Wq bq (idx 0) (idx 1)
  hX : (V c (Pipeline.arrRef spec1 1) : Vec Ideal S6144x768 .bf16) = fun idx : S6144x768.Idx => xnew x Wfc bfc (idx 0) (idx 1)
  hx : (V c (Pipeline.arrRef spec1 2) : Vec Ideal S6144x768 .f32) = x
  hadj : (V c (Pipeline.arrRef spec1 3) : Vec Ideal S6144x6144 .i32) = adj
  hWf : ∀ k e : Fin 768, (V c (Pipeline.arrRef spec1 4) : Vec Ideal S768x768 .bf16) (ix2 k e) = Wf (ix2 e k)
  hbf : ∀ e : Fin 768, (V c (Pipeline.arrRef spec1 5) : Vec Ideal S1x768 .f32) (ix2 (0 : Fin 1) e) = bf (ix1 e)
  rx : ∀ i, IsReal (x i)
  rWfc : ∀ i, IsReal (Wfc i)
  rbfc : ∀ i, IsReal (bfc i)
  rWq : ∀ i, IsReal (Wq i)
  rbq : ∀ i, IsReal (bq i)
  nb : ∀ n : Fin 6144, ∃ k : Fin 6144, adj (ix2 n k) ≠ 0#32

/-- A row's entries of the three running buffers for one head. -/
def rowSt (M L : Vec Ideal S512x3 .f32) (A : Vec Ideal S512x768 .f32) (r : Fin 512) (h : Fin 3) :
    EReal × EReal × (Fin 256 → EReal) :=
  (M (ix2 r h), L (ix2 r h), fun d => A (ix2 r (feat h d)))

/-- The key-tile coordinate of a point, as a key tile. -/
def tileOf (t : Fin cfg1.N) : Fin 6 := ⟨t.val % 6, Nat.mod_lt _ (by decide)⟩

theorem colOf_eq (t : Fin cfg1.N) (k : Fin 1024) : colOf t k = tileKey (tileOf t) k := Fin.ext rfl

variable {V c x adj Wfc bfc Wq bq Wf bf}

section
variable (I : Inputs V c x adj Wfc bfc Wq bq Wf bf)
include I

/-- The query block's row r is the row's node's query. -/
theorem hq_at (t : Fin cfg1.N) (r : Fin 512) (e : Fin 768) :
    (iblk1 V c 0 t : Vec Ideal S512x768 .bf16) (ix2 r e) = qry x Wfc bfc Wq bq (rowOf t r) e := by
  rw [q_apply_row V c t r e, I.hQ]
  try rfl
/-- The key tile's rows are the tile's nodes' values. -/
theorem hk_at (t : Fin cfg1.N) (k : Fin 1024) (e : Fin 768) :
    (keyTile t (iblk1 V c 1 t) : Vec Ideal S1024x768 .bf16) (ix2 k e) = xnew x Wfc bfc (tileKey (tileOf t) k) e := by
  unfold keyTile
  rw [keyTile_at_col t _ (k1_off1_inb (grid1.coords t)) k e, xnew_whole V c t, I.hX, colOf_eq]
  try rfl
/-- The adjacency block's row r against the tile's keys. -/
theorem ha_at (t : Fin cfg1.N) (r : Fin 512) (k : Fin 1024) :
    (iblk1 V c 3 t : Vec Ideal S512x1024 .i32) (ix2 r k) = adj (ix2 (rowOf t r) (tileKey (tileOf t) k)) := by
  rw [adj_apply_row V c t r k, I.hadj, colOf_eq]
  try rfl
theorem hv_all (k : Fin 6144) (e : Fin 768) : IsReal (xnew x Wfc bfc k e) := isReal_xnew I.rx I.rWfc I.rbfc k e

/-- One point's step, at the point's own blocks, from any previous buffers. -/
theorem step_at (t : Fin cfg1.N) (M0 L0 : Vec Ideal S512x3 .f32) (A0 : Vec Ideal S512x768 .f32)
    (T0 T1 : List (View.Piece (Elt Ideal) S512x3 .f32)) (T2 : List (View.Piece (Elt Ideal) S512x768 .f32))
    (r : Fin 512) (h : Fin 3) :
    rowSt (View.canon (stepM (iblk1 V c 0 t) (keyTile t (iblk1 V c 1 t)) (iblk1 V c 3 t) M0 ++ T0))
        (View.canon (stepL (iblk1 V c 0 t) (keyTile t (iblk1 V c 1 t)) (iblk1 V c 3 t) M0 L0 ++ T1))
        (View.canon (stepA (iblk1 V c 0 t) (keyTile t (iblk1 V c 1 t)) (iblk1 V c 3 t) M0 A0 ++ T2)) r h
      = LibOnlineSoftmax.step (masked x adj Wfc bfc Wq bq h (rowOf t r)) (vr x Wfc bfc h) (rowSt M0 L0 A0 r h) (tile (tileOf t).val) :=
  step_buffers x adj Wfc bfc Wq bq (rowOf t r) (tileOf t) _ _ _ M0 L0 A0 T0 T1 T2 r
    (fun e => hq_at I t r e) (fun k e => hk_at I t k e) (fun k => ha_at I t r k) (fun k e => hv_all I k e) h

/-- The same with no earlier store under the column stores. -/
theorem step_at_nil (t : Fin cfg1.N) (M0 L0 : Vec Ideal S512x3 .f32) (A0 : Vec Ideal S512x768 .f32) (r : Fin 512) (h : Fin 3) :
    rowSt (View.canon (stepM (iblk1 V c 0 t) (keyTile t (iblk1 V c 1 t)) (iblk1 V c 3 t) M0))
        (View.canon (stepL (iblk1 V c 0 t) (keyTile t (iblk1 V c 1 t)) (iblk1 V c 3 t) M0 L0))
        (View.canon (stepA (iblk1 V c 0 t) (keyTile t (iblk1 V c 1 t)) (iblk1 V c 3 t) M0 A0)) r h
      = LibOnlineSoftmax.step (masked x adj Wfc bfc Wq bq h (rowOf t r)) (vr x Wfc bfc h) (rowSt M0 L0 A0 r h) (tile (tileOf t).val) :=
  step_buffers_nil x adj Wfc bfc Wq bq (rowOf t r) (tileOf t) _ _ _ M0 L0 A0 r
    (fun e => hq_at I t r e) (fun k e => hk_at I t k e) (fun k => ha_at I t r k) (fun k e => hv_all I k e) h

/-- The point before `t`, when `t` is not the first of its query tile. -/
def prevPt (t : Fin cfg1.N) : Fin cfg1.N := ⟨t.val - 1, Nat.lt_of_le_of_lt (Nat.sub_le _ _) t.isLt⟩

set_option maxHeartbeats 4000000 in
/-- THE CHAIN: after the point of key tile j the row's state is the online softmax's after tiles 0 … j. -/
theorem chain_aux : ∀ (n : ℕ) (t : Fin cfg1.N), t.val = n → ∀ (r : Fin 512) (h : Fin 3),
    rowSt (outsAt1 (F := Ideal) V c t.val t.isLt).2.1 (outsAt1 (F := Ideal) V c t.val t.isLt).2.2.1 (outsAt1 (F := Ideal) V c t.val t.isLt).2.2.2 r h
      = (tiles.take (t.val % 6 + 1)).foldl (LibOnlineSoftmax.step (masked x adj Wfc bfc Wq bq h (rowOf t r)) (vr x Wfc bfc h)) LibOnlineSoftmax.init := by
  intro n
  induction n with
  | zero =>
    intro t ht r h
    have h0 : t.val % 6 = 0 := by omega
    have h1 : ¬t.val % 6 = 5 := by omega
    rw [outsAt1_A V c t h0 h1]
    dsimp only [outsA]
    rw [soutA_0_eq, soutA_1_eq, soutA_2_eq, step_at I, show rowSt (k1_pay9 (F := Ideal)) (k1_pay10 (F := Ideal)) (k1_pay11 (F := Ideal)) r h = LibOnlineSoftmax.init from reset_row h r]
    rw [show t.val % 6 + 1 = (tileOf t).val + 1 from rfl, foldl_take_succ, show (tileOf t).val = 0 from h0]
    rfl
  | succ n ih =>
    intro t ht r h
    have hN : t.val < 72 := lt_of_lt_of_eq t.isLt (show cfg1.N = 72 from N_1)
    by_cases h0 : t.val % 6 = 0
    · have h1 : ¬t.val % 6 = 5 := by omega
      rw [outsAt1_A V c t h0 h1]
      dsimp only [outsA]
      rw [soutA_0_eq, soutA_1_eq, soutA_2_eq, step_at I, show rowSt (k1_pay9 (F := Ideal)) (k1_pay10 (F := Ideal)) (k1_pay11 (F := Ideal)) r h = LibOnlineSoftmax.init from reset_row h r]
      rw [show t.val % 6 + 1 = (tileOf t).val + 1 from rfl, foldl_take_succ, show (tileOf t).val = 0 from h0]
      rfl
    · have hprev := ih (prevPt t) (by show t.val - 1 = n; omega) r h
      have hrow : rowOf (prevPt t) r = rowOf t r := Fin.ext (by rw [rowOf_val, rowOf_val]; show 512 * ((t.val - 1) / 6) + r.val = 512 * (t.val / 6) + r.val; omega)
      have htake : (prevPt t).val % 6 + 1 = (tileOf t).val := by show (t.val - 1) % 6 + 1 = t.val % 6; omega
      rw [hrow, htake] at hprev
      have hs := step_at_nil I t (outsAt1 (F := Ideal) V c (prevPt t).val (prevPt t).isLt).2.1 (outsAt1 (F := Ideal) V c (prevPt t).val (prevPt t).isLt).2.2.1 (outsAt1 (F := Ideal) V c (prevPt t).val (prevPt t).isLt).2.2.2 r h
      by_cases h1 : t.val % 6 = 5
      · rw [outsAt1_C V c t h0 h1]
        dsimp only [outsC]
        rw [soutC_0_eq, soutC_1_eq, soutC_2_eq, show t.val % 6 + 1 = (tileOf t).val + 1 from rfl, foldl_take_succ, ← hprev]
        exact hs
      · rw [outsAt1_B V c t h0 h1]
        dsimp only [outsB]
        rw [soutB_0_eq, soutB_1_eq, soutB_2_eq, show t.val % 6 + 1 = (tileOf t).val + 1 from rfl, foldl_take_succ, ← hprev]
        exact hs

theorem chain (t : Fin cfg1.N) (r : Fin 512) (h : Fin 3) :
    rowSt (outsAt1 (F := Ideal) V c t.val t.isLt).2.1 (outsAt1 (F := Ideal) V c t.val t.isLt).2.2.1 (outsAt1 (F := Ideal) V c t.val t.isLt).2.2.2 r h
      = (tiles.take (t.val % 6 + 1)).foldl (LibOnlineSoftmax.step (masked x adj Wfc bfc Wq bq h (rowOf t r)) (vr x Wfc bfc h)) LibOnlineSoftmax.init :=
  chain_aux I t.val t rfl r h

end

end Cert.KernelIdeal.AttnValue

end
-- ==== Proof.PayFinish.lean ====
/-
  The finish's payloads at an index.

  After the last key block, head h's accumulator over its denominator is added to the input tile (the first residual);
  the last layer multiplies the residual's rows by the weight block and adds the bias row; the result is the input tile
  plus the leaky rectifier of that.
-/
import proofs.«181948_j79242146611549_2_alg».proof.Proof.PayScore

noncomputable section

namespace Cert.KernelIdeal.PayValue

open Idealize.ShloMosaic Idealize.ShloMosaic.ValueIdx
open Cert.KernelIdeal Cert.KernelIdeal.Gen
open Cert.Proof Cert.Proof.RefSpec

/-! ## The first residual, head by head -/

section Residual
variable (v130 : Vec Ideal S512x3 .f32) (v131 v132 : Vec Ideal S512x768 .f32)

/-- Head 0's lanes of the first residual: the input plus the accumulator over the denominator. -/
theorem pay4_apply (r : Fin 512) (d : Fin 256) :
    k1_pay4 (F := Ideal) v130 v131 v132 (ix2 r d)
      = v132 (ix2 r (feat 0 d)) + Ideal.div (v131 (ix2 r (feat 0 d))) (v130 (ix2 r (0 : Fin 3))) := by
  unfold k1_pay4
  rw [shapeCast_self, addf_apply, divf_apply, colBcast_apply,
    headLanes_apply 0 0 rfl v132 slices_S512x768_o0_0_S512x256 r d,
    headLanes_apply 0 0 rfl v131 slices_S512x768_o0_0_S512x256 r d,
    headCol_apply 0 0 rfl v130 slices_S512x3_o0_0_S512x1 r]

/-- Head 1's lanes of the first residual. -/
theorem pay5_apply (r : Fin 512) (d : Fin 256) :
    k1_pay5 (F := Ideal) v130 v131 v132 (ix2 r d)
      = v132 (ix2 r (feat 1 d)) + Ideal.div (v131 (ix2 r (feat 1 d))) (v130 (ix2 r (1 : Fin 3))) := by
  unfold k1_pay5
  rw [shapeCast_self, addf_apply, divf_apply, colBcast_apply,
    headLanes_apply 256 1 rfl v132 slices_S512x768_o0_256_S512x256 r d,
    headLanes_apply 256 1 rfl v131 slices_S512x768_o0_256_S512x256 r d,
    headCol_apply 1 1 rfl v130 slices_S512x3_o0_1_S512x1 r]

/-- Head 2's lanes of the first residual. -/
theorem pay6_apply (r : Fin 512) (d : Fin 256) :
    k1_pay6 (F := Ideal) v130 v131 v132 (ix2 r d)
      = v132 (ix2 r (feat 2 d)) + Ideal.div (v131 (ix2 r (feat 2 d))) (v130 (ix2 r (2 : Fin 3))) := by
  unfold k1_pay6
  rw [shapeCast_self, addf_apply, divf_apply, colBcast_apply,
    headLanes_apply 512 2 rfl v132 slices_S512x768_o0_512_S512x256 r d,
    headLanes_apply 512 2 rfl v131 slices_S512x768_o0_512_S512x256 r d,
    headCol_apply 2 2 rfl v130 slices_S512x3_o0_2_S512x1 r]

end Residual

/-! ## The last layer -/

/-- The last layer's product: row r of the residual against column e of the weight block. -/
theorem pay7_apply (v160 : Vec Ideal S768x768 .bf16) (v164 : Vec Ideal S512x768 .f32) (r : Fin 512) (e : Fin 768) :
    k1_pay7 (F := Ideal) v160 v164 (ix2 r e) = ∑ k : Fin 768, v164 (ix2 r k) * v160 (ix2 k e) := by
  unfold k1_pay7
  rw [shapeCast_self, fin_apply]
  rfl

/-- The bias row on every row of the tile. -/
theorem pay8_apply (v162 : Vec Ideal S1x768 .f32) (r : Fin 512) (e : Fin 768) :
    k1_pay8 (F := Ideal) v162 (ix2 r e) = v162 (ix2 (0 : Fin 1) e) := by
  unfold k1_pay8
  rw [shapeCast_self]
  exact broadcastTo_1b_ab_apply v162 broadcasts_S1x768_S512x768 r e

/-- The result: the input tile plus the leaky rectifier of the last layer. -/
theorem pay3_apply (v132 : Vec Ideal S512x768 .f32) (v166 v167 : FVec Ideal S512x768 .f32) (r : Fin 512) (e : Fin 768) :
    k1_pay3 (F := Ideal) v132 v166 v167 (ix2 r e)
      = v132 (ix2 r e) + lrelu (v166 (ix2 r e) + v167 (ix2 r e)) := by
  unfold k1_pay3
  rw [addf_apply, select_apply, cmpf_apply, mulf_apply, addf_apply, broadcast_apply, broadcast_apply]
  exact congrArg (v132 (ix2 r e) + ·) (select_cmp_eq_lrelu _)

end Cert.KernelIdeal.PayValue

end
-- ==== Proof.ProjAttnFinish.lean ====
/-
  The finished first residual's column stores, read at an index.

  At the last key tile the body stores x + weighted sum / denominator head by head, 256 columns at a time, head 2 last.
  What the three stores leave at row r of head h's columns is head h's stored value at row r and the column counted
  inside the head.
-/
import proofs.«181948_j79242146611549_2_alg».proof.Proof.IdealFinish
import proofs.«181948_j79242146611549_2_alg».proof.Proof.ProjAttnColumns

noncomputable section

namespace Cert.KernelIdeal.AttnBlocks

open Idealize.ShloMosaic Idealize.ShloMosaic.TcCoe Idealize.ShloMosaic.ValueIdx Idealize.SL.Sem
open Cert.KernelIdeal Cert.KernelIdeal.Gen Cert.KernelIdeal.Frame
open Cert.Proof

variable {F : FTy → Type} [FloatOps F] [Named F]

section Finish
variable (l : Vec F S512x3 .f32) (a x : Vec F S512x768 .f32) (r : Fin 512)

theorem fin_head0 (T : List (View.Piece (Elt F) S512x768 .f32)) (d : Fin 256) (j : Fin 768) (hj : j.val = d.val) :
    View.canon (finPieces l a x ++ T) (ix2 r j) = k1_pay4 l a x (ix2 r d) :=
  cols768_head0 inb_S512x768_S512x256_0_512 inb_S512x768_S512x256_0_256 inb_S512x768_S512x256_0_0 _ _ _ T r d j hj
theorem fin_head1 (T : List (View.Piece (Elt F) S512x768 .f32)) (d : Fin 256) (j : Fin 768) (hj : j.val = 256 + d.val) :
    View.canon (finPieces l a x ++ T) (ix2 r j) = k1_pay5 l a x (ix2 r d) :=
  cols768_head1 inb_S512x768_S512x256_0_512 inb_S512x768_S512x256_0_256 inb_S512x768_S512x256_0_0 _ _ _ T r d j hj
theorem fin_head2 (T : List (View.Piece (Elt F) S512x768 .f32)) (d : Fin 256) (j : Fin 768) (hj : j.val = 512 + d.val) :
    View.canon (finPieces l a x ++ T) (ix2 r j) = k1_pay6 l a x (ix2 r d) :=
  cols768_head2 inb_S512x768_S512x256_0_512 inb_S512x768_S512x256_0_256 inb_S512x768_S512x256_0_0 _ _ _ T r d j hj

theorem fin_feat0 (T : List (View.Piece (Elt F) S512x768 .f32)) (d : Fin 256) :
    View.canon (finPieces l a x ++ T) (ix2 r (RefSpec.feat 0 d)) = k1_pay4 l a x (ix2 r d) :=
  fin_head0 l a x r T d _ (feat0_val d)
theorem fin_feat1 (T : List (View.Piece (Elt F) S512x768 .f32)) (d : Fin 256) :
    View.canon (finPieces l a x ++ T) (ix2 r (RefSpec.feat 1 d)) = k1_pay5 l a x (ix2 r d) :=
  fin_head1 l a x r T d _ (feat1_val d)
theorem fin_feat2 (T : List (View.Piece (Elt F) S512x768 .f32)) (d : Fin 256) :
    View.canon (finPieces l a x ++ T) (ix2 r (RefSpec.feat 2 d)) = k1_pay6 l a x (ix2 r d) :=
  fin_head2 l a x r T d _ (feat2_val d)

end Finish

end Cert.KernelIdeal.AttnBlocks

end
-- ==== Proof.PayFinishRow.lean ====
/-
  The finish, row by row.

  After the last key tile, row r of the denominator and accumulator buffers holds, head by head, the online softmax's
  running denominator and weighted sum of query node n over all six key tiles. The finish stores, head by head, the input
  row plus accumulator over denominator - the first residual's row -, multiplies it by the last layer's weights, adds the
  bias and the rectified result to the input row: the specification's result at node n.
-/
import proofs.«181948_j79242146611549_2_alg».proof.Proof.PayPoint
import proofs.«181948_j79242146611549_2_alg».proof.Proof.PayFinish
import proofs.«181948_j79242146611549_2_alg».proof.Proof.ProjAttnFinish
import proofs.«181948_j79242146611549_2_alg».proof.Proof.SpecFinal

noncomputable section

namespace Cert.KernelIdeal.PayValue

open Idealize.ShloMosaic Idealize.ShloMosaic.ValueIdx Idealize.SL.Sem
open Cert.KernelIdeal Cert.KernelIdeal.Gen Cert.KernelIdeal.Frame Cert.KernelIdeal.AttnBlocks
open Cert.Proof Cert.Proof.RefSpec Cert.Proof.SpecTiles Cert.Proof.SpecFinite Cert.Proof.SpecFinal

section Finish
variable (x : FVec Ideal SND .f32) (adj : IVec SNN 32)
  (Wfc : FVec Ideal SDD .f32) (bfc : FVec Ideal SD .f32) (Wq : FVec Ideal SDD .f32) (bq : FVec Ideal SD .f32)
  (Wf : FVec Ideal SDD .f32) (bf : FVec Ideal SD .f32) (n : Fin 6144)
  (L : Vec Ideal S512x3 .f32) (A xb : Vec Ideal S512x768 .f32) (wf : Vec Ideal S768x768 .bf16)
  (bfv : Vec Ideal S1x768 .f32) (T : List (View.Piece (Elt Ideal) S512x768 .f32)) (r : Fin 512)

/-- The stored first residual at row r, lane d of head h: the input plus the accumulator over the denominator. -/
theorem fin_canon_feat (h : Fin 3) (d : Fin 256) :
    (View.canon (finPieces L A xb ++ T) (ix2 r (feat h d)) : EReal)
      = xb (ix2 r (feat h d)) + Ideal.div (A (ix2 r (feat h d))) (L (ix2 r h)) := by
  match h with
  | ⟨0, _⟩ => exact (fin_feat0 L A xb r T d).trans (pay4_apply L A xb r d)
  | ⟨1, _⟩ => exact (fin_feat1 L A xb r T d).trans (pay5_apply L A xb r d)
  | ⟨2, _⟩ => exact (fin_feat2 L A xb r T d).trans (pay6_apply L A xb r d)

/-- The same at any feature k, of head k / 256. -/
theorem fin_canon_apply (k : Fin 768) :
    (View.canon (finPieces L A xb ++ T) (ix2 r k) : EReal)
      = xb (ix2 r k) + Ideal.div (A (ix2 r k)) (L (ix2 r (headOf k))) := by
  have hk := fin_canon_feat L A xb T r (headOf k) (laneOf k)
  rwa [feat_headOf_laneOf] at hk

variable
  (hxb : ∀ e : Fin 768, xb (ix2 r e) = x (ix2 n e))
  (hwf : ∀ k e : Fin 768, wf (ix2 k e) = Wf (ix2 e k))
  (hbf : ∀ e : Fin 768, bfv (ix2 (0 : Fin 1) e) = bf (ix1 e))
  (hrow : ∀ h : Fin 3,
    ((L (ix2 r h), fun d : Fin 256 => A (ix2 r (feat h d))) : EReal × (Fin 256 → EReal))
      = ((tiles.foldl (LibOnlineSoftmax.step (masked x adj Wfc bfc Wq bq h n) (vr x Wfc bfc h)) LibOnlineSoftmax.init).2.1,
         (tiles.foldl (LibOnlineSoftmax.step (masked x adj Wfc bfc Wq bq h n) (vr x Wfc bfc h)) LibOnlineSoftmax.init).2.2))
  (hx : ∀ i, IsReal (x i)) (hWfc : ∀ i, IsReal (Wfc i)) (hbfc : ∀ i, IsReal (bfc i))
  (hWq : ∀ i, IsReal (Wq i)) (hbq : ∀ i, IsReal (bq i))
  (hn : ∃ m' : Fin 6144, adj (ix2 n m') ≠ 0#32)

include hrow hx hWfc hbfc hWq hbq hn in
/-- Each head's accumulator over its denominator, at row r, is that head's attention of node n. -/
theorem quotient_row (h : Fin 3) (d : Fin 256) :
    Ideal.div (A (ix2 r (feat h d))) (L (ix2 r h)) = attn x adj Wfc bfc Wq bq h n d := by
  have h1 : L (ix2 r h)
      = (tiles.foldl (LibOnlineSoftmax.step (masked x adj Wfc bfc Wq bq h n) (vr x Wfc bfc h)) LibOnlineSoftmax.init).2.1 :=
    congrArg Prod.fst (hrow h)
  have h2 : A (ix2 r (feat h d))
      = (tiles.foldl (LibOnlineSoftmax.step (masked x adj Wfc bfc Wq bq h n) (vr x Wfc bfc h)) LibOnlineSoftmax.init).2.2 d :=
    congrFun (congrArg Prod.snd (hrow h)) d
  rw [h1, h2]
  exact online_eq_attn_of_real adj hx hWfc hbfc hWq hbq h n hn d

include hxb hwf hbf hrow hx hWfc hbfc hWq hbq hn in
/-- THE FINISH OF ONE ROW, over whatever lies under the finish's stores. -/
theorem finish_row_tail (e : Fin 768) :
    k1_pay3 (F := Ideal) xb (k1_pay7 (F := Ideal) wf (View.canon (finPieces L A xb ++ T))) (k1_pay8 (F := Ideal) bfv) (ix2 r e)
      = G x adj Wfc bfc Wq bq Wf bf (ix2 n e) := by
  rw [pay3_apply, pay7_apply, pay8_apply,
    G_apply_of_quotient x adj Wfc bfc Wq bq Wf bf n (fun h d => A (ix2 r (feat h d))) (fun h => L (ix2 r h))
      (quotient_row x adj Wfc bfc Wq bq n L A r hrow hx hWfc hbfc hWq hbq hn) e,
    hxb, hbf]
  refine congrArg (fun s => x (ix2 n e) + lrelu (s + bf (ix1 e))) (Finset.sum_congr rfl fun k _ => ?_)
  rw [fin_canon_apply L A xb T r k, hxb, hwf]
  show _ = (x (ix2 n k) + Ideal.div (A (ix2 r (feat (headOf k) (laneOf k)))) (L (ix2 r (headOf k)))) * Wf (ix2 e k)
  rw [feat_headOf_laneOf]

end Finish

/-- THE FINISH OF ONE ROW: the stored result at row r, feature e, is the specification's result at node n. -/
theorem finish_row (x : FVec Ideal SND .f32) (adj : IVec SNN 32)
    (Wfc : FVec Ideal SDD .f32) (bfc : FVec Ideal SD .f32) (Wq : FVec Ideal SDD .f32) (bq : FVec Ideal SD .f32)
    (Wf : FVec Ideal SDD .f32) (bf : FVec Ideal SD .f32) (n : Fin 6144)
    (L : Vec Ideal S512x3 .f32) (A xb : Vec Ideal S512x768 .f32) (wf : Vec Ideal S768x768 .bf16)
    (bfv : Vec Ideal S1x768 .f32) (r : Fin 512)
    (hxb : ∀ e : Fin 768, xb (ix2 r e) = x (ix2 n e))
    (hwf : ∀ k e : Fin 768, wf (ix2 k e) = Wf (ix2 e k))
    (hbf : ∀ e : Fin 768, bfv (ix2 (0 : Fin 1) e) = bf (ix1 e))
    (hrow : ∀ h : Fin 3,
      ((L (ix2 r h), fun d : Fin 256 => A (ix2 r (feat h d))) : EReal × (Fin 256 → EReal))
        = ((tiles.foldl (LibOnlineSoftmax.step (masked x adj Wfc bfc Wq bq h n) (vr x Wfc bfc h)) LibOnlineSoftmax.init).2.1,
           (tiles.foldl (LibOnlineSoftmax.step (masked x adj Wfc bfc Wq bq h n) (vr x Wfc bfc h)) LibOnlineSoftmax.init).2.2))
    (hx : ∀ i, IsReal (x i)) (hWfc : ∀ i, IsReal (Wfc i)) (hbfc : ∀ i, IsReal (bfc i))
    (hWq : ∀ i, IsReal (Wq i)) (hbq : ∀ i, IsReal (bq i))
    (hn : ∃ m' : Fin 6144, adj (ix2 n m') ≠ 0#32) (e : Fin 768) :
    k1_pay3 (F := Ideal) xb (k1_pay7 (F := Ideal) wf (View.canon (finPieces L A xb))) (k1_pay8 (F := Ideal) bfv) (ix2 r e)
      = G x adj Wfc bfc Wq bq Wf bf (ix2 n e) := by
  have hfin := finish_row_tail x adj Wfc bfc Wq bq Wf bf n L A xb wf bfv [] r hxb hwf hbf hrow hx hWfc hbfc hWq hbq hn e
  simp only [List.append_nil] at hfin
  exact hfin

end Cert.KernelIdeal.PayValue

end
-- ==== Proof.IdealOut.lean ====
/-
  The attention region's output blocks and the array they make up.

  At the last key tile of a query tile the row's state is the online softmax's after all six key tiles; the finish turns
  it into the reference's value at the row's node. The blocks written back at those points cover the result array.
-/
import proofs.«181948_j79242146611549_2_alg».proof.Proof.IdealChain
import proofs.«181948_j79242146611549_2_alg».proof.Proof.PayFinishRow

set_option maxRecDepth 16384

noncomputable section

namespace Cert.KernelIdeal.AttnValue

open Cert.KernelIdeal Cert.KernelIdeal.Gen Cert.KernelIdeal.Frame Cert.KernelIdeal.AttnBlocks Cert.KernelIdeal.PayValue
open Cert.Proof Cert.Proof.RefSpec Cert.Proof.SpecTiles Cert.Proof.SpecFinite Cert.Proof.SpecStep
open Idealize.ShloMosaic Idealize.ShloMosaic.TcCoe Idealize.ShloMosaic.ValueIdx Idealize.SL.Sem
open Idealize.ShloMosaic.Pipeline (Dat)

variable {V : (c : Dev nD) → (b : Ref sig .tc) → Buf (Elt Ideal) ((c : Thread nD τ).loc b)} {c : Dev nD}
variable {x : FVec Ideal SND .f32} {adj : IVec SNN 32} {Wfc : FVec Ideal SDD .f32} {bfc : FVec Ideal SD .f32}
  {Wq : FVec Ideal SDD .f32} {bq : FVec Ideal SD .f32} {Wf : FVec Ideal SDD .f32} {bf : FVec Ideal SD .f32}

section
variable (I : Inputs V c x adj Wfc bfc Wq bq Wf bf)
include I

set_option maxHeartbeats 4000000 in
/-- The output block at the last key tile of a query tile is the reference's value at the block's rows. -/
theorem out_at (t : Fin cfg1.N) (h5 : t.val % 6 = 5) (r : Fin 512) (e : Fin 768) :
    ((outsAt1 (F := Ideal) V c t.val t.isLt).1 : Vec Ideal S512x768 .f32) (ix2 r e)
      = G x adj Wfc bfc Wq bq Wf bf (ix2 (rowOf t r) e) := by
  have h0 : ¬t.val % 6 = 0 := by omega
  rw [outsAt1_C V c t h0 h5]
  dsimp only [outsC]
  rw [outC_6_eq]
  refine finish_row x adj Wfc bfc Wq bq Wf bf (rowOf t r) _ _ _ _ _ r
    (fun e => by rw [x_apply_row V c t r e, I.hx])
    (fun k e => by rw [wfinal_whole V c t]; exact I.hWf k e)
    (fun e => by rw [bfinal_whole V c t]; exact I.hbf e)
    (fun h => ?_) I.rx I.rWfc I.rbfc I.rWq I.rbq (I.nb _) e
  have hc := chain I t r h
  rw [outsAt1_C V c t h0 h5] at hc
  dsimp only [outsC] at hc
  have hc' := hc
  rw [soutC_0_eq, soutC_1_eq, soutC_2_eq, show t.val % 6 + 1 = 6 by omega, foldl_take_six] at hc'
  exact congrArg Prod.snd hc'

/-- THE ARRAY: the attention region leaves the reference's result. -/
theorem attn_array : (dat1 (F := Ideal) V c).arrAt 6 cfg1.N = G x adj Wfc bfc Wq bq Wf bf :=
  out_array V c (G x adj Wfc bfc Wq bq Wf bf) fun t h5 r e => out_at I t h5 r e

end

end Cert.KernelIdeal.AttnValue

end
-- ==== Proof.ProjPayload.lean ====
/-
  The projection region's two stored values, read at an index.

  A tile holds 512 rows of x. With w₁, w₂ the two weight blocks as the region is handed them (rows the input features,
  columns the output features) and b₁, b₂ the bias rows, the first store's value at row p and feature q is
      lrelu (Σ_k x p k · w₁ k q + b₁ q)
  and the second's is the same layer applied once more, to the first's row p:
      lrelu (Σ_k first p k · w₂ k q + b₂ q).
  A float is an extended real, so the changes of format are the identity, the matrix product into the zero splat is the
  plain sum over the 768 shared features, and compare / multiply by the slope / select is the leaky rectifier.

  Every statement is over variables of the literal block types, with the blocks' entries named by hypotheses: what the
  tile's row, the weights' column and the bias entry ARE is supplied where the lemma is used.
-/
import proofs.«181948_j79242146611549_2_alg».proof.Proof.Gen.KernelIdeal.Skeleton
import proofs.«181948_j79242146611549_2_alg».proof.Proof.RefSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.ProjValue

open Idealize.ShloMosaic Idealize.ShloMosaic.ValueIdx
open Cert.KernelIdeal Cert.KernelIdeal.Gen
open Cert.Proof

/-! ## The matrix product at an index -/

theorem lhs_row (j : S512x768.Idx) (r : dot_S512x768_S768x768_S512x768_1_0_0_1_n_n.contr.Idx) :
    (dot_S512x768_S768x768_S512x768_1_0_0_1_n_n.lhsIdx j r 0).val = (j 0).val := by
  unfold DotDims.lhsIdx
  rw [dif_neg (show ¬(0 : Fin S512x768.rank) ∈ dot_S512x768_S768x768_S512x768_1_0_0_1_n_n.lhsBatch by decide),
    dif_pos (show (0 : Fin S512x768.rank) ∈ dot_S512x768_S768x768_S512x768_1_0_0_1_n_n.lhsNonContracting by decide)]
  rfl
theorem lhs_feature (j : S512x768.Idx) (r : dot_S512x768_S768x768_S512x768_1_0_0_1_n_n.contr.Idx) :
    (dot_S512x768_S768x768_S512x768_1_0_0_1_n_n.lhsIdx j r 1).val = (r ⟨0, by decide⟩).val :=
  dot_S512x768_S768x768_S512x768_1_0_0_1_n_n.lhsIdx_val_of_single rfl j r
theorem rhs_feature (j : S512x768.Idx) (r : dot_S512x768_S768x768_S512x768_1_0_0_1_n_n.contr.Idx) :
    (dot_S512x768_S768x768_S512x768_1_0_0_1_n_n.rhsIdx j r 0).val = (r ⟨0, by decide⟩).val :=
  dot_S512x768_S768x768_S512x768_1_0_0_1_n_n.rhsIdx_val_of_single rfl j r
theorem rhs_column (j : S512x768.Idx) (r : dot_S512x768_S768x768_S512x768_1_0_0_1_n_n.contr.Idx) :
    (dot_S512x768_S768x768_S512x768_1_0_0_1_n_n.rhsIdx j r 1).val = (j 1).val := by
  unfold DotDims.rhsIdx
  rw [dif_neg (show ¬(1 : Fin S768x768.rank) ∈ dot_S512x768_S768x768_S512x768_1_0_0_1_n_n.rhsBatch by decide),
    dif_pos (show (1 : Fin S768x768.rank) ∈ dot_S512x768_S768x768_S512x768_1_0_0_1_n_n.rhsNonContracting by decide)]
  rfl

/-- The region's matrix product into the zero splat, at row `p` and column `q`: row `p` of the left block against
    column `q` of the right one. -/
theorem matmul_zero_apply (a : FVec Ideal S512x768 .bf16) (w : FVec Ideal S768x768 .bf16) (p : Fin 512) (q : Fin 768) :
    matmul dot_S512x768_S768x768_S512x768_1_0_0_1_n_n none a w (constant (F := Ideal) S512x768 .f32 0x00000000#32) (ix2 p q)
      = ∑ k : Fin 768, a (ix2 p k) * w (ix2 k q) := by
  simp only [matmul]
  rw [Ideal.matmul_constant_zero_apply,
    ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 p q) ((contrEquiv1 dot_S512x768_S768x768_S512x768_1_0_0_1_n_n 768 rfl rfl).symm k) = ix2 p k :=
    funext fun ax => Fin.ext (by
      match ax with
      | ⟨0, _⟩ => exact lhs_row _ _
      | ⟨1, _⟩ => exact (lhs_feature _ _).trans hk)
  have er : dot_S512x768_S768x768_S512x768_1_0_0_1_n_n.rhsIdx (ix2 p q) ((contrEquiv1 dot_S512x768_S768x768_S512x768_1_0_0_1_n_n 768 rfl rfl).symm k) = ix2 k q :=
    funext fun ax => Fin.ext (by
      match ax with
      | ⟨0, _⟩ => exact (rhs_feature _ _).trans hk
      | ⟨1, _⟩ => exact rhs_column _ _)
  rw [el, er]

/-! ## One layer at an index -/

/-- What both stores compute from a left block `a`, a weight block `w` and a bias row `b`: the product, the bias on
    every row, the leaky rectifier. -/
def layer (a : FVec Ideal S512x768 .bf16) (w : FVec Ideal S768x768 .bf16) (b : FVec Ideal S1x768 .f32) :
    FVec Ideal S512x768 .f32 :=
  select
    (cmpf .oge
      (addf (matmul dot_S512x768_S768x768_S512x768_1_0_0_1_n_n none a w (constant (F := Ideal) S512x768 .f32 0x00000000#32))
        (broadcastTo S512x768 b broadcasts_S1x768_S512x768))
      (broadcast S512x768 (Scalar.ofBits (F := Ideal) .f32 0x00000000#32)))
    (addf (matmul dot_S512x768_S768x768_S512x768_1_0_0_1_n_n none a w (constant (F := Ideal) S512x768 .f32 0x00000000#32))
      (broadcastTo S512x768 b broadcasts_S1x768_S512x768))
    (mulf (broadcast S512x768 (Scalar.ofBits (F := Ideal) .f32 0x3E4CCCCD#32))
      (addf (matmul dot_S512x768_S768x768_S512x768_1_0_0_1_n_n none a w (constant (F := Ideal) S512x768 .f32 0x00000000#32))
        (broadcastTo S512x768 b broadcasts_S1x768_S512x768)))

/-- The layer at row `p`, feature `q`. -/
theorem layer_apply (a : FVec Ideal S512x768 .bf16) (w : FVec Ideal S768x768 .bf16) (b : FVec Ideal S1x768 .f32)
    (p : Fin 512) (q : Fin 768) :
    layer a w b (ix2 p q) = RefSpec.lrelu ((∑ k : Fin 768, a (ix2 p k) * w (ix2 k q)) + b (ix2 (0 : Fin 1) q)) := by
  unfold layer
  rw [select_apply, cmpf_apply, mulf_apply, addf_apply, broadcast_apply, broadcast_apply, matmul_zero_apply,
    broadcastTo_1b_ab_apply]
  exact RefSpec.select_cmp_eq_lrelu _

/-- The first store's value is the layer of the tile, the first weights and the first bias. -/
theorem pay1_eq_layer (x0 : Vec Ideal S512x768 .f32) (w1 : Vec Ideal S768x768 .bf16) (b1 : Vec Ideal S1x768 .f32) :
    k0_pay1 (F := Ideal) x0 w1 b1 = layer x0 w1 b1 := by
  unfold k0_pay1 layer
  simp only [shapeCast_self]
  rfl

/-- The second store's value is the layer of the first store's value, the second weights and the second bias. -/
theorem pay2_eq_layer (x0 : Vec Ideal S512x768 .f32) (w1 : Vec Ideal S768x768 .bf16) (b1 : Vec Ideal S1x768 .f32)
    (w2 : Vec Ideal S768x768 .bf16) (b2 : Vec Ideal S1x768 .f32) :
    k0_pay2 (F := Ideal) x0 w1 b1 w2 b2 = layer (k0_pay1 (F := Ideal) x0 w1 b1) w2 b2 := by
  unfold k0_pay2 layer
  simp only [shapeCast_self]
  rfl

/-! ## The two stored values as the specification's letters -/

/-- THE FIRST STORE at row `p`, feature `q`, when row `p` of the tile is row `n` of `x`, column `q` of the weight
    block is row `q` of `W_fc` and the bias row holds `b_fc`: the first layer at node `n`. -/
theorem pay1_eq_xnew (x0 : Vec Ideal S512x768 .f32) (w1 : Vec Ideal S768x768 .bf16) (b1 : Vec Ideal S1x768 .f32)
    (x : FVec Ideal S6144x768 .f32) (Wfc : FVec Ideal S768x768 .f32) (bfc : FVec Ideal S768 .f32)
    (n : Fin 6144) (p : Fin 512) (q : Fin 768)
    (hx : ∀ k : Fin 768, x0 (ix2 p k) = x (ix2 n k))
    (hw : ∀ k : Fin 768, w1 (ix2 k q) = Wfc (ix2 q k))
    (hb : b1 (ix2 (0 : Fin 1) q) = bfc (ix1 q)) :
    k0_pay1 (F := Ideal) x0 w1 b1 (ix2 p q) = RefSpec.xnew x Wfc bfc n q := by
  rw [pay1_eq_layer, layer_apply]
  unfold RefSpec.xnew RefSpec.linear
  rw [hb]
  exact congrArg (fun s => RefSpec.lrelu (s + bfc (ix1 q))) (Finset.sum_congr rfl fun k _ => by rw [hx k, hw k])

/-- THE SECOND STORE at row `p`, feature `q`, under the same reading of the blocks (the first weights and bias now at
    every feature, since the second layer reads the first's whole row): the second layer at node `n`. -/
theorem pay2_eq_qry (x0 : Vec Ideal S512x768 .f32) (w1 : Vec Ideal S768x768 .bf16) (b1 : Vec Ideal S1x768 .f32)
    (w2 : Vec Ideal S768x768 .bf16) (b2 : Vec Ideal S1x768 .f32)
    (x : FVec Ideal S6144x768 .f32) (Wfc : FVec Ideal S768x768 .f32) (bfc : FVec Ideal S768 .f32)
    (Wq : FVec Ideal S768x768 .f32) (bq : FVec Ideal S768 .f32)
    (n : Fin 6144) (p : Fin 512) (q : Fin 768)
    (hx : ∀ k : Fin 768, x0 (ix2 p k) = x (ix2 n k))
    (hw1 : ∀ k j : Fin 768, w1 (ix2 k j) = Wfc (ix2 j k))
    (hb1 : ∀ j : Fin 768, b1 (ix2 (0 : Fin 1) j) = bfc (ix1 j))
    (hw2 : ∀ k : Fin 768, w2 (ix2 k q) = Wq (ix2 q k))
    (hb2 : b2 (ix2 (0 : Fin 1) q) = bq (ix1 q)) :
    k0_pay2 (F := Ideal) x0 w1 b1 w2 b2 (ix2 p q) = RefSpec.qry x Wfc bfc Wq bq n q := by
  rw [pay2_eq_layer, layer_apply]
  unfold RefSpec.qry RefSpec.linear
  rw [hb2]
  exact congrArg (fun s => RefSpec.lrelu (s + bq (ix1 q))) (Finset.sum_congr rfl fun k _ => by
    rw [pay1_eq_xnew x0 w1 b1 x Wfc bfc n p k hx (fun k' => hw1 k' k) (hb1 k), hw2 k])

end Cert.KernelIdeal.ProjValue

end
-- ==== Proof.ProjBlocks.lean ====
/-
  From the projection region's blocks to its two output arrays.

  The region has 12 points; point t works on rows 512 t … 512 t + 511. The x window and both output windows are at row
  block t (column block 0); the two weight matrices and the two bias rows are whole at every point. So row p of the tile
  at point t is row 512 t + p of x, a weight block's entry is the weight array's entry, and what point t writes back
  is the block, at row block t, of ONE function of the whole arrays: the first layer for the first output, the second
  layer for the second. Every row r lies in the block of point r / 512, so after the region each output array IS that
  function.

  The arrays are read through hypotheses on what the region finds in them (`V`): the x array is `x`; the weight arrays
  hold the layers' matrices transposed, entry (k, j) being W (j, k); the bias rows hold the biases.
-/
import proofs.«181948_j79242146611549_2_alg».proof.Proof.IdealRegion0
import Idealize.ShloMosaic.Lib.Pipeline.Value
import Idealize.ShloMosaic.Lib.ValueIdx

noncomputable section

namespace Cert.KernelIdeal.ProjValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grid -/

/-- The x window and the two output windows sit at row block `t`, column block 0. -/
theorem idx_rows : ∀ t : Fin cfg0.N,
    win0_0.index t (0 : Fin 2) = t.val ∧ win0_0.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The weights' and biases' windows are at block (0, 0) at every point: the whole array. -/
theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The input blocks, read where the arrays hold them -/

/-- Row `p` of the tile at point `t` is row `n = 512 t + p` of the x array. -/
theorem tile_apply (c : Dev nD) (t : Fin cfg0.N) (p : Fin 512) (k : Fin 768) (n : Fin 6144)
    (hn : n.val = 512 * t.val + p.val) :
    (iblk0 V c 0 t : Vec Ideal S512x768 .f32) (ix2 p k)
      = (V c (Pipeline.arrRef spec0 0) : S6144x768.Idx → EReal) (ix2 n k) := by
  obtain ⟨e0, e1, -⟩ := idx_rows t
  unfold iblk0
  rw [View.read_apply]
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 512 + 1 * p.val = n.val; rw [e0, hn]; omega
  | ⟨1, _⟩ => show win0_0.index t (1 : Fin 2) * 768 + 1 * k.val = k.val; rw [e1]; omega

/-- The first weight block is the first weight array. -/
theorem w1_apply (c : Dev nD) (t : Fin cfg0.N) (k j : Fin 768) :
    (iblk0 V c 1 t : Vec Ideal S768x768 .bf16) (ix2 k j)
      = (V c (Pipeline.arrRef spec0 1) : S768x768.Idx → EReal) (ix2 k j) := by
  obtain ⟨e0, e1, -⟩ := idx_whole t
  unfold iblk0
  rw [View.read_apply]
  show V c (Pipeline.arrRef spec0 1) (((cfg0.win 1).blk t).view.emb (ix2 k j)) = _
  refine congrArg (V c (Pipeline.arrRef spec0 1)) (funext fun a => Fin.ext ?_)
  match a with
  | ⟨0, _⟩ => show win0_1.index t (0 : Fin 2) * 768 + 1 * k.val = k.val; rw [e0]; omega
  | ⟨1, _⟩ => show win0_1.index t (1 : Fin 2) * 768 + 1 * j.val = j.val; rw [e1]; omega

/-- The first bias block is the first bias row. -/
theorem b1_apply (c : Dev nD) (t : Fin cfg0.N) (j : Fin 768) :
    (iblk0 V c 2 t : Vec Ideal S1x768 .f32) (ix2 (0 : Fin 1) j)
      = (V c (Pipeline.arrRef spec0 2) : S1x768.Idx → EReal) (ix2 (0 : Fin 1) j) := by
  obtain ⟨-, -, e0, e1, -⟩ := idx_whole t
  unfold iblk0
  rw [View.read_apply]
  show V c (Pipeline.arrRef spec0 2) (((cfg0.win 2).blk t).view.emb (ix2 (0 : Fin 1) j)) = _
  refine congrArg (V c (Pipeline.arrRef spec0 2)) (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 768 + 1 * j.val = j.val; rw [e1]; omega

/-- The second weight block is the second weight array. -/
theorem w2_apply (c : Dev nD) (t : Fin cfg0.N) (k j : Fin 768) :
    (iblk0 V c 3 t : Vec Ideal S768x768 .bf16) (ix2 k j)
      = (V c (Pipeline.arrRef spec0 3) : S768x768.Idx → EReal) (ix2 k j) := by
  obtain ⟨-, -, -, -, e0, e1, -⟩ := idx_whole t
  unfold iblk0
  rw [View.read_apply]
  show V c (Pipeline.arrRef spec0 3) (((cfg0.win 3).blk t).view.emb (ix2 k j)) = _
  refine congrArg (V c (Pipeline.arrRef spec0 3)) (funext fun a => Fin.ext ?_)
  match a with
  | ⟨0, _⟩ => show win0_3.index t (0 : Fin 2) * 768 + 1 * k.val = k.val; rw [e0]; omega
  | ⟨1, _⟩ => show win0_3.index t (1 : Fin 2) * 768 + 1 * j.val = j.val; rw [e1]; omega

/-- The second bias block is the second bias row. -/
theorem b2_apply (c : Dev nD) (t : Fin cfg0.N) (j : Fin 768) :
    (iblk0 V c 4 t : Vec Ideal S1x768 .f32) (ix2 (0 : Fin 1) j)
      = (V c (Pipeline.arrRef spec0 4) : S1x768.Idx → EReal) (ix2 (0 : Fin 1) j) := by
  obtain ⟨-, -, -, -, -, -, e0, e1⟩ := idx_whole t
  unfold iblk0
  rw [View.read_apply]
  show V c (Pipeline.arrRef spec0 4) (((cfg0.win 4).blk t).view.emb (ix2 (0 : Fin 1) j)) = _
  refine congrArg (V c (Pipeline.arrRef spec0 4)) (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 768 + 1 * j.val = j.val; rw [e1]; omega

end Cert.KernelIdeal.ProjValue

end
-- ==== Proof.ProjArrays.lean ====
/-
  The projection region's two output arrays after the region.

  What point t writes back of the first output is its stored block; read at row p and feature q, it is the first layer
  at node 512 t + p, feature q — the entry of the whole-array function `fun idx => xnew x W_fc b_fc (idx 0) (idx 1)` that
  the block's rectangle names there. The same holds for the second output and the second layer. Row r of either array
  lies in the block of point r / 512, every point writes its block back, and so each array ends holding its function.
-/
import proofs.«181948_j79242146611549_2_alg».proof.Proof.ProjPayload
import proofs.«181948_j79242146611549_2_alg».proof.Proof.ProjBlocks

noncomputable section

namespace Cert.KernelIdeal.ProjValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame
open Cert.Proof

variable (V : (c : Dev nD) → (b : Ref sig .tc) → Buf (Elt Ideal) ((c : Thread nD τ).loc b))

/-! ## What a point writes back -/

/-- WHAT POINT `t` WRITES BACK of the first output is block `t` of the first layer of the whole arrays. -/
theorem flushed5_eq (c : Dev nD) (t : Fin cfg0.N)
    (x : FVec Ideal S6144x768 .f32) (Wfc : FVec Ideal S768x768 .f32) (bfc : FVec Ideal S768 .f32)
    (hx : (V c (Pipeline.arrRef spec0 0) : S6144x768.Idx → EReal) = x)
    (hW1 : ∀ k j : Fin 768, (V c (Pipeline.arrRef spec0 1) : S768x768.Idx → EReal) (ix2 k j) = Wfc (ix2 j k))
    (hb1 : ∀ j : Fin 768, (V c (Pipeline.arrRef spec0 2) : S1x768.Idx → EReal) (ix2 (0 : Fin 1) j) = bfc (ix1 j)) :
    (dat0 V c).flushed 5 t
      = ((cfg0.win 5).blk t).view.read (Elt Ideal) (fun idx : S6144x768.Idx => RefSpec.xnew x Wfc bfc (idx 0) (idx 1)) := by
  show (cfg0.win 5).cut (grid0.coords t) ((dat0 V c).after 5 t) = _
  rw [after0_5]
  unfold out0_5
  rw [View.canon_unit_zero hz]
  simp only [View.ld_unit_zero (S := S512x768) hz, View.ld_unit_zero (S := S768x768) hz, View.ld_unit_zero (S := S1x768) hz]
  obtain ⟨-, -, e0, e1, -⟩ := idx_rows t
  funext j
  have hj0 : (j 0).val < 512 := (j 0).isLt
  have hj1 : (j 1).val < 768 := (j 1).isLt
  have hN : t.val < 12 := t.isLt
  have hinj : (cfg0.win 5).xinj (grid0.coords t) j = ix2 (⟨(j 0).val, hj0⟩ : Fin 512) (⟨(j 1).val, hj1⟩ : Fin 768) :=
    funext fun a => by match a with | ⟨0, _⟩ => rfl | ⟨1, _⟩ => rfl
  have hq : (((cfg0.win 5).blk t).view.emb j 1 : Fin 768) = ⟨(j 1).val, hj1⟩ := Fin.ext (by
    show win0_5.index t (1 : Fin 2) * 768 + 1 * (j 1).val = (j 1).val; rw [e1]; omega)
  have hn : (((cfg0.win 5).blk t).view.emb j 0 : Fin 6144).val = 512 * t.val + (j 0).val := by
    show win0_5.index t (0 : Fin 2) * 512 + 1 * (j 0).val = _; rw [e0]; omega
  show k0_pay1 (F := Ideal) (iblk0 V c 0 t) (iblk0 V c 1 t) (iblk0 V c 2 t) ((cfg0.win 5).xinj (grid0.coords t) j)
    = RefSpec.xnew x Wfc bfc (((cfg0.win 5).blk t).view.emb j 0) (((cfg0.win 5).blk t).view.emb j 1)
  rw [hinj, hq]
  exact pay1_eq_xnew (iblk0 V c 0 t) (iblk0 V c 1 t) (iblk0 V c 2 t) x Wfc bfc
    (((cfg0.win 5).blk t).view.emb j 0) ⟨(j 0).val, hj0⟩ ⟨(j 1).val, hj1⟩
    (fun k => (tile_apply V c t ⟨(j 0).val, hj0⟩ k _ hn).trans (congrFun hx _))
    (fun k => (w1_apply V c t k ⟨(j 1).val, hj1⟩).trans (hW1 k _))
    ((b1_apply V c t ⟨(j 1).val, hj1⟩).trans (hb1 _))

/-- WHAT POINT `t` WRITES BACK of the second output is block `t` of the second layer of the whole arrays. -/
theorem flushed6_eq (c : Dev nD) (t : Fin cfg0.N)
    (x : FVec Ideal S6144x768 .f32) (Wfc : FVec Ideal S768x768 .f32) (bfc : FVec Ideal S768 .f32)
    (Wq : FVec Ideal S768x768 .f32) (bq : FVec Ideal S768 .f32)
    (hx : (V c (Pipeline.arrRef spec0 0) : S6144x768.Idx → EReal) = x)
    (hW1 : ∀ k j : Fin 768, (V c (Pipeline.arrRef spec0 1) : S768x768.Idx → EReal) (ix2 k j) = Wfc (ix2 j k))
    (hb1 : ∀ j : Fin 768, (V c (Pipeline.arrRef spec0 2) : S1x768.Idx → EReal) (ix2 (0 : Fin 1) j) = bfc (ix1 j))
    (hW2 : ∀ k j : Fin 768, (V c (Pipeline.arrRef spec0 3) : S768x768.Idx → EReal) (ix2 k j) = Wq (ix2 j k))
    (hb2 : ∀ j : Fin 768, (V c (Pipeline.arrRef spec0 4) : S1x768.Idx → EReal) (ix2 (0 : Fin 1) j) = bq (ix1 j)) :
    (dat0 V c).flushed 6 t
      = ((cfg0.win 6).blk t).view.read (Elt Ideal)
          (fun idx : S6144x768.Idx => RefSpec.qry x Wfc bfc Wq bq (idx 0) (idx 1)) := by
  show (cfg0.win 6).cut (grid0.coords t) ((dat0 V c).after 6 t) = _
  rw [after0_6]
  unfold out0_6
  rw [View.canon_unit_zero hz]
  simp only [View.ld_unit_zero (S := S512x768) hz, View.ld_unit_zero (S := S768x768) hz, View.ld_unit_zero (S := S1x768) hz]
  obtain ⟨-, -, -, -, e0, e1⟩ := idx_rows t
  funext j
  have hj0 : (j 0).val < 512 := (j 0).isLt
  have hj1 : (j 1).val < 768 := (j 1).isLt
  have hN : t.val < 12 := t.isLt
  have hinj : (cfg0.win 6).xinj (grid0.coords t) j = ix2 (⟨(j 0).val, hj0⟩ : Fin 512) (⟨(j 1).val, hj1⟩ : Fin 768) :=
    funext fun a => by match a with | ⟨0, _⟩ => rfl | ⟨1, _⟩ => rfl
  have hq : (((cfg0.win 6).blk t).view.emb j 1 : Fin 768) = ⟨(j 1).val, hj1⟩ := Fin.ext (by
    show win0_6.index t (1 : Fin 2) * 768 + 1 * (j 1).val = (j 1).val; rw [e1]; omega)
  have hn : (((cfg0.win 6).blk t).view.emb j 0 : Fin 6144).val = 512 * t.val + (j 0).val := by
    show win0_6.index t (0 : Fin 2) * 512 + 1 * (j 0).val = _; rw [e0]; omega
  show k0_pay2 (F := Ideal) (iblk0 V c 0 t) (iblk0 V c 1 t) (iblk0 V c 2 t) (iblk0 V c 3 t) (iblk0 V c 4 t)
      ((cfg0.win 6).xinj (grid0.coords t) j)
    = RefSpec.qry x Wfc bfc Wq bq (((cfg0.win 6).blk t).view.emb j 0) (((cfg0.win 6).blk t).view.emb j 1)
  rw [hinj, hq]
  exact pay2_eq_qry (iblk0 V c 0 t) (iblk0 V c 1 t) (iblk0 V c 2 t) (iblk0 V c 3 t) (iblk0 V c 4 t) x Wfc bfc Wq bq
    (((cfg0.win 6).blk t).view.emb j 0) ⟨(j 0).val, hj0⟩ ⟨(j 1).val, hj1⟩
    (fun k => (tile_apply V c t ⟨(j 0).val, hj0⟩ k _ hn).trans (congrFun hx _))
    (fun k j' => (w1_apply V c t k j').trans (hW1 k j'))
    (fun j' => (b1_apply V c t j').trans (hb1 j'))
    (fun k => (w2_apply V c t k ⟨(j 1).val, hj1⟩).trans (hW2 k _))
    ((b2_apply V c t ⟨(j 1).val, hj1⟩).trans (hb2 _))

/-! ## The blocks cover the arrays -/

/-- An index of the first output is in point `t`'s block iff each coordinate is in the block's range on its axis. -/
theorem mem_blk5 (t : Fin cfg0.N) (i : S6144x768.Idx) :
    i ∈ ((cfg0.win 5).blk t).view.set ↔ ∀ a : Fin 2, win0_5.index t a * S512x768.size a ≤ (i a).val
      ∧ (i a).val < win0_5.index t a * S512x768.size a + S512x768.size a := by
  show i ∈ ((View.whole main_v9_0).slice (win0_5.rect t)).set ↔ _
  rw [View.set_slice_whole, Rect.mem_set_unit]
  exact Iff.rfl

/-- The same for the second output. -/
theorem mem_blk6 (t : Fin cfg0.N) (i : S6144x768.Idx) :
    i ∈ ((cfg0.win 6).blk t).view.set ↔ ∀ a : Fin 2, win0_6.index t a * S512x768.size a ≤ (i a).val
      ∧ (i a).val < win0_6.index t a * S512x768.size a + S512x768.size a := by
  show i ∈ ((View.whole main_v9_1).slice (win0_6.rect t)).set ↔ _
  rw [View.set_slice_whole, Rect.mem_set_unit]
  exact Iff.rfl

/-- The point whose block holds row `r`: `r / 512`. -/
def pointOf (i : S6144x768.Idx) : Fin cfg0.N :=
  ⟨(i 0).val / 512, by have h : (i 0).val < 6144 := (i 0).isLt; show (i 0).val / 512 < 12; omega⟩

theorem pointOf_val (i : S6144x768.Idx) : (pointOf i).val = (i 0).val / 512 := rfl

/-- Every index of the first output is in the block of its row's point, which is written back. -/
theorem cover5 (i : S6144x768.Idx) :
    ∃ t : Fin cfg0.N, (cfg0.win 5).flush t = true ∧ i ∈ ((cfg0.win 5).blk t).view.set := by
  have hi0 : (i 0).val < 6144 := (i 0).isLt
  have hi1 : (i 1).val < 768 := (i 1).isLt
  obtain ⟨-, -, e0, e1, -⟩ := idx_rows (pointOf i)
  refine ⟨pointOf i, flush0_5 _, ?_⟩
  rw [mem_blk5]
  intro a
  match a with
  | ⟨0, _⟩ =>
    show win0_5.index (pointOf i) (0 : Fin 2) * 512 ≤ (i 0).val ∧ (i 0).val < win0_5.index (pointOf i) (0 : Fin 2) * 512 + 512
    rw [e0, pointOf_val]; omega
  | ⟨1, _⟩ =>
    show win0_5.index (pointOf i) (1 : Fin 2) * 768 ≤ (i 1).val ∧ (i 1).val < win0_5.index (pointOf i) (1 : Fin 2) * 768 + 768
    rw [e1]; omega

/-- The same for the second output. -/
theorem cover6 (i : S6144x768.Idx) :
    ∃ t : Fin cfg0.N, (cfg0.win 6).flush t = true ∧ i ∈ ((cfg0.win 6).blk t).view.set := by
  have hi0 : (i 0).val < 6144 := (i 0).isLt
  have hi1 : (i 1).val < 768 := (i 1).isLt
  obtain ⟨-, -, -, -, e0, e1⟩ := idx_rows (pointOf i)
  refine ⟨pointOf i, flush0_6 _, ?_⟩
  rw [mem_blk6]
  intro a
  match a with
  | ⟨0, _⟩ =>
    show win0_6.index (pointOf i) (0 : Fin 2) * 512 ≤ (i 0).val ∧ (i 0).val < win0_6.index (pointOf i) (0 : Fin 2) * 512 + 512
    rw [e0, pointOf_val]; omega
  | ⟨1, _⟩ =>
    show win0_6.index (pointOf i) (1 : Fin 2) * 768 ≤ (i 1).val ∧ (i 1).val < win0_6.index (pointOf i) (1 : Fin 2) * 768 + 768
    rw [e1]; omega

/-! ## The two arrays after the region -/

/-- THE FIRST OUTPUT ARRAY after the region is the first layer, node by node and feature by feature. -/
theorem xnew_array (c : Dev nD)
    (x : FVec Ideal S6144x768 .f32) (Wfc : FVec Ideal S768x768 .f32) (bfc : FVec Ideal S768 .f32)
    (hx : (V c (Pipeline.arrRef spec0 0) : S6144x768.Idx → EReal) = x)
    (hW1 : ∀ k j : Fin 768, (V c (Pipeline.arrRef spec0 1) : S768x768.Idx → EReal) (ix2 k j) = Wfc (ix2 j k))
    (hb1 : ∀ j : Fin 768, (V c (Pipeline.arrRef spec0 2) : S1x768.Idx → EReal) (ix2 (0 : Fin 1) j) = bfc (ix1 j)) :
    (dat0 V c).arrAt 5 cfg0.N = fun idx : S6144x768.Idx => RefSpec.xnew x Wfc bfc (idx 0) (idx 1) :=
  (dat0 V c).arrAt_eq_of_cover 5 (fun idx : S6144x768.Idx => RefSpec.xnew x Wfc bfc (idx 0) (idx 1))
    (fun t _ => flushed5_eq V c t x Wfc bfc hx hW1 hb1) cover5

/-- THE SECOND OUTPUT ARRAY after the region is the second layer. -/
theorem qry_array (c : Dev nD)
    (x : FVec Ideal S6144x768 .f32) (Wfc : FVec Ideal S768x768 .f32) (bfc : FVec Ideal S768 .f32)
    (Wq : FVec Ideal S768x768 .f32) (bq : FVec Ideal S768 .f32)
    (hx : (V c (Pipeline.arrRef spec0 0) : S6144x768.Idx → EReal) = x)
    (hW1 : ∀ k j : Fin 768, (V c (Pipeline.arrRef spec0 1) : S768x768.Idx → EReal) (ix2 k j) = Wfc (ix2 j k))
    (hb1 : ∀ j : Fin 768, (V c (Pipeline.arrRef spec0 2) : S1x768.Idx → EReal) (ix2 (0 : Fin 1) j) = bfc (ix1 j))
    (hW2 : ∀ k j : Fin 768, (V c (Pipeline.arrRef spec0 3) : S768x768.Idx → EReal) (ix2 k j) = Wq (ix2 j k))
    (hb2 : ∀ j : Fin 768, (V c (Pipeline.arrRef spec0 4) : S1x768.Idx → EReal) (ix2 (0 : Fin 1) j) = bq (ix1 j)) :
    (dat0 V c).arrAt 6 cfg0.N = fun idx : S6144x768.Idx => RefSpec.qry x Wfc bfc Wq bq (idx 0) (idx 1) :=
  (dat0 V c).arrAt_eq_of_cover 6 (fun idx : S6144x768.Idx => RefSpec.qry x Wfc bfc Wq bq (idx 0) (idx 1))
    (fun t _ => flushed6_eq V c t x Wfc bfc Wq bq hx hW1 hb1 hW2 hb2) cover6

/-! ## The same, with the arrays' contents given as whole functions -/

/-- The first output array, from the weight and bias arrays given as the transposed matrix and the bias as a row. -/
theorem xnew_array' (c : Dev nD)
    (x : FVec Ideal S6144x768 .f32) (Wfc : FVec Ideal S768x768 .f32) (bfc : FVec Ideal S768 .f32)
    (hx : (V c (Pipeline.arrRef spec0 0) : S6144x768.Idx → EReal) = x)
    (hW1 : (V c (Pipeline.arrRef spec0 1) : S768x768.Idx → EReal) = fun i => Wfc (ix2 (n0 := 768) (n1 := 768) (i 1) (i 0)))
    (hb1 : (V c (Pipeline.arrRef spec0 2) : S1x768.Idx → EReal) = fun i => bfc (ix1 (n := 768) (i 1))) :
    (dat0 V c).arrAt 5 cfg0.N = fun idx : S6144x768.Idx => RefSpec.xnew x Wfc bfc (idx 0) (idx 1) :=
  xnew_array V c x Wfc bfc hx (fun k j => congrFun hW1 (ix2 k j)) (fun j => congrFun hb1 (ix2 (0 : Fin 1) j))

/-- The second output array, likewise. -/
theorem qry_array' (c : Dev nD)
    (x : FVec Ideal S6144x768 .f32) (Wfc : FVec Ideal S768x768 .f32) (bfc : FVec Ideal S768 .f32)
    (Wq : FVec Ideal S768x768 .f32) (bq : FVec Ideal S768 .f32)
    (hx : (V c (Pipeline.arrRef spec0 0) : S6144x768.Idx → EReal) = x)
    (hW1 : (V c (Pipeline.arrRef spec0 1) : S768x768.Idx → EReal) = fun i => Wfc (ix2 (n0 := 768) (n1 := 768) (i 1) (i 0)))
    (hb1 : (V c (Pipeline.arrRef spec0 2) : S1x768.Idx → EReal) = fun i => bfc (ix1 (n := 768) (i 1)))
    (hW2 : (V c (Pipeline.arrRef spec0 3) : S768x768.Idx → EReal) = fun i => Wq (ix2 (n0 := 768) (n1 := 768) (i 1) (i 0)))
    (hb2 : (V c (Pipeline.arrRef spec0 4) : S1x768.Idx → EReal) = fun i => bq (ix1 (n := 768) (i 1))) :
    (dat0 V c).arrAt 6 cfg0.N = fun idx : S6144x768.Idx => RefSpec.qry x Wfc bfc Wq bq (idx 0) (idx 1) :=
  qry_array V c x Wfc bfc Wq bq hx (fun k j => congrFun hW1 (ix2 k j)) (fun j => congrFun hb1 (ix2 (0 : Fin 1) j))
    (fun k j => congrFun hW2 (ix2 k j)) (fun j => congrFun hb2 (ix2 (0 : Fin 1) j))

end Cert.KernelIdeal.ProjValue

end
-- ==== Proof.HostReads.lean ====
/-
  What the nine host operations leave in their buffers, read at an index, and the projection region's two output arrays
  as functions of the launch memory.

  Before the first region the program transposes each of the three weight matrices and narrows it (a change of format,
  the identity on extended reals), and reshapes each of the three biases `[768]` to a row `[1, 768]`. So after those
  operations the narrowed transpose holds, at (k, j), the launched weight at (j, k); the row holds, at (0, j), the launched
  bias at `j`; and the two argument arrays the regions read directly, `x` and the adjacency, are as launched, no host
  operation writing an argument. With these the projection region's outputs are the specification's first two layers of
  the launched arrays.
-/
import proofs.«181948_j79242146611549_2_alg».proof.Proof.IdealMain
import proofs.«181948_j79242146611549_2_alg».proof.Proof.ProjArrays
import Idealize.ShloMosaic.Lib.StableHlo.Run
import Idealize.ShloMosaic.Lib.Pipeline.Value
import Idealize.ShloMosaic.Lib.ValueIdx

noncomputable section

namespace Cert.KernelIdeal.HostReads

open Cert.KernelIdeal Cert.KernelIdeal.Gen Cert.KernelIdeal.Frame
open Idealize.ShloMosaic Idealize.ShloMosaic.TcCoe Idealize.ShloMosaic.ValueIdx Idealize.SL.Sem Idealize.ShloMosaic.StableHlo
open Cert.Proof

variable (m : (ℓ : Loc nD τ sig) → Buf (Elt Ideal) ℓ) (ρ : Dev nD → PrngReg)

/-! ## The two shapes of host operation, read at an index -/

/-- A narrowed transpose of a square matrix at (k, j) is the matrix at (j, k). -/
theorem truncf_transpose_apply (W : FVec Ideal S768x768 .f32) (k j : Fin 768) :
    (truncf .bf16 (transpose S768x768 [1, 0] W transposes_S768x768_S768x768_1_0) bitsLt_bf16_f32 : FVec Ideal S768x768 .bf16)
        (ix2 k j) = W (ix2 j k) :=
  transpose_apply [1, 0] W transposes_S768x768_S768x768_1_0 (ix2 k j) (ix2 j k)
    (fun b => match b with | ⟨0, _⟩ => rfl | ⟨1, _⟩ => rfl)

/-- A vector of 768 entries reshaped to one row, read at (0, j), is entry `j`. -/
theorem shapeCast_row_apply (b : FVec Ideal S768 .f32) (j : Fin 768) :
    shapeCast S1x768 b shapeCasts_S768_S1x768 (ix2 (0 : Fin 1) j) = b (ix1 j) :=
  (shapeCast_addUnit_apply ![768] b shapeCasts_S768_S1x768 (ix2 (0 : Fin 1) j)).trans
    (congrArg b (funext fun a => by fin_cases a; rfl))

/-! ## The three weight matrices -/

theorem v1_apply (c : Dev nD) (k j : Fin 768) :
    (V1 m ρ c main_v1 : S768x768.Idx → EReal) (ix2 k j)
      = (m ((c.tc : Thread nD τ).loc main_arg2) : S768x768.Idx → EReal) (ix2 j k) := by
  have e : @Eq (S768x768.Idx → EReal) (V1 m ρ c main_v1)
      (truncf (F := Ideal) .bf16 (transpose S768x768 [1, 0] (m ((c.tc : Thread nD τ).loc main_arg2) : S768x768.Idx → EReal)
          transposes_S768x768_S768x768_1_0) bitsLt_bf16_f32) := by
    show StableHlo.after hostOps0 _ (Proc.devRef .tc main_v1) = _
    after_results
  exact (congrFun e (ix2 k j)).trans (truncf_transpose_apply _ k j)

theorem v3_apply (c : Dev nD) (k j : Fin 768) :
    (V1 m ρ c main_v3 : S768x768.Idx → EReal) (ix2 k j)
      = (m ((c.tc : Thread nD τ).loc main_arg4) : S768x768.Idx → EReal) (ix2 j k) := by
  have e : @Eq (S768x768.Idx → EReal) (V1 m ρ c main_v3)
      (truncf (F := Ideal) .bf16 (transpose S768x768 [1, 0] (m ((c.tc : Thread nD τ).loc main_arg4) : S768x768.Idx → EReal)
          transposes_S768x768_S768x768_1_0) bitsLt_bf16_f32) := by
    show StableHlo.after hostOps0 _ (Proc.devRef .tc main_v3) = _
    after_results
  exact (congrFun e (ix2 k j)).trans (truncf_transpose_apply _ k j)

theorem v5_apply (c : Dev nD) (k j : Fin 768) :
    (V1 m ρ c main_v5 : S768x768.Idx → EReal) (ix2 k j)
      = (m ((c.tc : Thread nD τ).loc main_arg6) : S768x768.Idx → EReal) (ix2 j k) := by
  have e : @Eq (S768x768.Idx → EReal) (V1 m ρ c main_v5)
      (truncf (F := Ideal) .bf16 (transpose S768x768 [1, 0] (m ((c.tc : Thread nD τ).loc main_arg6) : S768x768.Idx → EReal)
          transposes_S768x768_S768x768_1_0) bitsLt_bf16_f32) := by
    show StableHlo.after hostOps0 _ (Proc.devRef .tc main_v5) = _
    after_results
  exact (congrFun e (ix2 k j)).trans (truncf_transpose_apply _ k j)

/-! ## The three biases -/

theorem v6_apply (c : Dev nD) (j : Fin 768) :
    (V1 m ρ c main_v6 : S1x768.Idx → EReal) (ix2 (0 : Fin 1) j)
      = (m ((c.tc : Thread nD τ).loc main_arg3) : S768.Idx → EReal) (ix1 j) := by
  have e : (V1 m ρ c main_v6 : S1x768.Idx → EReal)
      = shapeCast S1x768 (m ((c.tc : Thread nD τ).loc main_arg3) : S768.Idx → EReal) shapeCasts_S768_S1x768 := by
    show StableHlo.after hostOps0 _ (Proc.devRef .tc main_v6) = _
    after_results
    rfl
  exact (congrFun e (ix2 (0 : Fin 1) j)).trans (shapeCast_row_apply _ j)

theorem v7_apply (c : Dev nD) (j : Fin 768) :
    (V1 m ρ c main_v7 : S1x768.Idx → EReal) (ix2 (0 : Fin 1) j)
      = (m ((c.tc : Thread nD τ).loc main_arg5) : S768.Idx → EReal) (ix1 j) := by
  have e : (V1 m ρ c main_v7 : S1x768.Idx → EReal)
      = shapeCast S1x768 (m ((c.tc : Thread nD τ).loc main_arg5) : S768.Idx → EReal) shapeCasts_S768_S1x768 := by
    show StableHlo.after hostOps0 _ (Proc.devRef .tc main_v7) = _
    after_results
    rfl
  exact (congrFun e (ix2 (0 : Fin 1) j)).trans (shapeCast_row_apply _ j)

theorem v8_apply (c : Dev nD) (j : Fin 768) :
    (V1 m ρ c main_v8 : S1x768.Idx → EReal) (ix2 (0 : Fin 1) j)
      = (m ((c.tc : Thread nD τ).loc main_arg7) : S768.Idx → EReal) (ix1 j) := by
  have e : (V1 m ρ c main_v8 : S1x768.Idx → EReal)
      = shapeCast S1x768 (m ((c.tc : Thread nD τ).loc main_arg7) : S768.Idx → EReal) shapeCasts_S768_S1x768 := by
    show StableHlo.after hostOps0 _ (Proc.devRef .tc main_v8) = _
    after_results
    rfl
  exact (congrFun e (ix2 (0 : Fin 1) j)).trans (shapeCast_row_apply _ j)

/-! ## The arguments the regions read directly -/

theorem V1_main_arg0 (c : Dev nD) : V1 m ρ c main_arg0 = m ((c.tc : Thread nD τ).loc main_arg0) :=
  StableHlo.after_of_writes_sub hostOps0 _ hostOps0_writes (by decide : main_arg0 ∉ hostOps0_W)

theorem V1_main_arg1 (c : Dev nD) : V1 m ρ c main_arg1 = m ((c.tc : Thread nD τ).loc main_arg1) :=
  StableHlo.after_of_writes_sub hostOps0 _ hostOps0_writes (by decide : main_arg1 ∉ hostOps0_W)

/-! ## The projection region's outputs, from the launch memory -/

/-- The region's first output array is the first layer of the launched `x`, `W_fc`, `b_fc`. -/
theorem xnew_array_launch (c : Dev nD) :
    (dat0 (V1 m ρ) c).arrAt 5 cfg0.N
      = fun idx : S6144x768.Idx =>
          RefSpec.xnew (m ((c.tc : Thread nD τ).loc main_arg0)) (m ((c.tc : Thread nD τ).loc main_arg2))
            (m ((c.tc : Thread nD τ).loc main_arg3)) (idx 0) (idx 1) :=
  ProjValue.xnew_array (V1 m ρ) c _ _ _ (V1_main_arg0 m ρ c) (fun k j => v1_apply m ρ c k j) (fun j => v6_apply m ρ c j)

/-- The region's second output array is the second layer of the launched `x`, `W_fc`, `b_fc`, `W_qfc`, `b_qfc`. -/
theorem qry_array_launch (c : Dev nD) :
    (dat0 (V1 m ρ) c).arrAt 6 cfg0.N
      = fun idx : S6144x768.Idx =>
          RefSpec.qry (m ((c.tc : Thread nD τ).loc main_arg0)) (m ((c.tc : Thread nD τ).loc main_arg2))
            (m ((c.tc : Thread nD τ).loc main_arg3)) (m ((c.tc : Thread nD τ).loc main_arg4))
            (m ((c.tc : Thread nD τ).loc main_arg5)) (idx 0) (idx 1) :=
  ProjValue.qry_array (V1 m ρ) c _ _ _ _ _ (V1_main_arg0 m ρ c) (fun k j => v1_apply m ρ c k j) (fun j => v6_apply m ρ c j)
    (fun k j => v3_apply m ρ c k j) (fun j => v7_apply m ρ c j)

end Cert.KernelIdeal.HostReads

end
-- ==== Proof.AttnInputs.lean ====
/-
  What the attention region finds in its six input arrays, as functions of the launch memory.

  The region reads the projection region's two outputs — the queries (its first window) and the values (its second) —,
  the launched `x` and adjacency, and the narrowed transpose of `W_final` and the row of `b_final` the host operations
  left. After the projection region its two output arrays hold what its write-backs leave, the specification's second
  and first layers of the launched arrays; every other buffer is as the host operations left it, and the arguments as
  launched.
-/
import proofs.«181948_j79242146611549_2_alg».proof.Proof.HostReads

noncomputable section

namespace Cert.KernelIdeal.AttnInputs

open Cert.KernelIdeal Cert.KernelIdeal.Gen Cert.KernelIdeal.Frame Cert.KernelIdeal.HostReads
open Idealize.ShloMosaic Idealize.ShloMosaic.TcCoe Idealize.ShloMosaic.ValueIdx Idealize.SL.Sem
open Cert.Proof

variable (m : (ℓ : Loc nD τ sig) → Buf (Elt Ideal) ℓ) (ρ : Dev nD → PrngReg)

/-- The region's windows' arrays, by name. -/
theorem arrRef1 :
    Pipeline.arrRef spec1 0 = main_v9_1 ∧ Pipeline.arrRef spec1 1 = main_v9_0 ∧ Pipeline.arrRef spec1 2 = main_arg0
      ∧ Pipeline.arrRef spec1 3 = main_arg1 ∧ Pipeline.arrRef spec1 4 = main_v5 ∧ Pipeline.arrRef spec1 5 = main_v8
      ∧ Pipeline.arrRef spec0 5 = main_v9_0 ∧ Pipeline.arrRef spec0 6 = main_v9_1 :=
  ⟨rfl, rfl, rfl, rfl, rfl, rfl, rfl, rfl⟩

/-- The queries: the second layer of the launched arrays. -/
theorem q_array (c : Dev nD) :
    V2 m ρ c (Pipeline.arrRef spec1 0)
      = fun idx : S6144x768.Idx =>
          RefSpec.qry (m ((c.tc : Thread nD τ).loc main_arg0)) (m ((c.tc : Thread nD τ).loc main_arg2))
            (m ((c.tc : Thread nD τ).loc main_arg3)) (m ((c.tc : Thread nD τ).loc main_arg4))
            (m ((c.tc : Thread nD τ).loc main_arg5)) (idx 0) (idx 1) :=
  (W2_arr m ρ c 6).trans (qry_array_launch m ρ c)

/-- The values: the first layer of the launched arrays. -/
theorem kv_array (c : Dev nD) :
    V2 m ρ c (Pipeline.arrRef spec1 1)
      = fun idx : S6144x768.Idx =>
          RefSpec.xnew (m ((c.tc : Thread nD τ).loc main_arg0)) (m ((c.tc : Thread nD τ).loc main_arg2))
            (m ((c.tc : Thread nD τ).loc main_arg3)) (idx 0) (idx 1) :=
  (W2_arr m ρ c 5).trans (xnew_array_launch m ρ c)

/-- `x` as launched: the projection region reads it and writes nothing back to it. -/
theorem x_array (c : Dev nD) : V2 m ρ c (Pipeline.arrRef spec1 2) = m ((c.tc : Thread nD τ).loc main_arg0) :=
  ((W2_arr m ρ c 0).trans (((dat0 (V1 m ρ) c).arrAt_in 0 rfl _).trans (A_eq0 (V1 m ρ) c 0))).trans (V1_main_arg0 m ρ c)

/-- The adjacency as launched. -/
theorem adj_array (c : Dev nD) : V2 m ρ c (Pipeline.arrRef spec1 3) = m ((c.tc : Thread nD τ).loc main_arg1) :=
  (W2_of_ne m ρ c main_arg1 (by decide)).trans (V1_main_arg1 m ρ c)

/-- The last layer's weights: at (k, e) the launched `W_final` at (e, k). -/
theorem wf_apply (c : Dev nD) (k e : Fin 768) :
    (V2 m ρ c (Pipeline.arrRef spec1 4) : S768x768.Idx → EReal) (ix2 k e)
      = (m ((c.tc : Thread nD τ).loc main_arg6) : S768x768.Idx → EReal) (ix2 e k) :=
  (congrFun (W2_of_ne m ρ c main_v5 (by decide)) (ix2 k e)).trans (v5_apply m ρ c k e)

/-- The last layer's bias as a row: at (0, e) the launched `b_final` at `e`. -/
theorem bf_apply (c : Dev nD) (e : Fin 768) :
    (V2 m ρ c (Pipeline.arrRef spec1 5) : S1x768.Idx → EReal) (ix2 (0 : Fin 1) e)
      = (m ((c.tc : Thread nD τ).loc main_arg7) : S768.Idx → EReal) (ix1 e) :=
  (congrFun (W2_of_ne m ρ c main_v8 (by decide)) (ix2 (0 : Fin 1) e)).trans (v8_apply m ρ c e)

end Cert.KernelIdeal.AttnInputs

end
-- ==== Proof.IdealValue.lean ====
/-
  The kernel's result array, as the reference's function of the launch memory.

  What the attention region finds in its six input arrays is known in terms of the launch memory - the queries and
  the values are what the projection region wrote, x and the adjacency matrix are arguments, the last layer's weights
  and bias are what the host operations made of theirs - and the precondition says that every float argument is a real
  number and every query row has a neighbour. So the array the attention region leaves is the reference's result.
-/
import proofs.«181948_j79242146611549_2_alg».proof.Proof.IdealOut
import proofs.«181948_j79242146611549_2_alg».proof.Proof.AttnInputs
import proofs.«181948_j79242146611549_2_alg».proof.Proof.PreAll

noncomputable section

namespace Cert.KernelIdeal.AttnValue

open Cert.KernelIdeal Cert.KernelIdeal.Gen Cert.KernelIdeal.Frame Cert.KernelIdeal.AttnInputs
open Cert.Proof Cert.Proof.RefSpec
open Idealize.ShloMosaic Idealize.ShloMosaic.TcCoe Idealize.ShloMosaic.ValueIdx Idealize.SL.Sem

variable [Cert.Pre_finite_inputs.Facts]

/-- The attention region's output array is the reference's result of the eight arguments. -/
theorem kernel_value (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    (dat1 (F := Ideal) (V2 m ρ) c).arrAt 6 cfg1.N
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨rx, rWfc, rbfc, rWq, rbq, -, -, nb⟩ := Cert.Proof.PreAll.pre_all _ _ _ _ _ _ _ _ hpre
  exact attn_array ⟨q_array m ρ c, kv_array m ρ c, x_array m ρ c, adj_array m ρ c, wf_apply m ρ c, bf_apply m ρ c,
    rx, rWfc, rbfc, rWq, rbq, nb⟩

end Cert.KernelIdeal.AttnValue

end
-- ==== Proof.lean ====
/-
  Multi-head graph attention over 6144 nodes, 768 features in 3 heads of 256: the kernel against its reference.

  The kernel is two regions. The first projects each tile of 512 rows: x_new = lrelu(x · W_fcᵀ + b_fc) and
  q = lrelu(x_new · W_qfcᵀ + b_qfc). The second, for each tile of 512 queries, walks the 6144 keys in 6 tiles of 1024
  with the online softmax - a running maximum, denominator and weighted sum per head, rescaled tile by tile, a masked
  score (adjacency 0) standing at -∞ - and at the last key tile divides, adds the residual x, applies the last layer
  with its leaky rectifier and adds x again. The reference computes the same attention with the plain softmax over whole
  rows. On the extended reals the two agree wherever every query row has a neighbour: there the row maximum is a real
  number, the denominator is positive, and the rescaled running sums are the softmax's sums by the exponential's
  addition law; on a row with no neighbour the reference's own softmax is undefined, and the precondition excludes it.

  The five claims: each kernel program (as printed, and idealized) runs to the end, faults nowhere and leaves its eight
  arguments as launched - the run of its host operations and its two regions as three segments, each region's body
  meeting its obligation at every grid point; the reference likewise, by its run read back; the idealization's six
  named constants (the scale 1/10 and the mask fill -∞, once per head) denote what the table says; and the two idealized
  programs end with equal results.
-/
import proofs.«181948_j79242146611549_2_alg».proof.Defs
import proofs.«181948_j79242146611549_2_alg».proof.Proof.Gen.Kernel
import proofs.«181948_j79242146611549_2_alg».proof.Proof.Gen.KernelIdeal
import proofs.«181948_j79242146611549_2_alg».proof.Proof.Gen.ReferenceIdeal
import proofs.«181948_j79242146611549_2_alg».proof.Proof.Gen.Pre_finite_inputs
import proofs.«181948_j79242146611549_2_alg».proof.Proof.Ledger
import proofs.«181948_j79242146611549_2_alg».proof.Proof.BitsMain
import proofs.«181948_j79242146611549_2_alg».proof.Proof.IdealMain
import proofs.«181948_j79242146611549_2_alg».proof.Proof.Algebraic
import proofs.«181948_j79242146611549_2_alg».proof.Proof.IdealValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Frame.frame (F := Bits) m ρ,
  fun m ρ _ => Cert.KernelIdeal.Frame.frame (F := Ideal) m ρ,
  Cert.Proof.Ledger.frame_reference,
  Cert.Proof.Ledger.preserves,
  Cert.Proof.Algebraic.algebraic_of_value fun m ρ c hpre => Cert.KernelIdeal.AttnValue.kernel_value m ρ c (hpre c)⟩

end Cert.Proof

end
